-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S1000000x128 : Shape := ⟨2, ![1000000, 128]⟩
abbrev S512x128 : Shape := ⟨2, ![512, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S1024x200 : S_.BroadcastsInDim S1024x200 (![] : Fin 0 → Fin S1024x200.rank)
  reducesTo_S1024x200_S_d0_1 : S1024x200.ReducesTo [0, 1] S_

variable [Facts]

def fn_part1 {F : FTy → Type} [FloatOps F] (main_arg0 : IVec S1024x200 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S1024x200 32 := broadcastInDim S1024x200 ![] bcast_S_S1024x200 main_c_6
  let main_v20 : IVec S1024x200 1 := cmpi .sge main_arg0 main_v19
  let main_c_7 : IVec S_ 32 := constantI S_ 32 999999#32
  let main_v21 : IVec S1024x200 32 := broadcastInDim S1024x200 ![] bcast_S_S1024x200 main_c_7
  let main_v22 : IVec S1024x200 1 := cmpi .sle main_arg0 main_v21
  let main_v23 : IVec S1024x200 1 := andi main_v20 main_v22
  let main_c_8 : IVec S_ 1 := constantI S_ 1 1#1
  let main_v24 : IVec S_ 1 := (fun x v => Host.reduce IntOp.andi x v reducesTo_S1024x200_S_d0_1 h_S_) main_v23 main_c_8
  let main_v25 : IVec S_ 1 := andi main_v18 main_v24
  main_v25

def fn {F : FTy → Type} [FloatOps F] (main_arg0 : IVec S1024x200 32) (main_arg1 : FVec F S1000000x128 .f32) (main_arg2 : FVec F S512x128 .f32) (main_arg3 : FVec F S128 .f32) (main_arg4 : FVec F S128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_v13 main_v16
-- ==== Kernel.lean ====
abbrev S1024x200 : Shape := ⟨2, ![1024, 200]⟩
abbrev S1000000x128 : Shape := ⟨2, ![1000000, 128]⟩
abbrev S512x128 : Shape := ⟨2, ![512, 128]⟩
abbrev S128 : Shape := ⟨1, ![128]⟩
abbrev S204800 : Shape := ⟨1, ![204800]⟩
abbrev S204800x128 : Shape := ⟨2, ![204800, 128]⟩
abbrev S6400 : Shape := ⟨1, ![6400]⟩
abbrev S80x128 : Shape := ⟨2, ![80, 128]⟩
abbrev S_ : Shape := ⟨0, ![]⟩
abbrev S80 : Shape := ⟨1, ![80]⟩
abbrev S1024x200x128 : Shape := ⟨3, ![1024, 200, 128]⟩

abbrev nBuf : Table → Nat
  | .hbm => 8
  | .local .scVector .vmem => 11
  | _ => 0

abbrev bufTy : (tb : Table) → Fin (nBuf tb) → BufTy
  | .hbm, ⟨0, _⟩ => ⟨S1024x200, .i32⟩
  | .hbm, ⟨1, _⟩ => ⟨S1000000x128, .f32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S204800, .i32⟩
  | .hbm, ⟨6, _⟩ => ⟨S204800x128, .f32⟩
  | .hbm, ⟨7, _⟩ => ⟨S1024x200x128, .f32⟩
  | .local .scVector .vmem, ⟨0, _⟩ => ⟨S6400, .i32⟩
  | .local .scVector .vmem, ⟨1, _⟩ => ⟨S80x128, .f32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | .local .scVector .vmem, ⟨5, _⟩ => ⟨S80x128, .f32⟩
  | .local .scVector .vmem, ⟨6, _⟩ => ⟨S80x128, .f32⟩
  | .local .scVector .vmem, ⟨7, _⟩ => ⟨S80x128, .f32⟩
  | .local .scVector .vmem, ⟨8, _⟩ => ⟨S80x128, .f32⟩
  | .local .scVector .vmem, ⟨9, _⟩ => ⟨S80x128, .f32⟩
  | .local .scVector .vmem, ⟨10, _⟩ => ⟨S80x128, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1_scv : Ref sig .scVector := ⟨.hbm, 1, rfl⟩
abbrev main_v0_scv : Ref sig .scVector := ⟨.hbm, 5, rfl⟩
abbrev main_v1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k0_t1_loop : Scf.Loop 32 :=
  let c0_i32_21 : BitVec 32 := 0#32
  let c8_i32 : BitVec 32 := 8#32
  let v23 : BitVec 32 := Scalar.addi c0_i32_21 c8_i32
  let c1_i32 : BitVec 32 := 1#32
  ⟨c0_i32_21, v23, c1_i32⟩
def k0_off2 (i : grid0.Coords) (k0_t1 : Fin k0_t1_loop.trips) (c0_i32_46 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let v48 : BitVec 32 := Scalar.addi v45 c0_i32_46
  let c80_i32_47 : BitVec 32 := 80#32
  let v49 : BitVec 32 := Scalar.muli v48 c80_i32_47
  let v50 : BitVec 32 := Scalar.addi v2 v49
  let c0_i32_48 : BitVec 32 := 0#32
  ![v50.toNat, 0]
def k0_cond1 (k0_t1 : Fin k0_t1_loop.trips) : BitVec 1 :=
  let c0_i32_21 : BitVec 32 := 0#32
  let c1_i32 : BitVec 32 := 1#32
  let arg36 : BitVec 32 := Scf.iv c0_i32_21 c1_i32 k0_t1
  let c7_i32 : BitVec 32 := 7#32
  let v60 : BitVec 1 := Scalar.cmpi .slt arg36 c7_i32
  let v61 : BitVec 32 := Scalar.extui v60
  let c0_i32_57 : BitVec 32 := 0#32
  let v62 : BitVec 1 := Scalar.cmpi .ne v61 c0_i32_57
  v62

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_128 : BitVec 32 := 0#32
  ![v2.toNat, 0]
def k0_off4 (k0_t1 : Fin k0_t1_loop.trips) : Fin 1 → Nat :=
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let c10_i32_130 : BitVec 32 := 10#32
  let v148 : BitVec 32 := Scalar.addi v45 c10_i32_130
  let c0_i32_131 : BitVec 32 := 0#32
  let v149 : BitVec 32 := Scalar.addi v148 c0_i32_131
  let c80_i32_132 : BitVec 32 := 80#32
  let v150 : BitVec 32 := Scalar.muli v149 c80_i32_132
  ![v150.toNat]
def k0_cond2 (k0_t1 : Fin k0_t1_loop.trips) : BitVec 1 :=
  let c0_i32_21 : BitVec 32 := 0#32
  let c1_i32 : BitVec 32 := 1#32
  let arg36 : BitVec 32 := Scf.iv c0_i32_21 c1_i32 k0_t1
  let c7_i32_65 : BitVec 32 := 7#32
  let v70 : BitVec 1 := Scalar.cmpi .slt arg36 c7_i32_65
  let v71 : BitVec 32 := Scalar.extui v70
  let c0_i32_66 : BitVec 32 := 0#32
  let v72 : BitVec 1 := Scalar.cmpi .ne v71 c0_i32_66
  v72

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_128 : BitVec 32 := 0#32
  ![v2.toNat, 0]
def k0_off6 (k0_t1 : Fin k0_t1_loop.trips) : Fin 1 → Nat :=
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let c10_i32_130 : BitVec 32 := 10#32
  let v148 : BitVec 32 := Scalar.addi v45 c10_i32_130
  let c1_i32_131 : BitVec 32 := 1#32
  let v149 : BitVec 32 := Scalar.addi v148 c1_i32_131
  let c80_i32_132 : BitVec 32 := 80#32
  let v150 : BitVec 32 := Scalar.muli v149 c80_i32_132
  ![v150.toNat]
def k0_cond3 (k0_t1 : Fin k0_t1_loop.trips) : BitVec 1 :=
  let c0_i32_21 : BitVec 32 := 0#32
  let c1_i32 : BitVec 32 := 1#32
  let arg36 : BitVec 32 := Scf.iv c0_i32_21 c1_i32 k0_t1
  let c7_i32_73 : BitVec 32 := 7#32
  let v80 : BitVec 1 := Scalar.cmpi .slt arg36 c7_i32_73
  let v81 : BitVec 32 := Scalar.extui v80
  let c0_i32_74 : BitVec 32 := 0#32
  let v82 : BitVec 1 := Scalar.cmpi .ne v81 c0_i32_74
  v82

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_128 : BitVec 32 := 0#32
  ![v2.toNat, 0]
def k0_off8 (k0_t1 : Fin k0_t1_loop.trips) : Fin 1 → Nat :=
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let c10_i32_130 : BitVec 32 := 10#32
  let v148 : BitVec 32 := Scalar.addi v45 c10_i32_130
  let c2_i32_131 : BitVec 32 := 2#32
  let v149 : BitVec 32 := Scalar.addi v148 c2_i32_131
  let c80_i32_132 : BitVec 32 := 80#32
  let v150 : BitVec 32 := Scalar.muli v149 c80_i32_132
  ![v150.toNat]
def k0_cond4 (k0_t1 : Fin k0_t1_loop.trips) : BitVec 1 :=
  let c0_i32_21 : BitVec 32 := 0#32
  let c1_i32 : BitVec 32 := 1#32
  let arg36 : BitVec 32 := Scf.iv c0_i32_21 c1_i32 k0_t1
  let c7_i32_81 : BitVec 32 := 7#32
  let v90 : BitVec 1 := Scalar.cmpi .slt arg36 c7_i32_81
  let v91 : BitVec 32 := Scalar.extui v90
  let c0_i32_82 : BitVec 32 := 0#32
  let v92 : BitVec 1 := Scalar.cmpi .ne v91 c0_i32_82
  v92

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_128 : BitVec 32 := 0#32
  ![v2.toNat, 0]
def k0_off10 (k0_t1 : Fin k0_t1_loop.trips) : Fin 1 → Nat :=
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let c10_i32_130 : BitVec 32 := 10#32
  let v148 : BitVec 32 := Scalar.addi v45 c10_i32_130
  let c3_i32_131 : BitVec 32 := 3#32
  let v149 : BitVec 32 := Scalar.addi v148 c3_i32_131
  let c80_i32_132 : BitVec 32 := 80#32
  let v150 : BitVec 32 := Scalar.muli v149 c80_i32_132
  ![v150.toNat]
def k0_cond5 (k0_t1 : Fin k0_t1_loop.trips) : BitVec 1 :=
  let c0_i32_21 : BitVec 32 := 0#32
  let c1_i32 : BitVec 32 := 1#32
  let arg36 : BitVec 32 := Scf.iv c0_i32_21 c1_i32 k0_t1
  let c7_i32_89 : BitVec 32 := 7#32
  let v100 : BitVec 1 := Scalar.cmpi .slt arg36 c7_i32_89
  let v101 : BitVec 32 := Scalar.extui v100
  let c0_i32_90 : BitVec 32 := 0#32
  let v102 : BitVec 1 := Scalar.cmpi .ne v101 c0_i32_90
  v102

def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_128 : BitVec 32 := 0#32
  ![v2.toNat, 0]
def k0_off12 (k0_t1 : Fin k0_t1_loop.trips) : Fin 1 → Nat :=
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let c10_i32_130 : BitVec 32 := 10#32
  let v148 : BitVec 32 := Scalar.addi v45 c10_i32_130
  let c4_i32_131 : BitVec 32 := 4#32
  let v149 : BitVec 32 := Scalar.addi v148 c4_i32_131
  let c80_i32_132 : BitVec 32 := 80#32
  let v150 : BitVec 32 := Scalar.muli v149 c80_i32_132
  ![v150.toNat]
def k0_cond6 (k0_t1 : Fin k0_t1_loop.trips) : BitVec 1 :=
  let c0_i32_21 : BitVec 32 := 0#32
  let c1_i32 : BitVec 32 := 1#32
  let arg36 : BitVec 32 := Scf.iv c0_i32_21 c1_i32 k0_t1
  let c7_i32_97 : BitVec 32 := 7#32
  let v110 : BitVec 1 := Scalar.cmpi .slt arg36 c7_i32_97
  let v111 : BitVec 32 := Scalar.extui v110
  let c0_i32_98 : BitVec 32 := 0#32
  let v112 : BitVec 1 := Scalar.cmpi .ne v111 c0_i32_98
  v112

def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_128 : BitVec 32 := 0#32
  ![v2.toNat, 0]
def k0_off14 (k0_t1 : Fin k0_t1_loop.trips) : Fin 1 → Nat :=
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let c10_i32_130 : BitVec 32 := 10#32
  let v148 : BitVec 32 := Scalar.addi v45 c10_i32_130
  let c5_i32_131 : BitVec 32 := 5#32
  let v149 : BitVec 32 := Scalar.addi v148 c5_i32_131
  let c80_i32_132 : BitVec 32 := 80#32
  let v150 : BitVec 32 := Scalar.muli v149 c80_i32_132
  ![v150.toNat]
def k0_cond7 (k0_t1 : Fin k0_t1_loop.trips) : BitVec 1 :=
  let c0_i32_21 : BitVec 32 := 0#32
  let c1_i32 : BitVec 32 := 1#32
  let arg36 : BitVec 32 := Scf.iv c0_i32_21 c1_i32 k0_t1
  let c7_i32_106 : BitVec 32 := 7#32
  let v120 : BitVec 1 := Scalar.cmpi .slt arg36 c7_i32_106
  let v121 : BitVec 32 := Scalar.extui v120
  let c0_i32_107 : BitVec 32 := 0#32
  let v122 : BitVec 1 := Scalar.cmpi .ne v121 c0_i32_107
  v122

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_128 : BitVec 32 := 0#32
  ![v2.toNat, 0]
def k0_off16 (k0_t1 : Fin k0_t1_loop.trips) : Fin 1 → Nat :=
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let c10_i32_130 : BitVec 32 := 10#32
  let v148 : BitVec 32 := Scalar.addi v45 c10_i32_130
  let c6_i32_131 : BitVec 32 := 6#32
  let v149 : BitVec 32 := Scalar.addi v148 c6_i32_131
  let c80_i32_132 : BitVec 32 := 80#32
  let v150 : BitVec 32 := Scalar.muli v149 c80_i32_132
  ![v150.toNat]
def k0_cond8 (k0_t1 : Fin k0_t1_loop.trips) : BitVec 1 :=
  let c0_i32_21 : BitVec 32 := 0#32
  let c1_i32 : BitVec 32 := 1#32
  let arg36 : BitVec 32 := Scf.iv c0_i32_21 c1_i32 k0_t1
  let c7_i32_115 : BitVec 32 := 7#32
  let v130 : BitVec 1 := Scalar.cmpi .slt arg36 c7_i32_115
  let v131 : BitVec 32 := Scalar.extui v130
  let c0_i32_116 : BitVec 32 := 0#32
  let v132 : BitVec 1 := Scalar.cmpi .ne v131 c0_i32_116
  v132

def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_128 : BitVec 32 := 0#32
  ![v2.toNat, 0]
def k0_off18 (k0_t1 : Fin k0_t1_loop.trips) : Fin 1 → Nat :=
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let c10_i32_130 : BitVec 32 := 10#32
  let v148 : BitVec 32 := Scalar.addi v45 c10_i32_130
  let c7_i32_131 : BitVec 32 := 7#32
  let v149 : BitVec 32 := Scalar.addi v148 c7_i32_131
  let c80_i32_132 : BitVec 32 := 80#32
  let v150 : BitVec 32 := Scalar.muli v149 c80_i32_132
  ![v150.toNat]
def k0_cond9 (k0_t1 : Fin k0_t1_loop.trips) : BitVec 1 :=
  let c0_i32_21 : BitVec 32 := 0#32
  let c1_i32 : BitVec 32 := 1#32
  let arg36 : BitVec 32 := Scf.iv c0_i32_21 c1_i32 k0_t1
  let c7_i32_123 : BitVec 32 := 7#32
  let v140 : BitVec 1 := Scalar.cmpi .slt arg36 c7_i32_123
  let v141 : BitVec 32 := Scalar.extui v140
  let c0_i32_124 : BitVec 32 := 0#32
  let v142 : BitVec 1 := Scalar.cmpi .ne v141 c0_i32_124
  v142

def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_128 : BitVec 32 := 0#32
  ![v2.toNat, 0]
def k0_off20 (k0_t1 : Fin k0_t1_loop.trips) : Fin 1 → Nat :=
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let c10_i32_130 : BitVec 32 := 10#32
  let v148 : BitVec 32 := Scalar.addi v45 c10_i32_130
  let c8_i32_131 : BitVec 32 := 8#32
  let v149 : BitVec 32 := Scalar.addi v148 c8_i32_131
  let c80_i32_132 : BitVec 32 := 80#32
  let v150 : BitVec 32 := Scalar.muli v149 c80_i32_132
  ![v150.toNat]
def k0_cond10 (k0_t1 : Fin k0_t1_loop.trips) : BitVec 1 :=
  let c0_i32_21 : BitVec 32 := 0#32
  let c1_i32 : BitVec 32 := 1#32
  let arg36 : BitVec 32 := Scf.iv c0_i32_21 c1_i32 k0_t1
  let c7_i32_125 : BitVec 32 := 7#32
  let v143 : BitVec 1 := Scalar.cmpi .slt arg36 c7_i32_125
  let v144 : BitVec 32 := Scalar.extui v143
  let c0_i32_126 : BitVec 32 := 0#32
  let v145 : BitVec 1 := Scalar.cmpi .ne v144 c0_i32_126
  v145

def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_128 : BitVec 32 := 0#32
  ![v2.toNat, 0]
def k0_off22 (k0_t1 : Fin k0_t1_loop.trips) : Fin 1 → Nat :=
  let c0_i32_21 : BitVec 32 := 0#32
  let c1_i32 : BitVec 32 := 1#32
  let arg36 : BitVec 32 := Scf.iv c0_i32_21 c1_i32 k0_t1
  let c10_i32 : BitVec 32 := 10#32
  let v45 : BitVec 32 := Scalar.muli arg36 c10_i32
  let c10_i32_130 : BitVec 32 := 10#32
  let v148 : BitVec 32 := Scalar.addi v45 c10_i32_130
  let c9_i32_131 : BitVec 32 := 9#32
  let v149 : BitVec 32 := Scalar.addi v148 c9_i32_131
  let c80_i32_132 : BitVec 32 := 80#32
  let v150 : BitVec 32 := Scalar.muli v149 c80_i32_132
  ![v150.toNat]
def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_23 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x200_S204800 : S1024x200.ShapeCasts S204800
  inb_S6400_S80_0 : ∀ a, (![0] : Fin 1 → Nat) a + S80.size a ≤ S6400.size a
  inb_S1000000x128_S1000000x128_0_0 : ∀ a, (![0, 0] : Fin 2 → Nat) a + S1000000x128.size a ≤ S1000000x128.size a
  gathers_S1000000x128_S80x128 : S1000000x128.Gathers 0 S80x128
  inb_S6400_S80_80 : ∀ a, (![80] : Fin 1 → Nat) a + S80.size a ≤ S6400.size a
  inb_S6400_S80_160 : ∀ a, (![160] : Fin 1 → Nat) a + S80.size a ≤ S6400.size a
  inb_S6400_S80_240 : ∀ a, (![240] : Fin 1 → Nat) a + S80.size a ≤ S6400.size a
  inb_S6400_S80_320 : ∀ a, (![320] : Fin 1 → Nat) a + S80.size a ≤ S6400.size a
  inb_S6400_S80_400 : ∀ a, (![400] : Fin 1 → Nat) a + S80.size a ≤ S6400.size a
  inb_S6400_S80_480 : ∀ a, (![480] : Fin 1 → Nat) a + S80.size a ≤ S6400.size a
  inb_S6400_S80_560 : ∀ a, (![560] : Fin 1 → Nat) a + S80.size a ≤ S6400.size a
  inb_S6400_S80_640 : ∀ a, (![640] : Fin 1 → Nat) a + S80.size a ≤ S6400.size a
  inb_S6400_S80_720 : ∀ a, (![720] : Fin 1 → Nat) a + S80.size a ≤ S6400.size a
  shapeCasts_S204800x128_S1024x200x128 : S204800x128.ShapeCasts S1024x200x128
  hcc0_scratch11 : 0 + S_.numel ≤ 21
  hcc0_scratch12 : 1 + S_.numel ≤ 21
  hcc0_scratch13 : 2 + S_.numel ≤ 21
  hcc0_scratch14 : 3 + S_.numel ≤ 21
  hcc0_scratch15 : 4 + S_.numel ≤ 21
  hcc0_scratch16 : 5 + S_.numel ≤ 21
  hcc0_scratch17 : 6 + S_.numel ≤ 21
  hcc0_scratch18 : 7 + S_.numel ≤ 21
  hcc0_scratch19 : 8 + S_.numel ≤ 21
  hcc0_scratch20 : 9 + S_.numel ≤ 21
  hcc0_scratch21 : 10 + S_.numel ≤ 21
  hcc0_scratch22 : 11 + S_.numel ≤ 21
  hcc0_scratch23 : 12 + S_.numel ≤ 21
  hcc0_scratch24 : 13 + S_.numel ≤ 21
  hcc0_scratch25 : 14 + S_.numel ≤ 21
  hcc0_scratch26 : 15 + S_.numel ≤ 21
  hcc0_scratch27 : 16 + S_.numel ≤ 21
  hcc0_scratch28 : 17 + S_.numel ≤ 21
  hcc0_scratch29 : 18 + S_.numel ≤ 21
  hcc0_scratch30 : 19 + S_.numel ≤ 21
  hcc0_scoped0 : 20 + S_.numel ≤ 21
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S6400.size a ≤ S204800.size a
  k0_t1_ok : k0_t1_loop.OK
  k0_off2_inb : ∀ (i : grid0.Coords) (k0_t1 : Fin k0_t1_loop.trips), ∀ (r : Fin 10), ∀ a, (k0_off2 i k0_t1 (BitVec.ofNat 32 r.val)) a + S80x128.size a ≤ S204800x128.size a
  k0_off3_inb : ∀ (i : grid0.Coords) (k0_t1 : Fin k0_t1_loop.trips), ∀ (k0_h1 : k0_cond1 k0_t1 = 1#1), ∀ a, (k0_off3 i) a + S80x128.size a ≤ S204800x128.size a
  k0_off4_inb : ∀ k0_t1 : Fin k0_t1_loop.trips, ∀ (k0_h1 : k0_cond1 k0_t1 = 1#1), ∀ a, (k0_off4 k0_t1) a + S80.size a ≤ S6400.size a
  k0_off5_inb : ∀ (i : grid0.Coords) (k0_t1 : Fin k0_t1_loop.trips), ∀ (k0_h2 : k0_cond2 k0_t1 = 1#1), ∀ a, (k0_off5 i) a + S80x128.size a ≤ S204800x128.size a
  k0_off6_inb : ∀ k0_t1 : Fin k0_t1_loop.trips, ∀ (k0_h2 : k0_cond2 k0_t1 = 1#1), ∀ a, (k0_off6 k0_t1) a + S80.size a ≤ S6400.size a
  k0_off7_inb : ∀ (i : grid0.Coords) (k0_t1 : Fin k0_t1_loop.trips), ∀ (k0_h3 : k0_cond3 k0_t1 = 1#1), ∀ a, (k0_off7 i) a + S80x128.size a ≤ S204800x128.size a
  k0_off8_inb : ∀ k0_t1 : Fin k0_t1_loop.trips, ∀ (k0_h3 : k0_cond3 k0_t1 = 1#1), ∀ a, (k0_off8 k0_t1) a + S80.size a ≤ S6400.size a
  k0_off9_inb : ∀ (i : grid0.Coords) (k0_t1 : Fin k0_t1_loop.trips), ∀ (k0_h4 : k0_cond4 k0_t1 = 1#1), ∀ a, (k0_off9 i) a + S80x128.size a ≤ S204800x128.size a
  k0_off10_inb : ∀ k0_t1 : Fin k0_t1_loop.trips, ∀ (k0_h4 : k0_cond4 k0_t1 = 1#1), ∀ a, (k0_off10 k0_t1) a + S80.size a ≤ S6400.size a
  k0_off11_inb : ∀ (i : grid0.Coords) (k0_t1 : Fin k0_t1_loop.trips), ∀ (k0_h5 : k0_cond5 k0_t1 = 1#1), ∀ a, (k0_off11 i) a + S80x128.size a ≤ S204800x128.size a
  k0_off12_inb : ∀ k0_t1 : Fin k0_t1_loop.trips, ∀ (k0_h5 : k0_cond5 k0_t1 = 1#1), ∀ a, (k0_off12 k0_t1) a + S80.size a ≤ S6400.size a
  k0_off13_inb : ∀ (i : grid0.Coords) (k0_t1 : Fin k0_t1_loop.trips), ∀ (k0_h6 : k0_cond6 k0_t1 = 1#1), ∀ a, (k0_off13 i) a + S80x128.size a ≤ S204800x128.size a
  k0_off14_inb : ∀ k0_t1 : Fin k0_t1_loop.trips, ∀ (k0_h6 : k0_cond6 k0_t1 = 1#1), ∀ a, (k0_off14 k0_t1) a + S80.size a ≤ S6400.size a
  k0_off15_inb : ∀ (i : grid0.Coords) (k0_t1 : Fin k0_t1_loop.trips), ∀ (k0_h7 : k0_cond7 k0_t1 = 1#1), ∀ a, (k0_off15 i) a + S80x128.size a ≤ S204800x128.size a
  k0_off16_inb : ∀ k0_t1 : Fin k0_t1_loop.trips, ∀ (k0_h7 : k0_cond7 k0_t1 = 1#1), ∀ a, (k0_off16 k0_t1) a + S80.size a ≤ S6400.size a
  k0_off17_inb : ∀ (i : grid0.Coords) (k0_t1 : Fin k0_t1_loop.trips), ∀ (k0_h8 : k0_cond8 k0_t1 = 1#1), ∀ a, (k0_off17 i) a + S80x128.size a ≤ S204800x128.size a
  k0_off18_inb : ∀ k0_t1 : Fin k0_t1_loop.trips, ∀ (k0_h8 : k0_cond8 k0_t1 = 1#1), ∀ a, (k0_off18 k0_t1) a + S80.size a ≤ S6400.size a
  k0_off19_inb : ∀ (i : grid0.Coords) (k0_t1 : Fin k0_t1_loop.trips), ∀ (k0_h9 : k0_cond9 k0_t1 = 1#1), ∀ a, (k0_off19 i) a + S80x128.size a ≤ S204800x128.size a
  k0_off20_inb : ∀ k0_t1 : Fin k0_t1_loop.trips, ∀ (k0_h9 : k0_cond9 k0_t1 = 1#1), ∀ a, (k0_off20 k0_t1) a + S80.size a ≤ S6400.size a
  k0_off21_inb : ∀ (i : grid0.Coords) (k0_t1 : Fin k0_t1_loop.trips), ∀ (k0_h10 : k0_cond10 k0_t1 = 1#1), ∀ a, (k0_off21 i) a + S80x128.size a ≤ S204800x128.size a
  k0_off22_inb : ∀ k0_t1 : Fin k0_t1_loop.trips, ∀ (k0_h10 : k0_cond10 k0_t1 = 1#1), ∀ a, (k0_off22 k0_t1) a + S80.size a ≤ S6400.size a
  k0_off23_inb : ∀ i : grid0.Coords, ∀ a, (k0_off23 i) a + S80x128.size a ≤ S204800x128.size a

variable [Facts₀]

abbrev cc0_scratch11 : DmaSems sig S_ := SemArray.consecutive 0 S_ hcc0_scratch11
abbrev cc0_scratch12 : DmaSems sig S_ := SemArray.consecutive 1 S_ hcc0_scratch12
abbrev cc0_scratch13 : DmaSems sig S_ := SemArray.consecutive 2 S_ hcc0_scratch13
abbrev cc0_scratch14 : DmaSems sig S_ := SemArray.consecutive 3 S_ hcc0_scratch14
abbrev cc0_scratch15 : DmaSems sig S_ := SemArray.consecutive 4 S_ hcc0_scratch15
abbrev cc0_scratch16 : DmaSems sig S_ := SemArray.consecutive 5 S_ hcc0_scratch16
abbrev cc0_scratch17 : DmaSems sig S_ := SemArray.consecutive 6 S_ hcc0_scratch17
abbrev cc0_scratch18 : DmaSems sig S_ := SemArray.consecutive 7 S_ hcc0_scratch18
abbrev cc0_scratch19 : DmaSems sig S_ := SemArray.consecutive 8 S_ hcc0_scratch19
abbrev cc0_scratch20 : DmaSems sig S_ := SemArray.consecutive 9 S_ hcc0_scratch20
abbrev cc0_scratch21 : DmaSems sig S_ := SemArray.consecutive 10 S_ hcc0_scratch21
abbrev cc0_scratch22 : DmaSems sig S_ := SemArray.consecutive 11 S_ hcc0_scratch22
abbrev cc0_scratch23 : DmaSems sig S_ := SemArray.consecutive 12 S_ hcc0_scratch23
abbrev cc0_scratch24 : DmaSems sig S_ := SemArray.consecutive 13 S_ hcc0_scratch24
abbrev cc0_scratch25 : DmaSems sig S_ := SemArray.consecutive 14 S_ hcc0_scratch25
abbrev cc0_scratch26 : DmaSems sig S_ := SemArray.consecutive 15 S_ hcc0_scratch26
abbrev cc0_scratch27 : DmaSems sig S_ := SemArray.consecutive 16 S_ hcc0_scratch27
abbrev cc0_scratch28 : DmaSems sig S_ := SemArray.consecutive 17 S_ hcc0_scratch28
abbrev cc0_scratch29 : DmaSems sig S_ := SemArray.consecutive 18 S_ hcc0_scratch29
abbrev cc0_scratch30 : DmaSems sig S_ := SemArray.consecutive 19 S_ hcc0_scratch30
abbrev cc0_scoped0 : DmaSems sig S_ := SemArray.consecutive 20 S_ hcc0_scoped0

class Facts : Prop extends Facts₀ where

variable [Facts]
-- ==== ReferenceIdeal.lean ====
abbrev S1024x200 : Shape := ⟨2, ![1024, 200]⟩
abbrev S1000000x128 : Shape := ⟨2, ![1000000, 128]⟩
abbrev S512x128 : Shape := ⟨2, ![512, 128]⟩
abbrev S128 : Shape := ⟨1, ![128]⟩
abbrev S512 : Shape := ⟨1, ![512]⟩
abbrev S1x512 : Shape := ⟨2, ![1, 512]⟩
abbrev S1x200 : Shape := ⟨2, ![1, 200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x200x1 : Shape := ⟨3, ![1, 200, 1]⟩
abbrev S1x200x128 : Shape := ⟨3, ![1, 200, 128]⟩
abbrev S1x1x128 : Shape := ⟨3, ![1, 1, 128]⟩

abbrev nBuf : Space → Nat
  | .hbm => 123
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1000000x128, .f32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S512, .i32⟩
  | .hbm, ⟨6, _⟩ => ⟨S1x512, .i32⟩
  | .hbm, ⟨7, _⟩ => ⟨S1x200, .i32⟩
  | .hbm, ⟨8, _⟩ => ⟨S_, .i32⟩
  | .hbm, ⟨9, _⟩ => ⟨S1024x200, .i32⟩
  | .hbm, ⟨10, _⟩ => ⟨S1024x200, .i1⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S1024x200, .i32⟩
  | .hbm, ⟨15, _⟩ => ⟨S1024x200x1, .i32⟩
  | .hbm, ⟨16, _⟩ => ⟨S1, .i32⟩
  | .hbm, ⟨17, _⟩ => ⟨S_, .i32⟩
  | .hbm, ⟨18, _⟩ => ⟨S1024x200x1, .i32⟩
  | .hbm, ⟨19, _⟩ => ⟨S1024x200x1, .i1⟩
  | .hbm, ⟨20, _⟩ => ⟨S1x1x1, .i32⟩
  | .hbm, ⟨21, _⟩ => ⟨S1024x200x1, .i32⟩
  | .hbm, ⟨22, _⟩ => ⟨S1024x200x1, .i1⟩
  | .hbm, ⟨23, _⟩ => ⟨S1024x200x1, .i1⟩
  | .hbm, ⟨24, _⟩ => ⟨S_, .i1⟩
  | .hbm, ⟨25, _⟩ => ⟨S1024x200, .i1⟩
  | .hbm, ⟨26, _⟩ => ⟨S1024x200x128, .f32⟩
  | .hbm, ⟨27, _⟩ => ⟨S1024x200x128, .i1⟩
  | .hbm, ⟨28, _⟩ => ⟨S_, .f32⟩
  | .hbm, ⟨29, _⟩ => ⟨S1024x200x128, .f32⟩
  | .hbm, ⟨30, _⟩ => ⟨S1024x200x128, .f32⟩
  | .hbm, ⟨31, _⟩ => ⟨S_, .i32⟩
  | .hbm, ⟨32, _⟩ => ⟨S1x200, .i32⟩
  | .hbm, ⟨33, _⟩ => ⟨S1x200, .i1⟩
  | .hbm, ⟨34, _⟩ => ⟨S_, .i32⟩
  | .hbm, ⟨35, _⟩ => ⟨S1x200, .i32⟩
  | .hbm, ⟨36, _⟩ => ⟨S1x200, .i32⟩
  | .hbm, ⟨37, _⟩ => ⟨S1x200, .i32⟩
  | .hbm, ⟨38, _⟩ => ⟨S1x200x1, .i32⟩
  | .hbm, ⟨39, _⟩ => ⟨S1, .i32⟩
  | .hbm, ⟨40, _⟩ => ⟨S_, .i32⟩
  | .hbm, ⟨41, _⟩ => ⟨S1x200x1, .i32⟩
  | .hbm, ⟨42, _⟩ => ⟨S1x200x1, .i1⟩
  | .hbm, ⟨43, _⟩ => ⟨S1x1x1, .i32⟩
  | .hbm, ⟨44, _⟩ => ⟨S1x200x1, .i32⟩
  | .hbm, ⟨45, _⟩ => ⟨S1x200x1, .i1⟩
  | .hbm, ⟨46, _⟩ => ⟨S1x200x1, .i1⟩
  | .hbm, ⟨47, _⟩ => ⟨S_, .i1⟩
  | .hbm, ⟨48, _⟩ => ⟨S1x200, .i1⟩
  | .hbm, ⟨49, _⟩ => ⟨S1x200x128, .f32⟩
  | .hbm, ⟨50, _⟩ => ⟨S1x200x128, .i1⟩
  | .hbm, ⟨51, _⟩ => ⟨S_, .f32⟩
  | .hbm, ⟨52, _⟩ => ⟨S1x200x128, .f32⟩
  | .hbm, ⟨53, _⟩ => ⟨S1x200x128, .f32⟩
  | .hbm, ⟨54, _⟩ => ⟨S1024x200x128, .f32⟩
  | .hbm, ⟨55, _⟩ => ⟨S1024x200x128, .f32⟩
  | .hbm, ⟨56, _⟩ => ⟨S_, .f32⟩
  | .hbm, ⟨57, _⟩ => ⟨S1024x200, .f32⟩
  | .hbm, ⟨58, _⟩ => ⟨S1024x200x1, .f32⟩
  | .hbm, ⟨59, _⟩ => ⟨S_, .f32⟩
  | .hbm, ⟨60, _⟩ => ⟨S1024x200x1, .f32⟩
  | .hbm, ⟨61, _⟩ => ⟨S1024x200x1, .f32⟩
  | .hbm, ⟨62, _⟩ => ⟨S_, .i32⟩
  | .hbm, ⟨63, _⟩ => ⟨S_, .f32⟩
  | .hbm, ⟨64, _⟩ => ⟨S1024x200, .f32⟩
  | .hbm, ⟨65, _⟩ => ⟨S1024x200x1, .f32⟩
  | .hbm, ⟨66, _⟩ => ⟨S_, .f32⟩
  | .hbm, ⟨67, _⟩ => ⟨S1024x200x1, .f32⟩
  | .hbm, ⟨68, _⟩ => ⟨S1024x200x1, .f32⟩
  | .hbm, ⟨69, _⟩ => ⟨S1024x200x128, .f32⟩
  | .hbm, ⟨70, _⟩ => ⟨S1024x200x128, .f32⟩
  | .hbm, ⟨71, _⟩ => ⟨S1024x200x128, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1024x200, .f32⟩
  | .hbm, ⟨77, _⟩ => ⟨S1024x200x1, .f32⟩
  | .hbm, ⟨78, _⟩ => ⟨S1024x200x1, .f32⟩
  | .hbm, ⟨79, _⟩ => ⟨S1024x200x1, .f32⟩
  | .hbm, ⟨80, _⟩ => ⟨S_, .f32⟩
  | .hbm, ⟨81, _⟩ => ⟨S_, .i1⟩
  | .hbm, ⟨82, _⟩ => ⟨S_, .f32⟩
  | .hbm, ⟨83, _⟩ => ⟨S_, .f32⟩
  | .hbm, ⟨84, _⟩ => ⟨S1024x200x1, .f32⟩
  | .hbm, ⟨85, _⟩ => ⟨S1024x200x1, .f32⟩
  | .hbm, ⟨86, _⟩ => ⟨S1024x200x128, .f32⟩
  | .hbm, ⟨87, _⟩ => ⟨S1024x200x128, .f32⟩
  | .hbm, ⟨88, _⟩ => ⟨S_, .f32⟩
  | .hbm, ⟨89, _⟩ => ⟨S1024x200x1, .f32⟩
  | .hbm, ⟨90, _⟩ => ⟨S1024x200x1, .f32⟩
  | .hbm, ⟨91, _⟩ => ⟨S1024x200x1, .f32⟩
  | .hbm, ⟨92, _⟩ => ⟨S1024x200x128, .f32⟩
  | .hbm, ⟨93, _⟩ => ⟨S1024x200x128, .f32⟩
  | .hbm, ⟨94, _⟩ => ⟨S1x1x128, .f32⟩
  | .hbm, ⟨95, _⟩ => ⟨S1024x200x128, .f32⟩
  | .hbm, ⟨96, _⟩ => ⟨S1024x200x128, .f32⟩
  | .hbm, ⟨97, _⟩ => ⟨S1x1x128, .f32⟩
  | .hbm, ⟨98, _⟩ => ⟨S1024x200x128, .f32⟩
  | .hbm, ⟨99, _⟩ => ⟨S1024x200x128, .f32⟩
  | .hbm, ⟨100, _⟩ => ⟨S_, .i32⟩
  | .hbm, ⟨101, _⟩ => ⟨S1024x200, .i32⟩
  | .hbm, ⟨102, _⟩ => ⟨S1024x200, .i1⟩
  | .hbm, ⟨103, _⟩ => ⟨S_, .i32⟩
  | .hbm, ⟨104, _⟩ => ⟨S1024x200, .i32⟩
  | .hbm, ⟨105, _⟩ => ⟨S1024x200, .i32⟩
  | .hbm, ⟨106, _⟩ => ⟨S1024x200, .i32⟩
  | .hbm, ⟨107, _⟩ => ⟨S1024x200x1, .i32⟩
  | .hbm, ⟨108, _⟩ => ⟨S1, .i32⟩
  | .hbm, ⟨109, _⟩ => ⟨S_, .i32⟩
  | .hbm, ⟨110, _⟩ => ⟨S1024x200x1, .i32⟩
  | .hbm, ⟨111, _⟩ => ⟨S1024x200x1, .i1⟩
  | .hbm, ⟨112, _⟩ => ⟨S1x1x1, .i32⟩
  | .hbm, ⟨113, _⟩ => ⟨S1024x200x1, .i32⟩
  | .hbm, ⟨114, _⟩ => ⟨S1024x200x1, .i1⟩
  | .hbm, ⟨115, _⟩ => ⟨S1024x200x1, .i1⟩
  | .hbm, ⟨116, _⟩ => ⟨S_, .i1⟩
  | .hbm, ⟨117, _⟩ => ⟨S1024x200, .i1⟩
  | .hbm, ⟨118, _⟩ => ⟨S1024x200x128, .f32⟩
  | .hbm, ⟨119, _⟩ => ⟨S1024x200x128, .i1⟩
  | .hbm, ⟨120, _⟩ => ⟨S_, .f32⟩
  | .hbm, ⟨121, _⟩ => ⟨S1024x200x128, .f32⟩
  | .hbm, ⟨122, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_cst : Ref sig .tc := ⟨.hbm, 56, rfl⟩
abbrev main_v7 : Ref sig .tc := ⟨.hbm, 57, rfl⟩
abbrev main_v8 : Ref sig .tc := ⟨.hbm, 58, rfl⟩
abbrev main_cst_0 : Ref sig .tc := ⟨.hbm, 59, rfl⟩
abbrev main_v9 : Ref sig .tc := ⟨.hbm, 60, rfl⟩
abbrev main_v10 : Ref sig .tc := ⟨.hbm, 61, rfl⟩
abbrev main_c : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_cst_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_cst_1 : Ref sig .tc := ⟨.hbm, 73, rfl⟩
abbrev main_call2_v8 : Ref sig .tc := ⟨.hbm, 74, rfl⟩
abbrev main_call2_cst_2 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_cst_3 : Ref sig .tc := ⟨.hbm, 80, rfl⟩
abbrev main_call2_v13 : Ref sig .tc := ⟨.hbm, 81, rfl⟩
abbrev main_call2_cst_4 : Ref sig .tc := ⟨.hbm, 82, rfl⟩
abbrev main_call2_call0_v0 : Ref sig .tc := ⟨.hbm, 83, rfl⟩
abbrev main_call2_call0_v1 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_cst_1 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v25 : Ref sig .tc := ⟨.hbm, 122, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  slices_S1x512_S1x200_0_0 : S1x512.Slices ![0, 0] S1x200
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  bcast_S_S1x200 : S_.BroadcastsInDim S1x200 (![] : Fin 0 → Fin S1x200.rank)
  bcast_S1x200_S1x200x1_0_1 : S1x200.BroadcastsInDim S1x200x1 (![0, 1] : Fin 2 → Fin S1x200x1.rank)
  bcast_S_S1x200x1 : S_.BroadcastsInDim S1x200x1 (![] : Fin 0 → Fin S1x200x1.rank)
  bcast_S1x1x1_S1x200x1_0_1_2 : S1x1x1.BroadcastsInDim S1x200x1 (![0, 1, 2] : Fin 3 → Fin S1x200x1.rank)
  reducesTo_S1x200x1_S1x200_d2 : S1x200x1.ReducesTo [2] S1x200
  bcast_S1x200_S1x200x128_0_1 : S1x200.BroadcastsInDim S1x200x128 (![0, 1] : Fin 2 → Fin S1x200x128.rank)
  bcast_S_S1x200x128 : S_.BroadcastsInDim S1x200x128 (![] : Fin 0 → Fin S1x200x128.rank)
  bcast_S1x200x128_S1024x200x128_0_1_2 : S1x200x128.BroadcastsInDim S1024x200x128 (![0, 1, 2] : Fin 3 → Fin S1024x200x128.rank)
  reducesTo_S1024x200x128_S1024x200_d2 : S1024x200x128.ReducesTo [2] S1024x200
  bcast_S1024x200x1_S1024x200x128_0_1_2 : S1024x200x1.BroadcastsInDim S1024x200x128 (![0, 1, 2] : Fin 3 → Fin S1024x200x128.rank)
  bcast_S128_S1x1x128_2 : S128.BroadcastsInDim S1x1x128 (![2] : Fin 1 → Fin S1x1x128.rank)
  bcast_S1x1x128_S1024x200x128_0_1_2 : S1x1x128.BroadcastsInDim S1024x200x128 (![0, 1, 2] : Fin 3 → Fin S1024x200x128.rank)
  gather_S1000000x128_S1024x200x1_S1024x200x128_2_0_n_n_0_2_1128_wf : GatherDims.WF S1000000x128 S1024x200x1 S1024x200x128 [2] [0] [] [0] [] 2 ![1, 128]
  gather_S512x128_S1x200x1_S1x200x128_2_0_n_n_0_2_1128_wf : GatherDims.WF S512x128 S1x200x1 S1x200x128 [2] [0] [] [0] [] 2 ![1, 128]

variable [Facts₀]

def gather_S1000000x128_S1024x200x1_S1024x200x128_2_0_n_n_0_2_1128 : GatherDims S1000000x128 S1024x200x1 S1024x200x128 where
  offsetDims := [2]
  collapsedSliceDims := [0]
  operandBatchingDims := []
  startIndicesBatchingDims := []
  startIndexMap := [0]
  indexVectorDim := 2
  sliceSizes := ![1, 128]
  wf := gather_S1000000x128_S1024x200x1_S1024x200x128_2_0_n_n_0_2_1128_wf
def gather_S512x128_S1x200x1_S1x200x128_2_0_n_n_0_2_1128 : GatherDims S512x128 S1x200x1 S1x200x128 where
  offsetDims := [2]
  collapsedSliceDims := [0]
  operandBatchingDims := []
  startIndicesBatchingDims := []
  startIndexMap := [0]
  indexVectorDim := 2
  sliceSizes := ![1, 128]
  wf := gather_S512x128_S1x200x1_S1x200x128_2_0_n_n_0_2_1128_wf

class Facts : Prop extends Facts₀ where

variable [Facts]
-- ==== Proof.PreRange.lean ====
/-
  What the precondition says of the index list.

  The precondition's last conjunct asks `0 ≤ ids` and `ids ≤ 999999` of every word, both comparisons signed: an `and` over the
  whole array, from 1, that came out 1. So every word of the list passes both comparisons: as a signed integer it lies in
  `0 … 999999`. A word whose signed reading is not negative has the same unsigned reading, so as an unsigned number
  it is below 1000000: it names a row of the table. The float conjuncts (every entry of the other arrays finite) are not
  used, so the statement holds at any float values.
-/
import proofs.«206832_g86208583565466_cont_sun_m_1057_30_alg».proof.Defs
import proofs.«206832_g86208583565466_cont_sun_m_1057_30_alg».proof.Proof.Gen.Pre_input_domain
import Idealize.ShloMosaic.Lib.ValueIdx
import Idealize.ShloMosaic.Lib.ReduceAll

noncomputable section

namespace Cert.Proof.PreRange

open Idealize.ShloMosaic Idealize.SL.Sem

/-! ## Words -/

/-- A word whose signed reading is not negative has the same signed and unsigned readings. -/
theorem toInt_toNat_of_nonneg (x : BitVec 32) (h : 0 ≤ x.toInt) : x.toInt.toNat = x.toNat := by
  have hlt : x.toNat < 2 ^ 32 := x.isLt
  rw [BitVec.toInt_eq_toNat_cond] at h ⊢
  split_ifs at h ⊢ <;> omega

theorem toInt_zero32 : (0#32 : BitVec 32).toInt = 0 := by decide
theorem toInt_max32 : (999999#32 : BitVec 32).toInt = 999999 := by decide

/-- A word in `0 … 999999` as a signed integer is below 1000000 as an unsigned one. -/
theorem toNat_lt_of_range (x : BitVec 32) (h : 0 ≤ x.toInt ∧ x.toInt ≤ 999999) : x.toNat < 1000000 := by
  have := toInt_toNat_of_nonneg x h.1
  omega

/-! ## The range, from the precondition's function -/

instance : Subsingleton Cert.Pre_input_domain.S_.Idx := ⟨fun a b => funext fun d => d.elim0⟩

variable {F : FTy → Type} [FloatOps F]

/-- The last conjunct read back: every word of the list is, as a signed integer, in `0 … 999999`. -/
theorem ids_range_of_fn (a0 : (⟨Cert.Pre_input_domain.S1024x200, .i32⟩ : BufTy).Contents (Elt F))
    (a1 : (⟨Cert.Pre_input_domain.S1000000x128, .f32⟩ : BufTy).Contents (Elt F))
    (a2 : (⟨Cert.Pre_input_domain.S512x128, .f32⟩ : BufTy).Contents (Elt F))
    (a3 a4 : (⟨Cert.Pre_input_domain.S128, .f32⟩ : BufTy).Contents (Elt F))
    (h : Cert.Pre_input_domain.fn (F := F) a0 a1 a2 a3 a4 = fun _ => 1#1) :
    ∀ j, 0 ≤ (a0 j).toInt ∧ (a0 j).toInt ≤ 999999 := by
  intro j
  have h0 := congrFun h ValueIdx.ix0
  dsimp only [Cert.Pre_input_domain.fn, Cert.Pre_input_domain.fn_part1] at h0
  have h1 := (IntOp.andi_eq_one.mp h0).2
  have h2 := Host.reduce_andi_all _ _ _ _ _ h1 j
  have h3 := IntOp.andi_eq_one.mp h2
  have h4 := IntOp.cmpi_sge.mp h3.1
  have h5 := IntOp.cmpi_sle.mp h3.2
  refine ⟨?_, ?_⟩
  · have : (0#32 : BitVec 32).toInt ≤ (a0 j).toInt := h4
    rw [toInt_zero32] at this; exact this
  · have : (a0 j).toInt ≤ (999999#32 : BitVec 32).toInt := h5
    rw [toInt_max32] at this; exact this

/-- So every word of the list, as an unsigned number, names a row of the table. -/
theorem ids_lt_of_fn (a0 : (⟨Cert.Pre_input_domain.S1024x200, .i32⟩ : BufTy).Contents (Elt F))
    (a1 : (⟨Cert.Pre_input_domain.S1000000x128, .f32⟩ : BufTy).Contents (Elt F))
    (a2 : (⟨Cert.Pre_input_domain.S512x128, .f32⟩ : BufTy).Contents (Elt F))
    (a3 a4 : (⟨Cert.Pre_input_domain.S128, .f32⟩ : BufTy).Contents (Elt F))
    (h : Cert.Pre_input_domain.fn (F := F) a0 a1 a2 a3 a4 = fun _ => 1#1) :
    ∀ j, (a0 j).toNat < 1000000 :=
  fun j => toNat_lt_of_range _ (ids_range_of_fn a0 a1 a2 a3 a4 h j)

/-! ## At the three programs' launch memories -/

/-- Under the kernel's precondition every word of its index list names a row of the table. -/
theorem okKernel (m : (ℓ : Loc Cert.Kernel.nD Cert.Kernel.τ Cert.Kernel.sig) → Buf (Elt Bits) ℓ) (h : Cert.Pre_Kernel m) :
    ∀ (d : Dev Cert.Kernel.nD) (j : Cert.Kernel.S1024x200.Idx),
      (m ((d.tc : Thread Cert.Kernel.nD Cert.Kernel.τ).loc Cert.Kernel.main_arg0) j).toNat < 1000000 :=
  fun d j => ids_lt_of_fn (F := Bits) _ _ _ _ _ (h d) j

/-- The same under the idealized kernel's precondition. -/
theorem okKernelIdeal (m : (ℓ : Loc Cert.KernelIdeal.nD Cert.KernelIdeal.τ Cert.KernelIdeal.sig) → Buf (Elt Ideal) ℓ)
    (h : Cert.Pre_KernelIdeal m) :
    ∀ (d : Dev Cert.KernelIdeal.nD) (j : Cert.KernelIdeal.S1024x200.Idx),
      (m ((d.tc : Thread Cert.KernelIdeal.nD Cert.KernelIdeal.τ).loc Cert.KernelIdeal.main_arg0) j).toNat < 1000000 :=
  fun d j => ids_lt_of_fn (F := Ideal) _ _ _ _ _ (h d) j

/-- Under the reference's precondition every word of its index list is, as a signed integer, in `0 … 999999`. -/
theorem rangeReferenceIdeal (m : (ℓ : Loc Cert.ReferenceIdeal.nD Cert.ReferenceIdeal.τ Cert.ReferenceIdeal.sig) → Buf (Elt Ideal) ℓ)
    (h : Cert.Pre_ReferenceIdeal m) :
    ∀ (d : Dev Cert.ReferenceIdeal.nD) (j : Cert.ReferenceIdeal.S1024x200.Idx),
      0 ≤ (m ((d.tc : Thread Cert.ReferenceIdeal.nD Cert.ReferenceIdeal.τ).loc Cert.ReferenceIdeal.main_arg0) j).toInt
      ∧ (m ((d.tc : Thread Cert.ReferenceIdeal.nD Cert.ReferenceIdeal.τ).loc Cert.ReferenceIdeal.main_arg0) j).toInt ≤ 999999 :=
  fun d j => ids_range_of_fn (F := Ideal) _ _ _ _ _ (h d) j

end Cert.Proof.PreRange

end
-- ==== Proof.RefTerm.lean ====
/-
  The value the reference's last lookup computes, as one pure term of the table `W` and the words `ids`.

  The lookup of rows of `W` at the words `ids` first wraps a negative word once (`ids + 1000000` where `ids < 0`), then reads, for every
  position `[b, s]`, the row of `W` the wrapped word names — the word taken as a signed integer and moved into
  `0 … 999999` — and finally keeps that row only where the wrapped word already lay in `0 … 999999`; elsewhere the
  row is replaced by the constant `0x7FC00000`. The test is an `and` over the unit axis of the words seen as a
  `[1024, 200, 1]` array, copied along the 128 entries of a row.
-/
import proofs.«206832_g86208583565466_cont_sun_m_1057_30_alg».proof.Proof.Gen.ReferenceIdeal

noncomputable section

namespace Cert.ReferenceIdeal.RefSide

open Cert.ReferenceIdeal Cert.ReferenceIdeal.Gen Idealize.ShloMosaic

variable {F : FTy → Type} [FloatOps F]

/-- The words with a negative one wrapped once: `ids + 1000000` where `ids < 0` (signed), `ids` elsewhere. -/
def wrapIds (ids : IVec S1024x200 32) : IVec S1024x200 32 :=
  select (cmpi .slt ids (broadcastInDim S1024x200 ![] bcast_S_S1024x200 (constantI S_ 32 0#32)))
    (addi ids (broadcastInDim S1024x200 ![] bcast_S_S1024x200 (constantI S_ 32 1000000#32))) ids

/-- The wrapped words as the gather's start indices: one index vector of length one per position. -/
def startIdx (ids : IVec S1024x200 32) : IVec S1024x200x1 32 :=
  broadcastInDim S1024x200x1 ![0, 1] bcast_S1024x200_S1024x200x1_0_1 (wrapIds ids)

/-- Per start index: does it lie in `0 … 999999` (both comparisons signed)? -/
def inRange (ids : IVec S1024x200 32) : IVec S1024x200x1 1 :=
  andi (cmpi .sge (startIdx ids) (broadcastInDim S1024x200x1 ![] bcast_S_S1024x200x1 (constantI S_ 32 0#32)))
    (cmpi .sle (startIdx ids) (broadcastInDim S1024x200x1 ![0, 1, 2] bcast_S1x1x1_S1024x200x1_0_1_2
      (broadcastInDim S1x1x1 ![2] bcast_S1_S1x1x1_2 (constantI S1 32 999999#32))))

/-- The test per position (the `and` over the unit axis), copied along a row's 128 entries. -/
def mask (ids : IVec S1024x200 32) : IVec S1024x200x128 1 :=
  broadcastInDim S1024x200x128 ![0, 1] bcast_S1024x200_S1024x200x128_0_1
    (Host.reduce IntOp.andi (inRange ids) (constantI S_ 1 1#1) reducesTo_S1024x200x1_S1024x200_d2 h_S_)

/-- The lookup's result: the gathered rows where the test holds, the constant `0x7FC00000` elsewhere. -/
def takeTerm (W : FVec F S1000000x128 .f32) (ids : IVec S1024x200 32) : FVec F S1024x200x128 .f32 :=
  select (mask ids) (Host.gather gather_S1000000x128_S1024x200x1_S1024x200x128_2_0_n_n_0_2_1128 W (startIdx ids))
    (broadcastInDim S1024x200x128 ![] bcast_S_S1024x200x128 (constant S_ .f32 0x7FC00000#32))

end Cert.ReferenceIdeal.RefSide

end
-- ==== Proof.RefRun.lean ====
/-
  The reference's run.

  @main is a straight line of host operations: the position numbers (three), the word embeddings' lookup (twenty-three,
  one of them the select that wraps a negative word), the position embeddings' lookup (twenty-three), the sum and its
  mean (nine), the variance (twenty-three), the normalisation with scale and shift (fourteen) and, last, the word
  embeddings' lookup once more (twenty-three) — 118 operations, each writing a buffer of its own. Every weakly fair
  execution therefore terminates without a fault, and each buffer ends at the composition of the operations that feed
  it. The result buffer is written by the last lookup alone, whose operands are the two argument arrays `W` and `ids`:
  it ends at `takeTerm W ids`. The normalised sum is computed into buffers nothing reads afterwards.
-/
import proofs.«206832_g86208583565466_cont_sun_m_1057_30_alg».proof.Proof.RefTerm
import Idealize.ShloMosaic.Lib.StableHlo.Run
import Idealize.ShloMosaic.Lib.Pipeline.Regions

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 118 operations in order, each function's operations listed where it is called, over that call's buffers. -/
abbrev ops : List (HloOp τ sig (Elt F)) :=
  [
    -- the position numbers: an iota, as one row, its first 200 entries
    nullary main_v0 (iotaInDim S512 32 0),
    unary main_v0 main_v1 (broadcastInDim S1x512 ![1] bcast_S512_S1x512_1 : (⟨S512, .i32⟩ : BufTy).Contents (Elt F) → (⟨S1x512, .i32⟩ : BufTy).Contents (Elt F)),
    unary main_v1 main_v2 ((extractStridedSlice S1x200 ![0, 0] · slices_S1x512_S1x200_0_0) : (⟨S1x512, .i32⟩ : BufTy).Contents (Elt F) → (⟨S1x200, .i32⟩ : BufTy).Contents (Elt F)),
    -- the word embeddings' lookup (its result is added into the discarded normalisation)
    TRef.nullary main_call0.c (constantI S_ 32 0#32),
    TRef.unary main_call0.c main_call0.v0 (broadcastInDim S1024x200 ![] bcast_S_S1024x200),
    TRef.binary (.of main_arg0) main_call0.v0 main_call0.v1 (cmpi .slt),
    TRef.nullary main_call0.c_0 (constantI S_ 32 1000000#32),
    TRef.unary main_call0.c_0 main_call0.v2 (broadcastInDim S1024x200 ![] bcast_S_S1024x200),
    TRef.binary (.of main_arg0) main_call0.v2 main_call0.v3 addi,
    TRef.ternary main_call0.v1 main_call0.v3 (.of main_arg0) main_call0.call0.v0 select,
    TRef.unary main_call0.call0.v0 main_call0.v5 (broadcastInDim S1024x200x1 ![0, 1] bcast_S1024x200_S1024x200x1_0_1),
    TRef.nullary main_call0.c_1 (constantI S1 32 999999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg1) main_call0.v5 main_call0.v13 (fun x i => Host.gather gather_S1000000x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select,
    -- the position embeddings' lookup
    TRef.nullary main_call1.c (constantI S_ 32 0#32),
    TRef.unary main_call1.c main_call1.v0 (broadcastInDim S1x200 ![] bcast_S_S1x200),
    TRef.binary (.of main_v2) main_call1.v0 main_call1.v1 (cmpi .slt),
    TRef.nullary main_call1.c_0 (constantI S_ 32 512#32),
    TRef.unary main_call1.c_0 main_call1.v2 (broadcastInDim S1x200 ![] bcast_S_S1x200),
    TRef.binary (.of main_v2) main_call1.v2 main_call1.v3 addi,
    TRef.ternary main_call1.v1 main_call1.v3 (.of main_v2) main_call1.call0.v0 select,
    TRef.unary main_call1.call0.v0 main_call1.v5 (broadcastInDim S1x200x1 ![0, 1] bcast_S1x200_S1x200x1_0_1),
    TRef.nullary main_call1.c_1 (constantI S1 32 511#32),
    TRef.nullary main_call1.c_2 (constantI S_ 32 0#32),
    TRef.unary main_call1.c_2 main_call1.v6 (broadcastInDim S1x200x1 ![] bcast_S_S1x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1x200x1 ![0, 1, 2] bcast_S1x1x1_S1x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1x200x1_S1x200_d2 h_S_),
    TRef.binary (.of main_arg2) main_call1.v5 main_call1.v13 (fun x i => Host.gather gather_S512x128_S1x200x1_S1x200x128_2_0_n_n_0_2_1128 x i),
    TRef.unary main_call1.v12 main_call1.v14 (broadcastInDim S1x200x128 ![0, 1] bcast_S1x200_S1x200x128_0_1),
    TRef.nullary main_call1.cst (constant S_ .f32 0x7FC00000#32),
    TRef.unary main_call1.cst main_call1.v15 (broadcastInDim S1x200x128 ![] bcast_S_S1x200x128),
    TRef.ternary main_call1.v14 main_call1.v13 main_call1.v15 main_call1.v16 select,
    -- their sum, its mean over a row
    unary main_v4 main_v5 (broadcastInDim S1024x200x128 ![0, 1, 2] bcast_S1x200x128_S1024x200x128_0_1_2 : (⟨S1x200x128, .f32⟩ : BufTy).Contents (Elt F) → (⟨S1024x200x128, .f32⟩ : BufTy).Contents (Elt F)),
    binary main_v3 main_v5 main_v6 (addf : (⟨S1024x200x128, .f32⟩ : BufTy).Contents (Elt F) → (⟨S1024x200x128, .f32⟩ : BufTy).Contents (Elt F) → (⟨S1024x200x128, .f32⟩ : BufTy).Contents (Elt F)),
    nullary main_cst (constant S_ .f32 0x00000000#32),
    binary main_v6 main_cst main_v7 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    unary main_v7 main_v8 (broadcastInDim S1024x200x1 ![0, 1] bcast_S1024x200_S1024x200x1_0_1 : (⟨S1024x200, .f32⟩ : BufTy).Contents (Elt F) → (⟨S1024x200x1, .f32⟩ : BufTy).Contents (Elt F)),
    nullary main_cst_0 (constant S_ .f32 0x43000000#32),
    unary main_cst_0 main_v9 (broadcastInDim S1024x200x1 ![] bcast_S_S1024x200x1 : (⟨S_, .f32⟩ : BufTy).Contents (Elt F) → (⟨S1024x200x1, .f32⟩ : BufTy).Contents (Elt F)),
    binary main_v8 main_v9 main_v10 (Host.divf : (⟨S1024x200x1, .f32⟩ : BufTy).Contents (Elt F) → (⟨S1024x200x1, .f32⟩ : BufTy).Contents (Elt F) → (⟨S1024x200x1, .f32⟩ : BufTy).Contents (Elt F)),
    nullary main_c (constantI S_ 32 0#32),
    -- the sum's variance over a row
    TRef.nullary main_call2.cst (constant S_ .f32 0x00000000#32),
    TRef.binary (.of main_v6) main_call2.cst main_call2.v0 (fun x v => Host.reduceAdd x v reducesTo_S1024x200x128_S1024x200_d2 h_S_),
    TRef.unary main_call2.v0 main_call2.v1 (broadcastInDim S1024x200x1 ![0, 1] bcast_S1024x200_S1024x200x1_0_1),
    TRef.nullary main_call2.cst_0 (constant S_ .f32 0x43000000#32),
    TRef.unary main_call2.cst_0 main_call2.v2 (broadcastInDim S1024x200x1 ![] bcast_S_S1024x200x1),
    TRef.binary main_call2.v1 main_call2.v2 main_call2.v3 Host.divf,
    TRef.unary main_call2.v3 main_call2.v4 (broadcastInDim S1024x200x128 ![0, 1, 2] bcast_S1024x200x1_S1024x200x128_0_1_2),
    TRef.binary (.of main_v6) main_call2.v4 main_call2.v5 subf,
    TRef.binary main_call2.v5 main_call2.v5 main_call2.v6 mulf,
    TRef.unary (.of main_c) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S1024x200x128_S1024x200_d2 h_S_),
    TRef.unary main_call2.v9 main_call2.v10 (broadcastInDim S1024x200x1 ![0, 1] bcast_S1024x200_S1024x200x1_0_1),
    TRef.unary main_call2.v8 main_call2.v11 (broadcastInDim S1024x200x1 ![] bcast_S_S1024x200x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1024x200x1 ![] bcast_S_S1024x200x1),
    TRef.ternary main_call2.v13 main_call2.v12 main_call2.call0.v1 main_call2.call0.v2 (fun p a b => select (broadcastInDim S1024x200x1 ![] bcast_S_S1024x200x1 p) a b),
    -- the normalised, scaled and shifted sum: computed, then not returned
    unary main_v10 main_v12 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v6 main_v12 main_v13 (subf : (⟨S1024x200x128, .f32⟩ : BufTy).Contents (Elt F) → (⟨S1024x200x128, .f32⟩ : BufTy).Contents (Elt F) → (⟨S1024x200x128, .f32⟩ : BufTy).Contents (Elt F)),
    nullary main_cst_1 (constant S_ .f32 0x2B8CBCCC#32),
    unary main_cst_1 main_v14 (broadcastInDim S1024x200x1 ![] bcast_S_S1024x200x1 : (⟨S_, .f32⟩ : BufTy).Contents (Elt F) → (⟨S1024x200x1, .f32⟩ : BufTy).Contents (Elt F)),
    binary main_v11 main_v14 main_v15 (addf : (⟨S1024x200x1, .f32⟩ : BufTy).Contents (Elt F) → (⟨S1024x200x1, .f32⟩ : BufTy).Contents (Elt F) → (⟨S1024x200x1, .f32⟩ : BufTy).Contents (Elt F)),
    unary main_v15 main_v16 (Host.sqrt : (⟨S1024x200x1, .f32⟩ : BufTy).Contents (Elt F) → (⟨S1024x200x1, .f32⟩ : BufTy).Contents (Elt F)),
    unary main_v16 main_v17 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v13 main_v17 main_v18 (Host.divf : (⟨S1024x200x128, .f32⟩ : BufTy).Contents (Elt F) → (⟨S1024x200x128, .f32⟩ : BufTy).Contents (Elt F) → (⟨S1024x200x128, .f32⟩ : BufTy).Contents (Elt F)),
    unary main_arg3 main_v19 (broadcastInDim S1x1x128 ![2] bcast_S128_S1x1x128_2 : (⟨S128, .f32⟩ : BufTy).Contents (Elt F) → (⟨S1x1x128, .f32⟩ : BufTy).Contents (Elt F)),
    unary main_v19 main_v20 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v18 main_v20 main_v21 (mulf : (⟨S1024x200x128, .f32⟩ : BufTy).Contents (Elt F) → (⟨S1024x200x128, .f32⟩ : BufTy).Contents (Elt F) → (⟨S1024x200x128, .f32⟩ : BufTy).Contents (Elt F)),
    unary main_arg4 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v21 main_v23 main_v24 (addf : (⟨S1024x200x128, .f32⟩ : BufTy).Contents (Elt F) → (⟨S1024x200x128, .f32⟩ : BufTy).Contents (Elt F) → (⟨S1024x200x128, .f32⟩ : BufTy).Contents (Elt F)),
    -- THE RESULT: the word embeddings' lookup again
    TRef.nullary main_call3.c (constantI S_ 32 0#32),
    TRef.unary main_call3.c main_call3.v0 (broadcastInDim S1024x200 ![] bcast_S_S1024x200),
    TRef.binary (.of main_arg0) main_call3.v0 main_call3.v1 (cmpi .slt),
    TRef.nullary main_call3.c_0 (constantI S_ 32 1000000#32),
    TRef.unary main_call3.c_0 main_call3.v2 (broadcastInDim S1024x200 ![] bcast_S_S1024x200),
    TRef.binary (.of main_arg0) main_call3.v2 main_call3.v3 addi,
    TRef.ternary main_call3.v1 main_call3.v3 (.of main_arg0) main_call3.call0.v0 select,
    TRef.unary main_call3.call0.v0 main_call3.v5 (broadcastInDim S1024x200x1 ![0, 1] bcast_S1024x200_S1024x200x1_0_1),
    TRef.nullary main_call3.c_1 (constantI S1 32 999999#32),
    TRef.nullary main_call3.c_2 (constantI S_ 32 0#32),
    TRef.unary main_call3.c_2 main_call3.v6 (broadcastInDim S1024x200x1 ![] bcast_S_S1024x200x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S1024x200x1 ![0, 1, 2] bcast_S1x1x1_S1024x200x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S1024x200x1_S1024x200_d2 h_S_),
    TRef.binary (.of main_arg1) main_call3.v5 main_call3.v13 (fun x i => Host.gather gather_S1000000x128_S1024x200x1_S1024x200x128_2_0_n_n_0_2_1128 x i),
    TRef.unary main_call3.v12 main_call3.v14 (broadcastInDim S1024x200x128 ![0, 1] bcast_S1024x200_S1024x200x128_0_1),
    TRef.nullary main_call3.cst (constant S_ .f32 0x7FC00000#32),
    TRef.unary main_call3.cst main_call3.v15 (broadcastInDim S1024x200x128 ![] bcast_S_S1024x200x128),
    TRef.ternary main_call3.v14 main_call3.v13 main_call3.v15 main_call3.v16 select
  ]

/-- @main is that straight line: with the functions' bodies opened at their calls and the sequencing re-associated the
    two sides are one chain of steps, which is a matter of unfolding definitions. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    nullary_bufs_sub .., unary_bufs_sub .., unary_bufs_sub .., nullary_bufs_sub ..,
    unary_bufs_sub .., binary_bufs_sub .., nullary_bufs_sub .., unary_bufs_sub ..,
    binary_bufs_sub .., ternary_bufs_sub .., unary_bufs_sub .., nullary_bufs_sub ..,
    nullary_bufs_sub .., unary_bufs_sub .., binary_bufs_sub .., unary_bufs_sub ..,
    unary_bufs_sub .., binary_bufs_sub .., binary_bufs_sub .., nullary_bufs_sub ..,
    binary_bufs_sub .., binary_bufs_sub .., unary_bufs_sub .., nullary_bufs_sub ..,
    unary_bufs_sub .., ternary_bufs_sub .., nullary_bufs_sub .., unary_bufs_sub ..,
    binary_bufs_sub .., nullary_bufs_sub .., unary_bufs_sub .., binary_bufs_sub ..,
    ternary_bufs_sub .., unary_bufs_sub .., nullary_bufs_sub .., nullary_bufs_sub ..,
    unary_bufs_sub .., binary_bufs_sub .., unary_bufs_sub .., unary_bufs_sub ..,
    binary_bufs_sub .., binary_bufs_sub .., nullary_bufs_sub .., binary_bufs_sub ..,
    binary_bufs_sub .., unary_bufs_sub .., nullary_bufs_sub .., unary_bufs_sub ..,
    ternary_bufs_sub .., unary_bufs_sub .., binary_bufs_sub .., nullary_bufs_sub ..,
    binary_bufs_sub .., unary_bufs_sub .., nullary_bufs_sub .., unary_bufs_sub ..,
    binary_bufs_sub .., nullary_bufs_sub .., nullary_bufs_sub .., binary_bufs_sub ..,
    unary_bufs_sub .., nullary_bufs_sub .., unary_bufs_sub .., binary_bufs_sub ..,
    unary_bufs_sub .., binary_bufs_sub .., binary_bufs_sub .., unary_bufs_sub ..,
    nullary_bufs_sub .., binary_bufs_sub .., nullary_bufs_sub .., binary_bufs_sub ..,
    unary_bufs_sub .., unary_bufs_sub .., binary_bufs_sub .., nullary_bufs_sub ..,
    binary_bufs_sub .., nullary_bufs_sub .., unary_bufs_sub .., unary_bufs_sub ..,
    ternary_bufs_sub .., unary_bufs_sub .., binary_bufs_sub .., nullary_bufs_sub ..,
    unary_bufs_sub .., binary_bufs_sub .., unary_bufs_sub .., unary_bufs_sub ..,
    binary_bufs_sub .., unary_bufs_sub .., unary_bufs_sub .., binary_bufs_sub ..,
    unary_bufs_sub .., unary_bufs_sub .., binary_bufs_sub .., nullary_bufs_sub ..,
    unary_bufs_sub .., binary_bufs_sub .., nullary_bufs_sub .., unary_bufs_sub ..,
    binary_bufs_sub .., ternary_bufs_sub .., unary_bufs_sub .., nullary_bufs_sub ..,
    nullary_bufs_sub .., unary_bufs_sub .., binary_bufs_sub .., unary_bufs_sub ..,
    unary_bufs_sub .., binary_bufs_sub .., binary_bufs_sub .., nullary_bufs_sub ..,
    binary_bufs_sub .., binary_bufs_sub .., unary_bufs_sub .., nullary_bufs_sub ..,
    unary_bufs_sub .., ternary_bufs_sub ..
  ⟩

/-- From any memory with zero counters every weakly fair execution of @main terminates, and every buffer ends at the
    fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the result and the arguments hold at the end -/

attribute [local irreducible] Host.reduce Host.gather in
set_option maxRecDepth 8192 in
/-- The result buffer is written by the last lookup's select; following its operands back through the last
    twenty-three operations reaches only the two argument buffers `W` and `ids`, which nothing writes: the fold at the
    result is the lookup's term of the launch contents of those two. -/
theorem out_eq (V : Valuation τ sig (Elt F)) :
    after ops V (main_v25 : DevRef τ sig) = takeTerm (V (main_arg1 : DevRef τ sig)) (V (main_arg0 : DevRef τ sig)) := by
  after_results_simp
  rfl

end Cert.ReferenceIdeal.RefSide

end
-- ==== Proof.RefArgs.lean ====
/-
  The reference's arguments at the end of its run, and the run with its result named.

  Each of the 118 operations writes a buffer of its own, none of them an argument's: the fold of the operations at an
  argument buffer is what the launch put there. Together with the fold at the result buffer this gives the run's
  statement over the lookup's term.
-/
import proofs.«206832_g86208583565466_cont_sun_m_1057_30_alg».proof.Proof.RefRun

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, for any float values, from any memory with zero counters: every weakly fair execution of @main
    terminates with the result at the lookup's term of the table and the words, and the five arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = takeTerm (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v25).trans (out_eq _), (h c main_arg0).trans (arg0_eq _),
      (h c main_arg1).trans (arg1_eq _), (h c main_arg2).trans (arg2_eq _), (h c main_arg3).trans (arg3_eq _),
      (h c main_arg4).trans (arg4_eq _)⟩)
    (run_all m ρ)

end Cert.ReferenceIdeal.RefSide

end
-- ==== Proof.Spec.lean ====
/-
  The specification both programs meet: an embedding lookup. The result holds, at position `[b, s, :]`, the row of the
  table whose number is the word `ids[b, s]`; a word beyond the last row is read as the last row, so the function is
  total (under the precondition every word names a row and the bound is never met).
-/
import Idealize.ShloMosaic.PureOps.Ideal
import Idealize.ShloMosaic.Lib.ValueIdx

noncomputable section

namespace Cert.Lookup

open Idealize.ShloMosaic Idealize.ShloMosaic.ValueIdx

/-- The row of the table a word names: its unsigned value, capped at the last row. -/
def rowOfWord (w : BitVec 32) : Fin 1000000 := ⟨min w.toNat 999999, by omega⟩

theorem rowOfWord_val_of_lt {w : BitVec 32} (h : w.toNat < 1000000) : (rowOfWord w).val = w.toNat := by
  unfold rowOfWord; simp only; omega

/-- The looked-up rows: `rowsOf W ids [b, s, d] = W [ids [b, s], d]`. -/
def rowsOf {α : Type} (W : (⟨2, ![1000000, 128]⟩ : Shape).Idx → α) (ids : (⟨2, ![1024, 200]⟩ : Shape).Idx → BitVec 32) :
    (⟨3, ![1024, 200, 128]⟩ : Shape).Idx → α :=
  fun j => W (ix2 (rowOfWord (ids (ix2 (n0 := 1024) (n1 := 200) (j 0) (j 1)))) (j 2 : Fin 128))

theorem rowsOf_apply {α : Type} (W : (⟨2, ![1000000, 128]⟩ : Shape).Idx → α) (ids : (⟨2, ![1024, 200]⟩ : Shape).Idx → BitVec 32)
    (b : Fin 1024) (s : Fin 200) (d : Fin 128) :
    rowsOf W ids (ix3 b s d) = W (ix2 (rowOfWord (ids (ix2 b s))) d) := rfl

end Cert.Lookup

end
-- ==== Proof.RefValue.lean ====
/-
  The lookup's term is the specification, under the range fact.

  Suppose every word of `ids` is, as a signed integer, in `0 … 999999` — what the precondition's last conjunct
  (`0 ≤ ids` and `ids ≤ 999999` at every word, both signed) says. Then
  * no word is negative, so wrapping changes none: the start index at position `[b, s]` is the word `ids[b, s]`;
  * each start index passes both comparisons, so the `and` over the unit axis is 1 at every position and the
    select keeps the gathered entry everywhere: the constant `0x7FC00000` is never taken;
  * the gather reads its start index signed and moves it into `0 … 999999`; a word already there is left alone, and
    its signed and unsigned readings agree, so the row read is the one the specification names, `min (ids[b, s]) 999999`.
  Entry `[b, s, d]` of the term is therefore `W[ids[b, s], d]`.
-/
import proofs.«206832_g86208583565466_cont_sun_m_1057_30_alg».proof.Proof.RefTerm
import proofs.«206832_g86208583565466_cont_sun_m_1057_30_alg».proof.Proof.Spec
import proofs.«206832_g86208583565466_cont_sun_m_1057_30_alg».proof.Proof.PreRange
import Idealize.ShloMosaic.Lib.ValueIdx
import Idealize.ShloMosaic.Lib.ReduceAll

noncomputable section

namespace Cert.ReferenceIdeal.RefSide

open Cert.ReferenceIdeal Cert.ReferenceIdeal.Gen Idealize.ShloMosaic Idealize.ShloMosaic.ValueIdx
open Cert.Proof.PreRange (toInt_toNat_of_nonneg toInt_zero32 toInt_max32)

/-! ## An `and` over words that are all 1 -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- A reduction by `and`, from 1, of an array whose entries are all 1 is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## The gather of rows at a `[B, S, 1]` array of start indices, read at an index -/

section Gather
variable {α : Type}

/-- The dimension numbers of `W[ids]` for a table `[N, D]` and start indices `[B, S, 1]`: the table's row axis is
    collapsed and is the one a start index addresses, a whole row (one by `D`) is taken, and its entries run along the
    last axis of the result `[B, S, D]`. -/
abbrev rows3Dims (N B S D : Nat)
    (wf : GatherDims.WF ⟨2, ![N, D]⟩ ⟨3, ![B, S, 1]⟩ ⟨3, ![B, S, D]⟩ [2] [0] [] [0] [] 2 ![1, D]) :
    GatherDims ⟨2, ![N, D]⟩ ⟨3, ![B, S, 1]⟩ ⟨3, ![B, S, D]⟩ where
  offsetDims := [2]
  collapsedSliceDims := [0]
  operandBatchingDims := []
  startIndicesBatchingDims := []
  startIndexMap := [0]
  indexVectorDim := 2
  sliceSizes := ![1, D]
  wf := wf

/-- THE GATHER READ AT `(b, s, d)`: entry `d` of the row that the start index `idx[b, s, 0]` names, the index read
    signed and moved into `0 … N − 1`. -/
theorem gather_rows3_apply {N B S D w : Nat} (hN : 0 < N)
    (wf : GatherDims.WF ⟨2, ![N, D]⟩ ⟨3, ![B, S, 1]⟩ ⟨3, ![B, S, D]⟩ [2] [0] [] [0] [] 2 ![1, D])
    (x : (⟨2, ![N, D]⟩ : Shape).Idx → α) (idx : IVec ⟨3, ![B, S, 1]⟩ w) (b : Fin B) (s : Fin S) (d : Fin D) :
    Host.gather (rows3Dims N B S D wf) x idx (ix3 b s d)
      = x (ix2 ⟨min (idx (ix3 b s (0 : Fin 1))).toInt.toNat (N - 1), by omega⟩ d) := by
  unfold Host.gather
  congr 1
  funext a
  refine Fin.ext ?_
  match a with
  | ⟨0, _⟩ =>
    show (rows3Dims N B S D wf).start (ix3 b s d) idx 0 + (rows3Dims N B S D wf).batchCoord (ix3 b s d) 0
      + (rows3Dims N B S D wf).offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N B S D wf).startIndexMap from List.mem_singleton.mpr rfl)]
    have hsi : (rows3Dims N B S D wf).siIdx (ix3 b s d) ⟨List.idxOf (0 : Fin 2) (rows3Dims N B S D wf).startIndexMap,
        List.idxOf_lt_length_iff.2 (List.mem_singleton.mpr rfl)⟩ = ix3 b s (0 : Fin 1) := by
      funext e; refine Fin.ext ?_
      match e with
      | ⟨0, _⟩ => rfl
      | ⟨1, _⟩ => rfl
      | ⟨2, _⟩ => rfl
    rw [hsi]
    rfl
  | ⟨1, _⟩ =>
    show (rows3Dims N B S D wf).start (ix3 b s d) idx 1 + (rows3Dims N B S D wf).batchCoord (ix3 b s d) 1
      + (rows3Dims N B S D wf).offCoord (ix3 b s d) 1 = d.val
    rw [GatherDims.batchCoord_eq_zero _ _ _ List.not_mem_nil]
    have hs : (rows3Dims N B S D wf).start (ix3 b s d) idx 1 = 0 := by
      unfold GatherDims.start
      rw [dif_neg (show (1 : Fin 2) ∉ ([0] : List (Fin 2)) by decide)]
    rw [hs]
    have hk : (1 : Fin 2) ∈ (rows3Dims N B S D wf).sKept :=
      (GatherDims.mem_sKept _ _).mpr ⟨(show (1 : Fin 2) ∉ ([0] : List (Fin 2)) by decide), List.not_mem_nil⟩
    unfold GatherDims.offCoord
    rw [dif_pos hk]
    simp only [Nat.zero_add]
    rfl

end Gather

/-! ## The start indices and the test, under the range fact -/

section Range
variable (ids : IVec S1024x200 32) (hr : ∀ j, 0 ≤ (ids j).toInt ∧ (ids j).toInt ≤ 999999)
include hr

/-- No word is negative, so wrapping changes none. -/
theorem wrapIds_apply (b : Fin 1024) (s : Fin 200) : wrapIds ids (ix2 b s) = ids (ix2 b s) := by
  show Scalar.select (IntOp.cmpi .slt (ids (ix2 b s)) 0#32) (IntOp.addi (ids (ix2 b s)) 1000000#32) (ids (ix2 b s)) = _
  have hn : ¬ IntOp.cmpi .slt (ids (ix2 b s)) 0#32 = 1#1 := fun e => by
    have h1 := IntOp.cmpi_slt.mp e
    rw [toInt_zero32] at h1
    have h2 := (hr (ix2 b s)).1
    omega
  exact if_neg hn

omit hr in
/-- The start index at `[b, s, 0]` is the wrapped word at `[b, s]`. -/
theorem startIdx_apply' (b : Fin 1024) (s : Fin 200) : startIdx ids (ix3 b s (0 : Fin 1)) = wrapIds ids (ix2 b s) := by
  unfold startIdx broadcastInDim
  refine congrArg (wrapIds ids) (funext fun a => Fin.ext ?_)
  match a with
  | ⟨0, _⟩ => rfl
  | ⟨1, _⟩ => rfl

/-- Under the range fact the start index at `[b, s, 0]` is the word `ids[b, s]` itself. -/
theorem startIdx_apply (b : Fin 1024) (s : Fin 200) : startIdx ids (ix3 b s (0 : Fin 1)) = ids (ix2 b s) := by
  rw [startIdx_apply', wrapIds_apply ids hr]

/-- Every start index passes both comparisons. -/
theorem inRange_eq_one (i : S1024x200x1.Idx) : inRange ids i = 1#1 := by
  obtain ⟨b, s, u, rfl⟩ : ∃ (b : Fin 1024) (s : Fin 200) (u : Fin 1), i = ix3 b s u := ⟨i 0, i 1, i 2, eq_ix3 i⟩
  obtain rfl : u = 0 := Subsingleton.elim _ _
  have hv := startIdx_apply ids hr b s
  refine IntOp.andi_eq_one.mpr ⟨IntOp.cmpi_sge.mpr ?_, IntOp.cmpi_sle.mpr ?_⟩
  · show (0#32 : BitVec 32).toInt ≤ (startIdx ids (ix3 b s (0 : Fin 1))).toInt
    rw [hv, toInt_zero32]; exact (hr _).1
  · show (startIdx ids (ix3 b s (0 : Fin 1))).toInt ≤ (999999#32 : BitVec 32).toInt
    rw [hv, toInt_max32]; exact (hr _).2

/-- So the test holds at every entry of the result. -/
theorem mask_eq_one (j : S1024x200x128.Idx) : mask ids j = 1#1 := by
  unfold mask broadcastInDim
  exact reduce_andi_ones _ _ _ _ (inRange_eq_one ids hr) rfl _

end Range

/-! ## The term is the specification -/

variable {F : FTy → Type} [FloatOps F]

/-- Under the range fact the lookup's term is `rowsOf`: entry `[b, s, d]` is `W[ids[b, s], d]`. -/
theorem takeTerm_eq_rowsOf (W : FVec F S1000000x128 .f32) (ids : IVec S1024x200 32)
    (hr : ∀ j, 0 ≤ (ids j).toInt ∧ (ids j).toInt ≤ 999999) :
    takeTerm W ids = Cert.Lookup.rowsOf W ids := by
  funext j
  obtain ⟨b, s, d, rfl⟩ : ∃ (b : Fin 1024) (s : Fin 200) (d : Fin 128), j = ix3 b s d := ⟨j 0, j 1, j 2, eq_ix3 j⟩
  rw [Cert.Lookup.rowsOf_apply]
  unfold takeTerm
  rw [select_apply, mask_eq_one ids hr, select_one]
  refine (gather_rows3_apply (N := 1000000) (B := 1024) (S := 200) (D := 128) (by decide)
    gather_S1000000x128_S1024x200x1_S1024x200x128_2_0_n_n_0_2_1128_wf W (startIdx ids) b s d).trans ?_
  refine congrArg (fun r : Fin 1000000 => W (ix2 r d)) (Fin.ext ?_)
  show min (startIdx ids (ix3 b s (0 : Fin 1))).toInt.toNat (1000000 - 1) = min (ids (ix2 b s)).toNat 999999
  rw [startIdx_apply ids hr, toInt_toNat_of_nonneg _ (hr _).1]

/-! ## The range fact, from the precondition -/

/-- The precondition's last conjunct read back: every word is, as a signed integer, in `0 … 999999`. -/
theorem ids_range_of_pre (ids : IVec Cert.Pre_input_domain.S1024x200 32) (W : FVec F Cert.Pre_input_domain.S1000000x128 .f32)
    (P : FVec F Cert.Pre_input_domain.S512x128 .f32) (g b : FVec F Cert.Pre_input_domain.S128 .f32)
    (h : Cert.Pre_input_domain.fn (F := F) ids W P g b = fun _ => 1#1) :
    ∀ j, 0 ≤ (ids j).toInt ∧ (ids j).toInt ≤ 999999 :=
  Cert.Proof.PreRange.ids_range_of_fn ids W P g b h

end Cert.ReferenceIdeal.RefSide

end
-- ==== Proof.RefSide.lean ====
/-
  The reference, run and read under the precondition.

  Every weakly fair execution of the reference from a memory with zero counters terminates without a fault and leaves
  the five arguments unchanged (the run). Under the precondition every word of `ids` is, as a signed integer, in
  `0 … 999999`; the result the run leaves is then the embedding lookup of the specification: entry `[b, s, d]` is
  `W[ids[b, s], d]`.
-/
import proofs.«206832_g86208583565466_cont_sun_m_1057_30_alg».proof.Proof.RefArgs
import proofs.«206832_g86208583565466_cont_sun_m_1057_30_alg».proof.Proof.RefValue
import proofs.«206832_g86208583565466_cont_sun_m_1057_30_alg».proof.Defs

noncomputable section

namespace Cert.ReferenceIdeal.RefSide

open Idealize.ShloMosaic Idealize.SL.Sem Cert.ReferenceIdeal in
/-- From any memory with zero counters of which the precondition holds, every weakly fair execution of the reference
    terminates, nothing faulting; the result is the specification's lookup of the table `main_arg1` at the words
    `main_arg0`, and the five arguments are unchanged. -/
theorem run (m : (ℓ : Loc nD τ sig) → Buf (Elt Ideal) ℓ) (ρ : Dev nD → PrngReg) (hpre : Cert.Pre_ReferenceIdeal m) :
    θ_run (Cert.ReferenceIdeal.defs (F := Ideal)) (onTc (τ := τ) (main (F := Ideal))) ⟨m, fun _ => 0, ρ⟩ (fun r => ∀ c : Dev nD,
      r.2.mem ((c.tc : Thread nD τ).loc main_v25) = Cert.Lookup.rowsOf (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => by
      obtain ⟨h0, hrest⟩ := h c
      refine ⟨?_, hrest⟩
      rw [h0]
      exact takeTerm_eq_rowsOf _ _ (ids_range_of_pre _ _ _ _ _ (hpre c)))
    (run_term (F := Ideal) m ρ)

end Cert.ReferenceIdeal.RefSide

end
-- ==== Proof.KBCommon.lean ====
/-
  The lookup kernel's common vocabulary: the device program as the launch theorem reads it, the arrays as each
  processor addresses them, and how the work is cut. Thirty-two vector subcores (two SparseCores of sixteen) each take
  6400 consecutive rows of the flattened index list: subcore `s` of core `c` is worker `2 s + c` and owns rows
  `[6400 (2 s + c), 6400 (2 s + c + 1))`. A worker moves its rows in eighty chunks of eighty: chunk `(t, j)`
  (trip `t < 8`, buffer `j < 10`) is rows `6400 w + 800 t + 80 j` onward, so the 204800 result rows are 2560 chunks,
  chunk number `80 w + 10 t + j`. The table is only read: every transfer in flight holds a share of it, a piece of
  the left half of the full share cut in thirty-two (one per worker), each cut in ten (one per buffer); the right half is kept back.
-/
import proofs.«206832_g86208583565466_cont_sun_m_1057_30_alg».proof.Defs
import proofs.«206832_g86208583565466_cont_sun_m_1057_30_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206832_g86208583565466_cont_sun_m_1057_30_alg».proof.Proof.Gen.Kernel
import proofs.«206832_g86208583565466_cont_sun_m_1057_30_alg».proof.Proof.Gen.Kernel.Skeleton

noncomputable section

namespace Cert.Proof.KernelCommon

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index list as given, `[1024, 200]`. -/
abbrev aLoc (d : Dev nD) : Loc nD τ sig := (SparseCore.T d).loc main_arg0
/-- The table. -/
abbrev xLoc (d : Dev nD) : Loc nD τ sig := (SparseCore.T d).loc main_arg1
/-- The index list flattened, `[204800]`. -/
abbrev iLoc (d : Dev nD) : Loc nD τ sig := (SparseCore.T d).loc main_v0
/-- The looked-up rows, `[204800, 128]`. -/
abbrev oLoc (d : Dev nD) : Loc nD τ sig := (SparseCore.T d).loc main_v1
/-- The result, `[1024, 200, 128]`. -/
abbrev rLoc (d : Dev nD) : Loc nD τ sig := (SparseCore.T d).loc main_v2

local notation "xV" => (Memref.whole Cert.Kernel.main_arg1_scv : Memref Cert.Kernel.sig Kind.scVector Space.hbm Cert.Kernel.S1000000x128 EltTy.f32)
local notation "iV" => (Memref.whole Cert.Kernel.main_v0_scv : Memref Cert.Kernel.sig Kind.scVector Space.hbm Cert.Kernel.S204800 EltTy.i32)
local notation "oV" => (Memref.whole Cert.Kernel.main_v1_scv : Memref Cert.Kernel.sig Kind.scVector Space.hbm Cert.Kernel.S204800x128 EltTy.f32)

/-- The flattened index list as the host's reshape leaves it. -/
def ids0 (d : Dev nD) : Buf (Elt F) (iLoc d) := shapeCast S204800 (m (aLoc d)) shapeCasts_S1024x200_S204800

/-- What the kernel leaves in the looked-up rows: row `r` is the table's row named by word `r` of the flattened list. -/
def rows0 (d : Dev nD) : Buf (Elt F) (oLoc d) :=
  fun x => m (xLoc d) (ix2 (Cert.Lookup.rowOfWord (ids0 m d (ix1 (n := 204800) (x 0)))) (x 1 : Fin 128))

attribute [irreducible] ids0 rows0

/-! ## The cut of the rows -/

/-- Worker number of subcore `s` of core `c`. -/
def wk (c : Fin 2) (s : Fin 16) : Fin 32 := ⟨2 * s.val + c.val, by omega⟩
/-- Chunk number of worker `w`'s chunk `(t, j)`. -/
def ck (w : Fin 32) (t : Fin 8) (j : Fin 10) : Fin 2560 := ⟨80 * w.val + 10 * t.val + j.val, by omega⟩

theorem idiv : 32 ∣ S204800.size 0 := ⟨6400, rfl⟩
theorem odiv : 2560 ∣ S204800x128.size 0 := ⟨80, rfl⟩
abbrev irow (w : Fin 32) : Rect S204800 := Rect.part (s := S204800) (a₀ := 0) idiv w
abbrev orow (g : Fin 2560) : Rect S204800x128 := Rect.part (s := S204800x128) (a₀ := 0) odiv g
abbrev iRowSet (w : Fin 32) : Finset S204800.Idx := ((iV).view.slice (irow w)).set
abbrev oRowSet (g : Fin 2560) : Finset S204800x128.Idx := ((oV).view.slice (orow g)).set

/-! ## Shares of the table -/

/-- The share of the table worker `w` lends with buffer `j`: the left half of the full share cut in thirty-two, each piece in ten. -/
def xq (w : Fin 32) (j : Fin 10) : PosShare TreeShare :=
  pieceOf (pieceOf (fullShare : PosShare TreeShare).left 32 (by decide) w) 10 (by decide) j

variable [FloatOps F]

/-! ## What the handshakes carry -/

abbrev iRowPts (d : Dev nD) (w : Fin 32) : sProp 𝕄 := iLoc d ↦[iRowSet w]{fullShare} ids0 m d
abbrev xShPts (d : Dev nD) (w : Fin 32) (j : Fin 10) : sProp 𝕄 := xLoc d ↦{xq w j} m (xLoc d)
abbrev oRowPts (d : Dev nD) (g : Fin 2560) (f : Buf (Elt F) (oLoc d)) : sProp 𝕄 := oLoc d ↦[oRowSet g]{fullShare} f

/-- What worker `w` is handed: its rows of the flattened list, ten shares of the table, its eighty chunks of the result. -/
abbrev tilePts (d : Dev nD) (w : Fin 32) (f : Buf (Elt F) (oLoc d)) : sProp 𝕄 :=
  iprop(iRowPts m d w ∗ (bigSep Finset.univ fun j : Fin 10 => xShPts m d w j)
    ∗ bigSep Finset.univ fun t : Fin 8 => bigSep Finset.univ fun j : Fin 10 => oRowPts d (ck w t j) f)

/-- A SparseCore's sequencer is handed its sixteen workers' parts at once and hands them on unchanged. -/
def P : (K (F := F)).Pay (nD := nD) (Val := Elt F) (Name := ℕ) (U := UU) where
  st := fun q d c => match q with
    | 0 => bigSep Finset.univ fun s : Fin 16 => tilePts m d (wk (Fin.cast nCore_zero c) s) (m (oLoc d))
  dn := fun q d c => match q with
    | 0 => bigSep Finset.univ fun s : Fin 16 => tilePts m d (wk (Fin.cast nCore_zero c) s) (rows0 m d)
  go := fun q d c i => match q with
    | 0 => tilePts m d (wk (Fin.cast nCore_zero c) (Fin.cast nSub_zero i)) (m (oLoc d))
  td := fun q d c i => match q with
    | 0 => tilePts m d (wk (Fin.cast nCore_zero c) (Fin.cast nSub_zero i)) (rows0 m d)
  x := fun _ _ => iprop(emp)

set_option maxHeartbeats 4000000 in
instance P_storable : (P (F := F) m).IsStorable where
  st q d c := match q with
    | 0 => (inferInstance : BI.Storable (upEmb : UEmb _ 𝕄) (bigSep Finset.univ fun s : Fin 16 => tilePts m d (wk (Fin.cast nCore_zero c) s) (m (oLoc d))))
  dn q d c := match q with
    | 0 => (inferInstance : BI.Storable (upEmb : UEmb _ 𝕄) (bigSep Finset.univ fun s : Fin 16 => tilePts m d (wk (Fin.cast nCore_zero c) s) (rows0 m d)))
  go q d c i := match q with
    | 0 => (inferInstance : BI.Storable (upEmb : UEmb _ 𝕄) (tilePts m d (wk (Fin.cast nCore_zero c) (Fin.cast nSub_zero i)) (m (oLoc d))))
  td q d c i := match q with
    | 0 => (inferInstance : BI.Storable (upEmb : UEmb _ 𝕄) (tilePts m d (wk (Fin.cast nCore_zero c) (Fin.cast nSub_zero i)) (rows0 m d)))

/-- What the proof asks of the launch memory: every word of the index list names a row of the table. -/
def PreOK : Prop := ∀ (d : Dev nD) (j : S1024x200.Idx), (m (aLoc d) j).toNat < 1000000

end Cert.Proof.KernelCommon

end
-- ==== Proof.KBSplit.lean ====
/-
  How the three arrays of the call are cut among the thirty-two workers, and that the parts rejoin. The flattened
  index list is cut into the workers' row sets (thirty-two disjoint blocks of 6400 rows that cover it); the looked-up
  rows into 2560 chunks of eighty rows, worker `w` holding chunks `80 w + 10 t + j`; the table is only read, so its
  left half-share is cut into 320 pieces, ten for each worker. Worker numbers `2 s + c` run once through `0 … 31` as
  the core `c` and the subcore `s` run through theirs, and chunk numbers once through `0 … 2559`: the cut indexed by
  (core, subcore) is the cut indexed by worker, re-indexed along a bijection. Every part carries the same contents as
  the whole, so the parts joined are the whole at those contents.
-/
import proofs.«206832_g86208583565466_cont_sun_m_1057_30_alg».proof.Proof.KBCommon

noncomputable section

namespace Cert.Proof.KernelLaunch

open Cert.Kernel Cert.Kernel.Gen
open Cert.Proof.KernelCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## Worker and chunk numbers are bijections -/

/-- `(c, s) ↦ 2 s + c`: core is the parity, subcore the half. -/
def wkE : Fin 2 × Fin 16 ≃ Fin 32 where
  toFun p := wk p.1 p.2
  invFun w := (⟨w.val % 2, by omega⟩, ⟨w.val / 2, by omega⟩)
  left_inv p := by
    rcases p with ⟨c, s⟩
    refine Prod.ext (Fin.ext ?_) (Fin.ext ?_) <;> simp only [wk] <;> omega
  right_inv w := Fin.ext (by simp only [wk]; omega)

/-- `(w, t, j) ↦ 80 w + 10 t + j`: the digits of the chunk number in the mixed base `(32, 8, 10)`. -/
def ckE : Fin 32 × Fin 8 × Fin 10 ≃ Fin 2560 where
  toFun p := ck p.1 p.2.1 p.2.2
  invFun g := (⟨g.val / 80, by omega⟩, ⟨g.val % 80 / 10, by omega⟩, ⟨g.val % 10, by omega⟩)
  left_inv p := by
    rcases p with ⟨w, t, j⟩
    refine Prod.ext (Fin.ext ?_) (Prod.ext (Fin.ext ?_) (Fin.ext ?_)) <;> simp only [ck] <;> omega
  right_inv g := Fin.ext (by simp only [ck]; omega)

/-- A family over the workers, dealt by core and subcore. -/
theorem bigSep_wk (Φ : Fin 32 → sProp 𝕄) :
    bigSep Finset.univ Φ = bigSep Finset.univ fun c : Fin 2 => bigSep Finset.univ fun s : Fin 16 => Φ (wk c s) := by
  rw [bigSep_univ_equiv wkE Φ, bigSep_univ_prod]
  rfl

/-- A family over the chunks, dealt by worker, trip and buffer. -/
theorem bigSep_ck (Ψ : Fin 2560 → sProp 𝕄) :
    bigSep Finset.univ Ψ
      = bigSep Finset.univ fun w : Fin 32 => bigSep Finset.univ fun t : Fin 8 => bigSep Finset.univ fun j : Fin 10 => Ψ (ck w t j) := by
  rw [bigSep_univ_equiv ckE Ψ, bigSep_univ_prod]
  refine bigSep_congr fun w _ => ?_
  rw [bigSep_univ_prod]
  rfl

/-! ## The row sets: disjoint, and they cover -/

theorem iRowSet_eq (w : Fin 32) : iRowSet w = (irow w).set := by
  show ((View.whole (main_v0_scv : Ref sig .scVector)).slice (irow w)).set = _
  rw [View.set_slice]; exact Finset.map_refl
theorem oRowSet_eq (g : Fin 2560) : oRowSet g = (orow g).set := by
  show ((View.whole (main_v1_scv : Ref sig .scVector)).slice (orow g)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 2560)), ∀ j ∈ (Finset.univ : Finset (Fin 2560)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 2560)).biUnion oRowSet = Finset.univ :=
  (Finset.biUnion_congr rfl fun i _ => oRowSet_eq i).trans (Rect.biUnion_part odiv)

/-- The flattened list, whole, is its thirty-two row sets at the same contents. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
/-- The looked-up rows, whole, are their 2560 chunks at the same contents. -/
theorem oPts_rows (d : Dev nD) (f : Buf (Elt F) (oLoc d)) :
    (oLoc d ↦{fullShare} f : sProp 𝕄) = bigSep Finset.univ fun g : Fin 2560 => oLoc d ↦[oRowSet g]{fullShare} f := by
  rw [← pointsTo_biUnion Finset.univ (ℓ := oLoc d) oRowSet orows_disjoint, orows_cover]; try rfl

/-! ## The table's shares -/

/-- The table at the full share is its two half-shares. -/
theorem xPts_halves (d : Dev nD) (f : Buf (Elt F) (xLoc d)) :
    (xLoc d ↦{fullShare} f : sProp 𝕄)
      = iprop((xLoc d ↦{(fullShare : PosShare TreeShare).left} f) ∗ xLoc d ↦{(fullShare : PosShare TreeShare).right} f) :=
  BI.Entails.antisymm (pointsTo_share (PosShare.mem_left_op_right fullShare)).1 (pointsTo_share (PosShare.mem_left_op_right fullShare)).2

/-- The left half-share is the 320 pieces: thirty-two, each cut in ten. -/
theorem xLeft_pieces (d : Dev nD) (f : Buf (Elt F) (xLoc d)) :
    (xLoc d ↦{(fullShare : PosShare TreeShare).left} f : sProp 𝕄)
      = bigSep Finset.univ fun w : Fin 32 => bigSep Finset.univ fun j : Fin 10 => xLoc d ↦{xq w j} f := by
  rw [pointsTo_piecesOf Finset.univ f (o := 32) (by decide) (fullShare : PosShare TreeShare).left]
  refine bigSep_congr fun w _ => ?_
  rw [pointsTo_piecesOf Finset.univ f (o := 10) (by decide) (pieceOf (fullShare : PosShare TreeShare).left 32 (by decide) w)]
  rfl

variable [FloatOps F]

/-! ## All the workers' parts are the three arrays -/

/-- The parts of all thirty-two workers, dealt by core and subcore, with the looked-up rows at contents `f`, are: the
    flattened list whole, the table at the left half-share, the looked-up rows whole at `f`. Read left to right it
    joins what the call brings back; right to left it deals what the call takes. -/
theorem tiles_eq (d : Dev nD) (f : Buf (Elt F) (oLoc d)) :
    (bigSep Finset.univ fun c : Fin 2 => bigSep Finset.univ fun s : Fin 16 => tilePts m d (wk c s) f)
      = iprop((iLoc d ↦{fullShare} ids0 m d) ∗ (xLoc d ↦{(fullShare : PosShare TreeShare).left} m (xLoc d)) ∗ oLoc d ↦{fullShare} f) := by
  rw [← bigSep_wk (F := F) (fun w => tilePts m d w f)]
  show (bigSep Finset.univ fun w : Fin 32 => iprop(iRowPts m d w ∗ (bigSep Finset.univ fun j : Fin 10 => xShPts m d w j)
      ∗ bigSep Finset.univ fun t : Fin 8 => bigSep Finset.univ fun j : Fin 10 => oRowPts d (ck w t j) f)) = _
  rw [bigSep_sep', bigSep_sep', ← bigSep_ck (F := F) (fun g => oRowPts d g f), ← oPts_rows, ← xLeft_pieces, ← iPts_rows]

end Cert.Proof.KernelLaunch

end
-- ==== Proof.KBLaunch.lean ====
/-
  The launch side of the lookup kernel's run. @main on the TensorCore flattens the index list (a host reshape), calls
  the two SparseCores, and regroups the looked-up rows (a second host reshape). Before the call the TensorCore deals
  the call's three arrays to the thirty-two workers: the flattened list by row sets, the looked-up rows by chunks, the
  table — only read — by pieces of the left half of its share, the right half kept back. Each sequencer is handed its
  sixteen workers' parts at once and hands them on unchanged, so its split is the identity up to the names of the
  subcores. After the call every chunk of the looked-up rows holds the same function (row `r` is the table's row named
  by word `r`), so the chunks rejoin into the whole array at that function; the list's rows and the table's pieces
  are no longer needed. What is left at the end: the five arguments at their launch contents (the table at the
  half-share kept back) and the result at the regrouped rows; the final memory agrees with each.
-/
import proofs.«206832_g86208583565466_cont_sun_m_1057_30_alg».proof.Proof.KBCommon
import proofs.«206832_g86208583565466_cont_sun_m_1057_30_alg».proof.Proof.KBSplit

noncomputable section

namespace Cert.Proof.KernelLaunch

open Cert.Kernel Cert.Kernel.Gen
open Cert.Proof.KernelCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry, as equations -/

theorem P_st (d : Dev nD) (c : Fin ((K (F := F)).nCore 0)) :
    (P m).st 0 d c = bigSep Finset.univ fun s : Fin 16 => tilePts m d (wk (Fin.cast nCore_zero c) s) (m (oLoc d)) := by
  unfold P; rfl
theorem P_dn (d : Dev nD) (c : Fin ((K (F := F)).nCore 0)) :
    (P m).dn 0 d c = bigSep Finset.univ fun s : Fin 16 => tilePts m d (wk (Fin.cast nCore_zero c) s) (rows0 m d) := by
  unfold P; rfl
theorem P_go (d : Dev nD) (c : Fin ((K (F := F)).nCore 0)) (i : Fin ((K (F := F)).nSub 0)) :
    (P m).go 0 d c i = tilePts m d (wk (Fin.cast nCore_zero c) (Fin.cast nSub_zero i)) (m (oLoc d)) := by
  unfold P; rfl
theorem P_td (d : Dev nD) (c : Fin ((K (F := F)).nCore 0)) (i : Fin ((K (F := F)).nSub 0)) :
    (P m).td 0 d c i = tilePts m d (wk (Fin.cast nCore_zero c) (Fin.cast nSub_zero i)) (rows0 m d) := by
  unfold P; rfl

omit [FloatOps F] in
/-- The call's subcores are the sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
/-- The call's cores are the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## A sequencer's split: its sixteen workers' parts, handed on as they are -/

theorem go_all (d : Dev nD) (c : Fin ((K (F := F)).nCore 0)) :
    (bigSep Finset.univ fun i : Fin ((K (F := F)).nSub 0) => (P m).go 0 d c i) = (P m).st 0 d c := by
  simp only [P_go, P_st]
  exact bigSep_tasks (F := F) fun s => tilePts m d (wk (Fin.cast nCore_zero c) s) (m (oLoc d))
theorem td_all (d : Dev nD) (c : Fin ((K (F := F)).nCore 0)) :
    (bigSep Finset.univ fun i : Fin ((K (F := F)).nSub 0) => (P m).td 0 d c i) = (P m).dn 0 d c := by
  simp only [P_td, P_dn]
  exact bigSep_tasks (F := F) fun s => tilePts m d (wk (Fin.cast nCore_zero c) s) (rows0 m d)

theorem vecSplit : (K (F := F)).VecSplit' (P m) 0 := by
  intro d c
  rw [go_all, td_all]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The host's two reshapes: the list flattened, the rows regrouped. -/
abbrev opIn : HloOp τ sig (Elt F) := StableHlo.reshape main_arg0 main_v0 rfl shapeCasts_S1024x200_S204800
abbrev opOut : HloOp τ sig (Elt F) := StableHlo.reshape main_v1 main_v2 rfl shapeCasts_S204800x128_S1024x200x128
abbrev Sin : Finset (DevRef τ sig) := {a', i'}
abbrev Sout : Finset (DevRef τ sig) := {o', r'}

/-- The regrouped rows. -/
abbrev res0 (d : Dev nD) : Buf (Elt F) (rLoc d) := shapeCast S1024x200x128 (rows0 m d) shapeCasts_S204800x128_S1024x200x128

omit [FloatOps F] in
theorem held_Sin (d : Dev nD) (W : Valuation τ sig (Elt F)) :
    (held (T d) Sin W : sProp 𝕄) = iprop((aLoc d ↦{fullShare} W a') ∗ iLoc d ↦{fullShare} W i') := by
  unfold held Sin
  rw [SparseCore.bigSep_insert' (by decide), bigSep_singleton]
omit [FloatOps F] in
theorem held_Sout (d : Dev nD) (W : Valuation τ sig (Elt F)) :
    (held (T d) Sout W : sProp 𝕄) = iprop((oLoc d ↦{fullShare} W o') ∗ rLoc d ↦{fullShare} W r') := by
  unfold held Sout
  rw [SparseCore.bigSep_insert' (by decide), bigSep_singleton]

omit [FloatOps F] in
/-- @main's eight arrays, one by one. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_arg1)
          ∗ ((SparseCore.T d).loc main_arg2 ↦{fullShare} W main_arg2) ∗ ((SparseCore.T d).loc main_arg3 ↦{fullShare} W main_arg3)
          ∗ ((SparseCore.T d).loc main_arg4 ↦{fullShare} W main_arg4)
          ∗ (iLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_arg1, main_arg2, main_arg3, main_arg4, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; and the one after the call, the looked-up rows in place. -/
def V0 (d : Dev nD) : Valuation τ sig (Elt F) := fun b => m (d, b)
def V1 (d : Dev nD) : Valuation τ sig (Elt F) := Function.update (V0 m d) o' (rows0 m d)

omit [FloatOps F] in
theorem V1_o (d : Dev nD) : V1 m d o' = rows0 m d := Function.update_self _ _ _
omit [FloatOps F] in
theorem V1_r (d : Dev nD) : V1 m d r' = m (rLoc d) := Function.update_of_ne (show r' ≠ o' by decide) _ _

omit [FloatOps F] in
/-- After the first reshape: the list as given, and the list flattened. -/
theorem held_in (d : Dev nD) :
    (held (T d) Sin ((opIn (F := F)).result (V0 m d)) : sProp 𝕄) = iprop((aLoc d ↦{fullShare} m (aLoc d)) ∗ iLoc d ↦{fullShare} ids0 m d) := by
  rw [held_Sin, (opIn (F := F)).result_of_not_mem (V0 m d) (b := a') (show a' ∉ ({i'} : Finset (DevRef τ sig)) by decide),
    StableHlo.reshape_result]
  unfold ids0
  rfl
omit [FloatOps F] in
/-- After the second: the looked-up rows, and the rows regrouped. -/
theorem held_out (d : Dev nD) :
    (held (T d) Sout ((opOut (F := F)).result (V1 m d)) : sProp 𝕄) = iprop((oLoc d ↦{fullShare} rows0 m d) ∗ rLoc d ↦{fullShare} res0 m d) := by
  rw [held_Sout, (opOut (F := F)).result_of_not_mem (V1 m d) (b := o') (show o' ∉ ({r'} : Finset (DevRef τ sig)) by decide),
    StableHlo.reshape_result, V1_o]
  rfl

/-- Both SparseCores' operands are all thirty-two workers' parts. -/
theorem st0_eq (d : Dev nD) :
    (bigSep Finset.univ fun c : Fin ((K (F := F)).nCore 0) => (P m).st 0 d c)
      = bigSep Finset.univ fun c : Fin 2 => bigSep Finset.univ fun s : Fin 16 => tilePts m d (wk c s) (m (oLoc d)) := by
  simp only [P_st]
  exact bigSep_cores (F := F) fun c => bigSep Finset.univ fun s : Fin 16 => tilePts m d (wk c s) (m (oLoc d))
theorem dn0_eq (d : Dev nD) :
    (bigSep Finset.univ fun c : Fin ((K (F := F)).nCore 0) => (P m).dn 0 d c)
      = bigSep Finset.univ fun c : Fin 2 => bigSep Finset.univ fun s : Fin 16 => tilePts m d (wk c s) (rows0 m d) := by
  simp only [P_dn]
  exact bigSep_cores (F := F) fun c => bigSep Finset.univ fun s : Fin 16 => tilePts m d (wk c s) (rows0 m d)

/-- What @main leaves the claim: the five arguments at their launch contents (the table at the half-share kept back
    from the workers) and the result at the regrouped rows. -/
abbrev FIN (d : Dev nD) : sProp 𝕄 :=
  iprop((aLoc d ↦{fullShare} m (aLoc d)) ∗ (xLoc d ↦{(fullShare : PosShare TreeShare).right} m (xLoc d))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ rLoc d ↦{fullShare} res0 m d)

set_option maxHeartbeats 1600000 in
/-- @main on device `d`'s TensorCore: the list flattened (a host reshape over the two arrays it names, held whole);
    the three arrays of the call dealt to the workers and the call; the chunks rejoined at the looked-up rows; the
    rows regrouped (the second reshape). -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hx, H2, H3, H4, Hi, Ho, Hr⟩, -, -⟩, -⟩
  -- the list flattened
  iapply (wp_hlo_within 𝒱 (SparseCore.T d) none Set.univ (op := opIn) (S := Sin) (Finset.Subset.refl _) (V := V0 m d)) $$ [Hb Ha Hi]
  · isplitl [Hb]; · iexact Hb
    rw [held_Sin]
    isplitl [Ha]; · iexact Ha
    iexact Hi
  iintro ⟨Hb, Hheld⟩
  rw [wp_ret]; imodintro
  ihave Hh := (Entails.of_eq (held_in (F := F) m d)) $$ Hheld
  icases Hh with ⟨Ha, Hi⟩
  -- the table's half kept back; the call, from all the workers' parts
  ihave Hxx := (Entails.of_eq (xPts_halves (F := F) d (m (xLoc d)))) $$ Hx
  icases Hxx with ⟨Hxl, Hxr⟩
  iapply ((K (F := F)).wp_run (D (F := F)) 𝒱 (EH := EH) (P := P m) κ d 0) $$ [Hst Hi Hxl Ho Hb Ha H2 H3 H4 Hr Hxr]
  isplitr; · iexact Hctx
  isplitl [Hst]; · iexact Hst
  isplitl [Hi Hxl Ho]
  · rw [st0_eq, tiles_eq]
    isplitl [Hi]; · iexact Hi
    isplitl [Hxl]; · iexact Hxl
    iexact Ho
  iintro ⟨Hst, Hdn⟩
  ihave Hdn' := (Entails.of_eq ((dn0_eq m d).trans (tiles_eq m d (rows0 m d)))) $$ Hdn
  icases Hdn' with ⟨-, -, Ho⟩
  -- the rows regrouped
  iapply (wp_hlo_within 𝒱 (SparseCore.T d) none Set.univ (op := opOut) (S := Sout) (Finset.Subset.refl _) (V := V1 m d)) $$ [Hb Ho Hr]
  · isplitl [Hb]; · iexact Hb
    rw [held_Sout, V1_o, V1_r]
    isplitl [Ho]; · iexact Ho
    iexact Hr
  iintro ⟨Hb, Hheld⟩
  ihave Hh := (Entails.of_eq (held_out (F := F) m d)) $$ Hheld
  icases Hh with ⟨-, Hr⟩
  rw [wp_ret]; imodintro; imodintro
  isplitl [Hst]; · iexact Hst
  isplitl [Ha]; · iexact Ha
  isplitl [Hxr]; · iexact Hxr
  isplitl [H2]; · iexact H2
  isplitl [H3]; · iexact H3
  isplitl [H4]; · iexact H4
  iexact Hr

/-! ## The final memory -/

def fq (d : Dev nD) (s' : Phys nD τ sig (Elt F)) : Prop :=
  s'.mem.mem (rLoc d) = res0 m d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)

omit [FloatOps F] in
/-- The state agrees with a whole array held at any share; the state is kept. -/
theorem agree_keep (s' : Phys nD τ sig (Elt F)) (ℓ : Loc nD τ sig) (q : PosShare TreeShare) (f : Buf (Elt F) ℓ) :
    iprop(SI s' ∗ ℓ ↦{q} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := q) (f := f))) $$ [HSI Hp]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨Ha, Hx, H2, H3, H4, Hr⟩, HSI⟩
  ihave H := (agree_keep (F := F) s' _ _ _) $$ [HSI Hr]
  · isplitl [HSI] <;> iassumption
  icases H with ⟨%hr, HSI⟩
  ihave H := (agree_keep (F := F) s' _ _ _) $$ [HSI Ha]
  · isplitl [HSI] <;> iassumption
  icases H with ⟨%ha, HSI⟩
  ihave H := (agree_keep (F := F) s' _ _ _) $$ [HSI Hx]
  · isplitl [HSI] <;> iassumption
  icases H with ⟨%hx, HSI⟩
  ihave H := (agree_keep (F := F) s' _ _ _) $$ [HSI H2]
  · isplitl [HSI] <;> iassumption
  icases H with ⟨%h2, HSI⟩
  ihave H := (agree_keep (F := F) s' _ _ _) $$ [HSI H3]
  · isplitl [HSI] <;> iassumption
  icases H with ⟨%h3, HSI⟩
  ihave H := (agree_keep (F := F) s' _ _ _) $$ [HSI H4]
  · isplitl [HSI] <;> iassumption
  icases H with ⟨%h4, -⟩
  ipureintro; exact ⟨hr, ha, hx, h2, h3, h4⟩

/-! ## The program's run -/

/-- The lookup kernel's run, from the proof of one worker's body: every weakly fair execution of the thirty-five threads
    ends, with the result at the regrouped rows and the five arguments as they were. -/
theorem run_main [∀ e, Nonempty (Elt F e)] (hobl : (K (F := F)).TileObl (D (F := F)) 𝒱 (P m) v₀ 0) :
    θ_run (Cert.Kernel.defs (F := F)) (Cert.Kernel.threads (F := F)) ⟨m, fun _ => 0, ρ⟩ (fun r => ∀ c : Dev nD,
      r.2.mem (rLoc c) = shapeCast S1024x200x128 (rows0 m c) shapeCasts_S204800x128_S1024x200x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KernelLaunch

end
-- ==== Proof.KBTile.lean ====
/-
  One worker's task. Worker `w` (vector subcore `s` of SparseCore `c`, `w = 2 s + c`) first copies its 6400 words of
  the flattened index list into its index scratch. It then keeps ten row buffers busy: buffer `j` gathers the table
  rows named by chunk `(t, j)`'s eighty words, and once they have landed is written out to chunk `(t, j)` of the
  result; when that write has drained the buffer gathers chunk `(t + 1, j)`. A buffer is never touched while a
  transfer into or out of it is pending, so each chunk of the result ends holding exactly the gathered rows.
-/
import proofs.«206832_g86208583565466_cont_sun_m_1057_30_alg».proof.Proof.KBCommon

noncomputable section

namespace Cert.Proof.KernelTile

open Cert.Kernel Cert.Kernel.Gen Cert.Proof.KernelCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg1_scv : Memref Cert.Kernel.sig Kind.scVector Space.hbm Cert.Kernel.S1000000x128 EltTy.f32)
local notation "iV" => (Memref.whole Cert.Kernel.main_v0_scv : Memref Cert.Kernel.sig Kind.scVector Space.hbm Cert.Kernel.S204800 EltTy.i32)
local notation "oV" => (Memref.whole Cert.Kernel.main_v1_scv : Memref Cert.Kernel.sig Kind.scVector Space.hbm Cert.Kernel.S204800x128 EltTy.f32)
local notation "lV" => (Memref.whole Cert.Kernel.cc0_scratch0 : Memref Cert.Kernel.sig Kind.scVector Space.vmem Cert.Kernel.S6400 EltTy.i32)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker's number. -/
abbrev wL (L : grid0.Coords) : Fin 32 := wk (Fin.cast bound_zero (L 0)) (Fin.cast bound_one (L 1))

/-- The row buffers and their two families of semaphores, by buffer number. -/
def bufR : Fin 10 → Ref sig .scVector
  | 0 => cc0_scratch1 | 1 => cc0_scratch2 | 2 => cc0_scratch3 | 3 => cc0_scratch4 | 4 => cc0_scratch5
  | 5 => cc0_scratch6 | 6 => cc0_scratch7 | 7 => cc0_scratch8 | 8 => cc0_scratch9 | 9 => cc0_scratch10

/-- The worker's rows of the flattened list, as the task addresses them. -/
abbrev iRowK (L : grid0.Coords) : Memref sig .scVector .hbm S6400 .i32 :=
  (iV).slice (Rect.unit (s := S204800) (k0_off1 L) S6400.size (k0_off1_inb L)) (fun _ => rfl)
/-- Chunk `(t, r)` of the result, as the task addresses it. -/
abbrev oChK (L : grid0.Coords) (t : Fin k0_t1_loop.trips) (r : Fin 10) : Memref sig .scVector .hbm S80x128 .f32 :=
  (oV).slice (Rect.unit (s := S204800x128) (k0_off2 L t (BitVec.ofNat 32 r.val)) S80x128.size (k0_off2_inb L t r)) (fun _ => rfl)

theorem trips_eq : k0_t1_loop.trips = 8 := by decide

theorem irowK_eq : Rect.unit (s := S204800) (k0_off1 L) S6400.size (k0_off1_inb L) = irow (wL L) := by
  unfold irow Rect.part Rect.block
  congr 1 <;> funext a
  · rw [k0_off1_eq]
    match a with
    | 0 =>
      simp [Shape.partIx, Shape.partSize, wk]
      show _ = (2 * (L 1).val + (L 0).val) * 6400
      omega
  · match a with
    | 0 => simp [Shape.partSize]

theorem ochK_eq (t : Fin k0_t1_loop.trips) (r : Fin 10) :
    Rect.unit (s := S204800x128) (k0_off2 L t (BitVec.ofNat 32 r.val)) S80x128.size (k0_off2_inb L t r) = orow (ck (wL L) (Fin.cast trips_eq t) r) := by
  unfold orow Rect.part Rect.block
  congr 1 <;> funext a
  · rw [k0_off2_eq]
    match a with
    | 0 =>
      simp [Shape.partIx, Shape.partSize, wk, ck]
      show _ = (80 * (2 * (L 1).val + (L 0).val) + 10 * t.val + r.val) * 80
      omega
    | 1 => simp [Shape.partIx, Shape.partSize]
  · match a with
    | 0 => simp [Shape.partSize]
    | 1 => simp [Shape.partSize]

theorem set_iRowK : (iRowK L).view.set = iRowSet (wL L) := by
  unfold iRowSet
  rw [← irowK_eq L]
theorem set_oChK (t : Fin k0_t1_loop.trips) (r : Fin 10) : (oChK L t r).view.set = oRowSet (ck (wL L) (Fin.cast trips_eq t) r) := by
  unfold oRowSet
  rw [← ochK_eq L t r]

/-! ## The worker's own semaphores and buffers, by name -/

omit m in
/-- A vector subcore's scoped cells are its twenty-one DMA semaphores. -/
theorem ownCells_V : ownCells (V d (cV L) (jV L)) = (Finset.univ : Finset (DmaSem sig)).image (fun k => (((V d (cV L) (jV L)), SemLoc.dma k) : GSem nD τ sig)) := by
  have hreg : ∀ s : Sem sig, ¬ (SemLoc.reg s : SemLoc sig).isScoped .scVector = true := by decide
  have hdma : ∀ k : DmaSem sig, (SemLoc.dma k : SemLoc sig).isScoped .scVector = true := by decide
  ext ⟨thr', sl⟩
  simp only [mem_ownCells, Finset.mem_image, Finset.mem_univ, true_and]
  constructor
  · rintro ⟨rfl, h⟩
    cases sl with
    | reg s =>
      exact absurd (show (SemLoc.reg s : SemLoc sig).isScoped .scVector = true from h) (hreg s)
    | dma s => exact ⟨s, rfl⟩
  · rintro ⟨k, hk⟩
    cases hk
    exact ⟨rfl, hdma k⟩

omit m in
theorem ownSems0_V :
    (ownSems0 (V d (cV L) (jV L)) : sProp 𝕄)
      = iprop(semVal ((V d (cV L) (jV L)), SemLoc.dma cc0_scratch11.sem) 0
          ∗ semVal ((V d (cV L) (jV L)), SemLoc.dma cc0_scratch12.sem) 0
          ∗ semVal ((V d (cV L) (jV L)), SemLoc.dma cc0_scratch13.sem) 0
          ∗ semVal ((V d (cV L) (jV L)), SemLoc.dma cc0_scratch14.sem) 0
          ∗ semVal ((V d (cV L) (jV L)), SemLoc.dma cc0_scratch15.sem) 0
          ∗ semVal ((V d (cV L) (jV L)), SemLoc.dma cc0_scratch16.sem) 0
          ∗ semVal ((V d (cV L) (jV L)), SemLoc.dma cc0_scratch17.sem) 0
          ∗ semVal ((V d (cV L) (jV L)), SemLoc.dma cc0_scratch18.sem) 0
          ∗ semVal ((V d (cV L) (jV L)), SemLoc.dma cc0_scratch19.sem) 0
          ∗ semVal ((V d (cV L) (jV L)), SemLoc.dma cc0_scratch20.sem) 0
          ∗ semVal ((V d (cV L) (jV L)), SemLoc.dma cc0_scratch21.sem) 0
          ∗ semVal ((V d (cV L) (jV L)), SemLoc.dma cc0_scratch22.sem) 0
          ∗ semVal ((V d (cV L) (jV L)), SemLoc.dma cc0_scratch23.sem) 0
          ∗ semVal ((V d (cV L) (jV L)), SemLoc.dma cc0_scratch24.sem) 0
          ∗ semVal ((V d (cV L) (jV L)), SemLoc.dma cc0_scratch25.sem) 0
          ∗ semVal ((V d (cV L) (jV L)), SemLoc.dma cc0_scratch26.sem) 0
          ∗ semVal ((V d (cV L) (jV L)), SemLoc.dma cc0_scratch27.sem) 0
          ∗ semVal ((V d (cV L) (jV L)), SemLoc.dma cc0_scratch28.sem) 0
          ∗ semVal ((V d (cV L) (jV L)), SemLoc.dma cc0_scratch29.sem) 0
          ∗ semVal ((V d (cV L) (jV L)), SemLoc.dma cc0_scratch30.sem) 0
          ∗ semVal ((V d (cV L) (jV L)), SemLoc.dma cc0_scoped0.sem) 0) := by
  unfold SparseCore.Cfg.ownSems0
  rw [ownCells_V, SparseCore.bigSep_image_of_injOn (fun a _ b _ e => SemLoc.dma.inj (Prod.mk.inj e).2),
    show (Finset.univ : Finset (DmaSem sig)) = {0, 1, 2, 3, 4, 5, 6, 7, 8, 9, 10, 11, 12, 13, 14, 15, 16, 17, 18, 19, 20} by decide]
  rw [BI.bigSep_insert (by decide : (0 : DmaSem sig) ∉ ({1, 2, 3, 4, 5, 6, 7, 8, 9, 10, 11, 12, 13, 14, 15, 16, 17, 18, 19, 20} : Finset (DmaSem sig))),
    BI.bigSep_insert (by decide : (1 : DmaSem sig) ∉ ({2, 3, 4, 5, 6, 7, 8, 9, 10, 11, 12, 13, 14, 15, 16, 17, 18, 19, 20} : Finset (DmaSem sig))),
    BI.bigSep_insert (by decide : (2 : DmaSem sig) ∉ ({3, 4, 5, 6, 7, 8, 9, 10, 11, 12, 13, 14, 15, 16, 17, 18, 19, 20} : Finset (DmaSem sig))),
    BI.bigSep_insert (by decide : (3 : DmaSem sig) ∉ ({4, 5, 6, 7, 8, 9, 10, 11, 12, 13, 14, 15, 16, 17, 18, 19, 20} : Finset (DmaSem sig))),
    BI.bigSep_insert (by decide : (4 : DmaSem sig) ∉ ({5, 6, 7, 8, 9, 10, 11, 12, 13, 14, 15, 16, 17, 18, 19, 20} : Finset (DmaSem sig))),
    BI.bigSep_insert (by decide : (5 : DmaSem sig) ∉ ({6, 7, 8, 9, 10, 11, 12, 13, 14, 15, 16, 17, 18, 19, 20} : Finset (DmaSem sig))),
    BI.bigSep_insert (by decide : (6 : DmaSem sig) ∉ ({7, 8, 9, 10, 11, 12, 13, 14, 15, 16, 17, 18, 19, 20} : Finset (DmaSem sig))),
    BI.bigSep_insert (by decide : (7 : DmaSem sig) ∉ ({8, 9, 10, 11, 12, 13, 14, 15, 16, 17, 18, 19, 20} : Finset (DmaSem sig))),
    BI.bigSep_insert (by decide : (8 : DmaSem sig) ∉ ({9, 10, 11, 12, 13, 14, 15, 16, 17, 18, 19, 20} : Finset (DmaSem sig))),
    BI.bigSep_insert (by decide : (9 : DmaSem sig) ∉ ({10, 11, 12, 13, 14, 15, 16, 17, 18, 19, 20} : Finset (DmaSem sig))),
    BI.bigSep_insert (by decide : (10 : DmaSem sig) ∉ ({11, 12, 13, 14, 15, 16, 17, 18, 19, 20} : Finset (DmaSem sig))),
    BI.bigSep_insert (by decide : (11 : DmaSem sig) ∉ ({12, 13, 14, 15, 16, 17, 18, 19, 20} : Finset (DmaSem sig))),
    BI.bigSep_insert (by decide : (12 : DmaSem sig) ∉ ({13, 14, 15, 16, 17, 18, 19, 20} : Finset (DmaSem sig))),
    BI.bigSep_insert (by decide : (13 : DmaSem sig) ∉ ({14, 15, 16, 17, 18, 19, 20} : Finset (DmaSem sig))),
    BI.bigSep_insert (by decide : (14 : DmaSem sig) ∉ ({15, 16, 17, 18, 19, 20} : Finset (DmaSem sig))),
    BI.bigSep_insert (by decide : (15 : DmaSem sig) ∉ ({16, 17, 18, 19, 20} : Finset (DmaSem sig))),
    BI.bigSep_insert (by decide : (16 : DmaSem sig) ∉ ({17, 18, 19, 20} : Finset (DmaSem sig))),
    BI.bigSep_insert (by decide : (17 : DmaSem sig) ∉ ({18, 19, 20} : Finset (DmaSem sig))),
    BI.bigSep_insert (by decide : (18 : DmaSem sig) ∉ ({19, 20} : Finset (DmaSem sig))),
    BI.bigSep_insert (by decide : (19 : DmaSem sig) ∉ ({20} : Finset (DmaSem sig))),
    bigSep_singleton]
  rfl

omit m in
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ (∃ f, (V d (cV L) (jV L)).loc cc0_scratch9 ↦{fullShare} f)
          ∗ (∃ f, (V d (cV L) (jV L)).loc cc0_scratch10 ↦{fullShare} f)
          ∗ bigSep ((((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)).erase ((Proc.scVector (cV L) (jV L)).devRef cc0_scratch9)).erase ((Proc.scVector (cV L) (jV L)).devRef cc0_scratch10))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩),
    SparseCore.bigSep_erase' (Finset.mem_erase.mpr ⟨fun e => absurd (Proc.devRef_injective _ e) (show (cc0_scratch9 : Ref sig .scVector) ≠ cc0_scratch8 by decide), Finset.mem_erase.mpr ⟨fun e => absurd (Proc.devRef_injective _ e) (show (cc0_scratch9 : Ref sig .scVector) ≠ cc0_scratch7 by decide), Finset.mem_erase.mpr ⟨fun e => absurd (Proc.devRef_injective _ e) (show (cc0_scratch9 : Ref sig .scVector) ≠ cc0_scratch6 by decide), Finset.mem_erase.mpr ⟨fun e => absurd (Proc.devRef_injective _ e) (show (cc0_scratch9 : Ref sig .scVector) ≠ cc0_scratch5 by decide), Finset.mem_erase.mpr ⟨fun e => absurd (Proc.devRef_injective _ e) (show (cc0_scratch9 : Ref sig .scVector) ≠ cc0_scratch4 by decide), Finset.mem_erase.mpr ⟨fun e => absurd (Proc.devRef_injective _ e) (show (cc0_scratch9 : Ref sig .scVector) ≠ cc0_scratch3 by decide), Finset.mem_erase.mpr ⟨fun e => absurd (Proc.devRef_injective _ e) (show (cc0_scratch9 : Ref sig .scVector) ≠ cc0_scratch2 by decide), Finset.mem_erase.mpr ⟨fun e => absurd (Proc.devRef_injective _ e) (show (cc0_scratch9 : Ref sig .scVector) ≠ cc0_scratch1 by decide), Finset.mem_erase.mpr ⟨fun e => absurd (Proc.devRef_injective _ e) (show (cc0_scratch9 : Ref sig .scVector) ≠ cc0_scratch0 by decide), SparseCore.Cfg.mem_ownRefs_of_owner (p := Proc.scVector (cV L) (jV L)) (b := (Proc.scVector (cV L) (jV L)).devRef cc0_scratch9) rfl⟩⟩⟩⟩⟩⟩⟩⟩⟩),
    SparseCore.bigSep_erase' (Finset.mem_erase.mpr ⟨fun e => absurd (Proc.devRef_injective _ e) (show (cc0_scratch10 : Ref sig .scVector) ≠ cc0_scratch9 by decide), Finset.mem_erase.mpr ⟨fun e => absurd (Proc.devRef_injective _ e) (show (cc0_scratch10 : Ref sig .scVector) ≠ cc0_scratch8 by decide), Finset.mem_erase.mpr ⟨fun e => absurd (Proc.devRef_injective _ e) (show (cc0_scratch10 : Ref sig .scVector) ≠ cc0_scratch7 by decide), Finset.mem_erase.mpr ⟨fun e => absurd (Proc.devRef_injective _ e) (show (cc0_scratch10 : Ref sig .scVector) ≠ cc0_scratch6 by decide), Finset.mem_erase.mpr ⟨fun e => absurd (Proc.devRef_injective _ e) (show (cc0_scratch10 : Ref sig .scVector) ≠ cc0_scratch5 by decide), Finset.mem_erase.mpr ⟨fun e => absurd (Proc.devRef_injective _ e) (show (cc0_scratch10 : Ref sig .scVector) ≠ cc0_scratch4 by decide), Finset.mem_erase.mpr ⟨fun e => absurd (Proc.devRef_injective _ e) (show (cc0_scratch10 : Ref sig .scVector) ≠ cc0_scratch3 by decide), Finset.mem_erase.mpr ⟨fun e => absurd (Proc.devRef_injective _ e) (show (cc0_scratch10 : Ref sig .scVector) ≠ cc0_scratch2 by decide), Finset.mem_erase.mpr ⟨fun e => absurd (Proc.devRef_injective _ e) (show (cc0_scratch10 : Ref sig .scVector) ≠ cc0_scratch1 by decide), Finset.mem_erase.mpr ⟨fun e => absurd (Proc.devRef_injective _ e) (show (cc0_scratch10 : Ref sig .scVector) ≠ cc0_scratch0 by decide), SparseCore.Cfg.mem_ownRefs_of_owner (p := Proc.scVector (cV L) (jV L)) (b := (Proc.scVector (cV L) (jV L)).devRef cc0_scratch10) rfl⟩⟩⟩⟩⟩⟩⟩⟩⟩⟩)]

omit m d L in
/-- A family over `Fin 10`, member by member. -/
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide,
    BI.bigSep_insert (by decide : (0 : Fin 10) ∉ ({1, 2, 3, 4, 5, 6, 7, 8, 9} : Finset (Fin 10))),
    BI.bigSep_insert (by decide : (1 : Fin 10) ∉ ({2, 3, 4, 5, 6, 7, 8, 9} : Finset (Fin 10))),
    BI.bigSep_insert (by decide : (2 : Fin 10) ∉ ({3, 4, 5, 6, 7, 8, 9} : Finset (Fin 10))),
    BI.bigSep_insert (by decide : (3 : Fin 10) ∉ ({4, 5, 6, 7, 8, 9} : Finset (Fin 10))),
    BI.bigSep_insert (by decide : (4 : Fin 10) ∉ ({5, 6, 7, 8, 9} : Finset (Fin 10))),
    BI.bigSep_insert (by decide : (5 : Fin 10) ∉ ({6, 7, 8, 9} : Finset (Fin 10))),
    BI.bigSep_insert (by decide : (6 : Fin 10) ∉ ({7, 8, 9} : Finset (Fin 10))),
    BI.bigSep_insert (by decide : (7 : Fin 10) ∉ ({8, 9} : Finset (Fin 10))),
    BI.bigSep_insert (by decide : (8 : Fin 10) ∉ ({9} : Finset (Fin 10))),
    bigSep_singleton]
  rfl

omit m d L in
/-- A family over `Fin 8`, member by member. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    BI.bigSep_insert (by decide : (0 : Fin 8) ∉ ({1, 2, 3, 4, 5, 6, 7} : Finset (Fin 8))),
    BI.bigSep_insert (by decide : (1 : Fin 8) ∉ ({2, 3, 4, 5, 6, 7} : Finset (Fin 8))),
    BI.bigSep_insert (by decide : (2 : Fin 8) ∉ ({3, 4, 5, 6, 7} : Finset (Fin 8))),
    BI.bigSep_insert (by decide : (3 : Fin 8) ∉ ({4, 5, 6, 7} : Finset (Fin 8))),
    BI.bigSep_insert (by decide : (4 : Fin 8) ∉ ({5, 6, 7} : Finset (Fin 8))),
    BI.bigSep_insert (by decide : (5 : Fin 8) ∉ ({6, 7} : Finset (Fin 8))),
    BI.bigSep_insert (by decide : (6 : Fin 8) ∉ ({7} : Finset (Fin 8))),
    bigSep_singleton]
  rfl

local notation "b0V" => (Memref.whole Cert.Kernel.cc0_scratch1 : Memref Cert.Kernel.sig Kind.scVector Space.vmem Cert.Kernel.S80x128 EltTy.f32)
local notation "b1V" => (Memref.whole Cert.Kernel.cc0_scratch2 : Memref Cert.Kernel.sig Kind.scVector Space.vmem Cert.Kernel.S80x128 EltTy.f32)
local notation "b2V" => (Memref.whole Cert.Kernel.cc0_scratch3 : Memref Cert.Kernel.sig Kind.scVector Space.vmem Cert.Kernel.S80x128 EltTy.f32)
local notation "b3V" => (Memref.whole Cert.Kernel.cc0_scratch4 : Memref Cert.Kernel.sig Kind.scVector Space.vmem Cert.Kernel.S80x128 EltTy.f32)
local notation "b4V" => (Memref.whole Cert.Kernel.cc0_scratch5 : Memref Cert.Kernel.sig Kind.scVector Space.vmem Cert.Kernel.S80x128 EltTy.f32)
local notation "b5V" => (Memref.whole Cert.Kernel.cc0_scratch6 : Memref Cert.Kernel.sig Kind.scVector Space.vmem Cert.Kernel.S80x128 EltTy.f32)
local notation "b6V" => (Memref.whole Cert.Kernel.cc0_scratch7 : Memref Cert.Kernel.sig Kind.scVector Space.vmem Cert.Kernel.S80x128 EltTy.f32)
local notation "b7V" => (Memref.whole Cert.Kernel.cc0_scratch8 : Memref Cert.Kernel.sig Kind.scVector Space.vmem Cert.Kernel.S80x128 EltTy.f32)
local notation "b8V" => (Memref.whole Cert.Kernel.cc0_scratch9 : Memref Cert.Kernel.sig Kind.scVector Space.vmem Cert.Kernel.S80x128 EltTy.f32)
local notation "b9V" => (Memref.whole Cert.Kernel.cc0_scratch10 : Memref Cert.Kernel.sig Kind.scVector Space.vmem Cert.Kernel.S80x128 EltTy.f32)

omit m in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit m in
theorem pts_xV (q : PosShare TreeShare) (f : Buf (Elt F) (xLoc d)) :
    ((xV).view.loc (V d (cV L) (jV L)) ↦{q} f : sProp 𝕄) = xLoc d ↦{q} f := rfl
omit m in
theorem pts_lV (f : Buf (Elt F) ((V d (cV L) (jV L)).loc cc0_scratch0)) :
    ((lV).view.loc (V d (cV L) (jV L)) ↦{fullShare} f : sProp 𝕄) = (V d (cV L) (jV L)).loc cc0_scratch0 ↦{fullShare} f := rfl

omit m in
theorem pts_whole (b : Ref sig .scVector) (f : Buf (Elt F) ((V d (cV L) (jV L)).loc b)) :
    ((Memref.whole b).view.loc (V d (cV L) (jV L)) ↦{fullShare} f : sProp 𝕄) = (V d (cV L) (jV L)).loc b ↦{fullShare} f := rfl

/-- The worker's words: word `y` of its index scratch, once fetched, is word `6400 w + y` of the flattened list. -/
def lst0 : Buf (Elt F) ((V d (cV L) (jV L)).loc cc0_scratch0) := (iRowK L).view.read (Elt F) (ids0 m d)

/-- What the fetch lands in the index scratch. -/
theorem fetch_lands (fl : Buf (Elt F) ((V d (cV L) (jV L)).loc cc0_scratch0)) (pay : S6400.Idx → Elt F .i32)
    (hpay : pay = (iRowK L).view.read (Elt F) (ids0 m d)) :
    View.write (Elt F) (lV).view fl pay Finset.univ = lst0 m d L := by
  subst hpay; exact View.write_whole_univ _ _ _

/-- Every word of the worker's list names a row of the table. -/
theorem lst0_lt (hpre : PreOK m) (y : S6400.Idx) : (lst0 m d L y).toNat < 1000000 := by
  unfold lst0
  rw [show ∀ j, (iRowK L).view.read (Elt F) (ids0 m d) j = ids0 m d ((iRowK L).view.emb j) from fun j => (View.read_apply _ _).trans (cast_eq _ _)]
  unfold ids0 shapeCast
  exact hpre d _

/-- So every window of the index scratch holds in-range offsets. -/
theorem list_inb (hpre : PreOK m) (R : Rect S6400) (hR : ∀ a, R.stride a = 1) (x : R.shape.Idx) :
    (((lV).slice R hR).view.read (Elt F) (lst0 m d L) x).toNat < S1000000x128.size gathers_S1000000x128_S80x128.axis := by
  rw [show ((lV).slice R hR).view.read (Elt F) (lst0 m d L) x = lst0 m d L (((lV).slice R hR).view.emb x) from (View.read_apply _ _).trans (cast_eq _ _)]
  exact lst0_lt m d L hpre _

/-! ## The windows of the index scratch and of the table, by name -/

theorem lSl_inb (n : ℕ) (h : n + 80 ≤ 6400) : ∀ a, (![n] : Fin 1 → Nat) a + S80.size a ≤ S6400.size a := by
  intro a; obtain rfl : a = 0 := Subsingleton.elim _ _; exact h

/-- The eighty words of the index scratch from word `n` on. -/
def lSl (n : ℕ) (h : n + 80 ≤ 6400) : Memref sig .scVector .vmem S80 .i32 :=
  (lV).slice (Rect.unit (s := S6400) ![n] S80.size (lSl_inb n h)) (fun _ => rfl)

theorem lSl_congr (o o' : Fin 1 → Nat) (ho : ∀ a, o a + S80.size a ≤ S6400.size a) (ho' : ∀ a, o' a + S80.size a ≤ S6400.size a) (e : o = o') :
    (lV).slice (Rect.unit (s := S6400) o S80.size ho) (fun _ => rfl) = (lV).slice (Rect.unit (s := S6400) o' S80.size ho') (fun _ => rfl) := by
  subst e; rfl

/-- The whole table, as every transfer addresses it. -/
abbrev xSl : Memref sig .scVector .hbm S1000000x128 .f32 :=
  (xV).slice (Rect.unit (s := S1000000x128) ![0, 0] S1000000x128.size inb_S1000000x128_S1000000x128_0_0) (fun _ => rfl)

theorem cond1_lt (k : Fin k0_t1_loop.trips) (h : k0_cond1 k = 1#1) : k.val < 7 := by revert k; decide
theorem cond2_lt (k : Fin k0_t1_loop.trips) (h : k0_cond2 k = 1#1) : k.val < 7 := by revert k; decide
theorem cond3_lt (k : Fin k0_t1_loop.trips) (h : k0_cond3 k = 1#1) : k.val < 7 := by revert k; decide
theorem cond4_lt (k : Fin k0_t1_loop.trips) (h : k0_cond4 k = 1#1) : k.val < 7 := by revert k; decide
theorem cond5_lt (k : Fin k0_t1_loop.trips) (h : k0_cond5 k = 1#1) : k.val < 7 := by revert k; decide
theorem cond6_lt (k : Fin k0_t1_loop.trips) (h : k0_cond6 k = 1#1) : k.val < 7 := by revert k; decide
theorem cond7_lt (k : Fin k0_t1_loop.trips) (h : k0_cond7 k = 1#1) : k.val < 7 := by revert k; decide
theorem cond8_lt (k : Fin k0_t1_loop.trips) (h : k0_cond8 k = 1#1) : k.val < 7 := by revert k; decide
theorem cond9_lt (k : Fin k0_t1_loop.trips) (h : k0_cond9 k = 1#1) : k.val < 7 := by revert k; decide
theorem cond10_lt (k : Fin k0_t1_loop.trips) (h : k0_cond10 k = 1#1) : k.val < 7 := by revert k; decide

@[sl_canon] theorem canon_l0 (k : Fin k0_t1_loop.trips) (h : k0_cond1 k = 1#1) :
    (lV).slice (Rect.unit (s := S6400) (k0_off4 k) S80.size (k0_off4_inb k h)) (fun _ => rfl)
      = lSl (800 * k.val + 800) (by have := cond1_lt k h; omega) := by
  unfold lSl
  exact lSl_congr _ _ _ _ (k0_off4_eq k)
@[sl_canon] theorem canon_l1 (k : Fin k0_t1_loop.trips) (h : k0_cond2 k = 1#1) :
    (lV).slice (Rect.unit (s := S6400) (k0_off6 k) S80.size (k0_off6_inb k h)) (fun _ => rfl)
      = lSl (800 * k.val + 880) (by have := cond2_lt k h; omega) := by
  unfold lSl
  exact lSl_congr _ _ _ _ (k0_off6_eq k)
@[sl_canon] theorem canon_l2 (k : Fin k0_t1_loop.trips) (h : k0_cond3 k = 1#1) :
    (lV).slice (Rect.unit (s := S6400) (k0_off8 k) S80.size (k0_off8_inb k h)) (fun _ => rfl)
      = lSl (800 * k.val + 960) (by have := cond3_lt k h; omega) := by
  unfold lSl
  exact lSl_congr _ _ _ _ (k0_off8_eq k)
@[sl_canon] theorem canon_l3 (k : Fin k0_t1_loop.trips) (h : k0_cond4 k = 1#1) :
    (lV).slice (Rect.unit (s := S6400) (k0_off10 k) S80.size (k0_off10_inb k h)) (fun _ => rfl)
      = lSl (800 * k.val + 1040) (by have := cond4_lt k h; omega) := by
  unfold lSl
  exact lSl_congr _ _ _ _ (k0_off10_eq k)
@[sl_canon] theorem canon_l4 (k : Fin k0_t1_loop.trips) (h : k0_cond5 k = 1#1) :
    (lV).slice (Rect.unit (s := S6400) (k0_off12 k) S80.size (k0_off12_inb k h)) (fun _ => rfl)
      = lSl (800 * k.val + 1120) (by have := cond5_lt k h; omega) := by
  unfold lSl
  exact lSl_congr _ _ _ _ (k0_off12_eq k)
@[sl_canon] theorem canon_l5 (k : Fin k0_t1_loop.trips) (h : k0_cond6 k = 1#1) :
    (lV).slice (Rect.unit (s := S6400) (k0_off14 k) S80.size (k0_off14_inb k h)) (fun _ => rfl)
      = lSl (800 * k.val + 1200) (by have := cond6_lt k h; omega) := by
  unfold lSl
  exact lSl_congr _ _ _ _ (k0_off14_eq k)
@[sl_canon] theorem canon_l6 (k : Fin k0_t1_loop.trips) (h : k0_cond7 k = 1#1) :
    (lV).slice (Rect.unit (s := S6400) (k0_off16 k) S80.size (k0_off16_inb k h)) (fun _ => rfl)
      = lSl (800 * k.val + 1280) (by have := cond7_lt k h; omega) := by
  unfold lSl
  exact lSl_congr _ _ _ _ (k0_off16_eq k)
@[sl_canon] theorem canon_l7 (k : Fin k0_t1_loop.trips) (h : k0_cond8 k = 1#1) :
    (lV).slice (Rect.unit (s := S6400) (k0_off18 k) S80.size (k0_off18_inb k h)) (fun _ => rfl)
      = lSl (800 * k.val + 1360) (by have := cond8_lt k h; omega) := by
  unfold lSl
  exact lSl_congr _ _ _ _ (k0_off18_eq k)
@[sl_canon] theorem canon_l8 (k : Fin k0_t1_loop.trips) (h : k0_cond9 k = 1#1) :
    (lV).slice (Rect.unit (s := S6400) (k0_off20 k) S80.size (k0_off20_inb k h)) (fun _ => rfl)
      = lSl (800 * k.val + 1440) (by have := cond9_lt k h; omega) := by
  unfold lSl
  exact lSl_congr _ _ _ _ (k0_off20_eq k)
@[sl_canon] theorem canon_l9 (k : Fin k0_t1_loop.trips) (h : k0_cond10 k = 1#1) :
    (lV).slice (Rect.unit (s := S6400) (k0_off22 k) S80.size (k0_off22_inb k h)) (fun _ => rfl)
      = lSl (800 * k.val + 1520) (by have := cond10_lt k h; omega) := by
  unfold lSl
  exact lSl_congr _ _ _ _ (k0_off22_eq k)

end Cert.Proof.KernelTile

end
-- ==== Proof.KBAux.lean ====
/-
  One worker's task, piece by piece: how its buffers are held, what a gather lands, how the trips of the loop are counted.

  * The index scratch holds 6400 words; the task reads them in eighty windows of eighty, window `(t, j)` from word
    `800 t + 80 j` on. The windows are the eighty equal parts of the scratch along its one axis (part `10 t + j`), so they
    are disjoint and cover it: holding the scratch whole is holding the eighty windows.
  * A buffer held whole is held at the elements its own memref names (all of them); the table addressed through the
    window at offset `[0, 0]` of its full size is the table.
  * A gather from the table through window `n` of the index scratch lands, at entry `(y₀, y₁)` of a row buffer, entry `y₁`
    of the table row whose number is word `n + y₀` of the scratch. The scratch holds the worker's 6400 words of the
    flattened list, so for window `(t, j)` that word is word `6400 w + 800 t + 80 j + y₀` of the list, which is below
    `1000000` under the precondition: the row is the one the specification names. Written out to chunk `(t, j)` of the
    result, the rows are the specification's rows there.
  * A family over the eight trips with one or two trips taken out, or cut at a trip, loses or gains one member at a time.
-/
import proofs.«206832_g86208583565466_cont_sun_m_1057_30_alg».proof.Proof.KBTile

noncomputable section

namespace Cert.Proof.KernelAux

open Cert.Kernel Cert.Kernel.Gen Cert.Proof.KernelCommon Cert.Proof.KernelTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg1_scv : Memref Cert.Kernel.sig Kind.scVector Space.hbm Cert.Kernel.S1000000x128 EltTy.f32)
local notation "iV" => (Memref.whole Cert.Kernel.main_v0_scv : Memref Cert.Kernel.sig Kind.scVector Space.hbm Cert.Kernel.S204800 EltTy.i32)
local notation "oV" => (Memref.whole Cert.Kernel.main_v1_scv : Memref Cert.Kernel.sig Kind.scVector Space.hbm Cert.Kernel.S204800x128 EltTy.f32)
local notation "lV" => (Memref.whole Cert.Kernel.cc0_scratch0 : Memref Cert.Kernel.sig Kind.scVector Space.vmem Cert.Kernel.S6400 EltTy.i32)

/-! ## The trips of the loop, one at a time -/

section Trips

omit m d L in
/-- All trips but `k`: trip `k + 1`, and all trips but those two. -/
theorem bigSep_ne_succ (Φ : Fin 8 → sProp 𝕄) (k : ℕ) (hk : k < 7) :
    bigSep (Finset.univ.filter fun t : Fin 8 => t.val ≠ k) Φ
      = iprop(Φ ⟨k + 1, by omega⟩ ∗ bigSep (Finset.univ.filter fun t : Fin 8 => t.val ≠ k ∧ t.val ≠ k + 1) Φ) := by
  have hs : (Finset.univ.filter fun t : Fin 8 => t.val ≠ k)
      = insert (⟨k + 1, by omega⟩ : Fin 8) (Finset.univ.filter fun t : Fin 8 => t.val ≠ k ∧ t.val ≠ k + 1) := by
    ext t
    simp only [Finset.mem_filter, Finset.mem_univ, true_and, Finset.mem_insert, Fin.ext_iff]
    omega
  rw [hs, BI.bigSep_insert (by simp)]
  rfl

omit m d L in
/-- All trips but `k + 1`: trip `k`, and all trips but those two. -/
theorem bigSep_ne_pred (Φ : Fin 8 → sProp 𝕄) (k : ℕ) (hk : k < 7) :
    bigSep (Finset.univ.filter fun t : Fin 8 => t.val ≠ k + 1) Φ
      = iprop(Φ ⟨k, by omega⟩ ∗ bigSep (Finset.univ.filter fun t : Fin 8 => t.val ≠ k ∧ t.val ≠ k + 1) Φ) := by
  have hs : (Finset.univ.filter fun t : Fin 8 => t.val ≠ k + 1)
      = insert (⟨k, by omega⟩ : Fin 8) (Finset.univ.filter fun t : Fin 8 => t.val ≠ k ∧ t.val ≠ k + 1) := by
    ext t
    simp only [Finset.mem_filter, Finset.mem_univ, true_and, Finset.mem_insert, Fin.ext_iff]
    omega
  rw [hs, BI.bigSep_insert (by simp)]
  rfl

omit m d L in
/-- The trips from `k` on: trip `k`, and the trips from `k + 1` on. -/
theorem bigSep_ge_succ (Φ : Fin 8 → sProp 𝕄) (k : ℕ) (hk : k < 8) :
    bigSep (Finset.univ.filter fun t : Fin 8 => k ≤ t.val) Φ
      = iprop(Φ ⟨k, hk⟩ ∗ bigSep (Finset.univ.filter fun t : Fin 8 => k + 1 ≤ t.val) Φ) := by
  have hs : (Finset.univ.filter fun t : Fin 8 => k ≤ t.val)
      = insert (⟨k, hk⟩ : Fin 8) (Finset.univ.filter fun t : Fin 8 => k + 1 ≤ t.val) := by
    ext t
    simp only [Finset.mem_filter, Finset.mem_univ, true_and, Finset.mem_insert, Fin.ext_iff]
    omega
  rw [hs, BI.bigSep_insert (by simp)]
  rfl

omit m d L in
/-- The trips up to `k`: trip `k`, and the trips before it. -/
theorem bigSep_lt_succ (Φ : Fin 8 → sProp 𝕄) (k : ℕ) (hk : k < 8) :
    bigSep (Finset.univ.filter fun t : Fin 8 => t.val < k + 1) Φ
      = iprop(Φ ⟨k, hk⟩ ∗ bigSep (Finset.univ.filter fun t : Fin 8 => t.val < k) Φ) := by
  have hs : (Finset.univ.filter fun t : Fin 8 => t.val < k + 1)
      = insert (⟨k, hk⟩ : Fin 8) (Finset.univ.filter fun t : Fin 8 => t.val < k) := by
    ext t
    simp only [Finset.mem_filter, Finset.mem_univ, true_and, Finset.mem_insert, Fin.ext_iff]
    omega
  rw [hs, BI.bigSep_insert (by simp)]
  rfl

end Trips

/-! ## The trips, with one named -/

omit m d L in
/-- The whole family with trip `k` named is the whole family with trip `k'` named. -/
theorem at_swap (Φ : Fin 8 → sProp 𝕄) (k k' : Fin 8) :
    (iprop(Φ k ∗ bigSep (Finset.univ.erase k) Φ) : sProp 𝕄) = iprop(Φ k' ∗ bigSep (Finset.univ.erase k') Φ) :=
  (bigSep_univ_at Φ k).symm.trans (bigSep_univ_at Φ k')

section Chunks
variable [FloatOps F]

/-- The result's chunks by trip, the trips before `k` written and the others not: trip `k`'s chunks, not yet written, and
    the rest. -/
theorem chunks_at (k : ℕ) (hk : k < 8) :
    (bigSep Finset.univ fun t : Fin 8 => bigSep Finset.univ fun j : Fin 10 =>
        oRowPts d (ck (wL L) t j) (if t.val < k then rows0 m d else m (oLoc d)) : sProp 𝕄)
      = iprop((bigSep Finset.univ fun j : Fin 10 => oRowPts d (ck (wL L) ⟨k, hk⟩ j) (m (oLoc d)))
          ∗ bigSep (Finset.univ.erase (⟨k, hk⟩ : Fin 8)) fun t : Fin 8 => bigSep Finset.univ fun j : Fin 10 =>
              oRowPts d (ck (wL L) t j) (if t.val < k then rows0 m d else m (oLoc d))) := by
  rw [bigSep_univ_at (fun t : Fin 8 => bigSep Finset.univ fun j : Fin 10 =>
    oRowPts d (ck (wL L) t j) (if t.val < k then rows0 m d else m (oLoc d))) (⟨k, hk⟩ : Fin 8)]
  dsimp only
  rw [if_neg (Nat.lt_irrefl k)]

/-- The same with the trips before `k + 1` written: trip `k`'s chunks, written, and the same rest. -/
theorem chunks_at_succ (k : ℕ) (hk : k < 8) :
    (bigSep Finset.univ fun t : Fin 8 => bigSep Finset.univ fun j : Fin 10 =>
        oRowPts d (ck (wL L) t j) (if t.val < k + 1 then rows0 m d else m (oLoc d)) : sProp 𝕄)
      = iprop((bigSep Finset.univ fun j : Fin 10 => oRowPts d (ck (wL L) ⟨k, hk⟩ j) (rows0 m d))
          ∗ bigSep (Finset.univ.erase (⟨k, hk⟩ : Fin 8)) fun t : Fin 8 => bigSep Finset.univ fun j : Fin 10 =>
              oRowPts d (ck (wL L) t j) (if t.val < k then rows0 m d else m (oLoc d))) := by
  rw [bigSep_univ_at (fun t : Fin 8 => bigSep Finset.univ fun j : Fin 10 =>
    oRowPts d (ck (wL L) t j) (if t.val < k + 1 then rows0 m d else m (oLoc d))) (⟨k, hk⟩ : Fin 8)]
  dsimp only
  rw [if_pos (Nat.lt_succ_self k)]
  refine congrArg (BI.sep _) (bigSep_congr fun t ht => ?_)
  have hne : t.val ≠ k := fun e => Finset.ne_of_mem_erase ht (Fin.ext e)
  by_cases hlt : t.val < k
  · rw [if_pos hlt, if_pos (by omega : t.val < k + 1)]
  · rw [if_neg hlt, if_neg (by omega : ¬ t.val < k + 1)]

end Chunks

/-! ## A buffer held whole is held at its memref's own elements -/

omit m in
/-- Any buffer of the subcore, held whole through its own memref. -/
theorem whole_own (b : Ref sig .scVector) (q : PosShare TreeShare) (f : Buf (Elt F) ((Memref.whole b).view.loc (V d (cV L) (jV L)))) :
    ((Memref.whole b).view.loc (V d (cV L) (jV L)) ↦{q} f : sProp 𝕄)
      = ((Memref.whole b).view.loc (V d (cV L) (jV L)) ↦[(Memref.whole b).view.set]{q} f) := by
  rw [show (Memref.whole b).view.set = Finset.univ from View.set_whole b]

omit m d L in
/-- The window at offset `[0, 0]` of the table's full size is every element of the table. -/
theorem set_xSl : (xSl).view.set = Finset.univ := by
  show ((View.whole (main_arg1_scv : Ref sig .scVector)).slice _).set = _
  rw [View.set_slice_whole]
  refine Finset.eq_univ_of_forall fun i => Rect.mem_set_unit.mpr fun a =>
    ⟨?_, Nat.lt_of_lt_of_le (i a).isLt (Nat.le_add_left _ _)⟩
  match a with
  | ⟨0, _⟩ => exact Nat.zero_le _
  | ⟨1, _⟩ => exact Nat.zero_le _

omit m in
/-- The table held at a share is held, at that share, at the elements every transfer addresses. -/
theorem xSl_own (q : PosShare TreeShare) (f : Buf (Elt F) ((xV).view.loc (V d (cV L) (jV L)))) :
    ((xV).view.loc (V d (cV L) (jV L)) ↦{q} f : sProp 𝕄) = ((xV).view.loc (V d (cV L) (jV L)) ↦[(xSl).view.set]{q} f) := by
  rw [set_xSl]

/-! ## The index scratch, cut into its eighty windows -/

/-- Eighty divides the scratch's length. -/
theorem ldiv : 80 ∣ S6400.size 0 := ⟨80, rfl⟩
/-- Part `g` of the scratch: its words `80 g … 80 g + 79`. -/
abbrev lpart (g : Fin 80) : Rect S6400 := Rect.part (s := S6400) (a₀ := 0) ldiv g

/-- `(t, j) ↦ 10 t + j`: the windows of trip `t` are parts `10 t … 10 t + 9`. -/
def gE : Fin 8 × Fin 10 ≃ Fin 80 where
  toFun p := ⟨10 * p.1.val + p.2.val, by omega⟩
  invFun g := (⟨g.val / 10, by omega⟩, ⟨g.val % 10, by omega⟩)
  left_inv p := by
    rcases p with ⟨t, j⟩
    refine Prod.ext (Fin.ext ?_) (Fin.ext ?_) <;> simp only <;> omega
  right_inv g := Fin.ext (by simp only; omega)

omit m d L in
/-- The window from word `80 g` on is part `g`. -/
theorem lwin_eq (g : Fin 80) (n : ℕ) (hn : n = 80 * g.val) (h : n + 80 ≤ 6400) :
    Rect.unit (s := S6400) ![n] S80.size (lSl_inb n h) = lpart g := by
  subst hn
  unfold lpart Rect.part Rect.block
  congr 1 <;> funext a
  · match a with
    | 0 =>
      simp [Shape.partIx, Shape.partSize]
      omega
  · match a with
    | 0 => simp [Shape.partSize]

omit m d L in
/-- The elements of window `(t, j)` are those of part `10 t + j`. -/
theorem set_lSl (t : Fin 8) (j : Fin 10) (h : 800 * t.val + 80 * j.val + 80 ≤ 6400) :
    (lSl (800 * t.val + 80 * j.val) h).view.set = (lpart (gE (t, j))).set := by
  unfold lSl
  show ((View.whole (cc0_scratch0 : Ref sig .scVector)).slice _).set = _
  rw [View.set_slice_whole, lwin_eq (gE (t, j)) (800 * t.val + 80 * j.val) (by simp only [gE, Equiv.coe_fn_mk]; omega) h]

omit m d L in
/-- Window `(t, j)` lies inside the scratch. -/
theorem win_inb (t : Fin 8) (j : Fin 10) : 800 * t.val + 80 * j.val + 80 ≤ 6400 := by omega

omit m in
/-- The index scratch held whole is its eighty windows held, at the same contents. -/
theorem lst_windows (f : Buf (Elt F) ((lV).view.loc (V d (cV L) (jV L)))) :
    ((lV).view.loc (V d (cV L) (jV L)) ↦{fullShare} f : sProp 𝕄)
      = bigSep Finset.univ fun t : Fin 8 => bigSep Finset.univ fun j : Fin 10 =>
          (lV).view.loc (V d (cV L) (jV L)) ↦[(lSl (800 * t.val + 80 * j.val) (win_inb t j)).view.set]{fullShare} f := by
  have h1 : ((lV).view.loc (V d (cV L) (jV L)) ↦{fullShare} f : sProp 𝕄)
      = bigSep Finset.univ fun g : Fin 80 => (lV).view.loc (V d (cV L) (jV L)) ↦[(lpart g).set]{fullShare} f := by
    rw [← pointsTo_biUnion Finset.univ (ℓ := (lV).view.loc (V d (cV L) (jV L))) (fun g : Fin 80 => (lpart g).set)
      (fun i _ j _ hij => Rect.part_disjoint ldiv hij), Rect.biUnion_part ldiv]
  rw [h1, bigSep_univ_equiv gE, bigSep_univ_prod]
  refine bigSep_congr fun t _ => bigSep_congr fun j _ => ?_
  rw [set_lSl]

/-! ## What a gather lands -/

section Value

omit m d L in
/-- On a one-axis shape the index at row-major position `k` has coordinate `k`. -/
theorem rowMajor_symm_val (k : Fin S80.numel) : ((S80.rowMajor.symm k) 0).val = k.val := by
  have h := Shape.rowMajor_val_one (S80.rowMajor.symm k)
  rw [Equiv.apply_symm_apply] at h
  exact h.symm

/-- Word `x` of the window from word `n` on is word `n + x` of the scratch. -/
theorem read_lSl (n : ℕ) (h : n + 80 ≤ 6400) (x : S80.Idx) :
    (lSl n h).view.read (Elt F) (lst0 m d L) x
      = lst0 m d L (ix1 (n := 6400) ⟨n + (x 0).val, by have h80 : (x 0).val < 80 := (x 0).isLt; omega⟩) := by
  unfold lSl
  refine ((View.read_apply _ _).trans (cast_eq _ _)).trans (congrArg (lst0 m d L) (funext fun a => Fin.ext ?_))
  match a with
  | ⟨0, _⟩ =>
    show n + 1 * (x 0).val = n + (x 0).val
    omega

/-- Word `i` of the worker's scratch is word `6400 w + i` of the flattened list. -/
theorem lst0_apply (i : Fin 6400) :
    lst0 m d L (ix1 (n := 6400) i) = ids0 m d (ix1 (n := 204800) ⟨6400 * (wL L).val + i.val, by have := (wL L).isLt; omega⟩) := by
  unfold lst0
  refine ((View.read_apply _ _).trans (cast_eq _ _)).trans (congrArg (ids0 m d) (funext fun a => Fin.ext ?_))
  match a with
  | ⟨0, _⟩ =>
    show (k0_off1 L) 0 + 1 * i.val = 6400 * (2 * (L 1).val + (L 0).val) + i.val
    rw [k0_off1_eq]
    show 12800 * (L 1).val + 6400 * (L 0).val + 1 * i.val = _
    omega

/-- THE GATHER AT `(y₀, y₁)`: entry `y₁` of the table row whose number is word `n + y₀` of the scratch. -/
theorem gather_apply (hpre : PreOK m) (n : ℕ) (h : n + 80 ≤ 6400)
    (hn : S80.numel = S80x128.size gathers_S1000000x128_S80x128.axis')
    (hin : ∀ x, ((lSl n h).view.read (Elt F) (lst0 m d L) x).toNat < S1000000x128.size gathers_S1000000x128_S80x128.axis)
    (y : S80x128.Idx) :
    SparseCore.gatherPayload gathers_S1000000x128_S80x128 ((xSl).view.read (Elt F) (m (xLoc d)))
        (SparseCore.rows ((lSl n h).view.read (Elt F) (lst0 m d L)) hn hin) y
      = m (xLoc d) (ix2 (n0 := 1000000) (n1 := 128)
          ⟨(lst0 m d L (ix1 (n := 6400) ⟨n + (y 0).val, by have h80 : (y 0).val < 80 := (y 0).isLt; omega⟩)).toNat,
            lst0_lt m d L hpre _⟩ (y 1)) := by
  unfold SparseCore.gatherPayload
  refine ((View.read_apply _ _).trans (cast_eq _ _)).trans (congrArg (m (xLoc d)) (funext fun a => Fin.ext ?_))
  match a with
  | ⟨0, _⟩ =>
    have e1 := congrArg Fin.val (Shape.Gathers.idx_axis gathers_S1000000x128_S80x128
      (SparseCore.rows ((lSl n h).view.read (Elt F) (lst0 m d L)) hn hin) y)
    have e2 : ((S80.rowMajor.symm ((y gathers_S1000000x128_S80x128.axis').cast hn.symm)) 0).val = (y 0).val :=
      rowMajor_symm_val _
    show 0 + 1 * (gathers_S1000000x128_S80x128.idx (SparseCore.rows ((lSl n h).view.read (Elt F) (lst0 m d L)) hn hin) y
      gathers_S1000000x128_S80x128.axis).val = _
    rw [Nat.zero_add, Nat.one_mul, e1]
    show ((lSl n h).view.read (Elt F) (lst0 m d L) (S80.rowMajor.symm ((y gathers_S1000000x128_S80x128.axis').cast hn.symm))).toNat = _
    rw [read_lSl]
    exact congrArg (fun z : Fin 6400 => (lst0 m d L (ix1 (n := 6400) z)).toNat) (Fin.ext (by show n + _ = n + _; rw [e2]))
  | ⟨1, _⟩ =>
    have e3 := Shape.Gathers.idx_of_ne gathers_S1000000x128_S80x128
      (SparseCore.rows ((lSl n h).view.read (Elt F) (lst0 m d L)) hn hin) y ⟨1, by decide⟩ (by decide)
    show 0 + 1 * (gathers_S1000000x128_S80x128.idx (SparseCore.rows ((lSl n h).view.read (Elt F) (lst0 m d L)) hn hin) y
      ⟨1, by decide⟩).val = (y 1).val
    rw [Nat.zero_add, Nat.one_mul, e3]
    rfl

/-- A word below `1000000` names the row of its own number. -/
theorem rowOfWord_of_lt {w : BitVec 32} (h : w.toNat < 1000000) : Cert.Lookup.rowOfWord w = ⟨w.toNat, h⟩ :=
  Fin.ext (Cert.Lookup.rowOfWord_val_of_lt h)

/-- The specification's rows at row `6400 w + i`, entry `c`: the table row named by word `i` of the worker's scratch. -/
theorem rows0_apply (hpre : PreOK m) (i : Fin 6400) (c : Fin 128) :
    rows0 m d (ix2 (n0 := 204800) (n1 := 128) ⟨6400 * (wL L).val + i.val, by have := (wL L).isLt; omega⟩ c)
      = m (xLoc d) (ix2 (n0 := 1000000) (n1 := 128) ⟨(lst0 m d L (ix1 (n := 6400) i)).toNat, lst0_lt m d L hpre _⟩ c) := by
  unfold rows0
  show m (xLoc d) (ix2 (Cert.Lookup.rowOfWord (ids0 m d (ix1 (n := 204800) ⟨6400 * (wL L).val + i.val, _⟩))) c) = _
  rw [← lst0_apply m d L i, rowOfWord_of_lt (lst0_lt m d L hpre _)]

/-- THE GATHER, AS THE SPECIFICATION'S ROWS: through the window from word `n` on, entry `(y₀, y₁)` landed is entry `y₁`
    of result row `6400 w + n + y₀`. -/
theorem gather_rows0 (hpre : PreOK m) (n : ℕ) (h : n + 80 ≤ 6400)
    (hn : S80.numel = S80x128.size gathers_S1000000x128_S80x128.axis')
    (hin : ∀ x, ((lSl n h).view.read (Elt F) (lst0 m d L) x).toNat < S1000000x128.size gathers_S1000000x128_S80x128.axis)
    (y : S80x128.Idx) :
    SparseCore.gatherPayload gathers_S1000000x128_S80x128 ((xSl).view.read (Elt F) (m (xLoc d)))
        (SparseCore.rows ((lSl n h).view.read (Elt F) (lst0 m d L)) hn hin) y
      = rows0 m d (ix2 (n0 := 204800) (n1 := 128)
          ⟨6400 * (wL L).val + n + (y 0).val, by have := (wL L).isLt; have h80 : (y 0).val < 80 := (y 0).isLt; omega⟩ (y 1)) := by
  have h80 : (y 0).val < 80 := (y 0).isLt
  rw [gather_apply m d L hpre n h hn hin y]
  have e := rows0_apply m d L hpre ⟨n + (y 0).val, by omega⟩ (y 1)
  refine Eq.trans ?_ (Eq.trans e.symm ?_)
  · rfl
  · exact congrArg (fun z : Fin 204800 => rows0 m d (ix2 (n0 := 204800) (n1 := 128) z (y 1))) (Fin.ext (by show _ + (n + _) = _ + n + _; omega))

end Value

/-! ## A chunk of the result -/

section Chunk

omit m d in
/-- Entry `(y₀, y₁)` of chunk `(t, j)` is entry `y₁` of result row `6400 w + 800 t + 80 j + y₀`. -/
theorem emb_oChK (t : Fin k0_t1_loop.trips) (j : Fin 10) (y : S80x128.Idx) :
    (oChK L t j).view.emb y
      = ix2 (n0 := 204800) (n1 := 128)
          ⟨6400 * (wL L).val + 800 * t.val + 80 * j.val + (y 0).val, by
            have ht : t.val < 8 := Nat.lt_of_lt_of_eq t.isLt trips_eq
            have := (wL L).isLt; have h80 : (y 0).val < 80 := (y 0).isLt; omega⟩ (y 1) := by
  funext a
  refine Fin.ext ?_
  match a with
  | ⟨0, _⟩ =>
    show (k0_off2 L t (BitVec.ofNat 32 j.val)) 0 + 1 * (y 0).val = 6400 * (2 * (L 1).val + (L 0).val) + 800 * t.val + 80 * j.val + (y 0).val
    rw [k0_off2_eq]
    show 12800 * (L 1).val + 6400 * (L 0).val + 800 * t.val + 80 * j.val + 1 * (y 0).val = _
    omega
  | ⟨1, _⟩ =>
    show (k0_off2 L t (BitVec.ofNat 32 j.val)) 1 + 1 * (y 1).val = (y 1).val
    rw [k0_off2_eq]
    show 0 + 1 * (y 1).val = _
    omega

omit m in
/-- Contents that agree with the specification's rows at every entry of chunk `(t, j)` agree with them on the chunk's
    elements. -/
theorem chunk_congr (t : Fin 8) (j : Fin 10) (g g' : Buf (Elt F) (oLoc d))
    (hg : ∀ y : S80x128.Idx, g ((oChK L (Fin.cast trips_eq.symm t) j).view.emb y) = g' ((oChK L (Fin.cast trips_eq.symm t) j).view.emb y)) :
    ∀ x ∈ oRowSet (ck (wL L) t j), g x = g' x := by
  intro x hx
  have hs := set_oChK L (Fin.cast trips_eq.symm t) j
  rw [show Fin.cast trips_eq (Fin.cast trips_eq.symm t) = t from Fin.ext rfl] at hs
  rw [← hs] at hx
  obtain ⟨y, -, rfl⟩ := Finset.mem_map.mp hx
  exact hg y

end Chunk

/-! ## Held through a window is held through the buffer -/

omit m in
/-- A window of the index scratch names elements of the scratch: held through the window or through the scratch, at the
    window's elements, is the same. -/
theorem lSl_own (n : ℕ) (h : n + 80 ≤ 6400) (q : PosShare TreeShare) (f : Buf (Elt F) ((lV).view.loc (V d (cV L) (jV L)))) :
    ((lSl n h).view.loc (V d (cV L) (jV L)) ↦[(lSl n h).view.set]{q} f : sProp 𝕄)
      = ((lV).view.loc (V d (cV L) (jV L)) ↦[(lSl n h).view.set]{q} f) := rfl

omit m in
/-- The table held through the window every transfer addresses, at the window's elements, is the table held. -/
theorem xSl_whole (q : PosShare TreeShare) (f : Buf (Elt F) ((xV).view.loc (V d (cV L) (jV L)))) :
    ((xSl).view.loc (V d (cV L) (jV L)) ↦[(xSl).view.set]{q} f : sProp 𝕄) = ((xV).view.loc (V d (cV L) (jV L)) ↦{q} f) := by
  rw [set_xSl]

/-! ## What a whole-buffer write leaves, and what a chunk's write-out leaves -/

omit m d L in
/-- A buffer written whole holds the payload. -/
theorem writes_whole_apply (b : Ref sig .scVector) (g : (View.whole b).ty.Contents (Elt F))
    (p : b.ty.shape.Idx → Elt F b.ty.elt) (y : b.ty.shape.Idx) :
    (Memref.whole b).view.writes (Elt F) g [⟨Rect.whole b.ty.shape, p⟩] y = p y := by
  rw [View.writes_singleton]
  have e : (((Memref.whole b).view).slice (Rect.whole b.ty.shape)).emb y = y := by
    funext a; exact Fin.ext (by simp)
  calc ((Memref.whole b).view.slice (Rect.whole b.ty.shape)).write (Elt F) g p Finset.univ y
      = ((Memref.whole b).view.slice (Rect.whole b.ty.shape)).write (Elt F) g p Finset.univ
          ((((Memref.whole b).view).slice (Rect.whole b.ty.shape)).emb y) := by rw [e]
    _ = _root_.cast _ (p y) := View.write_emb_of_mem _ _ (Finset.mem_univ y)
    _ = p y := cast_eq _ _

/-- CHUNK `(t, j)` WRITTEN OUT: if the payload at `(y₀, y₁)` is entry `y₁` of the specification's row
    `6400 w + (800 t + 80 j) + y₀`, the result written with it through the chunk agrees with the specification's rows on
    the chunk's elements. -/
theorem chunk_written (t : Fin k0_t1_loop.trips) (j : Fin 10) (c0 : Buf (Elt F) (oLoc d)) (pay : S80x128.Idx → Elt F .f32)
    (hp : ∀ y : S80x128.Idx, pay y = rows0 m d (ix2 (n0 := 204800) (n1 := 128)
      ⟨6400 * (wL L).val + (800 * t.val + 80 * j.val) + (y 0).val, by
        have ht : t.val < 8 := Nat.lt_of_lt_of_eq t.isLt trips_eq
        have := (wL L).isLt; have h80 : (y 0).val < 80 := (y 0).isLt; omega⟩ (y 1))) :
    ∀ x ∈ oRowSet (ck (wL L) (Fin.cast trips_eq t) j),
      (oChK L t j).view.writes (Elt F) c0 [⟨Rect.whole S80x128, pay⟩] x = rows0 m d x := by
  intro x hx
  rw [← set_oChK L t j] at hx
  obtain ⟨y, -, rfl⟩ := Finset.mem_map.mp hx
  rw [View.writes_singleton]
  have e : ((oChK L t j).view.slice (Rect.whole S80x128)).emb y = (oChK L t j).view.emb y := by
    show (oChK L t j).view.emb ((Rect.whole S80x128).emb y) = _
    rw [Rect.emb_whole_apply]
  calc ((oChK L t j).view.slice (Rect.whole S80x128)).write (Elt F) c0 pay Finset.univ ((oChK L t j).view.emb y)
      = ((oChK L t j).view.slice (Rect.whole S80x128)).write (Elt F) c0 pay Finset.univ
          (((oChK L t j).view.slice (Rect.whole S80x128)).emb y) := by rw [e]
    _ = _root_.cast _ (pay y) := View.write_emb_of_mem _ _ (Finset.mem_univ y)
    _ = pay y := cast_eq _ _
    _ = _ := hp y
    _ = rows0 m d ((oChK L t j).view.emb y) := by
      rw [emb_oChK L t j y]
      exact congrArg (fun z : Fin 204800 => rows0 m d (ix2 (n0 := 204800) (n1 := 128) z (y 1))) (Fin.ext (by show _ + (_ + _) + _ = _ + _ + _ + _; omega))

/-- The trips' ends: before trip `0` no chunk is written, after trip `7` all are. -/
theorem chunks_zero [FloatOps F] :
    (bigSep Finset.univ fun t : Fin 8 => bigSep Finset.univ fun j : Fin 10 =>
        oRowPts d (ck (wL L) t j) (if t.val < 0 then rows0 m d else m (oLoc d)) : sProp 𝕄)
      = bigSep Finset.univ fun t : Fin 8 => bigSep Finset.univ fun j : Fin 10 => oRowPts d (ck (wL L) t j) (m (oLoc d)) :=
  bigSep_congr fun t _ => by rw [if_neg (Nat.not_lt_zero _)]
theorem chunks_eight [FloatOps F] :
    (bigSep Finset.univ fun t : Fin 8 => bigSep Finset.univ fun j : Fin 10 =>
        oRowPts d (ck (wL L) t j) (if t.val < 8 then rows0 m d else m (oLoc d)) : sProp 𝕄)
      = bigSep Finset.univ fun t : Fin 8 => bigSep Finset.univ fun j : Fin 10 => oRowPts d (ck (wL L) t j) (rows0 m d) :=
  bigSep_congr fun t _ => by rw [if_pos t.isLt]

end Cert.Proof.KernelAux

end
-- ==== Proof.KBInv.lean ====
/-
  The loop's invariant for one worker's task: what is in flight and what is held before each trip, and after the last.
-/
import proofs.«206832_g86208583565466_cont_sun_m_1057_30_alg».proof.Proof.KBTile
import proofs.«206832_g86208583565466_cont_sun_m_1057_30_alg».proof.Proof.KBAux

noncomputable section

namespace Cert.Proof.KernelBody

open Cert.Kernel Cert.Kernel.Gen Cert.Proof.KernelCommon Cert.Proof.KernelTile Cert.Proof.KernelAux

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg1_scv : Memref Cert.Kernel.sig Kind.scVector Space.hbm Cert.Kernel.S1000000x128 EltTy.f32)
local notation "iV" => (Memref.whole Cert.Kernel.main_v0_scv : Memref Cert.Kernel.sig Kind.scVector Space.hbm Cert.Kernel.S204800 EltTy.i32)
local notation "oV" => (Memref.whole Cert.Kernel.main_v1_scv : Memref Cert.Kernel.sig Kind.scVector Space.hbm Cert.Kernel.S204800x128 EltTy.f32)
local notation "lV" => (Memref.whole Cert.Kernel.cc0_scratch0 : Memref Cert.Kernel.sig Kind.scVector Space.vmem Cert.Kernel.S6400 EltTy.i32)
local notation "b0V" => (Memref.whole Cert.Kernel.cc0_scratch1 : Memref Cert.Kernel.sig Kind.scVector Space.vmem Cert.Kernel.S80x128 EltTy.f32)
local notation "b1V" => (Memref.whole Cert.Kernel.cc0_scratch2 : Memref Cert.Kernel.sig Kind.scVector Space.vmem Cert.Kernel.S80x128 EltTy.f32)
local notation "b2V" => (Memref.whole Cert.Kernel.cc0_scratch3 : Memref Cert.Kernel.sig Kind.scVector Space.vmem Cert.Kernel.S80x128 EltTy.f32)
local notation "b3V" => (Memref.whole Cert.Kernel.cc0_scratch4 : Memref Cert.Kernel.sig Kind.scVector Space.vmem Cert.Kernel.S80x128 EltTy.f32)
local notation "b4V" => (Memref.whole Cert.Kernel.cc0_scratch5 : Memref Cert.Kernel.sig Kind.scVector Space.vmem Cert.Kernel.S80x128 EltTy.f32)
local notation "b5V" => (Memref.whole Cert.Kernel.cc0_scratch6 : Memref Cert.Kernel.sig Kind.scVector Space.vmem Cert.Kernel.S80x128 EltTy.f32)
local notation "b6V" => (Memref.whole Cert.Kernel.cc0_scratch7 : Memref Cert.Kernel.sig Kind.scVector Space.vmem Cert.Kernel.S80x128 EltTy.f32)
local notation "b7V" => (Memref.whole Cert.Kernel.cc0_scratch8 : Memref Cert.Kernel.sig Kind.scVector Space.vmem Cert.Kernel.S80x128 EltTy.f32)
local notation "b8V" => (Memref.whole Cert.Kernel.cc0_scratch9 : Memref Cert.Kernel.sig Kind.scVector Space.vmem Cert.Kernel.S80x128 EltTy.f32)
local notation "b9V" => (Memref.whole Cert.Kernel.cc0_scratch10 : Memref Cert.Kernel.sig Kind.scVector Space.vmem Cert.Kernel.S80x128 EltTy.f32)
local notation "thr" => (V d (cV L) (jV L))

/-! ## The pieces of the loop's invariant -/

/-- The eighty words of the index scratch from word `n` on, held. -/
def lWinPts (n : ℕ) (h : n + 80 ≤ 6400) : sProp 𝕄 := (lSl n h).view.loc thr ↦[(lSl n h).view.set]{fullShare} lst0 m d L
theorem lWinPts_congr (n n' : ℕ) (h : n + 80 ≤ 6400) (h' : n' + 80 ≤ 6400) (e : n = n') : lWinPts m d L n h = lWinPts m d L n' h' := by
  subst e; rfl
/-- Row `t` of the index scratch: its ten windows. -/
def lRow (t : Fin 8) : sProp 𝕄 := bigSep Finset.univ fun j : Fin 10 => lWinPts m d L (800 * t.val + 80 * j.val) (win_inb t j)

/-- What a row buffer holds once the gather named by the list words from `n` on has landed: its row `y` is row
    `6400 w + n + y` of the looked-up rows. -/
def gOK (n : ℕ) (h : n + 80 ≤ 6400) (g : S80x128.Idx → Elt F .f32) : Prop :=
  ∀ y : S80x128.Idx, g y = rows0 m d (ix2 (n0 := 204800) (n1 := 128) ⟨6400 * (wL L).val + n + (y 0).val, by have := (wL L).isLt; have h80 : (y 0).val < 80 := (y 0).isLt; omega⟩ (y 1))
theorem gOK_congr (n n' : ℕ) (h : n + 80 ≤ 6400) (h' : n' + 80 ≤ 6400) (g : S80x128.Idx → Elt F .f32) (e : n = n') (hg : gOK m d L n h g) : gOK m d L n' h' g := by
  subst e; exact hg

/-- A gather in flight on semaphore `s` into row buffer `r` (buffer number `j`): it carries the buffer (at what will
    have landed, `g`), the eighty list words from `n` on that name the rows, and buffer `j`'s share of the table. -/
def gFl (s : DmaSem sig) (r : Ref sig .scVector) (j : Fin 10) (n : ℕ) (h : n + 80 ≤ 6400) (g : Buf (Elt F) ((V d (cV L) (jV L)).loc r)) : sProp 𝕄 :=
  Transfers.Flight countersEmb thr (SemLoc.dma s) (default : HIx 1) 327680
    iprop((((Memref.whole r).view.loc thr ↦[(Memref.whole r).view.set]{fullShare} g)
        ∗ (lSl n h).view.loc thr ↦[(lSl n h).view.set]{fullShare} lst0 m d L)
      ∗ (xSl).view.loc thr ↦[(xSl).view.set]{xq (wL L) j} m (xLoc d))
theorem gFl_congr (s : DmaSem sig) (r : Ref sig .scVector) (j : Fin 10) (n n' : ℕ) (h : n + 80 ≤ 6400) (h' : n' + 80 ≤ 6400)
    (g : Buf (Elt F) ((V d (cV L) (jV L)).loc r)) (e : n = n') : gFl m d L s r j n h g = gFl m d L s r j n' h' g := by
  subst e; rfl

/-- A write-out in flight on semaphore `s`: it carries the result chunk `M` (at what will have landed, `c`) and the row
    buffer `r` it reads. -/
def wFl (s : DmaSem sig) (r : Ref sig .scVector) (M : Memref sig .scVector .hbm S80x128 .f32) (c : Buf (Elt F) (M.view.loc (V d (cV L) (jV L)))) (g : Buf (Elt F) ((V d (cV L) (jV L)).loc r)) : sProp 𝕄 :=
  Transfers.Flight countersEmb thr (SemLoc.dma s) (default : HIx 1) 327680
    iprop((M.view.loc thr ↦[M.view.set]{fullShare} c)
      ∗ (Memref.whole r).view.loc thr ↦[(Memref.whole r).view.set]{fullShare} g)

theorem pts_oCh0 (t : Fin k0_t1_loop.trips) (ht : t.val < 8) (f : Buf (Elt F) (oLoc d)) :
    ((((oV).slice (Rect.unit (s := S204800x128) (k0_off2 L t 0#32) S80x128.size (k0_off2_inb L t 0)) (fun _ => rfl)).view.loc thr
        ↦[((oV).slice (Rect.unit (s := S204800x128) (k0_off2 L t 0#32) S80x128.size (k0_off2_inb L t 0)) (fun _ => rfl)).view.set]{fullShare} f : sProp 𝕄)
      = oRowPts d (ck (wL L) (⟨t.val, ht⟩ : Fin 8) 0) f) := by
  rw [show ((oV).slice (Rect.unit (s := S204800x128) (k0_off2 L t 0#32) S80x128.size (k0_off2_inb L t 0)) (fun _ => rfl)).view.set = oRowSet (ck (wL L) (⟨t.val, ht⟩ : Fin 8) 0) from set_oChK L t 0]
theorem pts_oCh1 (t : Fin k0_t1_loop.trips) (ht : t.val < 8) (f : Buf (Elt F) (oLoc d)) :
    ((((oV).slice (Rect.unit (s := S204800x128) (k0_off2 L t 1#32) S80x128.size (k0_off2_inb L t 1)) (fun _ => rfl)).view.loc thr
        ↦[((oV).slice (Rect.unit (s := S204800x128) (k0_off2 L t 1#32) S80x128.size (k0_off2_inb L t 1)) (fun _ => rfl)).view.set]{fullShare} f : sProp 𝕄)
      = oRowPts d (ck (wL L) (⟨t.val, ht⟩ : Fin 8) 1) f) := by
  rw [show ((oV).slice (Rect.unit (s := S204800x128) (k0_off2 L t 1#32) S80x128.size (k0_off2_inb L t 1)) (fun _ => rfl)).view.set = oRowSet (ck (wL L) (⟨t.val, ht⟩ : Fin 8) 1) from set_oChK L t 1]
theorem pts_oCh2 (t : Fin k0_t1_loop.trips) (ht : t.val < 8) (f : Buf (Elt F) (oLoc d)) :
    ((((oV).slice (Rect.unit (s := S204800x128) (k0_off2 L t 2#32) S80x128.size (k0_off2_inb L t 2)) (fun _ => rfl)).view.loc thr
        ↦[((oV).slice (Rect.unit (s := S204800x128) (k0_off2 L t 2#32) S80x128.size (k0_off2_inb L t 2)) (fun _ => rfl)).view.set]{fullShare} f : sProp 𝕄)
      = oRowPts d (ck (wL L) (⟨t.val, ht⟩ : Fin 8) 2) f) := by
  rw [show ((oV).slice (Rect.unit (s := S204800x128) (k0_off2 L t 2#32) S80x128.size (k0_off2_inb L t 2)) (fun _ => rfl)).view.set = oRowSet (ck (wL L) (⟨t.val, ht⟩ : Fin 8) 2) from set_oChK L t 2]
theorem pts_oCh3 (t : Fin k0_t1_loop.trips) (ht : t.val < 8) (f : Buf (Elt F) (oLoc d)) :
    ((((oV).slice (Rect.unit (s := S204800x128) (k0_off2 L t 3#32) S80x128.size (k0_off2_inb L t 3)) (fun _ => rfl)).view.loc thr
        ↦[((oV).slice (Rect.unit (s := S204800x128) (k0_off2 L t 3#32) S80x128.size (k0_off2_inb L t 3)) (fun _ => rfl)).view.set]{fullShare} f : sProp 𝕄)
      = oRowPts d (ck (wL L) (⟨t.val, ht⟩ : Fin 8) 3) f) := by
  rw [show ((oV).slice (Rect.unit (s := S204800x128) (k0_off2 L t 3#32) S80x128.size (k0_off2_inb L t 3)) (fun _ => rfl)).view.set = oRowSet (ck (wL L) (⟨t.val, ht⟩ : Fin 8) 3) from set_oChK L t 3]
theorem pts_oCh4 (t : Fin k0_t1_loop.trips) (ht : t.val < 8) (f : Buf (Elt F) (oLoc d)) :
    ((((oV).slice (Rect.unit (s := S204800x128) (k0_off2 L t 4#32) S80x128.size (k0_off2_inb L t 4)) (fun _ => rfl)).view.loc thr
        ↦[((oV).slice (Rect.unit (s := S204800x128) (k0_off2 L t 4#32) S80x128.size (k0_off2_inb L t 4)) (fun _ => rfl)).view.set]{fullShare} f : sProp 𝕄)
      = oRowPts d (ck (wL L) (⟨t.val, ht⟩ : Fin 8) 4) f) := by
  rw [show ((oV).slice (Rect.unit (s := S204800x128) (k0_off2 L t 4#32) S80x128.size (k0_off2_inb L t 4)) (fun _ => rfl)).view.set = oRowSet (ck (wL L) (⟨t.val, ht⟩ : Fin 8) 4) from set_oChK L t 4]
theorem pts_oCh5 (t : Fin k0_t1_loop.trips) (ht : t.val < 8) (f : Buf (Elt F) (oLoc d)) :
    ((((oV).slice (Rect.unit (s := S204800x128) (k0_off2 L t 5#32) S80x128.size (k0_off2_inb L t 5)) (fun _ => rfl)).view.loc thr
        ↦[((oV).slice (Rect.unit (s := S204800x128) (k0_off2 L t 5#32) S80x128.size (k0_off2_inb L t 5)) (fun _ => rfl)).view.set]{fullShare} f : sProp 𝕄)
      = oRowPts d (ck (wL L) (⟨t.val, ht⟩ : Fin 8) 5) f) := by
  rw [show ((oV).slice (Rect.unit (s := S204800x128) (k0_off2 L t 5#32) S80x128.size (k0_off2_inb L t 5)) (fun _ => rfl)).view.set = oRowSet (ck (wL L) (⟨t.val, ht⟩ : Fin 8) 5) from set_oChK L t 5]
theorem pts_oCh6 (t : Fin k0_t1_loop.trips) (ht : t.val < 8) (f : Buf (Elt F) (oLoc d)) :
    ((((oV).slice (Rect.unit (s := S204800x128) (k0_off2 L t 6#32) S80x128.size (k0_off2_inb L t 6)) (fun _ => rfl)).view.loc thr
        ↦[((oV).slice (Rect.unit (s := S204800x128) (k0_off2 L t 6#32) S80x128.size (k0_off2_inb L t 6)) (fun _ => rfl)).view.set]{fullShare} f : sProp 𝕄)
      = oRowPts d (ck (wL L) (⟨t.val, ht⟩ : Fin 8) 6) f) := by
  rw [show ((oV).slice (Rect.unit (s := S204800x128) (k0_off2 L t 6#32) S80x128.size (k0_off2_inb L t 6)) (fun _ => rfl)).view.set = oRowSet (ck (wL L) (⟨t.val, ht⟩ : Fin 8) 6) from set_oChK L t 6]
theorem pts_oCh7 (t : Fin k0_t1_loop.trips) (ht : t.val < 8) (f : Buf (Elt F) (oLoc d)) :
    ((((oV).slice (Rect.unit (s := S204800x128) (k0_off2 L t 7#32) S80x128.size (k0_off2_inb L t 7)) (fun _ => rfl)).view.loc thr
        ↦[((oV).slice (Rect.unit (s := S204800x128) (k0_off2 L t 7#32) S80x128.size (k0_off2_inb L t 7)) (fun _ => rfl)).view.set]{fullShare} f : sProp 𝕄)
      = oRowPts d (ck (wL L) (⟨t.val, ht⟩ : Fin 8) 7) f) := by
  rw [show ((oV).slice (Rect.unit (s := S204800x128) (k0_off2 L t 7#32) S80x128.size (k0_off2_inb L t 7)) (fun _ => rfl)).view.set = oRowSet (ck (wL L) (⟨t.val, ht⟩ : Fin 8) 7) from set_oChK L t 7]
theorem pts_oCh8 (t : Fin k0_t1_loop.trips) (ht : t.val < 8) (f : Buf (Elt F) (oLoc d)) :
    ((((oV).slice (Rect.unit (s := S204800x128) (k0_off2 L t 8#32) S80x128.size (k0_off2_inb L t 8)) (fun _ => rfl)).view.loc thr
        ↦[((oV).slice (Rect.unit (s := S204800x128) (k0_off2 L t 8#32) S80x128.size (k0_off2_inb L t 8)) (fun _ => rfl)).view.set]{fullShare} f : sProp 𝕄)
      = oRowPts d (ck (wL L) (⟨t.val, ht⟩ : Fin 8) 8) f) := by
  rw [show ((oV).slice (Rect.unit (s := S204800x128) (k0_off2 L t 8#32) S80x128.size (k0_off2_inb L t 8)) (fun _ => rfl)).view.set = oRowSet (ck (wL L) (⟨t.val, ht⟩ : Fin 8) 8) from set_oChK L t 8]
theorem pts_oCh9 (t : Fin k0_t1_loop.trips) (ht : t.val < 8) (f : Buf (Elt F) (oLoc d)) :
    ((((oV).slice (Rect.unit (s := S204800x128) (k0_off2 L t 9#32) S80x128.size (k0_off2_inb L t 9)) (fun _ => rfl)).view.loc thr
        ↦[((oV).slice (Rect.unit (s := S204800x128) (k0_off2 L t 9#32) S80x128.size (k0_off2_inb L t 9)) (fun _ => rfl)).view.set]{fullShare} f : sProp 𝕄)
      = oRowPts d (ck (wL L) (⟨t.val, ht⟩ : Fin 8) 9) f) := by
  rw [show ((oV).slice (Rect.unit (s := S204800x128) (k0_off2 L t 9#32) S80x128.size (k0_off2_inb L t 9)) (fun _ => rfl)).view.set = oRowSet (ck (wL L) (⟨t.val, ht⟩ : Fin 8) 9) from set_oChK L t 9]

theorem cond1_of_lt (k : Fin k0_t1_loop.trips) (h : k.val < 7) : k0_cond1 k = 1#1 := by revert k; decide
theorem cond2_of_lt (k : Fin k0_t1_loop.trips) (h : k.val < 7) : k0_cond2 k = 1#1 := by revert k; decide
theorem cond3_of_lt (k : Fin k0_t1_loop.trips) (h : k.val < 7) : k0_cond3 k = 1#1 := by revert k; decide
theorem cond4_of_lt (k : Fin k0_t1_loop.trips) (h : k.val < 7) : k0_cond4 k = 1#1 := by revert k; decide
theorem cond5_of_lt (k : Fin k0_t1_loop.trips) (h : k.val < 7) : k0_cond5 k = 1#1 := by revert k; decide
theorem cond6_of_lt (k : Fin k0_t1_loop.trips) (h : k.val < 7) : k0_cond6 k = 1#1 := by revert k; decide
theorem cond7_of_lt (k : Fin k0_t1_loop.trips) (h : k.val < 7) : k0_cond7 k = 1#1 := by revert k; decide
theorem cond8_of_lt (k : Fin k0_t1_loop.trips) (h : k.val < 7) : k0_cond8 k = 1#1 := by revert k; decide
theorem cond9_of_lt (k : Fin k0_t1_loop.trips) (h : k.val < 7) : k0_cond9 k = 1#1 := by revert k; decide
theorem cond10_of_lt (k : Fin k0_t1_loop.trips) (h : k.val < 7) : k0_cond10 k = 1#1 := by revert k; decide
theorem cond1_of_eq (k : Fin k0_t1_loop.trips) (h : k.val = 7) : ¬ k0_cond1 k = 1#1 := by revert k; decide
theorem cond2_of_eq (k : Fin k0_t1_loop.trips) (h : k.val = 7) : ¬ k0_cond2 k = 1#1 := by revert k; decide
theorem cond3_of_eq (k : Fin k0_t1_loop.trips) (h : k.val = 7) : ¬ k0_cond3 k = 1#1 := by revert k; decide
theorem cond4_of_eq (k : Fin k0_t1_loop.trips) (h : k.val = 7) : ¬ k0_cond4 k = 1#1 := by revert k; decide
theorem cond5_of_eq (k : Fin k0_t1_loop.trips) (h : k.val = 7) : ¬ k0_cond5 k = 1#1 := by revert k; decide
theorem cond6_of_eq (k : Fin k0_t1_loop.trips) (h : k.val = 7) : ¬ k0_cond6 k = 1#1 := by revert k; decide
theorem cond7_of_eq (k : Fin k0_t1_loop.trips) (h : k.val = 7) : ¬ k0_cond7 k = 1#1 := by revert k; decide
theorem cond8_of_eq (k : Fin k0_t1_loop.trips) (h : k.val = 7) : ¬ k0_cond8 k = 1#1 := by revert k; decide
theorem cond9_of_eq (k : Fin k0_t1_loop.trips) (h : k.val = 7) : ¬ k0_cond9 k = 1#1 := by revert k; decide
theorem cond10_of_eq (k : Fin k0_t1_loop.trips) (h : k.val = 7) : ¬ k0_cond10 k = 1#1 := by revert k; decide

/-! ## The value lemmas at the program's spelling -/
theorem whole_write_apply (r : Ref sig .scVector) (g : r.ty.Contents (Elt F)) (p : r.ty.shape.Idx → Elt F r.ty.elt) (y : r.ty.shape.Idx) :
    (Memref.whole r).view.writes (Elt F) g [⟨Rect.whole r.ty.shape, p⟩] y = p y :=
  writes_whole_apply r g p y
theorem chunk_ok0 (t : Fin k0_t1_loop.trips) (ht : t.val < 8) (g : Buf (Elt F) ((V d (cV L) (jV L)).loc cc0_scratch1)) (hg : gOK m d L (800 * t.val + 0) (by omega) g) :
    ∀ x ∈ oRowSet (ck (wL L) (⟨t.val, ht⟩ : Fin 8) 0),
      (((oV).slice (Rect.unit (s := S204800x128) (k0_off2 L t 0#32) S80x128.size (k0_off2_inb L t 0)) (fun _ => rfl)).view.writes (Elt F) (m (oLoc d))
        [⟨Rect.whole (Rect.unit (s := S204800x128) (k0_off2 L t 0#32) S80x128.size (k0_off2_inb L t 0)).shape, ReadAs.same.apply (View.read (Elt F) (Memref.whole cc0_scratch1).view g)⟩]) x = rows0 m d x :=
  chunk_written (F := F) m d L t 0 (m (oLoc d)) _ hg
theorem chunk_ok1 (t : Fin k0_t1_loop.trips) (ht : t.val < 8) (g : Buf (Elt F) ((V d (cV L) (jV L)).loc cc0_scratch2)) (hg : gOK m d L (800 * t.val + 80) (by omega) g) :
    ∀ x ∈ oRowSet (ck (wL L) (⟨t.val, ht⟩ : Fin 8) 1),
      (((oV).slice (Rect.unit (s := S204800x128) (k0_off2 L t 1#32) S80x128.size (k0_off2_inb L t 1)) (fun _ => rfl)).view.writes (Elt F) (m (oLoc d))
        [⟨Rect.whole (Rect.unit (s := S204800x128) (k0_off2 L t 1#32) S80x128.size (k0_off2_inb L t 1)).shape, ReadAs.same.apply (View.read (Elt F) (Memref.whole cc0_scratch2).view g)⟩]) x = rows0 m d x :=
  chunk_written (F := F) m d L t 1 (m (oLoc d)) _ hg
theorem chunk_ok2 (t : Fin k0_t1_loop.trips) (ht : t.val < 8) (g : Buf (Elt F) ((V d (cV L) (jV L)).loc cc0_scratch3)) (hg : gOK m d L (800 * t.val + 160) (by omega) g) :
    ∀ x ∈ oRowSet (ck (wL L) (⟨t.val, ht⟩ : Fin 8) 2),
      (((oV).slice (Rect.unit (s := S204800x128) (k0_off2 L t 2#32) S80x128.size (k0_off2_inb L t 2)) (fun _ => rfl)).view.writes (Elt F) (m (oLoc d))
        [⟨Rect.whole (Rect.unit (s := S204800x128) (k0_off2 L t 2#32) S80x128.size (k0_off2_inb L t 2)).shape, ReadAs.same.apply (View.read (Elt F) (Memref.whole cc0_scratch3).view g)⟩]) x = rows0 m d x :=
  chunk_written (F := F) m d L t 2 (m (oLoc d)) _ hg
theorem chunk_ok3 (t : Fin k0_t1_loop.trips) (ht : t.val < 8) (g : Buf (Elt F) ((V d (cV L) (jV L)).loc cc0_scratch4)) (hg : gOK m d L (800 * t.val + 240) (by omega) g) :
    ∀ x ∈ oRowSet (ck (wL L) (⟨t.val, ht⟩ : Fin 8) 3),
      (((oV).slice (Rect.unit (s := S204800x128) (k0_off2 L t 3#32) S80x128.size (k0_off2_inb L t 3)) (fun _ => rfl)).view.writes (Elt F) (m (oLoc d))
        [⟨Rect.whole (Rect.unit (s := S204800x128) (k0_off2 L t 3#32) S80x128.size (k0_off2_inb L t 3)).shape, ReadAs.same.apply (View.read (Elt F) (Memref.whole cc0_scratch4).view g)⟩]) x = rows0 m d x :=
  chunk_written (F := F) m d L t 3 (m (oLoc d)) _ hg
theorem chunk_ok4 (t : Fin k0_t1_loop.trips) (ht : t.val < 8) (g : Buf (Elt F) ((V d (cV L) (jV L)).loc cc0_scratch5)) (hg : gOK m d L (800 * t.val + 320) (by omega) g) :
    ∀ x ∈ oRowSet (ck (wL L) (⟨t.val, ht⟩ : Fin 8) 4),
      (((oV).slice (Rect.unit (s := S204800x128) (k0_off2 L t 4#32) S80x128.size (k0_off2_inb L t 4)) (fun _ => rfl)).view.writes (Elt F) (m (oLoc d))
        [⟨Rect.whole (Rect.unit (s := S204800x128) (k0_off2 L t 4#32) S80x128.size (k0_off2_inb L t 4)).shape, ReadAs.same.apply (View.read (Elt F) (Memref.whole cc0_scratch5).view g)⟩]) x = rows0 m d x :=
  chunk_written (F := F) m d L t 4 (m (oLoc d)) _ hg
theorem chunk_ok5 (t : Fin k0_t1_loop.trips) (ht : t.val < 8) (g : Buf (Elt F) ((V d (cV L) (jV L)).loc cc0_scratch6)) (hg : gOK m d L (800 * t.val + 400) (by omega) g) :
    ∀ x ∈ oRowSet (ck (wL L) (⟨t.val, ht⟩ : Fin 8) 5),
      (((oV).slice (Rect.unit (s := S204800x128) (k0_off2 L t 5#32) S80x128.size (k0_off2_inb L t 5)) (fun _ => rfl)).view.writes (Elt F) (m (oLoc d))
        [⟨Rect.whole (Rect.unit (s := S204800x128) (k0_off2 L t 5#32) S80x128.size (k0_off2_inb L t 5)).shape, ReadAs.same.apply (View.read (Elt F) (Memref.whole cc0_scratch6).view g)⟩]) x = rows0 m d x :=
  chunk_written (F := F) m d L t 5 (m (oLoc d)) _ hg
theorem chunk_ok6 (t : Fin k0_t1_loop.trips) (ht : t.val < 8) (g : Buf (Elt F) ((V d (cV L) (jV L)).loc cc0_scratch7)) (hg : gOK m d L (800 * t.val + 480) (by omega) g) :
    ∀ x ∈ oRowSet (ck (wL L) (⟨t.val, ht⟩ : Fin 8) 6),
      (((oV).slice (Rect.unit (s := S204800x128) (k0_off2 L t 6#32) S80x128.size (k0_off2_inb L t 6)) (fun _ => rfl)).view.writes (Elt F) (m (oLoc d))
        [⟨Rect.whole (Rect.unit (s := S204800x128) (k0_off2 L t 6#32) S80x128.size (k0_off2_inb L t 6)).shape, ReadAs.same.apply (View.read (Elt F) (Memref.whole cc0_scratch7).view g)⟩]) x = rows0 m d x :=
  chunk_written (F := F) m d L t 6 (m (oLoc d)) _ hg
theorem chunk_ok7 (t : Fin k0_t1_loop.trips) (ht : t.val < 8) (g : Buf (Elt F) ((V d (cV L) (jV L)).loc cc0_scratch8)) (hg : gOK m d L (800 * t.val + 560) (by omega) g) :
    ∀ x ∈ oRowSet (ck (wL L) (⟨t.val, ht⟩ : Fin 8) 7),
      (((oV).slice (Rect.unit (s := S204800x128) (k0_off2 L t 7#32) S80x128.size (k0_off2_inb L t 7)) (fun _ => rfl)).view.writes (Elt F) (m (oLoc d))
        [⟨Rect.whole (Rect.unit (s := S204800x128) (k0_off2 L t 7#32) S80x128.size (k0_off2_inb L t 7)).shape, ReadAs.same.apply (View.read (Elt F) (Memref.whole cc0_scratch8).view g)⟩]) x = rows0 m d x :=
  chunk_written (F := F) m d L t 7 (m (oLoc d)) _ hg
theorem chunk_ok8 (t : Fin k0_t1_loop.trips) (ht : t.val < 8) (g : Buf (Elt F) ((V d (cV L) (jV L)).loc cc0_scratch9)) (hg : gOK m d L (800 * t.val + 640) (by omega) g) :
    ∀ x ∈ oRowSet (ck (wL L) (⟨t.val, ht⟩ : Fin 8) 8),
      (((oV).slice (Rect.unit (s := S204800x128) (k0_off2 L t 8#32) S80x128.size (k0_off2_inb L t 8)) (fun _ => rfl)).view.writes (Elt F) (m (oLoc d))
        [⟨Rect.whole (Rect.unit (s := S204800x128) (k0_off2 L t 8#32) S80x128.size (k0_off2_inb L t 8)).shape, ReadAs.same.apply (View.read (Elt F) (Memref.whole cc0_scratch9).view g)⟩]) x = rows0 m d x :=
  chunk_written (F := F) m d L t 8 (m (oLoc d)) _ hg
theorem chunk_ok9 (t : Fin k0_t1_loop.trips) (ht : t.val < 8) (g : Buf (Elt F) ((V d (cV L) (jV L)).loc cc0_scratch10)) (hg : gOK m d L (800 * t.val + 720) (by omega) g) :
    ∀ x ∈ oRowSet (ck (wL L) (⟨t.val, ht⟩ : Fin 8) 9),
      (((oV).slice (Rect.unit (s := S204800x128) (k0_off2 L t 9#32) S80x128.size (k0_off2_inb L t 9)) (fun _ => rfl)).view.writes (Elt F) (m (oLoc d))
        [⟨Rect.whole (Rect.unit (s := S204800x128) (k0_off2 L t 9#32) S80x128.size (k0_off2_inb L t 9)).shape, ReadAs.same.apply (View.read (Elt F) (Memref.whole cc0_scratch10).view g)⟩]) x = rows0 m d x :=
  chunk_written (F := F) m d L t 9 (m (oLoc d)) _ hg

variable (O : CellTallies nD τ sig (HIx 1)) (W : Waits sig (HIx 1))

omit m d L in
theorem ins_ok (a : SemLoc sig × HIx 1) (S : Waits sig (HIx 1)) (hS : ∀ p ∈ S, p ∈ W ∨ p.2 = none) (ha : a.2 = none) :
    ∀ p ∈ insert a S, p ∈ W ∨ p.2 = none := by
  intro p hp
  rcases Finset.mem_insert.mp hp with rfl | hp
  · exact .inr ha
  · exact hS p hp

variable [FloatOps F]

/-- Before trip `k < 8`: the ten gathers of row `k` are in flight, each buffer to hold its chunk's rows; the write-out
    semaphores are free; the list's other rows are held; the result chunks of the rows before `k` are written, the
    others as at the launch. -/
def A (k : ℕ) (hk : k < 8) : sProp 𝕄 :=
  iprop(Transfers.MayWaits thr (default : HIx 1) O
    ∗ (∃ g, ⌜gOK m d L (800 * k + 0) (by omega) g⌝ ∗ gFl m d L cc0_scratch11.sem cc0_scratch1 0 (800 * k + 0) (by omega) g)
    ∗ (∃ g, ⌜gOK m d L (800 * k + 80) (by omega) g⌝ ∗ gFl m d L cc0_scratch12.sem cc0_scratch2 1 (800 * k + 80) (by omega) g)
    ∗ (∃ g, ⌜gOK m d L (800 * k + 160) (by omega) g⌝ ∗ gFl m d L cc0_scratch13.sem cc0_scratch3 2 (800 * k + 160) (by omega) g)
    ∗ (∃ g, ⌜gOK m d L (800 * k + 240) (by omega) g⌝ ∗ gFl m d L cc0_scratch14.sem cc0_scratch4 3 (800 * k + 240) (by omega) g)
    ∗ (∃ g, ⌜gOK m d L (800 * k + 320) (by omega) g⌝ ∗ gFl m d L cc0_scratch15.sem cc0_scratch5 4 (800 * k + 320) (by omega) g)
    ∗ (∃ g, ⌜gOK m d L (800 * k + 400) (by omega) g⌝ ∗ gFl m d L cc0_scratch16.sem cc0_scratch6 5 (800 * k + 400) (by omega) g)
    ∗ (∃ g, ⌜gOK m d L (800 * k + 480) (by omega) g⌝ ∗ gFl m d L cc0_scratch17.sem cc0_scratch7 6 (800 * k + 480) (by omega) g)
    ∗ (∃ g, ⌜gOK m d L (800 * k + 560) (by omega) g⌝ ∗ gFl m d L cc0_scratch18.sem cc0_scratch8 7 (800 * k + 560) (by omega) g)
    ∗ (∃ g, ⌜gOK m d L (800 * k + 640) (by omega) g⌝ ∗ gFl m d L cc0_scratch19.sem cc0_scratch9 8 (800 * k + 640) (by omega) g)
    ∗ (∃ g, ⌜gOK m d L (800 * k + 720) (by omega) g⌝ ∗ gFl m d L cc0_scratch20.sem cc0_scratch10 9 (800 * k + 720) (by omega) g)
    ∗ semVal (thr, SemLoc.dma cc0_scratch21.sem) 0
    ∗ semVal (thr, SemLoc.dma cc0_scratch22.sem) 0
    ∗ semVal (thr, SemLoc.dma cc0_scratch23.sem) 0
    ∗ semVal (thr, SemLoc.dma cc0_scratch24.sem) 0
    ∗ semVal (thr, SemLoc.dma cc0_scratch25.sem) 0
    ∗ semVal (thr, SemLoc.dma cc0_scratch26.sem) 0
    ∗ semVal (thr, SemLoc.dma cc0_scratch27.sem) 0
    ∗ semVal (thr, SemLoc.dma cc0_scratch28.sem) 0
    ∗ semVal (thr, SemLoc.dma cc0_scratch29.sem) 0
    ∗ semVal (thr, SemLoc.dma cc0_scratch30.sem) 0
    ∗ (bigSep (Finset.univ.filter fun t : Fin 8 => t.val ≠ k) fun t => lRow m d L t)
    ∗ (bigSep Finset.univ fun t : Fin 8 => bigSep Finset.univ fun j : Fin 10 => oRowPts d (ck (wL L) t j) (if t.val < k then rows0 m d else m (oLoc d)))
    ∗ ∃ W', ⌜∀ p ∈ W', p ∈ W ∨ p.2 = none⌝ ∗ owes thr O W')

theorem seven_lt : 7 < k0_t1_loop.trips := by rw [trips_eq]; omega

/-- After the last trip: the ten write-outs of row 7 are in flight, each chunk to hold its rows; everything else is free. -/
def B : sProp 𝕄 :=
  iprop(Transfers.MayWaits thr (default : HIx 1) O
    ∗ (∃ c g, ⌜∀ x ∈ oRowSet (ck (wL L) (7 : Fin 8) 0), c x = rows0 m d x⌝ ∗ wFl d L cc0_scratch21.sem cc0_scratch1 ((oV).slice (Rect.unit (s := S204800x128) (k0_off2 L ⟨7, seven_lt⟩ 0#32) S80x128.size (k0_off2_inb L ⟨7, seven_lt⟩ 0)) (fun _ => rfl)) c g)
    ∗ (∃ c g, ⌜∀ x ∈ oRowSet (ck (wL L) (7 : Fin 8) 1), c x = rows0 m d x⌝ ∗ wFl d L cc0_scratch22.sem cc0_scratch2 ((oV).slice (Rect.unit (s := S204800x128) (k0_off2 L ⟨7, seven_lt⟩ 1#32) S80x128.size (k0_off2_inb L ⟨7, seven_lt⟩ 1)) (fun _ => rfl)) c g)
    ∗ (∃ c g, ⌜∀ x ∈ oRowSet (ck (wL L) (7 : Fin 8) 2), c x = rows0 m d x⌝ ∗ wFl d L cc0_scratch23.sem cc0_scratch3 ((oV).slice (Rect.unit (s := S204800x128) (k0_off2 L ⟨7, seven_lt⟩ 2#32) S80x128.size (k0_off2_inb L ⟨7, seven_lt⟩ 2)) (fun _ => rfl)) c g)
    ∗ (∃ c g, ⌜∀ x ∈ oRowSet (ck (wL L) (7 : Fin 8) 3), c x = rows0 m d x⌝ ∗ wFl d L cc0_scratch24.sem cc0_scratch4 ((oV).slice (Rect.unit (s := S204800x128) (k0_off2 L ⟨7, seven_lt⟩ 3#32) S80x128.size (k0_off2_inb L ⟨7, seven_lt⟩ 3)) (fun _ => rfl)) c g)
    ∗ (∃ c g, ⌜∀ x ∈ oRowSet (ck (wL L) (7 : Fin 8) 4), c x = rows0 m d x⌝ ∗ wFl d L cc0_scratch25.sem cc0_scratch5 ((oV).slice (Rect.unit (s := S204800x128) (k0_off2 L ⟨7, seven_lt⟩ 4#32) S80x128.size (k0_off2_inb L ⟨7, seven_lt⟩ 4)) (fun _ => rfl)) c g)
    ∗ (∃ c g, ⌜∀ x ∈ oRowSet (ck (wL L) (7 : Fin 8) 5), c x = rows0 m d x⌝ ∗ wFl d L cc0_scratch26.sem cc0_scratch6 ((oV).slice (Rect.unit (s := S204800x128) (k0_off2 L ⟨7, seven_lt⟩ 5#32) S80x128.size (k0_off2_inb L ⟨7, seven_lt⟩ 5)) (fun _ => rfl)) c g)
    ∗ (∃ c g, ⌜∀ x ∈ oRowSet (ck (wL L) (7 : Fin 8) 6), c x = rows0 m d x⌝ ∗ wFl d L cc0_scratch27.sem cc0_scratch7 ((oV).slice (Rect.unit (s := S204800x128) (k0_off2 L ⟨7, seven_lt⟩ 6#32) S80x128.size (k0_off2_inb L ⟨7, seven_lt⟩ 6)) (fun _ => rfl)) c g)
    ∗ (∃ c g, ⌜∀ x ∈ oRowSet (ck (wL L) (7 : Fin 8) 7), c x = rows0 m d x⌝ ∗ wFl d L cc0_scratch28.sem cc0_scratch8 ((oV).slice (Rect.unit (s := S204800x128) (k0_off2 L ⟨7, seven_lt⟩ 7#32) S80x128.size (k0_off2_inb L ⟨7, seven_lt⟩ 7)) (fun _ => rfl)) c g)
    ∗ (∃ c g, ⌜∀ x ∈ oRowSet (ck (wL L) (7 : Fin 8) 8), c x = rows0 m d x⌝ ∗ wFl d L cc0_scratch29.sem cc0_scratch9 ((oV).slice (Rect.unit (s := S204800x128) (k0_off2 L ⟨7, seven_lt⟩ 8#32) S80x128.size (k0_off2_inb L ⟨7, seven_lt⟩ 8)) (fun _ => rfl)) c g)
    ∗ (∃ c g, ⌜∀ x ∈ oRowSet (ck (wL L) (7 : Fin 8) 9), c x = rows0 m d x⌝ ∗ wFl d L cc0_scratch30.sem cc0_scratch10 ((oV).slice (Rect.unit (s := S204800x128) (k0_off2 L ⟨7, seven_lt⟩ 9#32) S80x128.size (k0_off2_inb L ⟨7, seven_lt⟩ 9)) (fun _ => rfl)) c g)
    ∗ semVal (thr, SemLoc.dma cc0_scratch11.sem) 0
    ∗ semVal (thr, SemLoc.dma cc0_scratch12.sem) 0
    ∗ semVal (thr, SemLoc.dma cc0_scratch13.sem) 0
    ∗ semVal (thr, SemLoc.dma cc0_scratch14.sem) 0
    ∗ semVal (thr, SemLoc.dma cc0_scratch15.sem) 0
    ∗ semVal (thr, SemLoc.dma cc0_scratch16.sem) 0
    ∗ semVal (thr, SemLoc.dma cc0_scratch17.sem) 0
    ∗ semVal (thr, SemLoc.dma cc0_scratch18.sem) 0
    ∗ semVal (thr, SemLoc.dma cc0_scratch19.sem) 0
    ∗ semVal (thr, SemLoc.dma cc0_scratch20.sem) 0
    ∗ ((xSl).view.loc thr ↦[(xSl).view.set]{xq (wL L) 0} m (xLoc d))
    ∗ ((xSl).view.loc thr ↦[(xSl).view.set]{xq (wL L) 1} m (xLoc d))
    ∗ ((xSl).view.loc thr ↦[(xSl).view.set]{xq (wL L) 2} m (xLoc d))
    ∗ ((xSl).view.loc thr ↦[(xSl).view.set]{xq (wL L) 3} m (xLoc d))
    ∗ ((xSl).view.loc thr ↦[(xSl).view.set]{xq (wL L) 4} m (xLoc d))
    ∗ ((xSl).view.loc thr ↦[(xSl).view.set]{xq (wL L) 5} m (xLoc d))
    ∗ ((xSl).view.loc thr ↦[(xSl).view.set]{xq (wL L) 6} m (xLoc d))
    ∗ ((xSl).view.loc thr ↦[(xSl).view.set]{xq (wL L) 7} m (xLoc d))
    ∗ ((xSl).view.loc thr ↦[(xSl).view.set]{xq (wL L) 8} m (xLoc d))
    ∗ ((xSl).view.loc thr ↦[(xSl).view.set]{xq (wL L) 9} m (xLoc d))
    ∗ (bigSep Finset.univ fun t : Fin 8 => lRow m d L t)
    ∗ (bigSep (Finset.univ.erase (⟨7, by omega⟩ : Fin 8)) fun t : Fin 8 => bigSep Finset.univ fun j : Fin 10 => oRowPts d (ck (wL L) t j) (if t.val < 7 then rows0 m d else m (oLoc d)))
    ∗ ∃ W', ⌜∀ p ∈ W', p ∈ W ∨ p.2 = none⌝ ∗ owes thr O W')

def inv (k : ℕ) (_ : BitVec 32) : sProp 𝕄 := if hk : k < 8 then A m d L O W k hk else B m d L O W

omit [FloatOps F] in
/-- A row of the index scratch out of all of them. -/
theorem rows_at (Φ : Fin 8 → sProp 𝕄) (k : Fin 8) :
    bigSep Finset.univ Φ = iprop(Φ k ∗ bigSep (Finset.univ.filter fun t : Fin 8 => t.val ≠ k.val) Φ) := by
  rw [bigSep_univ_at Φ k]
  congr 2
  ext t
  simp only [Finset.mem_erase, Finset.mem_univ, and_true, Finset.mem_filter, true_and, ne_eq, Fin.ext_iff]

omit [FloatOps F] in
/-- The index scratch, whole, is its eight rows of ten windows. -/
theorem lst_rows : ((lV).view.loc thr ↦{fullShare} lst0 m d L : sProp 𝕄) = bigSep Finset.univ fun t : Fin 8 => lRow m d L t := by
  rw [lst_windows (F := F) d L (lst0 m d L)]
  refine bigSep_congr fun t _ => ?_
  unfold lRow
  refine bigSep_congr fun j _ => ?_
  unfold lWinPts
  exact (lSl_own (F := F) d L _ _ fullShare (lst0 m d L)).symm

end Cert.Proof.KernelBody

end
-- ==== Proof.KBTripA.lean ====
/-
  A trip of the worker's loop before the last.
-/
import proofs.«206832_g86208583565466_cont_sun_m_1057_30_alg».proof.Proof.KBTile
import proofs.«206832_g86208583565466_cont_sun_m_1057_30_alg».proof.Proof.KBAux
import proofs.«206832_g86208583565466_cont_sun_m_1057_30_alg».proof.Proof.KBInv

noncomputable section

namespace Cert.Proof.KernelBody

open Cert.Kernel Cert.Kernel.Gen Cert.Proof.KernelCommon Cert.Proof.KernelTile Cert.Proof.KernelAux

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg1_scv : Memref Cert.Kernel.sig Kind.scVector Space.hbm Cert.Kernel.S1000000x128 EltTy.f32)
local notation "iV" => (Memref.whole Cert.Kernel.main_v0_scv : Memref Cert.Kernel.sig Kind.scVector Space.hbm Cert.Kernel.S204800 EltTy.i32)
local notation "oV" => (Memref.whole Cert.Kernel.main_v1_scv : Memref Cert.Kernel.sig Kind.scVector Space.hbm Cert.Kernel.S204800x128 EltTy.f32)
local notation "lV" => (Memref.whole Cert.Kernel.cc0_scratch0 : Memref Cert.Kernel.sig Kind.scVector Space.vmem Cert.Kernel.S6400 EltTy.i32)
local notation "b0V" => (Memref.whole Cert.Kernel.cc0_scratch1 : Memref Cert.Kernel.sig Kind.scVector Space.vmem Cert.Kernel.S80x128 EltTy.f32)
local notation "b1V" => (Memref.whole Cert.Kernel.cc0_scratch2 : Memref Cert.Kernel.sig Kind.scVector Space.vmem Cert.Kernel.S80x128 EltTy.f32)
local notation "b2V" => (Memref.whole Cert.Kernel.cc0_scratch3 : Memref Cert.Kernel.sig Kind.scVector Space.vmem Cert.Kernel.S80x128 EltTy.f32)
local notation "b3V" => (Memref.whole Cert.Kernel.cc0_scratch4 : Memref Cert.Kernel.sig Kind.scVector Space.vmem Cert.Kernel.S80x128 EltTy.f32)
local notation "b4V" => (Memref.whole Cert.Kernel.cc0_scratch5 : Memref Cert.Kernel.sig Kind.scVector Space.vmem Cert.Kernel.S80x128 EltTy.f32)
local notation "b5V" => (Memref.whole Cert.Kernel.cc0_scratch6 : Memref Cert.Kernel.sig Kind.scVector Space.vmem Cert.Kernel.S80x128 EltTy.f32)
local notation "b6V" => (Memref.whole Cert.Kernel.cc0_scratch7 : Memref Cert.Kernel.sig Kind.scVector Space.vmem Cert.Kernel.S80x128 EltTy.f32)
local notation "b7V" => (Memref.whole Cert.Kernel.cc0_scratch8 : Memref Cert.Kernel.sig Kind.scVector Space.vmem Cert.Kernel.S80x128 EltTy.f32)
local notation "b8V" => (Memref.whole Cert.Kernel.cc0_scratch9 : Memref Cert.Kernel.sig Kind.scVector Space.vmem Cert.Kernel.S80x128 EltTy.f32)
local notation "b9V" => (Memref.whole Cert.Kernel.cc0_scratch10 : Memref Cert.Kernel.sig Kind.scVector Space.vmem Cert.Kernel.S80x128 EltTy.f32)
local notation "thr" => (V d (cV L) (jV L))

variable (O : CellTallies nD τ sig (HIx 1)) (W : Waits sig (HIx 1))
variable [FloatOps F]

set_option maxHeartbeats 16000000 in
/-- A trip `k < 7`: for each buffer in turn the gather of row `k` is awaited and the buffer written out to its chunk; one
    buffer behind, the write-out is awaited and the buffer sent to gather row `k + 1`. Every chunk of row `k` ends
    holding the rows its words name. -/
theorem trip_lt (hpre : PreOK m) (v2 : BitVec 32) (k : Fin k0_t1_loop.trips) (acc : BitVec 32) (hk : k.val < 7) :
    inv m d L O W k.val acc ⊢ wp frame (wpE (defs₀ (F := F)) 𝒱₀ thr none) Set.univ
      (k0_t1_body L xV (Memref.isWhole_whole _) iV (Memref.isWhole_whole _) oV (Memref.isWhole_whole _) lV (Memref.isWhole_whole _)
        b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) b8V (Memref.isWhole_whole _) b9V (Memref.isWhole_whole _)
        cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scoped0 v2 k acc)
      (inv m d L O W (k.val + 1)) := by
  have hk8 : k.val < 8 := by omega
  have k0_h1 : k0_cond1 k = 1#1 := cond1_of_lt k hk
  have k0_h2 : k0_cond2 k = 1#1 := cond2_of_lt k hk
  have k0_h3 : k0_cond3 k = 1#1 := cond3_of_lt k hk
  have k0_h4 : k0_cond4 k = 1#1 := cond4_of_lt k hk
  have k0_h5 : k0_cond5 k = 1#1 := cond5_of_lt k hk
  have k0_h6 : k0_cond6 k = 1#1 := cond6_of_lt k hk
  have k0_h7 : k0_cond7 k = 1#1 := cond7_of_lt k hk
  have k0_h8 : k0_cond8 k = 1#1 := cond8_of_lt k hk
  have k0_h9 : k0_cond9 k = 1#1 := cond9_of_lt k hk
  have k0_h10 : k0_cond10 k = 1#1 := cond10_of_lt k hk
  have hin := fun R hR x => list_inb (F := F) m d L hpre R hR x
  have hinS : ∀ (n : ℕ) (h : n + 80 ≤ 6400) (x : S80.Idx), ((lSl n h).view.read (Elt F) (lst0 m d L) x).toNat < S1000000x128.size gathers_S1000000x128_S80x128.axis :=
    fun n h x => list_inb (F := F) m d L hpre (Rect.unit (s := S6400) ![n] S80.size (lSl_inb n h)) (fun _ => rfl) x
  unfold inv
  rw [dif_pos hk8, dif_pos (show k.val + 1 < 8 by omega)]
  unfold A
  rw [bigSep_ne_succ (F := F) (fun t => lRow m d L t) k.val hk, chunks_at (F := F) m d L k.val hk8,
    bigSep_ne_pred (F := F) (fun t => lRow m d L t) k.val hk, chunks_at_succ (F := F) m d L k.val hk8]
  unfold lRow
  rw [bigSep_fin10 (fun j : Fin 10 => lWinPts m d L (800 * (⟨k.val + 1, by omega⟩ : Fin 8).val + 80 * j.val) (win_inb ⟨k.val + 1, by omega⟩ j)),
    bigSep_fin10 (fun j : Fin 10 => oRowPts d (ck (wL L) (⟨k.val, hk8⟩ : Fin 8) j) (m (oLoc d))),
    bigSep_fin10 (fun j : Fin 10 => lWinPts m d L (800 * (⟨k.val, by omega⟩ : Fin 8).val + 80 * j.val) (win_inb ⟨k.val, by omega⟩ j)),
    bigSep_fin10 (fun j : Fin 10 => oRowPts d (ck (wL L) (⟨k.val, hk8⟩ : Fin 8) j) (rows0 m d))]
  iintro ⟨Hmw, ⟨%g0, %hg0, Hg0⟩, ⟨%g1, %hg1, Hg1⟩, ⟨%g2, %hg2, Hg2⟩, ⟨%g3, %hg3, Hg3⟩, ⟨%g4, %hg4, Hg4⟩, ⟨%g5, %hg5, Hg5⟩, ⟨%g6, %hg6, Hg6⟩, ⟨%g7, %hg7, Hg7⟩, ⟨%g8, %hg8, Hg8⟩, ⟨%g9, %hg9, Hg9⟩, Hw0, Hw1, Hw2, Hw3, Hw4, Hw5, Hw6, Hw7, Hw8, Hw9, ⟨⟨Hl0, Hl1, Hl2, Hl3, Hl4, Hl5, Hl6, Hl7, Hl8, Hl9⟩, HLW⟩, ⟨⟨Hc0, Hc1, Hc2, Hc3, Hc4, Hc5, Hc6, Hc7, Hc8, Hc9⟩, HCH⟩, %W', %hW', HO⟩
  ihave Hl0' := (Entails.of_eq (lWinPts_congr (F := F) m d L _ (800 * k.val + 800) _ (by omega) (by simp only []; omega))) $$ Hl0
  ihave Hl1' := (Entails.of_eq (lWinPts_congr (F := F) m d L _ (800 * k.val + 880) _ (by omega) (by simp only []; omega))) $$ Hl1
  ihave Hl2' := (Entails.of_eq (lWinPts_congr (F := F) m d L _ (800 * k.val + 960) _ (by omega) (by simp only []; omega))) $$ Hl2
  ihave Hl3' := (Entails.of_eq (lWinPts_congr (F := F) m d L _ (800 * k.val + 1040) _ (by omega) (by simp only []; omega))) $$ Hl3
  ihave Hl4' := (Entails.of_eq (lWinPts_congr (F := F) m d L _ (800 * k.val + 1120) _ (by omega) (by simp only []; omega))) $$ Hl4
  ihave Hl5' := (Entails.of_eq (lWinPts_congr (F := F) m d L _ (800 * k.val + 1200) _ (by omega) (by simp only []; omega))) $$ Hl5
  ihave Hl6' := (Entails.of_eq (lWinPts_congr (F := F) m d L _ (800 * k.val + 1280) _ (by omega) (by simp only []; omega))) $$ Hl6
  ihave Hl7' := (Entails.of_eq (lWinPts_congr (F := F) m d L _ (800 * k.val + 1360) _ (by omega) (by simp only []; omega))) $$ Hl7
  ihave Hl8' := (Entails.of_eq (lWinPts_congr (F := F) m d L _ (800 * k.val + 1440) _ (by omega) (by simp only []; omega))) $$ Hl8
  ihave Hl9' := (Entails.of_eq (lWinPts_congr (F := F) m d L _ (800 * k.val + 1520) _ (by omega) (by simp only []; omega))) $$ Hl9
  ihave Hc0' := (Entails.of_eq (pts_oCh0 (F := F) d L k hk8 (m (oLoc d))).symm) $$ Hc0
  ihave Hc1' := (Entails.of_eq (pts_oCh1 (F := F) d L k hk8 (m (oLoc d))).symm) $$ Hc1
  ihave Hc2' := (Entails.of_eq (pts_oCh2 (F := F) d L k hk8 (m (oLoc d))).symm) $$ Hc2
  ihave Hc3' := (Entails.of_eq (pts_oCh3 (F := F) d L k hk8 (m (oLoc d))).symm) $$ Hc3
  ihave Hc4' := (Entails.of_eq (pts_oCh4 (F := F) d L k hk8 (m (oLoc d))).symm) $$ Hc4
  ihave Hc5' := (Entails.of_eq (pts_oCh5 (F := F) d L k hk8 (m (oLoc d))).symm) $$ Hc5
  ihave Hc6' := (Entails.of_eq (pts_oCh6 (F := F) d L k hk8 (m (oLoc d))).symm) $$ Hc6
  ihave Hc7' := (Entails.of_eq (pts_oCh7 (F := F) d L k hk8 (m (oLoc d))).symm) $$ Hc7
  ihave Hc8' := (Entails.of_eq (pts_oCh8 (F := F) d L k hk8 (m (oLoc d))).symm) $$ Hc8
  ihave Hc9' := (Entails.of_eq (pts_oCh9 (F := F) d L k hk8 (m (oLoc d))).symm) $$ Hc9
  unfold gFl lWinPts xSl
  unfold k0_t1_body
  sl_exec
  icases Hg0_dst with ⟨Hb0, Hk0⟩
  sl_exec
  icases Hg1_dst with ⟨Hb1, Hk1⟩
  sl_exec
  icases Hg2_dst with ⟨Hb2, Hk2⟩
  sl_exec
  icases Hg3_dst with ⟨Hb3, Hk3⟩
  sl_exec
  icases Hg4_dst with ⟨Hb4, Hk4⟩
  sl_exec
  icases Hg5_dst with ⟨Hb5, Hk5⟩
  sl_exec
  icases Hg6_dst with ⟨Hb6, Hk6⟩
  sl_exec
  icases Hg7_dst with ⟨Hb7, Hk7⟩
  sl_exec
  icases Hg8_dst with ⟨Hb8, Hk8⟩
  sl_exec
  icases Hg9_dst with ⟨Hb9, Hk9⟩
  sl_exec
  sl_step
  -- the state before trip `k + 1`
  isplitl [Hmw]; · iexact Hmw
  isplitl [Hg0]
  · iexists _
    isplitr [Hg0]
    swap
    · iexact Hg0
    · ipureintro
      exact gOK_congr (F := F) m d L (800 * k.val + 800) _ (by omega) _ _ (by omega)
        (fun y => (whole_write_apply (F := F) cc0_scratch1 g0 _ y).trans (gather_rows0 (F := F) m d L hpre (800 * k.val + 800) (by omega) _ _ y))
  isplitl [Hg1]
  · iexists _
    isplitr [Hg1]
    swap
    · iexact Hg1
    · ipureintro
      exact gOK_congr (F := F) m d L (800 * k.val + 880) _ (by omega) _ _ (by omega)
        (fun y => (whole_write_apply (F := F) cc0_scratch2 g1 _ y).trans (gather_rows0 (F := F) m d L hpre (800 * k.val + 880) (by omega) _ _ y))
  isplitl [Hg2]
  · iexists _
    isplitr [Hg2]
    swap
    · iexact Hg2
    · ipureintro
      exact gOK_congr (F := F) m d L (800 * k.val + 960) _ (by omega) _ _ (by omega)
        (fun y => (whole_write_apply (F := F) cc0_scratch3 g2 _ y).trans (gather_rows0 (F := F) m d L hpre (800 * k.val + 960) (by omega) _ _ y))
  isplitl [Hg3]
  · iexists _
    isplitr [Hg3]
    swap
    · iexact Hg3
    · ipureintro
      exact gOK_congr (F := F) m d L (800 * k.val + 1040) _ (by omega) _ _ (by omega)
        (fun y => (whole_write_apply (F := F) cc0_scratch4 g3 _ y).trans (gather_rows0 (F := F) m d L hpre (800 * k.val + 1040) (by omega) _ _ y))
  isplitl [Hg4]
  · iexists _
    isplitr [Hg4]
    swap
    · iexact Hg4
    · ipureintro
      exact gOK_congr (F := F) m d L (800 * k.val + 1120) _ (by omega) _ _ (by omega)
        (fun y => (whole_write_apply (F := F) cc0_scratch5 g4 _ y).trans (gather_rows0 (F := F) m d L hpre (800 * k.val + 1120) (by omega) _ _ y))
  isplitl [Hg5]
  · iexists _
    isplitr [Hg5]
    swap
    · iexact Hg5
    · ipureintro
      exact gOK_congr (F := F) m d L (800 * k.val + 1200) _ (by omega) _ _ (by omega)
        (fun y => (whole_write_apply (F := F) cc0_scratch6 g5 _ y).trans (gather_rows0 (F := F) m d L hpre (800 * k.val + 1200) (by omega) _ _ y))
  isplitl [Hg6]
  · iexists _
    isplitr [Hg6]
    swap
    · iexact Hg6
    · ipureintro
      exact gOK_congr (F := F) m d L (800 * k.val + 1280) _ (by omega) _ _ (by omega)
        (fun y => (whole_write_apply (F := F) cc0_scratch7 g6 _ y).trans (gather_rows0 (F := F) m d L hpre (800 * k.val + 1280) (by omega) _ _ y))
  isplitl [Hg7]
  · iexists _
    isplitr [Hg7]
    swap
    · iexact Hg7
    · ipureintro
      exact gOK_congr (F := F) m d L (800 * k.val + 1360) _ (by omega) _ _ (by omega)
        (fun y => (whole_write_apply (F := F) cc0_scratch8 g7 _ y).trans (gather_rows0 (F := F) m d L hpre (800 * k.val + 1360) (by omega) _ _ y))
  isplitl [Hg8]
  · iexists _
    isplitr [Hg8]
    swap
    · iexact Hg8
    · ipureintro
      exact gOK_congr (F := F) m d L (800 * k.val + 1440) _ (by omega) _ _ (by omega)
        (fun y => (whole_write_apply (F := F) cc0_scratch9 g8 _ y).trans (gather_rows0 (F := F) m d L hpre (800 * k.val + 1440) (by omega) _ _ y))
  isplitl [Hg9]
  · iexists _
    isplitr [Hg9]
    swap
    · iexact Hg9
    · ipureintro
      exact gOK_congr (F := F) m d L (800 * k.val + 1520) _ (by omega) _ _ (by omega)
        (fun y => (whole_write_apply (F := F) cc0_scratch10 g9 _ y).trans (gather_rows0 (F := F) m d L hpre (800 * k.val + 1520) (by omega) _ _ y))
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hk0 Hk1 Hk2 Hk3 Hk4 Hk5 Hk6 Hk7 Hk8 Hk9 HLW]
  · isplitl [Hk0 Hk1 Hk2 Hk3 Hk4 Hk5 Hk6 Hk7 Hk8 Hk9]
    · isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      isplitl [Hk8]; · iexact Hk8
      iexact Hk9
    · iexact HLW
  isplitl [Hc0' Hc1' Hc2' Hc3' Hc4' Hc5' Hc6' Hc7' Hc8' Hc9' HCH]
  · isplitl [Hc0' Hc1' Hc2' Hc3' Hc4' Hc5' Hc6' Hc7' Hc8' Hc9']
    · isplitl [Hc0']
      · ihave H1 := (Entails.of_eq (pts_oCh0 (F := F) d L k hk8 _)) $$ Hc0'
        ihave H2 := (Entails.of_eq (pointsTo_congr (chunk_ok0 (F := F) m d L k hk8 g0 (gOK_congr (F := F) m d L _ _ _ (by omega) g0 (by omega) hg0)))) $$ H1
        iexact H2
      isplitl [Hc1']
      · ihave H1 := (Entails.of_eq (pts_oCh1 (F := F) d L k hk8 _)) $$ Hc1'
        ihave H2 := (Entails.of_eq (pointsTo_congr (chunk_ok1 (F := F) m d L k hk8 g1 (gOK_congr (F := F) m d L _ _ _ (by omega) g1 (by omega) hg1)))) $$ H1
        iexact H2
      isplitl [Hc2']
      · ihave H1 := (Entails.of_eq (pts_oCh2 (F := F) d L k hk8 _)) $$ Hc2'
        ihave H2 := (Entails.of_eq (pointsTo_congr (chunk_ok2 (F := F) m d L k hk8 g2 (gOK_congr (F := F) m d L _ _ _ (by omega) g2 (by omega) hg2)))) $$ H1
        iexact H2
      isplitl [Hc3']
      · ihave H1 := (Entails.of_eq (pts_oCh3 (F := F) d L k hk8 _)) $$ Hc3'
        ihave H2 := (Entails.of_eq (pointsTo_congr (chunk_ok3 (F := F) m d L k hk8 g3 (gOK_congr (F := F) m d L _ _ _ (by omega) g3 (by omega) hg3)))) $$ H1
        iexact H2
      isplitl [Hc4']
      · ihave H1 := (Entails.of_eq (pts_oCh4 (F := F) d L k hk8 _)) $$ Hc4'
        ihave H2 := (Entails.of_eq (pointsTo_congr (chunk_ok4 (F := F) m d L k hk8 g4 (gOK_congr (F := F) m d L _ _ _ (by omega) g4 (by omega) hg4)))) $$ H1
        iexact H2
      isplitl [Hc5']
      · ihave H1 := (Entails.of_eq (pts_oCh5 (F := F) d L k hk8 _)) $$ Hc5'
        ihave H2 := (Entails.of_eq (pointsTo_congr (chunk_ok5 (F := F) m d L k hk8 g5 (gOK_congr (F := F) m d L _ _ _ (by omega) g5 (by omega) hg5)))) $$ H1
        iexact H2
      isplitl [Hc6']
      · ihave H1 := (Entails.of_eq (pts_oCh6 (F := F) d L k hk8 _)) $$ Hc6'
        ihave H2 := (Entails.of_eq (pointsTo_congr (chunk_ok6 (F := F) m d L k hk8 g6 (gOK_congr (F := F) m d L _ _ _ (by omega) g6 (by omega) hg6)))) $$ H1
        iexact H2
      isplitl [Hc7']
      · ihave H1 := (Entails.of_eq (pts_oCh7 (F := F) d L k hk8 _)) $$ Hc7'
        ihave H2 := (Entails.of_eq (pointsTo_congr (chunk_ok7 (F := F) m d L k hk8 g7 (gOK_congr (F := F) m d L _ _ _ (by omega) g7 (by omega) hg7)))) $$ H1
        iexact H2
      isplitl [Hc8']
      · ihave H1 := (Entails.of_eq (pts_oCh8 (F := F) d L k hk8 _)) $$ Hc8'
        ihave H2 := (Entails.of_eq (pointsTo_congr (chunk_ok8 (F := F) m d L k hk8 g8 (gOK_congr (F := F) m d L _ _ _ (by omega) g8 (by omega) hg8)))) $$ H1
        iexact H2
      ihave H1 := (Entails.of_eq (pts_oCh9 (F := F) d L k hk8 _)) $$ Hc9'
      ihave H2 := (Entails.of_eq (pointsTo_congr (chunk_ok9 (F := F) m d L k hk8 g9 (gOK_congr (F := F) m d L _ _ _ (by omega) g9 (by omega) hg9)))) $$ H1
      iexact H2
    · iexact HCH
  iexists _
  isplitr [HO]
  swap
  · iexact HO
  · ipureintro
    exact ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (hW') rfl) rfl) rfl) rfl) rfl) rfl) rfl) rfl) rfl) rfl) rfl) rfl) rfl) rfl) rfl) rfl) rfl) rfl) rfl) rfl

end Cert.Proof.KernelBody

end
-- ==== Proof.KBTripB.lean ====
/-
  The last trip of the worker's loop.
-/
import proofs.«206832_g86208583565466_cont_sun_m_1057_30_alg».proof.Proof.KBTile
import proofs.«206832_g86208583565466_cont_sun_m_1057_30_alg».proof.Proof.KBAux
import proofs.«206832_g86208583565466_cont_sun_m_1057_30_alg».proof.Proof.KBInv

noncomputable section

namespace Cert.Proof.KernelBody

open Cert.Kernel Cert.Kernel.Gen Cert.Proof.KernelCommon Cert.Proof.KernelTile Cert.Proof.KernelAux

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg1_scv : Memref Cert.Kernel.sig Kind.scVector Space.hbm Cert.Kernel.S1000000x128 EltTy.f32)
local notation "iV" => (Memref.whole Cert.Kernel.main_v0_scv : Memref Cert.Kernel.sig Kind.scVector Space.hbm Cert.Kernel.S204800 EltTy.i32)
local notation "oV" => (Memref.whole Cert.Kernel.main_v1_scv : Memref Cert.Kernel.sig Kind.scVector Space.hbm Cert.Kernel.S204800x128 EltTy.f32)
local notation "lV" => (Memref.whole Cert.Kernel.cc0_scratch0 : Memref Cert.Kernel.sig Kind.scVector Space.vmem Cert.Kernel.S6400 EltTy.i32)
local notation "b0V" => (Memref.whole Cert.Kernel.cc0_scratch1 : Memref Cert.Kernel.sig Kind.scVector Space.vmem Cert.Kernel.S80x128 EltTy.f32)
local notation "b1V" => (Memref.whole Cert.Kernel.cc0_scratch2 : Memref Cert.Kernel.sig Kind.scVector Space.vmem Cert.Kernel.S80x128 EltTy.f32)
local notation "b2V" => (Memref.whole Cert.Kernel.cc0_scratch3 : Memref Cert.Kernel.sig Kind.scVector Space.vmem Cert.Kernel.S80x128 EltTy.f32)
local notation "b3V" => (Memref.whole Cert.Kernel.cc0_scratch4 : Memref Cert.Kernel.sig Kind.scVector Space.vmem Cert.Kernel.S80x128 EltTy.f32)
local notation "b4V" => (Memref.whole Cert.Kernel.cc0_scratch5 : Memref Cert.Kernel.sig Kind.scVector Space.vmem Cert.Kernel.S80x128 EltTy.f32)
local notation "b5V" => (Memref.whole Cert.Kernel.cc0_scratch6 : Memref Cert.Kernel.sig Kind.scVector Space.vmem Cert.Kernel.S80x128 EltTy.f32)
local notation "b6V" => (Memref.whole Cert.Kernel.cc0_scratch7 : Memref Cert.Kernel.sig Kind.scVector Space.vmem Cert.Kernel.S80x128 EltTy.f32)
local notation "b7V" => (Memref.whole Cert.Kernel.cc0_scratch8 : Memref Cert.Kernel.sig Kind.scVector Space.vmem Cert.Kernel.S80x128 EltTy.f32)
local notation "b8V" => (Memref.whole Cert.Kernel.cc0_scratch9 : Memref Cert.Kernel.sig Kind.scVector Space.vmem Cert.Kernel.S80x128 EltTy.f32)
local notation "b9V" => (Memref.whole Cert.Kernel.cc0_scratch10 : Memref Cert.Kernel.sig Kind.scVector Space.vmem Cert.Kernel.S80x128 EltTy.f32)
local notation "thr" => (V d (cV L) (jV L))

variable (O : CellTallies nD τ sig (HIx 1)) (W : Waits sig (HIx 1))
variable [FloatOps F]

set_option maxHeartbeats 16000000 in
/-- The last trip: each gather of row 7 is awaited and its buffer written out; no buffer is sent gathering again, so the
    ten write-outs are still in flight at the end. -/
theorem trip_last (hpre : PreOK m) (v2 : BitVec 32) (k : Fin k0_t1_loop.trips) (acc : BitVec 32) (hk : k.val = 7) :
    inv m d L O W k.val acc ⊢ wp frame (wpE (defs₀ (F := F)) 𝒱₀ thr none) Set.univ
      (k0_t1_body L xV (Memref.isWhole_whole _) iV (Memref.isWhole_whole _) oV (Memref.isWhole_whole _) lV (Memref.isWhole_whole _)
        b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) b8V (Memref.isWhole_whole _) b9V (Memref.isWhole_whole _)
        cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scoped0 v2 k acc)
      (inv m d L O W (k.val + 1)) := by
  obtain rfl : k = ⟨7, seven_lt⟩ := Fin.ext hk
  have hk8 : (⟨7, seven_lt⟩ : Fin k0_t1_loop.trips).val < 8 := by simp only []; omega
  have k0_h1 : ¬ k0_cond1 (⟨7, seven_lt⟩ : Fin k0_t1_loop.trips) = 1#1 := cond1_of_eq _ rfl
  have k0_h2 : ¬ k0_cond2 (⟨7, seven_lt⟩ : Fin k0_t1_loop.trips) = 1#1 := cond2_of_eq _ rfl
  have k0_h3 : ¬ k0_cond3 (⟨7, seven_lt⟩ : Fin k0_t1_loop.trips) = 1#1 := cond3_of_eq _ rfl
  have k0_h4 : ¬ k0_cond4 (⟨7, seven_lt⟩ : Fin k0_t1_loop.trips) = 1#1 := cond4_of_eq _ rfl
  have k0_h5 : ¬ k0_cond5 (⟨7, seven_lt⟩ : Fin k0_t1_loop.trips) = 1#1 := cond5_of_eq _ rfl
  have k0_h6 : ¬ k0_cond6 (⟨7, seven_lt⟩ : Fin k0_t1_loop.trips) = 1#1 := cond6_of_eq _ rfl
  have k0_h7 : ¬ k0_cond7 (⟨7, seven_lt⟩ : Fin k0_t1_loop.trips) = 1#1 := cond7_of_eq _ rfl
  have k0_h8 : ¬ k0_cond8 (⟨7, seven_lt⟩ : Fin k0_t1_loop.trips) = 1#1 := cond8_of_eq _ rfl
  have k0_h9 : ¬ k0_cond9 (⟨7, seven_lt⟩ : Fin k0_t1_loop.trips) = 1#1 := cond9_of_eq _ rfl
  have k0_h10 : ¬ k0_cond10 (⟨7, seven_lt⟩ : Fin k0_t1_loop.trips) = 1#1 := cond10_of_eq _ rfl
  unfold inv
  rw [dif_pos hk8, dif_neg (show ¬ (⟨7, seven_lt⟩ : Fin k0_t1_loop.trips).val + 1 < 8 by simp only []; omega)]
  unfold A B
  rw [rows_at (F := F) (fun t => lRow m d L t) (⟨7, by omega⟩ : Fin 8)]
  rw [chunks_at (F := F) m d L (⟨7, seven_lt⟩ : Fin k0_t1_loop.trips).val hk8]
  rw [bigSep_fin10 (fun j : Fin 10 => oRowPts d (ck (wL L) (⟨(⟨7, seven_lt⟩ : Fin k0_t1_loop.trips).val, hk8⟩ : Fin 8) j) (m (oLoc d)))]
  unfold lRow
  rw [bigSep_fin10 (fun j : Fin 10 => lWinPts m d L (800 * (⟨7, by omega⟩ : Fin 8).val + 80 * j.val) (win_inb ⟨7, by omega⟩ j))]
  iintro ⟨Hmw, ⟨%g0, %hg0, Hg0⟩, ⟨%g1, %hg1, Hg1⟩, ⟨%g2, %hg2, Hg2⟩, ⟨%g3, %hg3, Hg3⟩, ⟨%g4, %hg4, Hg4⟩, ⟨%g5, %hg5, Hg5⟩, ⟨%g6, %hg6, Hg6⟩, ⟨%g7, %hg7, Hg7⟩, ⟨%g8, %hg8, Hg8⟩, ⟨%g9, %hg9, Hg9⟩, Hw0, Hw1, Hw2, Hw3, Hw4, Hw5, Hw6, Hw7, Hw8, Hw9, HLW, ⟨⟨Hc0, Hc1, Hc2, Hc3, Hc4, Hc5, Hc6, Hc7, Hc8, Hc9⟩, HCH⟩, %W', %hW', HO⟩
  ihave Hc0' := (Entails.of_eq (pts_oCh0 (F := F) d L ⟨7, seven_lt⟩ hk8 (m (oLoc d))).symm) $$ Hc0
  ihave Hc1' := (Entails.of_eq (pts_oCh1 (F := F) d L ⟨7, seven_lt⟩ hk8 (m (oLoc d))).symm) $$ Hc1
  ihave Hc2' := (Entails.of_eq (pts_oCh2 (F := F) d L ⟨7, seven_lt⟩ hk8 (m (oLoc d))).symm) $$ Hc2
  ihave Hc3' := (Entails.of_eq (pts_oCh3 (F := F) d L ⟨7, seven_lt⟩ hk8 (m (oLoc d))).symm) $$ Hc3
  ihave Hc4' := (Entails.of_eq (pts_oCh4 (F := F) d L ⟨7, seven_lt⟩ hk8 (m (oLoc d))).symm) $$ Hc4
  ihave Hc5' := (Entails.of_eq (pts_oCh5 (F := F) d L ⟨7, seven_lt⟩ hk8 (m (oLoc d))).symm) $$ Hc5
  ihave Hc6' := (Entails.of_eq (pts_oCh6 (F := F) d L ⟨7, seven_lt⟩ hk8 (m (oLoc d))).symm) $$ Hc6
  ihave Hc7' := (Entails.of_eq (pts_oCh7 (F := F) d L ⟨7, seven_lt⟩ hk8 (m (oLoc d))).symm) $$ Hc7
  ihave Hc8' := (Entails.of_eq (pts_oCh8 (F := F) d L ⟨7, seven_lt⟩ hk8 (m (oLoc d))).symm) $$ Hc8
  ihave Hc9' := (Entails.of_eq (pts_oCh9 (F := F) d L ⟨7, seven_lt⟩ hk8 (m (oLoc d))).symm) $$ Hc9
  unfold gFl lWinPts xSl
  unfold k0_t1_body
  sl_exec
  icases Hg0_dst with ⟨Hb0, Hk0⟩
  sl_exec
  icases Hg1_dst with ⟨Hb1, Hk1⟩
  sl_exec
  icases Hg2_dst with ⟨Hb2, Hk2⟩
  sl_exec
  icases Hg3_dst with ⟨Hb3, Hk3⟩
  sl_exec
  icases Hg4_dst with ⟨Hb4, Hk4⟩
  sl_exec
  icases Hg5_dst with ⟨Hb5, Hk5⟩
  sl_exec
  icases Hg6_dst with ⟨Hb6, Hk6⟩
  sl_exec
  icases Hg7_dst with ⟨Hb7, Hk7⟩
  sl_exec
  icases Hg8_dst with ⟨Hb8, Hk8⟩
  sl_exec
  icases Hg9_dst with ⟨Hb9, Hk9⟩
  sl_exec
  sl_step
  isplitl [Hmw]; · iexact Hmw
  isplitl [Hw0]
  · iexists _, _
    isplitr [Hw0]
    swap
    · unfold wFl; iexact Hw0
    · ipureintro
      exact chunk_ok0 (F := F) m d L ⟨7, seven_lt⟩ hk8 g0 (gOK_congr (F := F) m d L _ _ _ (by simp only []; omega) g0 (by simp only []) hg0)
  isplitl [Hw1]
  · iexists _, _
    isplitr [Hw1]
    swap
    · unfold wFl; iexact Hw1
    · ipureintro
      exact chunk_ok1 (F := F) m d L ⟨7, seven_lt⟩ hk8 g1 (gOK_congr (F := F) m d L _ _ _ (by simp only []; omega) g1 (by simp only []) hg1)
  isplitl [Hw2]
  · iexists _, _
    isplitr [Hw2]
    swap
    · unfold wFl; iexact Hw2
    · ipureintro
      exact chunk_ok2 (F := F) m d L ⟨7, seven_lt⟩ hk8 g2 (gOK_congr (F := F) m d L _ _ _ (by simp only []; omega) g2 (by simp only []) hg2)
  isplitl [Hw3]
  · iexists _, _
    isplitr [Hw3]
    swap
    · unfold wFl; iexact Hw3
    · ipureintro
      exact chunk_ok3 (F := F) m d L ⟨7, seven_lt⟩ hk8 g3 (gOK_congr (F := F) m d L _ _ _ (by simp only []; omega) g3 (by simp only []) hg3)
  isplitl [Hw4]
  · iexists _, _
    isplitr [Hw4]
    swap
    · unfold wFl; iexact Hw4
    · ipureintro
      exact chunk_ok4 (F := F) m d L ⟨7, seven_lt⟩ hk8 g4 (gOK_congr (F := F) m d L _ _ _ (by simp only []; omega) g4 (by simp only []) hg4)
  isplitl [Hw5]
  · iexists _, _
    isplitr [Hw5]
    swap
    · unfold wFl; iexact Hw5
    · ipureintro
      exact chunk_ok5 (F := F) m d L ⟨7, seven_lt⟩ hk8 g5 (gOK_congr (F := F) m d L _ _ _ (by simp only []; omega) g5 (by simp only []) hg5)
  isplitl [Hw6]
  · iexists _, _
    isplitr [Hw6]
    swap
    · unfold wFl; iexact Hw6
    · ipureintro
      exact chunk_ok6 (F := F) m d L ⟨7, seven_lt⟩ hk8 g6 (gOK_congr (F := F) m d L _ _ _ (by simp only []; omega) g6 (by simp only []) hg6)
  isplitl [Hw7]
  · iexists _, _
    isplitr [Hw7]
    swap
    · unfold wFl; iexact Hw7
    · ipureintro
      exact chunk_ok7 (F := F) m d L ⟨7, seven_lt⟩ hk8 g7 (gOK_congr (F := F) m d L _ _ _ (by simp only []; omega) g7 (by simp only []) hg7)
  isplitl [Hw8]
  · iexists _, _
    isplitr [Hw8]
    swap
    · unfold wFl; iexact Hw8
    · ipureintro
      exact chunk_ok8 (F := F) m d L ⟨7, seven_lt⟩ hk8 g8 (gOK_congr (F := F) m d L _ _ _ (by simp only []; omega) g8 (by simp only []) hg8)
  isplitl [Hw9]
  · iexists _, _
    isplitr [Hw9]
    swap
    · unfold wFl; iexact Hw9
    · ipureintro
      exact chunk_ok9 (F := F) m d L ⟨7, seven_lt⟩ hk8 g9 (gOK_congr (F := F) m d L _ _ _ (by simp only []; omega) g9 (by simp only []) hg9)
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hg6]; · iexact Hg6
  isplitl [Hg7]; · iexact Hg7
  isplitl [Hg8]; · iexact Hg8
  isplitl [Hg9]; · iexact Hg9
  isplitl [Hg0_src]; · iexact Hg0_src
  isplitl [Hg1_src]; · iexact Hg1_src
  isplitl [Hg2_src]; · iexact Hg2_src
  isplitl [Hg3_src]; · iexact Hg3_src
  isplitl [Hg4_src]; · iexact Hg4_src
  isplitl [Hg5_src]; · iexact Hg5_src
  isplitl [Hg6_src]; · iexact Hg6_src
  isplitl [Hg7_src]; · iexact Hg7_src
  isplitl [Hg8_src]; · iexact Hg8_src
  isplitl [Hg9_src]; · iexact Hg9_src
  isplitl [Hk0 Hk1 Hk2 Hk3 Hk4 Hk5 Hk6 Hk7 Hk8 Hk9 HLW]
  · isplitl [Hk0 Hk1 Hk2 Hk3 Hk4 Hk5 Hk6 Hk7 Hk8 Hk9]
    · isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      isplitl [Hk8]; · iexact Hk8
      iexact Hk9
    · iexact HLW
  isplitl [HCH]; · iexact HCH
  iexists _
  isplitr [HO]
  swap
  · iexact HO
  · ipureintro
    exact ins_ok W _ _ (ins_ok W _ _ (ins_ok W _ _ (ins_ok W _ _ (ins_ok W _ _ (ins_ok W _ _ (ins_ok W _ _ (ins_ok W _ _ (ins_ok W _ _ (ins_ok W _ _ (hW') rfl) rfl) rfl) rfl) rfl) rfl) rfl) rfl) rfl) rfl

end Cert.Proof.KernelBody

end
-- ==== Proof.KBExit.lean ====
/-
  Putting one worker's task back together: the shapes its resources are held in while the task runs, rejoined into the
  shapes the task's statement names.

  * The index scratch's eighty windows, each held through the window itself, are the scratch held whole; the first
    trip's ten windows can be set apart from the other seven trips'.
  * The worker's rows of the flattened list, its ten shares of the table (each held through the window every transfer
    addresses) and its eighty chunks of the result are what the worker was handed, at the chunks' contents.
  * The scratch's windows, the ten row buffers (each held at its memref's own elements, at some contents) and the
    subcore's remaining buffers are all its scoped buffers at some contents; its twenty-one DMA semaphores at zero are
    all its scoped semaphores at zero.
-/
import proofs.«206832_g86208583565466_cont_sun_m_1057_30_alg».proof.Proof.KBAux

noncomputable section

namespace Cert.Proof.KernelExit

open Cert.Kernel Cert.Kernel.Gen Cert.Proof.KernelCommon Cert.Proof.KernelTile Cert.Proof.KernelAux

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg1_scv : Memref Cert.Kernel.sig Kind.scVector Space.hbm Cert.Kernel.S1000000x128 EltTy.f32)
local notation "lV" => (Memref.whole Cert.Kernel.cc0_scratch0 : Memref Cert.Kernel.sig Kind.scVector Space.vmem Cert.Kernel.S6400 EltTy.i32)

/-! ## The index scratch's windows, each held through itself -/

/-- The eighty windows, each held through itself at the worker's words, are the scratch held whole at those words. -/
theorem list_back :
    ((bigSep Finset.univ fun t : Fin 8 => bigSep Finset.univ fun j : Fin 10 =>
        ((lSl (800 * t.val + 80 * j.val) (win_inb t j)).view.loc (V d (cV L) (jV L)) ↦[(lSl (800 * t.val + 80 * j.val) (win_inb t j)).view.set]{fullShare} lst0 m d L)) : sProp 𝕄)
      = ((lV).view.loc (V d (cV L) (jV L)) ↦{fullShare} lst0 m d L) :=
  (bigSep_congr fun t _ => bigSep_congr fun j _ => lSl_own (F := F) d L _ (win_inb t j) fullShare (lst0 m d L)).trans
    (lst_windows (F := F) d L (lst0 m d L)).symm

/-- The scratch held whole at the worker's words: the first trip's ten windows, and the other seven trips'. -/
theorem list_entry :
    ((lV).view.loc (V d (cV L) (jV L)) ↦{fullShare} lst0 m d L : sProp 𝕄)
      = iprop((bigSep Finset.univ fun j : Fin 10 =>
            ((lSl (800 * (0 : Fin 8).val + 80 * j.val) (win_inb 0 j)).view.loc (V d (cV L) (jV L)) ↦[(lSl (800 * (0 : Fin 8).val + 80 * j.val) (win_inb 0 j)).view.set]{fullShare} lst0 m d L))
          ∗ bigSep (Finset.univ.filter fun t : Fin 8 => t.val ≠ 0) fun t : Fin 8 => bigSep Finset.univ fun j : Fin 10 =>
              ((lSl (800 * t.val + 80 * j.val) (win_inb t j)).view.loc (V d (cV L) (jV L)) ↦[(lSl (800 * t.val + 80 * j.val) (win_inb t j)).view.set]{fullShare} lst0 m d L)) := by
  rw [← list_back m d L]
  have hs : (Finset.univ : Finset (Fin 8)) = insert (0 : Fin 8) (Finset.univ.filter fun t : Fin 8 => t.val ≠ 0) := by
    ext t
    refine ⟨fun _ => ?_, fun _ => Finset.mem_univ _⟩
    by_cases h : t = 0
    · exact h ▸ Finset.mem_insert_self _ _
    · exact Finset.mem_insert_of_mem (Finset.mem_filter.mpr ⟨Finset.mem_univ _, fun e => h (Fin.ext e)⟩)
  conv_lhs => rw [hs]
  rw [BI.bigSep_insert (by simp)]
  rfl

/-! ## What the worker was handed, back -/

section Tile
variable [FloatOps F]

/-- The worker's rows of the list, its ten table shares and its eighty chunks at contents `f` are its part at `f`. -/
theorem tile_back (f : Buf (Elt F) (oLoc d)) :
    (iprop(((iRowK L).view.loc (V d (cV L) (jV L)) ↦[(iRowK L).view.set]{fullShare} ids0 m d)
        ∗ ((xSl).view.loc (V d (cV L) (jV L)) ↦[(xSl).view.set]{xq (wL L) 0} m (xLoc d))
        ∗ ((xSl).view.loc (V d (cV L) (jV L)) ↦[(xSl).view.set]{xq (wL L) 1} m (xLoc d))
        ∗ ((xSl).view.loc (V d (cV L) (jV L)) ↦[(xSl).view.set]{xq (wL L) 2} m (xLoc d))
        ∗ ((xSl).view.loc (V d (cV L) (jV L)) ↦[(xSl).view.set]{xq (wL L) 3} m (xLoc d))
        ∗ ((xSl).view.loc (V d (cV L) (jV L)) ↦[(xSl).view.set]{xq (wL L) 4} m (xLoc d))
        ∗ ((xSl).view.loc (V d (cV L) (jV L)) ↦[(xSl).view.set]{xq (wL L) 5} m (xLoc d))
        ∗ ((xSl).view.loc (V d (cV L) (jV L)) ↦[(xSl).view.set]{xq (wL L) 6} m (xLoc d))
        ∗ ((xSl).view.loc (V d (cV L) (jV L)) ↦[(xSl).view.set]{xq (wL L) 7} m (xLoc d))
        ∗ ((xSl).view.loc (V d (cV L) (jV L)) ↦[(xSl).view.set]{xq (wL L) 8} m (xLoc d))
        ∗ ((xSl).view.loc (V d (cV L) (jV L)) ↦[(xSl).view.set]{xq (wL L) 9} m (xLoc d))
        ∗ (bigSep Finset.univ fun t : Fin 8 => bigSep Finset.univ fun j : Fin 10 => oRowPts d (ck (wL L) t j) f)) : sProp 𝕄)
      ⊢ tilePts m d (wL L) f := by
  unfold tilePts
  rw [bigSep_fin10 (fun j => xShPts m d (wL L) j)]
  iintro ⟨Hi, Hx0, Hx1, Hx2, Hx3, Hx4, Hx5, Hx6, Hx7, Hx8, Hx9, Ho⟩
  ihave Hi' := (Entails.of_eq (pts_iRowK (F := F) d L (ids0 m d))) $$ Hi
  ihave Hy0 := (Entails.of_eq ((xSl_whole (F := F) d L (xq (wL L) 0) (m (xLoc d))).trans (pts_xV (F := F) d L _ _))) $$ Hx0
  ihave Hy1 := (Entails.of_eq ((xSl_whole (F := F) d L (xq (wL L) 1) (m (xLoc d))).trans (pts_xV (F := F) d L _ _))) $$ Hx1
  ihave Hy2 := (Entails.of_eq ((xSl_whole (F := F) d L (xq (wL L) 2) (m (xLoc d))).trans (pts_xV (F := F) d L _ _))) $$ Hx2
  ihave Hy3 := (Entails.of_eq ((xSl_whole (F := F) d L (xq (wL L) 3) (m (xLoc d))).trans (pts_xV (F := F) d L _ _))) $$ Hx3
  ihave Hy4 := (Entails.of_eq ((xSl_whole (F := F) d L (xq (wL L) 4) (m (xLoc d))).trans (pts_xV (F := F) d L _ _))) $$ Hx4
  ihave Hy5 := (Entails.of_eq ((xSl_whole (F := F) d L (xq (wL L) 5) (m (xLoc d))).trans (pts_xV (F := F) d L _ _))) $$ Hx5
  ihave Hy6 := (Entails.of_eq ((xSl_whole (F := F) d L (xq (wL L) 6) (m (xLoc d))).trans (pts_xV (F := F) d L _ _))) $$ Hx6
  ihave Hy7 := (Entails.of_eq ((xSl_whole (F := F) d L (xq (wL L) 7) (m (xLoc d))).trans (pts_xV (F := F) d L _ _))) $$ Hx7
  ihave Hy8 := (Entails.of_eq ((xSl_whole (F := F) d L (xq (wL L) 8) (m (xLoc d))).trans (pts_xV (F := F) d L _ _))) $$ Hx8
  ihave Hy9 := (Entails.of_eq ((xSl_whole (F := F) d L (xq (wL L) 9) (m (xLoc d))).trans (pts_xV (F := F) d L _ _))) $$ Hx9
  isplitl [Hi']; · iexact Hi'
  isplitr [Ho]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    isplitl [Hy8]; · iexact Hy8
    iexact Hy9
  · iexact Ho

end Tile

/-! ## The subcore's scoped buffers and semaphores, back -/

/-- The scratch's windows, the ten row buffers at some contents and the remaining buffers are the scoped buffers. -/
theorem bufs_back (hF : (K (F := F)).Facts) :
    (iprop((bigSep Finset.univ fun t : Fin 8 => bigSep Finset.univ fun j : Fin 10 =>
        ((lSl (800 * t.val + 80 * j.val) (win_inb t j)).view.loc (V d (cV L) (jV L)) ↦[(lSl (800 * t.val + 80 * j.val) (win_inb t j)).view.set]{fullShare} lst0 m d L))
        ∗ (∃ f, ((Memref.whole cc0_scratch1).view.loc (V d (cV L) (jV L)) ↦[(Memref.whole cc0_scratch1).view.set]{fullShare} f))
        ∗ (∃ f, ((Memref.whole cc0_scratch2).view.loc (V d (cV L) (jV L)) ↦[(Memref.whole cc0_scratch2).view.set]{fullShare} f))
        ∗ (∃ f, ((Memref.whole cc0_scratch3).view.loc (V d (cV L) (jV L)) ↦[(Memref.whole cc0_scratch3).view.set]{fullShare} f))
        ∗ (∃ f, ((Memref.whole cc0_scratch4).view.loc (V d (cV L) (jV L)) ↦[(Memref.whole cc0_scratch4).view.set]{fullShare} f))
        ∗ (∃ f, ((Memref.whole cc0_scratch5).view.loc (V d (cV L) (jV L)) ↦[(Memref.whole cc0_scratch5).view.set]{fullShare} f))
        ∗ (∃ f, ((Memref.whole cc0_scratch6).view.loc (V d (cV L) (jV L)) ↦[(Memref.whole cc0_scratch6).view.set]{fullShare} f))
        ∗ (∃ f, ((Memref.whole cc0_scratch7).view.loc (V d (cV L) (jV L)) ↦[(Memref.whole cc0_scratch7).view.set]{fullShare} f))
        ∗ (∃ f, ((Memref.whole cc0_scratch8).view.loc (V d (cV L) (jV L)) ↦[(Memref.whole cc0_scratch8).view.set]{fullShare} f))
        ∗ (∃ f, ((Memref.whole cc0_scratch9).view.loc (V d (cV L) (jV L)) ↦[(Memref.whole cc0_scratch9).view.set]{fullShare} f))
        ∗ (∃ f, ((Memref.whole cc0_scratch10).view.loc (V d (cV L) (jV L)) ↦[(Memref.whole cc0_scratch10).view.set]{fullShare} f))
        ∗ bigSep ((((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)).erase ((Proc.scVector (cV L) (jV L)).devRef cc0_scratch9)).erase ((Proc.scVector (cV L) (jV L)).devRef cc0_scratch10)) fun b => iprop(∃ f, ((d, b) : Loc nD τ sig) ↦{fullShare} f)) : sProp 𝕄)
      ⊢ scopedBufs (V d (cV L) (jV L)) := by
  rw [(K (F := F)).scopedBufs_V hF d (cV L) (jV L), ownBufs_V]
  iintro ⟨Hl, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, Hrest⟩
  ihave Hl' := (Entails.of_eq ((list_back m d L).trans (pts_lV (F := F) d L _))) $$ Hl
  ihave G1 := (Entails.of_eq ((whole_own (F := F) d L cc0_scratch1 fullShare f1).symm.trans (pts_whole (F := F) d L cc0_scratch1 f1))) $$ H1
  ihave G2 := (Entails.of_eq ((whole_own (F := F) d L cc0_scratch2 fullShare f2).symm.trans (pts_whole (F := F) d L cc0_scratch2 f2))) $$ H2
  ihave G3 := (Entails.of_eq ((whole_own (F := F) d L cc0_scratch3 fullShare f3).symm.trans (pts_whole (F := F) d L cc0_scratch3 f3))) $$ H3
  ihave G4 := (Entails.of_eq ((whole_own (F := F) d L cc0_scratch4 fullShare f4).symm.trans (pts_whole (F := F) d L cc0_scratch4 f4))) $$ H4
  ihave G5 := (Entails.of_eq ((whole_own (F := F) d L cc0_scratch5 fullShare f5).symm.trans (pts_whole (F := F) d L cc0_scratch5 f5))) $$ H5
  ihave G6 := (Entails.of_eq ((whole_own (F := F) d L cc0_scratch6 fullShare f6).symm.trans (pts_whole (F := F) d L cc0_scratch6 f6))) $$ H6
  ihave G7 := (Entails.of_eq ((whole_own (F := F) d L cc0_scratch7 fullShare f7).symm.trans (pts_whole (F := F) d L cc0_scratch7 f7))) $$ H7
  ihave G8 := (Entails.of_eq ((whole_own (F := F) d L cc0_scratch8 fullShare f8).symm.trans (pts_whole (F := F) d L cc0_scratch8 f8))) $$ H8
  ihave G9 := (Entails.of_eq ((whole_own (F := F) d L cc0_scratch9 fullShare f9).symm.trans (pts_whole (F := F) d L cc0_scratch9 f9))) $$ H9
  ihave G10 := (Entails.of_eq ((whole_own (F := F) d L cc0_scratch10 fullShare f10).symm.trans (pts_whole (F := F) d L cc0_scratch10 f10))) $$ H10
  isplitl [Hl']
  · iexists (lst0 m d L); iexact Hl'
  isplitl [G1]
  · iexists f1; iexact G1
  isplitl [G2]
  · iexists f2; iexact G2
  isplitl [G3]
  · iexists f3; iexact G3
  isplitl [G4]
  · iexists f4; iexact G4
  isplitl [G5]
  · iexists f5; iexact G5
  isplitl [G6]
  · iexists f6; iexact G6
  isplitl [G7]
  · iexists f7; iexact G7
  isplitl [G8]
  · iexists f8; iexact G8
  isplitl [G9]
  · iexists f9; iexact G9
  isplitl [G10]
  · iexists f10; iexact G10
  iexact Hrest

/-- The twenty-one DMA semaphores at zero are the scoped semaphores at zero. -/
theorem sems_back :
    (iprop(semVal ((V d (cV L) (jV L)), SemLoc.dma cc0_scratch11.sem) 0
          ∗ semVal ((V d (cV L) (jV L)), SemLoc.dma cc0_scratch12.sem) 0
          ∗ semVal ((V d (cV L) (jV L)), SemLoc.dma cc0_scratch13.sem) 0
          ∗ semVal ((V d (cV L) (jV L)), SemLoc.dma cc0_scratch14.sem) 0
          ∗ semVal ((V d (cV L) (jV L)), SemLoc.dma cc0_scratch15.sem) 0
          ∗ semVal ((V d (cV L) (jV L)), SemLoc.dma cc0_scratch16.sem) 0
          ∗ semVal ((V d (cV L) (jV L)), SemLoc.dma cc0_scratch17.sem) 0
          ∗ semVal ((V d (cV L) (jV L)), SemLoc.dma cc0_scratch18.sem) 0
          ∗ semVal ((V d (cV L) (jV L)), SemLoc.dma cc0_scratch19.sem) 0
          ∗ semVal ((V d (cV L) (jV L)), SemLoc.dma cc0_scratch20.sem) 0
          ∗ semVal ((V d (cV L) (jV L)), SemLoc.dma cc0_scratch21.sem) 0
          ∗ semVal ((V d (cV L) (jV L)), SemLoc.dma cc0_scratch22.sem) 0
          ∗ semVal ((V d (cV L) (jV L)), SemLoc.dma cc0_scratch23.sem) 0
          ∗ semVal ((V d (cV L) (jV L)), SemLoc.dma cc0_scratch24.sem) 0
          ∗ semVal ((V d (cV L) (jV L)), SemLoc.dma cc0_scratch25.sem) 0
          ∗ semVal ((V d (cV L) (jV L)), SemLoc.dma cc0_scratch26.sem) 0
          ∗ semVal ((V d (cV L) (jV L)), SemLoc.dma cc0_scratch27.sem) 0
          ∗ semVal ((V d (cV L) (jV L)), SemLoc.dma cc0_scratch28.sem) 0
          ∗ semVal ((V d (cV L) (jV L)), SemLoc.dma cc0_scratch29.sem) 0
          ∗ semVal ((V d (cV L) (jV L)), SemLoc.dma cc0_scratch30.sem) 0
          ∗ semVal ((V d (cV L) (jV L)), SemLoc.dma cc0_scoped0.sem) 0) : sProp 𝕄)
      ⊢ scopedSems0 (V d (cV L) (jV L)) := by
  rw [SparseCore.Cfg.scopedSems0_V (Val := Elt F) d (cV L) (jV L), ownSems0_V]

end Cert.Proof.KernelExit

end
-- ==== Proof.KBBody.lean ====
/-
  One worker's task: the index fetch, the ten first gathers, the loop by its invariant, the last write-outs' waits; and the obligation the launch theorem asks of every vector subcore.
-/
import proofs.«206832_g86208583565466_cont_sun_m_1057_30_alg».proof.Proof.KBTile
import proofs.«206832_g86208583565466_cont_sun_m_1057_30_alg».proof.Proof.KBAux
import proofs.«206832_g86208583565466_cont_sun_m_1057_30_alg».proof.Proof.KBInv
import proofs.«206832_g86208583565466_cont_sun_m_1057_30_alg».proof.Proof.KBTripA
import proofs.«206832_g86208583565466_cont_sun_m_1057_30_alg».proof.Proof.KBTripB
import proofs.«206832_g86208583565466_cont_sun_m_1057_30_alg».proof.Proof.KBExit

noncomputable section

namespace Cert.Proof.KernelBody

open Cert.Kernel Cert.Kernel.Gen Cert.Proof.KernelCommon Cert.Proof.KernelTile Cert.Proof.KernelAux Cert.Proof.KernelExit

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg1_scv : Memref Cert.Kernel.sig Kind.scVector Space.hbm Cert.Kernel.S1000000x128 EltTy.f32)
local notation "iV" => (Memref.whole Cert.Kernel.main_v0_scv : Memref Cert.Kernel.sig Kind.scVector Space.hbm Cert.Kernel.S204800 EltTy.i32)
local notation "oV" => (Memref.whole Cert.Kernel.main_v1_scv : Memref Cert.Kernel.sig Kind.scVector Space.hbm Cert.Kernel.S204800x128 EltTy.f32)
local notation "lV" => (Memref.whole Cert.Kernel.cc0_scratch0 : Memref Cert.Kernel.sig Kind.scVector Space.vmem Cert.Kernel.S6400 EltTy.i32)
local notation "b0V" => (Memref.whole Cert.Kernel.cc0_scratch1 : Memref Cert.Kernel.sig Kind.scVector Space.vmem Cert.Kernel.S80x128 EltTy.f32)
local notation "b1V" => (Memref.whole Cert.Kernel.cc0_scratch2 : Memref Cert.Kernel.sig Kind.scVector Space.vmem Cert.Kernel.S80x128 EltTy.f32)
local notation "b2V" => (Memref.whole Cert.Kernel.cc0_scratch3 : Memref Cert.Kernel.sig Kind.scVector Space.vmem Cert.Kernel.S80x128 EltTy.f32)
local notation "b3V" => (Memref.whole Cert.Kernel.cc0_scratch4 : Memref Cert.Kernel.sig Kind.scVector Space.vmem Cert.Kernel.S80x128 EltTy.f32)
local notation "b4V" => (Memref.whole Cert.Kernel.cc0_scratch5 : Memref Cert.Kernel.sig Kind.scVector Space.vmem Cert.Kernel.S80x128 EltTy.f32)
local notation "b5V" => (Memref.whole Cert.Kernel.cc0_scratch6 : Memref Cert.Kernel.sig Kind.scVector Space.vmem Cert.Kernel.S80x128 EltTy.f32)
local notation "b6V" => (Memref.whole Cert.Kernel.cc0_scratch7 : Memref Cert.Kernel.sig Kind.scVector Space.vmem Cert.Kernel.S80x128 EltTy.f32)
local notation "b7V" => (Memref.whole Cert.Kernel.cc0_scratch8 : Memref Cert.Kernel.sig Kind.scVector Space.vmem Cert.Kernel.S80x128 EltTy.f32)
local notation "b8V" => (Memref.whole Cert.Kernel.cc0_scratch9 : Memref Cert.Kernel.sig Kind.scVector Space.vmem Cert.Kernel.S80x128 EltTy.f32)
local notation "b9V" => (Memref.whole Cert.Kernel.cc0_scratch10 : Memref Cert.Kernel.sig Kind.scVector Space.vmem Cert.Kernel.S80x128 EltTy.f32)
local notation "thr" => (V d (cV L) (jV L))

variable [FloatOps F]

/-- At the trip count the invariant is the exit state. -/
theorem inv_exit (O : CellTallies nD τ sig (HIx 1)) (W : Waits sig (HIx 1)) (acc : BitVec 32) :
    inv m d L O W (Scf.trips k0_t1_loop.lb k0_t1_loop.ub k0_t1_loop.st) acc = B m d L O W := by
  unfold inv
  rw [dif_neg (show ¬ Scf.trips k0_t1_loop.lb k0_t1_loop.ub k0_t1_loop.st < 8 by
    have e : Scf.trips k0_t1_loop.lb k0_t1_loop.ub k0_t1_loop.st = 8 := trips_eq
    omega)]

set_option maxHeartbeats 16000000 in
/-- The task on vector subcore `(L 0, L 1)`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tilePts m d (wL L) (m (oLoc d))
        ∗ scopedBufs thr ∗ scopedSems0 thr ∗ owes thr O W)
      ⊢ wp frame (wpE (defs₀ (F := F)) 𝒱₀ thr none) Set.univ
          (cc0__gather_kernel L xV (Memref.isWhole_whole _) iV (Memref.isWhole_whole _) oV (Memref.isWhole_whole _) lV (Memref.isWhole_whole _)
        b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) b8V (Memref.isWhole_whole _) b9V (Memref.isWhole_whole _)
        cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scoped0)
          fun _ => iprop(tilePts m d (wL L) (rows0 m d)
            ∗ scopedBufs thr ∗ scopedSems0 thr
            ∗ ∃ W', ⌜∀ p ∈ W', p ∈ W ∨ p.2 = none⌝ ∗ owes thr O W') := by
  have hin := fun R hR x => list_inb (F := F) m d L hpre R hR x
  have hinS : ∀ (n : ℕ) (h : n + 80 ≤ 6400) (x : S80.Idx), ((lSl n h).view.read (Elt F) (lst0 m d L) x).toNat < S1000000x128.size gathers_S1000000x128_S80x128.axis :=
    fun n h x => list_inb (F := F) m d L hpre (Rect.unit (s := S6400) ![n] S80.size (lSl_inb n h)) (fun _ => rfl) x
  simp only [cc0__gather_kernel_eq_skeleton]; unfold cc0__gather_kernel_skel
  iintro ⟨#Hlv, -, Htile, Hsb, Hss, HO⟩
  ihave Hsb' := (Entails.of_eq (((K (F := F)).scopedBufs_V hF d (cV L) (jV L)).trans (ownBufs_V (F := F) d L))) $$ Hsb
  ihave Hss' := (Entails.of_eq ((SparseCore.Cfg.scopedSems0_V (Val := Elt F) d (cV L) (jV L)).trans (ownSems0_V (F := F) d L))) $$ Hss
  icases Hsb' with ⟨⟨%fl, Hl⟩, ⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, ⟨%f9, Hb9⟩, Hbufs⟩
  icases Hss' with ⟨Hg0, Hg1, Hg2, Hg3, Hg4, Hg5, Hg6, Hg7, Hg8, Hg9, Hw0, Hw1, Hw2, Hw3, Hw4, Hw5, Hw6, Hw7, Hw8, Hw9, Hs0⟩
  unfold tilePts
  icases Htile with ⟨Hi, Hxs, Ho⟩
  ihave Hxs' := (Entails.of_eq (bigSep_fin10 (fun j => xShPts m d (wL L) j))) $$ Hxs
  icases Hxs' with ⟨Hx0, Hx1, Hx2, Hx3, Hx4, Hx5, Hx6, Hx7, Hx8, Hx9⟩
  ihave Hmw := (show levAts (K (F := F)).L (K (F := F)).lev ⊢ Transfers.MayWaits thr (default : HIx 1) O from
    (K (F := F)).mayWaits_none hO) $$ Hlv
  ihave Hi' := (Entails.of_eq (pts_iRowK (F := F) d L _).symm) $$ Hi
  ihave Hl' := (Entails.of_eq (pts_whole (F := F) d L cc0_scratch0 _).symm) $$ Hl
  -- the index fetch and its wait
  sl_exec
  -- what the fetch landed: the worker's words; cut into the eighty windows, row 0's handed to the first gathers
  ihave Hl2 := (Entails.of_eq (congrArg (fun f => ((lV).view.loc thr ↦{fullShare} f : sProp 𝕄)) (fetch_lands (F := F) m d L fl (tile_body.sl.dma0 m d L) rfl))) $$ Hl'
  ihave Hl3 := (Entails.of_eq ((lst_rows (F := F) m d L).trans (rows_at (F := F) (fun t => lRow m d L t) (0 : Fin 8)))) $$ Hl2
  icases Hl3 with ⟨Hrow0, HLW⟩
  unfold lRow
  ihave Hrow0' := (Entails.of_eq (bigSep_fin10 (fun j : Fin 10 => lWinPts m d L (800 * (0 : Fin 8).val + 80 * j.val) (win_inb 0 j)))) $$ Hrow0
  icases Hrow0' with ⟨Hl0, Hl1, Hl2, Hl3, Hl4, Hl5, Hl6, Hl7, Hl8, Hl9⟩
  ihave Hl0' := (Entails.of_eq (lWinPts_congr (F := F) m d L _ 0 _ (by omega) rfl)) $$ Hl0
  ihave Hl1' := (Entails.of_eq (lWinPts_congr (F := F) m d L _ 80 _ (by omega) rfl)) $$ Hl1
  ihave Hl2' := (Entails.of_eq (lWinPts_congr (F := F) m d L _ 160 _ (by omega) rfl)) $$ Hl2
  ihave Hl3' := (Entails.of_eq (lWinPts_congr (F := F) m d L _ 240 _ (by omega) rfl)) $$ Hl3
  ihave Hl4' := (Entails.of_eq (lWinPts_congr (F := F) m d L _ 320 _ (by omega) rfl)) $$ Hl4
  ihave Hl5' := (Entails.of_eq (lWinPts_congr (F := F) m d L _ 400 _ (by omega) rfl)) $$ Hl5
  ihave Hl6' := (Entails.of_eq (lWinPts_congr (F := F) m d L _ 480 _ (by omega) rfl)) $$ Hl6
  ihave Hl7' := (Entails.of_eq (lWinPts_congr (F := F) m d L _ 560 _ (by omega) rfl)) $$ Hl7
  ihave Hl8' := (Entails.of_eq (lWinPts_congr (F := F) m d L _ 640 _ (by omega) rfl)) $$ Hl8
  ihave Hl9' := (Entails.of_eq (lWinPts_congr (F := F) m d L _ 720 _ (by omega) rfl)) $$ Hl9
  ihave Hb0' := (Entails.of_eq ((pts_whole (F := F) d L cc0_scratch1 _).symm.trans (whole_own (F := F) d L cc0_scratch1 fullShare _))) $$ Hb0
  ihave Hb1' := (Entails.of_eq ((pts_whole (F := F) d L cc0_scratch2 _).symm.trans (whole_own (F := F) d L cc0_scratch2 fullShare _))) $$ Hb1
  ihave Hb2' := (Entails.of_eq ((pts_whole (F := F) d L cc0_scratch3 _).symm.trans (whole_own (F := F) d L cc0_scratch3 fullShare _))) $$ Hb2
  ihave Hb3' := (Entails.of_eq ((pts_whole (F := F) d L cc0_scratch4 _).symm.trans (whole_own (F := F) d L cc0_scratch4 fullShare _))) $$ Hb3
  ihave Hb4' := (Entails.of_eq ((pts_whole (F := F) d L cc0_scratch5 _).symm.trans (whole_own (F := F) d L cc0_scratch5 fullShare _))) $$ Hb4
  ihave Hb5' := (Entails.of_eq ((pts_whole (F := F) d L cc0_scratch6 _).symm.trans (whole_own (F := F) d L cc0_scratch6 fullShare _))) $$ Hb5
  ihave Hb6' := (Entails.of_eq ((pts_whole (F := F) d L cc0_scratch7 _).symm.trans (whole_own (F := F) d L cc0_scratch7 fullShare _))) $$ Hb6
  ihave Hb7' := (Entails.of_eq ((pts_whole (F := F) d L cc0_scratch8 _).symm.trans (whole_own (F := F) d L cc0_scratch8 fullShare _))) $$ Hb7
  ihave Hb8' := (Entails.of_eq ((pts_whole (F := F) d L cc0_scratch9 _).symm.trans (whole_own (F := F) d L cc0_scratch9 fullShare _))) $$ Hb8
  ihave Hb9' := (Entails.of_eq ((pts_whole (F := F) d L cc0_scratch10 _).symm.trans (whole_own (F := F) d L cc0_scratch10 fullShare _))) $$ Hb9
  ihave Hx0' := (Entails.of_eq ((pts_xV (F := F) d L _ _).symm.trans (xSl_whole (F := F) d L _ _).symm)) $$ Hx0
  ihave Hx1' := (Entails.of_eq ((pts_xV (F := F) d L _ _).symm.trans (xSl_whole (F := F) d L _ _).symm)) $$ Hx1
  ihave Hx2' := (Entails.of_eq ((pts_xV (F := F) d L _ _).symm.trans (xSl_whole (F := F) d L _ _).symm)) $$ Hx2
  ihave Hx3' := (Entails.of_eq ((pts_xV (F := F) d L _ _).symm.trans (xSl_whole (F := F) d L _ _).symm)) $$ Hx3
  ihave Hx4' := (Entails.of_eq ((pts_xV (F := F) d L _ _).symm.trans (xSl_whole (F := F) d L _ _).symm)) $$ Hx4
  ihave Hx5' := (Entails.of_eq ((pts_xV (F := F) d L _ _).symm.trans (xSl_whole (F := F) d L _ _).symm)) $$ Hx5
  ihave Hx6' := (Entails.of_eq ((pts_xV (F := F) d L _ _).symm.trans (xSl_whole (F := F) d L _ _).symm)) $$ Hx6
  ihave Hx7' := (Entails.of_eq ((pts_xV (F := F) d L _ _).symm.trans (xSl_whole (F := F) d L _ _).symm)) $$ Hx7
  ihave Hx8' := (Entails.of_eq ((pts_xV (F := F) d L _ _).symm.trans (xSl_whole (F := F) d L _ _).symm)) $$ Hx8
  ihave Hx9' := (Entails.of_eq ((pts_xV (F := F) d L _ _).symm.trans (xSl_whole (F := F) d L _ _).symm)) $$ Hx9
  unfold lWinPts lSl xSl
  -- the ten first gathers
  sl_exec
  -- the loop, by its invariant
  sl_for (inv m d L O W) $$ [Hmw Hg0 Hg1 Hg2 Hg3 Hg4 Hg5 Hg6 Hg7 Hg8 Hg9 Hw0 Hw1 Hw2 Hw3 Hw4 Hw5 Hw6 Hw7 Hw8 Hw9 HLW Ho HO]
  case region =>
    intro k acc
    by_cases hk : k.val < 7
    · exact trip_lt (F := F) m d L O W hpre _ k acc hk
    · exact trip_last (F := F) m d L O W hpre _ k acc (by have h := k.isLt; have e : Scf.trips k0_t1_loop.lb k0_t1_loop.ub k0_t1_loop.st = 8 := trips_eq; omega)
  · -- the invariant at entry: the ten first gathers are row 0's
    unfold inv
    rw [dif_pos (show 0 < 8 by omega)]
    unfold A
    rw [chunks_zero (F := F) m d L]
    unfold lRow lWinPts gFl lSl xSl
    isplitl [Hmw]; · iexact Hmw
    isplitl [Hg0]
    · iexists _
      isplitr [Hg0]
      swap
      · iexact Hg0
      · ipureintro
        exact gOK_congr (F := F) m d L 0 _ (by omega) _ _ (by omega)
          (fun y => (whole_write_apply (F := F) cc0_scratch1 f0 _ y).trans (gather_rows0 (F := F) m d L hpre 0 (by omega) _ _ y))
    isplitl [Hg1]
    · iexists _
      isplitr [Hg1]
      swap
      · iexact Hg1
      · ipureintro
        exact gOK_congr (F := F) m d L 80 _ (by omega) _ _ (by omega)
          (fun y => (whole_write_apply (F := F) cc0_scratch2 f1 _ y).trans (gather_rows0 (F := F) m d L hpre 80 (by omega) _ _ y))
    isplitl [Hg2]
    · iexists _
      isplitr [Hg2]
      swap
      · iexact Hg2
      · ipureintro
        exact gOK_congr (F := F) m d L 160 _ (by omega) _ _ (by omega)
          (fun y => (whole_write_apply (F := F) cc0_scratch3 f2 _ y).trans (gather_rows0 (F := F) m d L hpre 160 (by omega) _ _ y))
    isplitl [Hg3]
    · iexists _
      isplitr [Hg3]
      swap
      · iexact Hg3
      · ipureintro
        exact gOK_congr (F := F) m d L 240 _ (by omega) _ _ (by omega)
          (fun y => (whole_write_apply (F := F) cc0_scratch4 f3 _ y).trans (gather_rows0 (F := F) m d L hpre 240 (by omega) _ _ y))
    isplitl [Hg4]
    · iexists _
      isplitr [Hg4]
      swap
      · iexact Hg4
      · ipureintro
        exact gOK_congr (F := F) m d L 320 _ (by omega) _ _ (by omega)
          (fun y => (whole_write_apply (F := F) cc0_scratch5 f4 _ y).trans (gather_rows0 (F := F) m d L hpre 320 (by omega) _ _ y))
    isplitl [Hg5]
    · iexists _
      isplitr [Hg5]
      swap
      · iexact Hg5
      · ipureintro
        exact gOK_congr (F := F) m d L 400 _ (by omega) _ _ (by omega)
          (fun y => (whole_write_apply (F := F) cc0_scratch6 f5 _ y).trans (gather_rows0 (F := F) m d L hpre 400 (by omega) _ _ y))
    isplitl [Hg6]
    · iexists _
      isplitr [Hg6]
      swap
      · iexact Hg6
      · ipureintro
        exact gOK_congr (F := F) m d L 480 _ (by omega) _ _ (by omega)
          (fun y => (whole_write_apply (F := F) cc0_scratch7 f6 _ y).trans (gather_rows0 (F := F) m d L hpre 480 (by omega) _ _ y))
    isplitl [Hg7]
    · iexists _
      isplitr [Hg7]
      swap
      · iexact Hg7
      · ipureintro
        exact gOK_congr (F := F) m d L 560 _ (by omega) _ _ (by omega)
          (fun y => (whole_write_apply (F := F) cc0_scratch8 f7 _ y).trans (gather_rows0 (F := F) m d L hpre 560 (by omega) _ _ y))
    isplitl [Hg8]
    · iexists _
      isplitr [Hg8]
      swap
      · iexact Hg8
      · ipureintro
        exact gOK_congr (F := F) m d L 640 _ (by omega) _ _ (by omega)
          (fun y => (whole_write_apply (F := F) cc0_scratch9 f8 _ y).trans (gather_rows0 (F := F) m d L hpre 640 (by omega) _ _ y))
    isplitl [Hg9]
    · iexists _
      isplitr [Hg9]
      swap
      · iexact Hg9
      · ipureintro
        exact gOK_congr (F := F) m d L 720 _ (by omega) _ _ (by omega)
          (fun y => (whole_write_apply (F := F) cc0_scratch10 f9 _ y).trans (gather_rows0 (F := F) m d L hpre 720 (by omega) _ _ y))
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [HLW]; · iexact HLW
    isplitl [Ho]; · iexact Ho
    iexists _
    isplitr [HO]
    swap
    · iexact HO
    · ipureintro
      exact ins_ok W _ _ (fun p hp => .inl hp) rfl
  -- after the loop: the ten write-outs of row 7 are awaited
  iintro %acc HI
  ihave HB := (Entails.of_eq (inv_exit (F := F) m d L O W acc)) $$ HI
  unfold B
  icases HB with ⟨-, ⟨%c0, %g0, %hc0, Hw0⟩, ⟨%c1, %g1, %hc1, Hw1⟩, ⟨%c2, %g2, %hc2, Hw2⟩, ⟨%c3, %g3, %hc3, Hw3⟩, ⟨%c4, %g4, %hc4, Hw4⟩, ⟨%c5, %g5, %hc5, Hw5⟩, ⟨%c6, %g6, %hc6, Hw6⟩, ⟨%c7, %g7, %hc7, Hw7⟩, ⟨%c8, %g8, %hc8, Hw8⟩, ⟨%c9, %g9, %hc9, Hw9⟩, Hg0, Hg1, Hg2, Hg3, Hg4, Hg5, Hg6, Hg7, Hg8, Hg9, Hx0, Hx1, Hx2, Hx3, Hx4, Hx5, Hx6, Hx7, Hx8, Hx9, HL, HCH, %W', %hW', HO⟩
  unfold wFl
  sl_exec
  sl_step
  -- row 7's chunks hold the looked-up rows; with the rows before, all chunks do
  ihave Hc0 := (Entails.of_eq ((pts_oCh0 (F := F) d L ⟨7, seven_lt⟩ (by simp only []; omega) _).trans (pointsTo_congr (ℓ := oLoc d) (q := fullShare) hc0))) $$ Hw0_dst
  ihave Hc1 := (Entails.of_eq ((pts_oCh1 (F := F) d L ⟨7, seven_lt⟩ (by simp only []; omega) _).trans (pointsTo_congr (ℓ := oLoc d) (q := fullShare) hc1))) $$ Hw1_dst
  ihave Hc2 := (Entails.of_eq ((pts_oCh2 (F := F) d L ⟨7, seven_lt⟩ (by simp only []; omega) _).trans (pointsTo_congr (ℓ := oLoc d) (q := fullShare) hc2))) $$ Hw2_dst
  ihave Hc3 := (Entails.of_eq ((pts_oCh3 (F := F) d L ⟨7, seven_lt⟩ (by simp only []; omega) _).trans (pointsTo_congr (ℓ := oLoc d) (q := fullShare) hc3))) $$ Hw3_dst
  ihave Hc4 := (Entails.of_eq ((pts_oCh4 (F := F) d L ⟨7, seven_lt⟩ (by simp only []; omega) _).trans (pointsTo_congr (ℓ := oLoc d) (q := fullShare) hc4))) $$ Hw4_dst
  ihave Hc5 := (Entails.of_eq ((pts_oCh5 (F := F) d L ⟨7, seven_lt⟩ (by simp only []; omega) _).trans (pointsTo_congr (ℓ := oLoc d) (q := fullShare) hc5))) $$ Hw5_dst
  ihave Hc6 := (Entails.of_eq ((pts_oCh6 (F := F) d L ⟨7, seven_lt⟩ (by simp only []; omega) _).trans (pointsTo_congr (ℓ := oLoc d) (q := fullShare) hc6))) $$ Hw6_dst
  ihave Hc7 := (Entails.of_eq ((pts_oCh7 (F := F) d L ⟨7, seven_lt⟩ (by simp only []; omega) _).trans (pointsTo_congr (ℓ := oLoc d) (q := fullShare) hc7))) $$ Hw7_dst
  ihave Hc8 := (Entails.of_eq ((pts_oCh8 (F := F) d L ⟨7, seven_lt⟩ (by simp only []; omega) _).trans (pointsTo_congr (ℓ := oLoc d) (q := fullShare) hc8))) $$ Hw8_dst
  ihave Hc9 := (Entails.of_eq ((pts_oCh9 (F := F) d L ⟨7, seven_lt⟩ (by simp only []; omega) _).trans (pointsTo_congr (ℓ := oLoc d) (q := fullShare) hc9))) $$ Hw9_dst
  ihave Hrow7 := (Entails.of_eq (bigSep_fin10 (fun j : Fin 10 => oRowPts d (ck (wL L) (⟨7, by omega⟩ : Fin 8) j) (rows0 m d))).symm) $$ [Hc0 Hc1 Hc2 Hc3 Hc4 Hc5 Hc6 Hc7 Hc8 Hc9]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hc9
  ihave Hall := (Entails.of_eq ((chunks_at_succ (F := F) m d L 7 (by omega)).symm.trans (chunks_eight (F := F) m d L))) $$ [Hrow7 HCH]
  · isplitl [Hrow7]; · iexact Hrow7
    iexact HCH
  -- the worker's parts, its own buffers, its own semaphores
  isplitl [Hi' Hx0 Hx1 Hx2 Hx3 Hx4 Hx5 Hx6 Hx7 Hx8 Hx9 Hall]
  · iapply (tile_back (F := F) m d L (rows0 m d))
    isplitl [Hi']; · iexact Hi'
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    iexact Hall
  isplitl [HL Hw0_src Hw1_src Hw2_src Hw3_src Hw4_src Hw5_src Hw6_src Hw7_src Hw8_src Hw9_src Hbufs]
  · iapply (bufs_back (F := F) m d L hF)
    isplitl [HL]; · iexact HL
    isplitl [Hw0_src]; · iexists _; iexact Hw0_src
    isplitl [Hw1_src]; · iexists _; iexact Hw1_src
    isplitl [Hw2_src]; · iexists _; iexact Hw2_src
    isplitl [Hw3_src]; · iexists _; iexact Hw3_src
    isplitl [Hw4_src]; · iexists _; iexact Hw4_src
    isplitl [Hw5_src]; · iexists _; iexact Hw5_src
    isplitl [Hw6_src]; · iexists _; iexact Hw6_src
    isplitl [Hw7_src]; · iexists _; iexact Hw7_src
    isplitl [Hw8_src]; · iexists _; iexact Hw8_src
    isplitl [Hw9_src]; · iexists _; iexact Hw9_src
    iexact Hbufs
  isplitl [Hg0 Hg1 Hg2 Hg3 Hg4 Hg5 Hg6 Hg7 Hg8 Hg9 Hw0 Hw1 Hw2 Hw3 Hw4 Hw5 Hw6 Hw7 Hw8 Hw9 Hs0]
  · iapply (sems_back (F := F) d L)
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    iexact Hs0
  iexists _
  isplitr [HO]
  swap
  · iexact HO
  · ipureintro
    exact ins_ok W _ _ (ins_ok W _ _ (ins_ok W _ _ (ins_ok W _ _ (ins_ok W _ _ (ins_ok W _ _ (ins_ok W _ _ (ins_ok W _ _ (ins_ok W _ _ (ins_ok W _ _ (hW') rfl) rfl) rfl) rfl) rfl) rfl) rfl) rfl) rfl) rfl

/-! ## The obligation of every vector subcore -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          xV (Memref.isWhole_whole _) iV (Memref.isWhole_whole _) oV (Memref.isWhole_whole _) lV (Memref.isWhole_whole _)
          b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) b8V (Memref.isWhole_whole _) b9V (Memref.isWhole_whole _)
          cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scoped0) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem P_go' (d : Dev nD) (c : Fin ((K (F := F)).nCore 0)) (i : Fin ((K (F := F)).nSub 0)) :
    (P m).go 0 d c i = tilePts m d (wk (Fin.cast nCore_zero c) (Fin.cast nSub_zero i)) (m (oLoc d)) := by
  unfold P; rfl
theorem P_td' (d : Dev nD) (c : Fin ((K (F := F)).nCore 0)) (i : Fin ((K (F := F)).nSub 0)) :
    (P m).td 0 d c i = tilePts m d (wk (Fin.cast nCore_zero c) (Fin.cast nSub_zero i)) (rows0 m d) := by
  unfold P; rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go' (F := F) m d c i, P_td' (F := F) m d c i]
  exact (tile_body (F := F) m d (coordsV ⟨_, hci.1⟩ ⟨_, hci.2⟩) hF hpre O W hO).trans (wp_mono frame _ _ fun _ => obl_post)

end Cert.Proof.KernelBody

end
-- ==== Proof.KICommon.lean ====
/-
  The lookup kernel's common vocabulary: the device program as the launch theorem reads it, the arrays as each
  processor addresses them, and how the work is cut. Thirty-two vector subcores (two SparseCores of sixteen) each take
  6400 consecutive rows of the flattened index list: subcore `s` of core `c` is worker `2 s + c` and owns rows
  `[6400 (2 s + c), 6400 (2 s + c + 1))`. A worker moves its rows in eighty chunks of eighty: chunk `(t, j)`
  (trip `t < 8`, buffer `j < 10`) is rows `6400 w + 800 t + 80 j` onward, so the 204800 result rows are 2560 chunks,
  chunk number `80 w + 10 t + j`. The table is only read: every transfer in flight holds a share of it, a piece of
  the left half of the full share cut in thirty-two (one per worker), each cut in ten (one per buffer); the right half is kept back.
-/
import proofs.«206832_g86208583565466_cont_sun_m_1057_30_alg».proof.Defs
import proofs.«206832_g86208583565466_cont_sun_m_1057_30_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206832_g86208583565466_cont_sun_m_1057_30_alg».proof.Proof.Gen.KernelIdeal
import proofs.«206832_g86208583565466_cont_sun_m_1057_30_alg».proof.Proof.Gen.KernelIdeal.Skeleton

noncomputable section

namespace Cert.Proof.KernelIdealCommon

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index list as given, `[1024, 200]`. -/
abbrev aLoc (d : Dev nD) : Loc nD τ sig := (SparseCore.T d).loc main_arg0
/-- The table. -/
abbrev xLoc (d : Dev nD) : Loc nD τ sig := (SparseCore.T d).loc main_arg1
/-- The index list flattened, `[204800]`. -/
abbrev iLoc (d : Dev nD) : Loc nD τ sig := (SparseCore.T d).loc main_v0
/-- The looked-up rows, `[204800, 128]`. -/
abbrev oLoc (d : Dev nD) : Loc nD τ sig := (SparseCore.T d).loc main_v1
/-- The result, `[1024, 200, 128]`. -/
abbrev rLoc (d : Dev nD) : Loc nD τ sig := (SparseCore.T d).loc main_v2

local notation "xV" => (Memref.whole Cert.KernelIdeal.main_arg1_scv : Memref Cert.KernelIdeal.sig Kind.scVector Space.hbm Cert.KernelIdeal.S1000000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v1_scv : Memref Cert.KernelIdeal.sig Kind.scVector Space.hbm Cert.KernelIdeal.S204800x128 EltTy.f32)

/-- The flattened index list as the host's reshape leaves it. -/
def ids0 (d : Dev nD) : Buf (Elt F) (iLoc d) := shapeCast S204800 (m (aLoc d)) shapeCasts_S1024x200_S204800

/-- What the kernel leaves in the looked-up rows: row `r` is the table's row named by word `r` of the flattened list. -/
def rows0 (d : Dev nD) : Buf (Elt F) (oLoc d) :=
  fun x => m (xLoc d) (ix2 (Cert.Lookup.rowOfWord (ids0 m d (ix1 (n := 204800) (x 0)))) (x 1 : Fin 128))

attribute [irreducible] ids0 rows0

/-! ## The cut of the rows -/

/-- Worker number of subcore `s` of core `c`. -/
def wk (c : Fin 2) (s : Fin 16) : Fin 32 := ⟨2 * s.val + c.val, by omega⟩
/-- Chunk number of worker `w`'s chunk `(t, j)`. -/
def ck (w : Fin 32) (t : Fin 8) (j : Fin 10) : Fin 2560 := ⟨80 * w.val + 10 * t.val + j.val, by omega⟩

theorem idiv : 32 ∣ S204800.size 0 := ⟨6400, rfl⟩
theorem odiv : 2560 ∣ S204800x128.size 0 := ⟨80, rfl⟩
abbrev irow (w : Fin 32) : Rect S204800 := Rect.part (s := S204800) (a₀ := 0) idiv w
abbrev orow (g : Fin 2560) : Rect S204800x128 := Rect.part (s := S204800x128) (a₀ := 0) odiv g
abbrev iRowSet (w : Fin 32) : Finset S204800.Idx := ((iV).view.slice (irow w)).set
abbrev oRowSet (g : Fin 2560) : Finset S204800x128.Idx := ((oV).view.slice (orow g)).set

/-! ## Shares of the table -/

/-- The share of the table worker `w` lends with buffer `j`: the left half of the full share cut in thirty-two, each piece in ten. -/
def xq (w : Fin 32) (j : Fin 10) : PosShare TreeShare :=
  pieceOf (pieceOf (fullShare : PosShare TreeShare).left 32 (by decide) w) 10 (by decide) j

variable [FloatOps F]

/-! ## What the handshakes carry -/

abbrev iRowPts (d : Dev nD) (w : Fin 32) : sProp 𝕄 := iLoc d ↦[iRowSet w]{fullShare} ids0 m d
abbrev xShPts (d : Dev nD) (w : Fin 32) (j : Fin 10) : sProp 𝕄 := xLoc d ↦{xq w j} m (xLoc d)
abbrev oRowPts (d : Dev nD) (g : Fin 2560) (f : Buf (Elt F) (oLoc d)) : sProp 𝕄 := oLoc d ↦[oRowSet g]{fullShare} f

/-- What worker `w` is handed: its rows of the flattened list, ten shares of the table, its eighty chunks of the result. -/
abbrev tilePts (d : Dev nD) (w : Fin 32) (f : Buf (Elt F) (oLoc d)) : sProp 𝕄 :=
  iprop(iRowPts m d w ∗ (bigSep Finset.univ fun j : Fin 10 => xShPts m d w j)
    ∗ bigSep Finset.univ fun t : Fin 8 => bigSep Finset.univ fun j : Fin 10 => oRowPts d (ck w t j) f)

/-- A SparseCore's sequencer is handed its sixteen workers' parts at once and hands them on unchanged. -/
def P : (K (F := F)).Pay (nD := nD) (Val := Elt F) (Name := ℕ) (U := UU) where
  st := fun q d c => match q with
    | 0 => bigSep Finset.univ fun s : Fin 16 => tilePts m d (wk (Fin.cast nCore_zero c) s) (m (oLoc d))
  dn := fun q d c => match q with
    | 0 => bigSep Finset.univ fun s : Fin 16 => tilePts m d (wk (Fin.cast nCore_zero c) s) (rows0 m d)
  go := fun q d c i => match q with
    | 0 => tilePts m d (wk (Fin.cast nCore_zero c) (Fin.cast nSub_zero i)) (m (oLoc d))
  td := fun q d c i => match q with
    | 0 => tilePts m d (wk (Fin.cast nCore_zero c) (Fin.cast nSub_zero i)) (rows0 m d)
  x := fun _ _ => iprop(emp)

set_option maxHeartbeats 4000000 in
instance P_storable : (P (F := F) m).IsStorable where
  st q d c := match q with
    | 0 => (inferInstance : BI.Storable (upEmb : UEmb _ 𝕄) (bigSep Finset.univ fun s : Fin 16 => tilePts m d (wk (Fin.cast nCore_zero c) s) (m (oLoc d))))
  dn q d c := match q with
    | 0 => (inferInstance : BI.Storable (upEmb : UEmb _ 𝕄) (bigSep Finset.univ fun s : Fin 16 => tilePts m d (wk (Fin.cast nCore_zero c) s) (rows0 m d)))
  go q d c i := match q with
    | 0 => (inferInstance : BI.Storable (upEmb : UEmb _ 𝕄) (tilePts m d (wk (Fin.cast nCore_zero c) (Fin.cast nSub_zero i)) (m (oLoc d))))
  td q d c i := match q with
    | 0 => (inferInstance : BI.Storable (upEmb : UEmb _ 𝕄) (tilePts m d (wk (Fin.cast nCore_zero c) (Fin.cast nSub_zero i)) (rows0 m d)))

/-- What the proof asks of the launch memory: every word of the index list names a row of the table. -/
def PreOK : Prop := ∀ (d : Dev nD) (j : S1024x200.Idx), (m (aLoc d) j).toNat < 1000000

end Cert.Proof.KernelIdealCommon

end
-- ==== Proof.KISplit.lean ====
/-
  How the three arrays of the call are cut among the thirty-two workers, and that the parts rejoin. The flattened
  index list is cut into the workers' row sets (thirty-two disjoint blocks of 6400 rows that cover it); the looked-up
  rows into 2560 chunks of eighty rows, worker `w` holding chunks `80 w + 10 t + j`; the table is only read, so its
  left half-share is cut into 320 pieces, ten for each worker. Worker numbers `2 s + c` run once through `0 … 31` as
  the core `c` and the subcore `s` run through theirs, and chunk numbers once through `0 … 2559`: the cut indexed by
  (core, subcore) is the cut indexed by worker, re-indexed along a bijection. Every part carries the same contents as
  the whole, so the parts joined are the whole at those contents.
-/
import proofs.«206832_g86208583565466_cont_sun_m_1057_30_alg».proof.Proof.KICommon

noncomputable section

namespace Cert.Proof.KernelIdealLaunch

open Cert.KernelIdeal Cert.KernelIdeal.Gen
open Cert.Proof.KernelIdealCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## Worker and chunk numbers are bijections -/

/-- `(c, s) ↦ 2 s + c`: core is the parity, subcore the half. -/
def wkE : Fin 2 × Fin 16 ≃ Fin 32 where
  toFun p := wk p.1 p.2
  invFun w := (⟨w.val % 2, by omega⟩, ⟨w.val / 2, by omega⟩)
  left_inv p := by
    rcases p with ⟨c, s⟩
    refine Prod.ext (Fin.ext ?_) (Fin.ext ?_) <;> simp only [wk] <;> omega
  right_inv w := Fin.ext (by simp only [wk]; omega)

/-- `(w, t, j) ↦ 80 w + 10 t + j`: the digits of the chunk number in the mixed base `(32, 8, 10)`. -/
def ckE : Fin 32 × Fin 8 × Fin 10 ≃ Fin 2560 where
  toFun p := ck p.1 p.2.1 p.2.2
  invFun g := (⟨g.val / 80, by omega⟩, ⟨g.val % 80 / 10, by omega⟩, ⟨g.val % 10, by omega⟩)
  left_inv p := by
    rcases p with ⟨w, t, j⟩
    refine Prod.ext (Fin.ext ?_) (Prod.ext (Fin.ext ?_) (Fin.ext ?_)) <;> simp only [ck] <;> omega
  right_inv g := Fin.ext (by simp only [ck]; omega)

/-- A family over the workers, dealt by core and subcore. -/
theorem bigSep_wk (Φ : Fin 32 → sProp 𝕄) :
    bigSep Finset.univ Φ = bigSep Finset.univ fun c : Fin 2 => bigSep Finset.univ fun s : Fin 16 => Φ (wk c s) := by
  rw [bigSep_univ_equiv wkE Φ, bigSep_univ_prod]
  rfl

/-- A family over the chunks, dealt by worker, trip and buffer. -/
theorem bigSep_ck (Ψ : Fin 2560 → sProp 𝕄) :
    bigSep Finset.univ Ψ
      = bigSep Finset.univ fun w : Fin 32 => bigSep Finset.univ fun t : Fin 8 => bigSep Finset.univ fun j : Fin 10 => Ψ (ck w t j) := by
  rw [bigSep_univ_equiv ckE Ψ, bigSep_univ_prod]
  refine bigSep_congr fun w _ => ?_
  rw [bigSep_univ_prod]
  rfl

/-! ## The row sets: disjoint, and they cover -/

theorem iRowSet_eq (w : Fin 32) : iRowSet w = (irow w).set := by
  show ((View.whole (main_v0_scv : Ref sig .scVector)).slice (irow w)).set = _
  rw [View.set_slice]; exact Finset.map_refl
theorem oRowSet_eq (g : Fin 2560) : oRowSet g = (orow g).set := by
  show ((View.whole (main_v1_scv : Ref sig .scVector)).slice (orow g)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 2560)), ∀ j ∈ (Finset.univ : Finset (Fin 2560)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 2560)).biUnion oRowSet = Finset.univ :=
  (Finset.biUnion_congr rfl fun i _ => oRowSet_eq i).trans (Rect.biUnion_part odiv)

/-- The flattened list, whole, is its thirty-two row sets at the same contents. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
/-- The looked-up rows, whole, are their 2560 chunks at the same contents. -/
theorem oPts_rows (d : Dev nD) (f : Buf (Elt F) (oLoc d)) :
    (oLoc d ↦{fullShare} f : sProp 𝕄) = bigSep Finset.univ fun g : Fin 2560 => oLoc d ↦[oRowSet g]{fullShare} f := by
  rw [← pointsTo_biUnion Finset.univ (ℓ := oLoc d) oRowSet orows_disjoint, orows_cover]; try rfl

/-! ## The table's shares -/

/-- The table at the full share is its two half-shares. -/
theorem xPts_halves (d : Dev nD) (f : Buf (Elt F) (xLoc d)) :
    (xLoc d ↦{fullShare} f : sProp 𝕄)
      = iprop((xLoc d ↦{(fullShare : PosShare TreeShare).left} f) ∗ xLoc d ↦{(fullShare : PosShare TreeShare).right} f) :=
  BI.Entails.antisymm (pointsTo_share (PosShare.mem_left_op_right fullShare)).1 (pointsTo_share (PosShare.mem_left_op_right fullShare)).2

/-- The left half-share is the 320 pieces: thirty-two, each cut in ten. -/
theorem xLeft_pieces (d : Dev nD) (f : Buf (Elt F) (xLoc d)) :
    (xLoc d ↦{(fullShare : PosShare TreeShare).left} f : sProp 𝕄)
      = bigSep Finset.univ fun w : Fin 32 => bigSep Finset.univ fun j : Fin 10 => xLoc d ↦{xq w j} f := by
  rw [pointsTo_piecesOf Finset.univ f (o := 32) (by decide) (fullShare : PosShare TreeShare).left]
  refine bigSep_congr fun w _ => ?_
  rw [pointsTo_piecesOf Finset.univ f (o := 10) (by decide) (pieceOf (fullShare : PosShare TreeShare).left 32 (by decide) w)]
  rfl

variable [FloatOps F]

/-! ## All the workers' parts are the three arrays -/

/-- The parts of all thirty-two workers, dealt by core and subcore, with the looked-up rows at contents `f`, are: the
    flattened list whole, the table at the left half-share, the looked-up rows whole at `f`. Read left to right it
    joins what the call brings back; right to left it deals what the call takes. -/
theorem tiles_eq (d : Dev nD) (f : Buf (Elt F) (oLoc d)) :
    (bigSep Finset.univ fun c : Fin 2 => bigSep Finset.univ fun s : Fin 16 => tilePts m d (wk c s) f)
      = iprop((iLoc d ↦{fullShare} ids0 m d) ∗ (xLoc d ↦{(fullShare : PosShare TreeShare).left} m (xLoc d)) ∗ oLoc d ↦{fullShare} f) := by
  rw [← bigSep_wk (F := F) (fun w => tilePts m d w f)]
  show (bigSep Finset.univ fun w : Fin 32 => iprop(iRowPts m d w ∗ (bigSep Finset.univ fun j : Fin 10 => xShPts m d w j)
      ∗ bigSep Finset.univ fun t : Fin 8 => bigSep Finset.univ fun j : Fin 10 => oRowPts d (ck w t j) f)) = _
  rw [bigSep_sep', bigSep_sep', ← bigSep_ck (F := F) (fun g => oRowPts d g f), ← oPts_rows, ← xLeft_pieces, ← iPts_rows]

end Cert.Proof.KernelIdealLaunch

end
-- ==== Proof.KILaunch.lean ====
/-
  The launch side of the lookup kernel's run. @main on the TensorCore flattens the index list (a host reshape), calls
  the two SparseCores, and regroups the looked-up rows (a second host reshape). Before the call the TensorCore deals
  the call's three arrays to the thirty-two workers: the flattened list by row sets, the looked-up rows by chunks, the
  table — only read — by pieces of the left half of its share, the right half kept back. Each sequencer is handed its
  sixteen workers' parts at once and hands them on unchanged, so its split is the identity up to the names of the
  subcores. After the call every chunk of the looked-up rows holds the same function (row `r` is the table's row named
  by word `r`), so the chunks rejoin into the whole array at that function; the list's rows and the table's pieces
  are no longer needed. What is left at the end: the five arguments at their launch contents (the table at the
  half-share kept back) and the result at the regrouped rows; the final memory agrees with each.
-/
import proofs.«206832_g86208583565466_cont_sun_m_1057_30_alg».proof.Proof.KICommon
import proofs.«206832_g86208583565466_cont_sun_m_1057_30_alg».proof.Proof.KISplit

noncomputable section

namespace Cert.Proof.KernelIdealLaunch

open Cert.KernelIdeal Cert.KernelIdeal.Gen
open Cert.Proof.KernelIdealCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry, as equations -/

theorem P_st (d : Dev nD) (c : Fin ((K (F := F)).nCore 0)) :
    (P m).st 0 d c = bigSep Finset.univ fun s : Fin 16 => tilePts m d (wk (Fin.cast nCore_zero c) s) (m (oLoc d)) := by
  unfold P; rfl
theorem P_dn (d : Dev nD) (c : Fin ((K (F := F)).nCore 0)) :
    (P m).dn 0 d c = bigSep Finset.univ fun s : Fin 16 => tilePts m d (wk (Fin.cast nCore_zero c) s) (rows0 m d) := by
  unfold P; rfl
theorem P_go (d : Dev nD) (c : Fin ((K (F := F)).nCore 0)) (i : Fin ((K (F := F)).nSub 0)) :
    (P m).go 0 d c i = tilePts m d (wk (Fin.cast nCore_zero c) (Fin.cast nSub_zero i)) (m (oLoc d)) := by
  unfold P; rfl
theorem P_td (d : Dev nD) (c : Fin ((K (F := F)).nCore 0)) (i : Fin ((K (F := F)).nSub 0)) :
    (P m).td 0 d c i = tilePts m d (wk (Fin.cast nCore_zero c) (Fin.cast nSub_zero i)) (rows0 m d) := by
  unfold P; rfl

omit [FloatOps F] in
/-- The call's subcores are the sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
/-- The call's cores are the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## A sequencer's split: its sixteen workers' parts, handed on as they are -/

theorem go_all (d : Dev nD) (c : Fin ((K (F := F)).nCore 0)) :
    (bigSep Finset.univ fun i : Fin ((K (F := F)).nSub 0) => (P m).go 0 d c i) = (P m).st 0 d c := by
  simp only [P_go, P_st]
  exact bigSep_tasks (F := F) fun s => tilePts m d (wk (Fin.cast nCore_zero c) s) (m (oLoc d))
theorem td_all (d : Dev nD) (c : Fin ((K (F := F)).nCore 0)) :
    (bigSep Finset.univ fun i : Fin ((K (F := F)).nSub 0) => (P m).td 0 d c i) = (P m).dn 0 d c := by
  simp only [P_td, P_dn]
  exact bigSep_tasks (F := F) fun s => tilePts m d (wk (Fin.cast nCore_zero c) s) (rows0 m d)

theorem vecSplit : (K (F := F)).VecSplit' (P m) 0 := by
  intro d c
  rw [go_all, td_all]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The host's two reshapes: the list flattened, the rows regrouped. -/
abbrev opIn : HloOp τ sig (Elt F) := StableHlo.reshape main_arg0 main_v0 rfl shapeCasts_S1024x200_S204800
abbrev opOut : HloOp τ sig (Elt F) := StableHlo.reshape main_v1 main_v2 rfl shapeCasts_S204800x128_S1024x200x128
abbrev Sin : Finset (DevRef τ sig) := {a', i'}
abbrev Sout : Finset (DevRef τ sig) := {o', r'}

/-- The regrouped rows. -/
abbrev res0 (d : Dev nD) : Buf (Elt F) (rLoc d) := shapeCast S1024x200x128 (rows0 m d) shapeCasts_S204800x128_S1024x200x128

omit [FloatOps F] in
theorem held_Sin (d : Dev nD) (W : Valuation τ sig (Elt F)) :
    (held (T d) Sin W : sProp 𝕄) = iprop((aLoc d ↦{fullShare} W a') ∗ iLoc d ↦{fullShare} W i') := by
  unfold held Sin
  rw [SparseCore.bigSep_insert' (by decide), bigSep_singleton]
omit [FloatOps F] in
theorem held_Sout (d : Dev nD) (W : Valuation τ sig (Elt F)) :
    (held (T d) Sout W : sProp 𝕄) = iprop((oLoc d ↦{fullShare} W o') ∗ rLoc d ↦{fullShare} W r') := by
  unfold held Sout
  rw [SparseCore.bigSep_insert' (by decide), bigSep_singleton]

omit [FloatOps F] in
/-- @main's eight arrays, one by one. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_arg1)
          ∗ ((SparseCore.T d).loc main_arg2 ↦{fullShare} W main_arg2) ∗ ((SparseCore.T d).loc main_arg3 ↦{fullShare} W main_arg3)
          ∗ ((SparseCore.T d).loc main_arg4 ↦{fullShare} W main_arg4)
          ∗ (iLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_arg1, main_arg2, main_arg3, main_arg4, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; and the one after the call, the looked-up rows in place. -/
def V0 (d : Dev nD) : Valuation τ sig (Elt F) := fun b => m (d, b)
def V1 (d : Dev nD) : Valuation τ sig (Elt F) := Function.update (V0 m d) o' (rows0 m d)

omit [FloatOps F] in
theorem V1_o (d : Dev nD) : V1 m d o' = rows0 m d := Function.update_self _ _ _
omit [FloatOps F] in
theorem V1_r (d : Dev nD) : V1 m d r' = m (rLoc d) := Function.update_of_ne (show r' ≠ o' by decide) _ _

omit [FloatOps F] in
/-- After the first reshape: the list as given, and the list flattened. -/
theorem held_in (d : Dev nD) :
    (held (T d) Sin ((opIn (F := F)).result (V0 m d)) : sProp 𝕄) = iprop((aLoc d ↦{fullShare} m (aLoc d)) ∗ iLoc d ↦{fullShare} ids0 m d) := by
  rw [held_Sin, (opIn (F := F)).result_of_not_mem (V0 m d) (b := a') (show a' ∉ ({i'} : Finset (DevRef τ sig)) by decide),
    StableHlo.reshape_result]
  unfold ids0
  rfl
omit [FloatOps F] in
/-- After the second: the looked-up rows, and the rows regrouped. -/
theorem held_out (d : Dev nD) :
    (held (T d) Sout ((opOut (F := F)).result (V1 m d)) : sProp 𝕄) = iprop((oLoc d ↦{fullShare} rows0 m d) ∗ rLoc d ↦{fullShare} res0 m d) := by
  rw [held_Sout, (opOut (F := F)).result_of_not_mem (V1 m d) (b := o') (show o' ∉ ({r'} : Finset (DevRef τ sig)) by decide),
    StableHlo.reshape_result, V1_o]
  rfl

/-- Both SparseCores' operands are all thirty-two workers' parts. -/
theorem st0_eq (d : Dev nD) :
    (bigSep Finset.univ fun c : Fin ((K (F := F)).nCore 0) => (P m).st 0 d c)
      = bigSep Finset.univ fun c : Fin 2 => bigSep Finset.univ fun s : Fin 16 => tilePts m d (wk c s) (m (oLoc d)) := by
  simp only [P_st]
  exact bigSep_cores (F := F) fun c => bigSep Finset.univ fun s : Fin 16 => tilePts m d (wk c s) (m (oLoc d))
theorem dn0_eq (d : Dev nD) :
    (bigSep Finset.univ fun c : Fin ((K (F := F)).nCore 0) => (P m).dn 0 d c)
      = bigSep Finset.univ fun c : Fin 2 => bigSep Finset.univ fun s : Fin 16 => tilePts m d (wk c s) (rows0 m d) := by
  simp only [P_dn]
  exact bigSep_cores (F := F) fun c => bigSep Finset.univ fun s : Fin 16 => tilePts m d (wk c s) (rows0 m d)

/-- What @main leaves the claim: the five arguments at their launch contents (the table at the half-share kept back
    from the workers) and the result at the regrouped rows. -/
abbrev FIN (d : Dev nD) : sProp 𝕄 :=
  iprop((aLoc d ↦{fullShare} m (aLoc d)) ∗ (xLoc d ↦{(fullShare : PosShare TreeShare).right} m (xLoc d))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ rLoc d ↦{fullShare} res0 m d)

set_option maxHeartbeats 1600000 in
/-- @main on device `d`'s TensorCore: the list flattened (a host reshape over the two arrays it names, held whole);
    the three arrays of the call dealt to the workers and the call; the chunks rejoined at the looked-up rows; the
    rows regrouped (the second reshape). -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hx, H2, H3, H4, Hi, Ho, Hr⟩, -, -⟩, -⟩
  -- the list flattened
  iapply (wp_hlo_within 𝒱 (SparseCore.T d) none Set.univ (op := opIn) (S := Sin) (Finset.Subset.refl _) (V := V0 m d)) $$ [Hb Ha Hi]
  · isplitl [Hb]; · iexact Hb
    rw [held_Sin]
    isplitl [Ha]; · iexact Ha
    iexact Hi
  iintro ⟨Hb, Hheld⟩
  rw [wp_ret]; imodintro
  ihave Hh := (Entails.of_eq (held_in (F := F) m d)) $$ Hheld
  icases Hh with ⟨Ha, Hi⟩
  -- the table's half kept back; the call, from all the workers' parts
  ihave Hxx := (Entails.of_eq (xPts_halves (F := F) d (m (xLoc d)))) $$ Hx
  icases Hxx with ⟨Hxl, Hxr⟩
  iapply ((K (F := F)).wp_run (D (F := F)) 𝒱 (EH := EH) (P := P m) κ d 0) $$ [Hst Hi Hxl Ho Hb Ha H2 H3 H4 Hr Hxr]
  isplitr; · iexact Hctx
  isplitl [Hst]; · iexact Hst
  isplitl [Hi Hxl Ho]
  · rw [st0_eq, tiles_eq]
    isplitl [Hi]; · iexact Hi
    isplitl [Hxl]; · iexact Hxl
    iexact Ho
  iintro ⟨Hst, Hdn⟩
  ihave Hdn' := (Entails.of_eq ((dn0_eq m d).trans (tiles_eq m d (rows0 m d)))) $$ Hdn
  icases Hdn' with ⟨-, -, Ho⟩
  -- the rows regrouped
  iapply (wp_hlo_within 𝒱 (SparseCore.T d) none Set.univ (op := opOut) (S := Sout) (Finset.Subset.refl _) (V := V1 m d)) $$ [Hb Ho Hr]
  · isplitl [Hb]; · iexact Hb
    rw [held_Sout, V1_o, V1_r]
    isplitl [Ho]; · iexact Ho
    iexact Hr
  iintro ⟨Hb, Hheld⟩
  ihave Hh := (Entails.of_eq (held_out (F := F) m d)) $$ Hheld
  icases Hh with ⟨-, Hr⟩
  rw [wp_ret]; imodintro; imodintro
  isplitl [Hst]; · iexact Hst
  isplitl [Ha]; · iexact Ha
  isplitl [Hxr]; · iexact Hxr
  isplitl [H2]; · iexact H2
  isplitl [H3]; · iexact H3
  isplitl [H4]; · iexact H4
  iexact Hr

/-! ## The final memory -/

def fq (d : Dev nD) (s' : Phys nD τ sig (Elt F)) : Prop :=
  s'.mem.mem (rLoc d) = res0 m d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)

omit [FloatOps F] in
/-- The state agrees with a whole array held at any share; the state is kept. -/
theorem agree_keep (s' : Phys nD τ sig (Elt F)) (ℓ : Loc nD τ sig) (q : PosShare TreeShare) (f : Buf (Elt F) ℓ) :
    iprop(SI s' ∗ ℓ ↦{q} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := q) (f := f))) $$ [HSI Hp]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨Ha, Hx, H2, H3, H4, Hr⟩, HSI⟩
  ihave H := (agree_keep (F := F) s' _ _ _) $$ [HSI Hr]
  · isplitl [HSI] <;> iassumption
  icases H with ⟨%hr, HSI⟩
  ihave H := (agree_keep (F := F) s' _ _ _) $$ [HSI Ha]
  · isplitl [HSI] <;> iassumption
  icases H with ⟨%ha, HSI⟩
  ihave H := (agree_keep (F := F) s' _ _ _) $$ [HSI Hx]
  · isplitl [HSI] <;> iassumption
  icases H with ⟨%hx, HSI⟩
  ihave H := (agree_keep (F := F) s' _ _ _) $$ [HSI H2]
  · isplitl [HSI] <;> iassumption
  icases H with ⟨%h2, HSI⟩
  ihave H := (agree_keep (F := F) s' _ _ _) $$ [HSI H3]
  · isplitl [HSI] <;> iassumption
  icases H with ⟨%h3, HSI⟩
  ihave H := (agree_keep (F := F) s' _ _ _) $$ [HSI H4]
  · isplitl [HSI] <;> iassumption
  icases H with ⟨%h4, -⟩
  ipureintro; exact ⟨hr, ha, hx, h2, h3, h4⟩

/-! ## The program's run -/

/-- The lookup kernel's run, from the proof of one worker's body: every weakly fair execution of the thirty-five threads
    ends, with the result at the regrouped rows and the five arguments as they were. -/
theorem run_main [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩ (fun r => ∀ c : Dev nD,
      r.2.mem (rLoc c) = shapeCast S1024x200x128 (rows0 m c) shapeCasts_S204800x128_S1024x200x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KernelIdealLaunch

end
-- ==== Proof.KIIndex.lean ====
/-
  The looked-up rows, regrouped by the host as `[1024, 200, 128]`, are the specification's: the two reshapes keep the
  row-major order, so row `200 b + s` of the flat arrays is entry `[b, s]` of the shaped ones, and the result at
  `[b, s, :]` is the table's row named by word `[b, s]` of the index list.
-/
import proofs.«206832_g86208583565466_cont_sun_m_1057_30_alg».proof.Proof.KICommon
import Idealize.ShloMosaic.Lib.Pipeline.Value

noncomputable section

namespace Cert.Proof.KernelIdealLaunch

open Cert.KernelIdeal Cert.KernelIdeal.Gen
open Cert.Proof.KernelIdealCommon

open Idealize.ShloMosaic
open Idealize.ShloMosaic.SparseCore (S V T)
open Idealize.ShloMosaic.ValueIdx

variable {F : FTy → Type}
variable (m : (ℓ : Loc nD τ sig) → Buf (Elt F) ℓ)

/-- The flat row number of entry `[b, s]`. -/
def flatRow (b : Fin 1024) (s : Fin 200) : Fin 204800 := ⟨200 * b.val + s.val, by omega⟩

/-- Word `200 b + s` of the flattened list is word `[b, s]` of the list as given. -/
theorem ids0_flat (d : Dev nD) (b : Fin 1024) (s : Fin 200) :
    ids0 m d (ix1 (n := 204800) (flatRow b s)) = m (aLoc d) (ix2 (n0 := 1024) (n1 := 200) b s) := by
  unfold ids0
  refine shapeCast_apply (s := S1024x200) (t := S204800) _ _ _ _ ?_
  show (S1024x200.rowMajor (ix2 b s)).val = (S204800.rowMajor (ix1 (flatRow b s))).val
  rw [Shape.rowMajor_val_two, Shape.rowMajor_val_one]
  show b.val * 200 + s.val = 200 * b.val + s.val
  omega

/-- The result as the host regroups it is the specification's lookup. -/
theorem result_eq (d : Dev nD) :
    shapeCast S1024x200x128 (rows0 m d) shapeCasts_S204800x128_S1024x200x128 = Cert.Lookup.rowsOf (m (xLoc d)) (m (aLoc d)) := by
  funext j
  obtain ⟨b, s, c, rfl⟩ : ∃ (b : Fin 1024) (s : Fin 200) (c : Fin 128), j = ix3 b s c := ⟨j 0, j 1, j 2, eq_ix3 j⟩
  have hk : (S204800x128.rowMajor (ix2 (n0 := 204800) (n1 := 128) (flatRow b s) c)).val = (S1024x200x128.rowMajor (ix3 b s c)).val := by
    rw [Shape.rowMajor_val_two, Shape.rowMajor_val_three]
    show (200 * b.val + s.val) * 128 + c.val = (b.val * 200 + s.val) * 128 + c.val
    omega
  rw [shapeCast_apply (s := S204800x128) (t := S1024x200x128) (rows0 m d) shapeCasts_S204800x128_S1024x200x128 (ix3 b s c) _ hk]
  unfold rows0
  show m (xLoc d) (ix2 (Cert.Lookup.rowOfWord (ids0 m d (ix1 (n := 204800) (flatRow b s)))) c) = _
  rw [ids0_flat]
  rfl

end Cert.Proof.KernelIdealLaunch

end
-- ==== Proof.KITile.lean ====
/-
  One worker's task. Worker `w` (vector subcore `s` of SparseCore `c`, `w = 2 s + c`) first copies its 6400 words of
  the flattened index list into its index scratch. It then keeps ten row buffers busy: buffer `j` gathers the table
  rows named by chunk `(t, j)`'s eighty words, and once they have landed is written out to chunk `(t, j)` of the
  result; when that write has drained the buffer gathers chunk `(t + 1, j)`. A buffer is never touched while a
  transfer into or out of it is pending, so each chunk of the result ends holding exactly the gathered rows.
-/
import proofs.«206832_g86208583565466_cont_sun_m_1057_30_alg».proof.Proof.KICommon

noncomputable section

namespace Cert.Proof.KernelIdealTile

open Cert.KernelIdeal Cert.KernelIdeal.Gen Cert.Proof.KernelIdealCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg1_scv : Memref Cert.KernelIdeal.sig Kind.scVector Space.hbm Cert.KernelIdeal.S1000000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v1_scv : Memref Cert.KernelIdeal.sig Kind.scVector Space.hbm Cert.KernelIdeal.S204800x128 EltTy.f32)
local notation "lV" => (Memref.whole Cert.KernelIdeal.cc0_scratch0 : Memref Cert.KernelIdeal.sig Kind.scVector Space.vmem Cert.KernelIdeal.S6400 EltTy.i32)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker's number. -/
abbrev wL (L : grid0.Coords) : Fin 32 := wk (Fin.cast bound_zero (L 0)) (Fin.cast bound_one (L 1))

/-- The row buffers and their two families of semaphores, by buffer number. -/
def bufR : Fin 10 → Ref sig .scVector
  | 0 => cc0_scratch1 | 1 => cc0_scratch2 | 2 => cc0_scratch3 | 3 => cc0_scratch4 | 4 => cc0_scratch5
  | 5 => cc0_scratch6 | 6 => cc0_scratch7 | 7 => cc0_scratch8 | 8 => cc0_scratch9 | 9 => cc0_scratch10

/-- The worker's rows of the flattened list, as the task addresses them. -/
abbrev iRowK (L : grid0.Coords) : Memref sig .scVector .hbm S6400 .i32 :=
  (iV).slice (Rect.unit (s := S204800) (k0_off1 L) S6400.size (k0_off1_inb L)) (fun _ => rfl)
/-- Chunk `(t, r)` of the result, as the task addresses it. -/
abbrev oChK (L : grid0.Coords) (t : Fin k0_t1_loop.trips) (r : Fin 10) : Memref sig .scVector .hbm S80x128 .f32 :=
  (oV).slice (Rect.unit (s := S204800x128) (k0_off2 L t (BitVec.ofNat 32 r.val)) S80x128.size (k0_off2_inb L t r)) (fun _ => rfl)

theorem trips_eq : k0_t1_loop.trips = 8 := by decide

theorem irowK_eq : Rect.unit (s := S204800) (k0_off1 L) S6400.size (k0_off1_inb L) = irow (wL L) := by
  unfold irow Rect.part Rect.block
  congr 1 <;> funext a
  · rw [k0_off1_eq]
    match a with
    | 0 =>
      simp [Shape.partIx, Shape.partSize, wk]
      show _ = (2 * (L 1).val + (L 0).val) * 6400
      omega
  · match a with
    | 0 => simp [Shape.partSize]

theorem ochK_eq (t : Fin k0_t1_loop.trips) (r : Fin 10) :
    Rect.unit (s := S204800x128) (k0_off2 L t (BitVec.ofNat 32 r.val)) S80x128.size (k0_off2_inb L t r) = orow (ck (wL L) (Fin.cast trips_eq t) r) := by
  unfold orow Rect.part Rect.block
  congr 1 <;> funext a
  · rw [k0_off2_eq]
    match a with
    | 0 =>
      simp [Shape.partIx, Shape.partSize, wk, ck]
      show _ = (80 * (2 * (L 1).val + (L 0).val) + 10 * t.val + r.val) * 80
      omega
    | 1 => simp [Shape.partIx, Shape.partSize]
  · match a with
    | 0 => simp [Shape.partSize]
    | 1 => simp [Shape.partSize]

theorem set_iRowK : (iRowK L).view.set = iRowSet (wL L) := by
  unfold iRowSet
  rw [← irowK_eq L]
theorem set_oChK (t : Fin k0_t1_loop.trips) (r : Fin 10) : (oChK L t r).view.set = oRowSet (ck (wL L) (Fin.cast trips_eq t) r) := by
  unfold oRowSet
  rw [← ochK_eq L t r]

/-! ## The worker's own semaphores and buffers, by name -/

omit m in
/-- A vector subcore's scoped cells are its twenty-one DMA semaphores. -/
theorem ownCells_V : ownCells (V d (cV L) (jV L)) = (Finset.univ : Finset (DmaSem sig)).image (fun k => (((V d (cV L) (jV L)), SemLoc.dma k) : GSem nD τ sig)) := by
  have hreg : ∀ s : Sem sig, ¬ (SemLoc.reg s : SemLoc sig).isScoped .scVector = true := by decide
  have hdma : ∀ k : DmaSem sig, (SemLoc.dma k : SemLoc sig).isScoped .scVector = true := by decide
  ext ⟨thr', sl⟩
  simp only [mem_ownCells, Finset.mem_image, Finset.mem_univ, true_and]
  constructor
  · rintro ⟨rfl, h⟩
    cases sl with
    | reg s =>
      exact absurd (show (SemLoc.reg s : SemLoc sig).isScoped .scVector = true from h) (hreg s)
    | dma s => exact ⟨s, rfl⟩
  · rintro ⟨k, hk⟩
    cases hk
    exact ⟨rfl, hdma k⟩

omit m in
theorem ownSems0_V :
    (ownSems0 (V d (cV L) (jV L)) : sProp 𝕄)
      = iprop(semVal ((V d (cV L) (jV L)), SemLoc.dma cc0_scratch11.sem) 0
          ∗ semVal ((V d (cV L) (jV L)), SemLoc.dma cc0_scratch12.sem) 0
          ∗ semVal ((V d (cV L) (jV L)), SemLoc.dma cc0_scratch13.sem) 0
          ∗ semVal ((V d (cV L) (jV L)), SemLoc.dma cc0_scratch14.sem) 0
          ∗ semVal ((V d (cV L) (jV L)), SemLoc.dma cc0_scratch15.sem) 0
          ∗ semVal ((V d (cV L) (jV L)), SemLoc.dma cc0_scratch16.sem) 0
          ∗ semVal ((V d (cV L) (jV L)), SemLoc.dma cc0_scratch17.sem) 0
          ∗ semVal ((V d (cV L) (jV L)), SemLoc.dma cc0_scratch18.sem) 0
          ∗ semVal ((V d (cV L) (jV L)), SemLoc.dma cc0_scratch19.sem) 0
          ∗ semVal ((V d (cV L) (jV L)), SemLoc.dma cc0_scratch20.sem) 0
          ∗ semVal ((V d (cV L) (jV L)), SemLoc.dma cc0_scratch21.sem) 0
          ∗ semVal ((V d (cV L) (jV L)), SemLoc.dma cc0_scratch22.sem) 0
          ∗ semVal ((V d (cV L) (jV L)), SemLoc.dma cc0_scratch23.sem) 0
          ∗ semVal ((V d (cV L) (jV L)), SemLoc.dma cc0_scratch24.sem) 0
          ∗ semVal ((V d (cV L) (jV L)), SemLoc.dma cc0_scratch25.sem) 0
          ∗ semVal ((V d (cV L) (jV L)), SemLoc.dma cc0_scratch26.sem) 0
          ∗ semVal ((V d (cV L) (jV L)), SemLoc.dma cc0_scratch27.sem) 0
          ∗ semVal ((V d (cV L) (jV L)), SemLoc.dma cc0_scratch28.sem) 0
          ∗ semVal ((V d (cV L) (jV L)), SemLoc.dma cc0_scratch29.sem) 0
          ∗ semVal ((V d (cV L) (jV L)), SemLoc.dma cc0_scratch30.sem) 0
          ∗ semVal ((V d (cV L) (jV L)), SemLoc.dma cc0_scoped0.sem) 0) := by
  unfold SparseCore.Cfg.ownSems0
  rw [ownCells_V, SparseCore.bigSep_image_of_injOn (fun a _ b _ e => SemLoc.dma.inj (Prod.mk.inj e).2),
    show (Finset.univ : Finset (DmaSem sig)) = {0, 1, 2, 3, 4, 5, 6, 7, 8, 9, 10, 11, 12, 13, 14, 15, 16, 17, 18, 19, 20} by decide]
  rw [BI.bigSep_insert (by decide : (0 : DmaSem sig) ∉ ({1, 2, 3, 4, 5, 6, 7, 8, 9, 10, 11, 12, 13, 14, 15, 16, 17, 18, 19, 20} : Finset (DmaSem sig))),
    BI.bigSep_insert (by decide : (1 : DmaSem sig) ∉ ({2, 3, 4, 5, 6, 7, 8, 9, 10, 11, 12, 13, 14, 15, 16, 17, 18, 19, 20} : Finset (DmaSem sig))),
    BI.bigSep_insert (by decide : (2 : DmaSem sig) ∉ ({3, 4, 5, 6, 7, 8, 9, 10, 11, 12, 13, 14, 15, 16, 17, 18, 19, 20} : Finset (DmaSem sig))),
    BI.bigSep_insert (by decide : (3 : DmaSem sig) ∉ ({4, 5, 6, 7, 8, 9, 10, 11, 12, 13, 14, 15, 16, 17, 18, 19, 20} : Finset (DmaSem sig))),
    BI.bigSep_insert (by decide : (4 : DmaSem sig) ∉ ({5, 6, 7, 8, 9, 10, 11, 12, 13, 14, 15, 16, 17, 18, 19, 20} : Finset (DmaSem sig))),
    BI.bigSep_insert (by decide : (5 : DmaSem sig) ∉ ({6, 7, 8, 9, 10, 11, 12, 13, 14, 15, 16, 17, 18, 19, 20} : Finset (DmaSem sig))),
    BI.bigSep_insert (by decide : (6 : DmaSem sig) ∉ ({7, 8, 9, 10, 11, 12, 13, 14, 15, 16, 17, 18, 19, 20} : Finset (DmaSem sig))),
    BI.bigSep_insert (by decide : (7 : DmaSem sig) ∉ ({8, 9, 10, 11, 12, 13, 14, 15, 16, 17, 18, 19, 20} : Finset (DmaSem sig))),
    BI.bigSep_insert (by decide : (8 : DmaSem sig) ∉ ({9, 10, 11, 12, 13, 14, 15, 16, 17, 18, 19, 20} : Finset (DmaSem sig))),
    BI.bigSep_insert (by decide : (9 : DmaSem sig) ∉ ({10, 11, 12, 13, 14, 15, 16, 17, 18, 19, 20} : Finset (DmaSem sig))),
    BI.bigSep_insert (by decide : (10 : DmaSem sig) ∉ ({11, 12, 13, 14, 15, 16, 17, 18, 19, 20} : Finset (DmaSem sig))),
    BI.bigSep_insert (by decide : (11 : DmaSem sig) ∉ ({12, 13, 14, 15, 16, 17, 18, 19, 20} : Finset (DmaSem sig))),
    BI.bigSep_insert (by decide : (12 : DmaSem sig) ∉ ({13, 14, 15, 16, 17, 18, 19, 20} : Finset (DmaSem sig))),
    BI.bigSep_insert (by decide : (13 : DmaSem sig) ∉ ({14, 15, 16, 17, 18, 19, 20} : Finset (DmaSem sig))),
    BI.bigSep_insert (by decide : (14 : DmaSem sig) ∉ ({15, 16, 17, 18, 19, 20} : Finset (DmaSem sig))),
    BI.bigSep_insert (by decide : (15 : DmaSem sig) ∉ ({16, 17, 18, 19, 20} : Finset (DmaSem sig))),
    BI.bigSep_insert (by decide : (16 : DmaSem sig) ∉ ({17, 18, 19, 20} : Finset (DmaSem sig))),
    BI.bigSep_insert (by decide : (17 : DmaSem sig) ∉ ({18, 19, 20} : Finset (DmaSem sig))),
    BI.bigSep_insert (by decide : (18 : DmaSem sig) ∉ ({19, 20} : Finset (DmaSem sig))),
    BI.bigSep_insert (by decide : (19 : DmaSem sig) ∉ ({20} : Finset (DmaSem sig))),
    bigSep_singleton]
  rfl

omit m in
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ (∃ f, (V d (cV L) (jV L)).loc cc0_scratch9 ↦{fullShare} f)
          ∗ (∃ f, (V d (cV L) (jV L)).loc cc0_scratch10 ↦{fullShare} f)
          ∗ bigSep ((((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)).erase ((Proc.scVector (cV L) (jV L)).devRef cc0_scratch9)).erase ((Proc.scVector (cV L) (jV L)).devRef cc0_scratch10))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩),
    SparseCore.bigSep_erase' (Finset.mem_erase.mpr ⟨fun e => absurd (Proc.devRef_injective _ e) (show (cc0_scratch9 : Ref sig .scVector) ≠ cc0_scratch8 by decide), Finset.mem_erase.mpr ⟨fun e => absurd (Proc.devRef_injective _ e) (show (cc0_scratch9 : Ref sig .scVector) ≠ cc0_scratch7 by decide), Finset.mem_erase.mpr ⟨fun e => absurd (Proc.devRef_injective _ e) (show (cc0_scratch9 : Ref sig .scVector) ≠ cc0_scratch6 by decide), Finset.mem_erase.mpr ⟨fun e => absurd (Proc.devRef_injective _ e) (show (cc0_scratch9 : Ref sig .scVector) ≠ cc0_scratch5 by decide), Finset.mem_erase.mpr ⟨fun e => absurd (Proc.devRef_injective _ e) (show (cc0_scratch9 : Ref sig .scVector) ≠ cc0_scratch4 by decide), Finset.mem_erase.mpr ⟨fun e => absurd (Proc.devRef_injective _ e) (show (cc0_scratch9 : Ref sig .scVector) ≠ cc0_scratch3 by decide), Finset.mem_erase.mpr ⟨fun e => absurd (Proc.devRef_injective _ e) (show (cc0_scratch9 : Ref sig .scVector) ≠ cc0_scratch2 by decide), Finset.mem_erase.mpr ⟨fun e => absurd (Proc.devRef_injective _ e) (show (cc0_scratch9 : Ref sig .scVector) ≠ cc0_scratch1 by decide), Finset.mem_erase.mpr ⟨fun e => absurd (Proc.devRef_injective _ e) (show (cc0_scratch9 : Ref sig .scVector) ≠ cc0_scratch0 by decide), SparseCore.Cfg.mem_ownRefs_of_owner (p := Proc.scVector (cV L) (jV L)) (b := (Proc.scVector (cV L) (jV L)).devRef cc0_scratch9) rfl⟩⟩⟩⟩⟩⟩⟩⟩⟩),
    SparseCore.bigSep_erase' (Finset.mem_erase.mpr ⟨fun e => absurd (Proc.devRef_injective _ e) (show (cc0_scratch10 : Ref sig .scVector) ≠ cc0_scratch9 by decide), Finset.mem_erase.mpr ⟨fun e => absurd (Proc.devRef_injective _ e) (show (cc0_scratch10 : Ref sig .scVector) ≠ cc0_scratch8 by decide), Finset.mem_erase.mpr ⟨fun e => absurd (Proc.devRef_injective _ e) (show (cc0_scratch10 : Ref sig .scVector) ≠ cc0_scratch7 by decide), Finset.mem_erase.mpr ⟨fun e => absurd (Proc.devRef_injective _ e) (show (cc0_scratch10 : Ref sig .scVector) ≠ cc0_scratch6 by decide), Finset.mem_erase.mpr ⟨fun e => absurd (Proc.devRef_injective _ e) (show (cc0_scratch10 : Ref sig .scVector) ≠ cc0_scratch5 by decide), Finset.mem_erase.mpr ⟨fun e => absurd (Proc.devRef_injective _ e) (show (cc0_scratch10 : Ref sig .scVector) ≠ cc0_scratch4 by decide), Finset.mem_erase.mpr ⟨fun e => absurd (Proc.devRef_injective _ e) (show (cc0_scratch10 : Ref sig .scVector) ≠ cc0_scratch3 by decide), Finset.mem_erase.mpr ⟨fun e => absurd (Proc.devRef_injective _ e) (show (cc0_scratch10 : Ref sig .scVector) ≠ cc0_scratch2 by decide), Finset.mem_erase.mpr ⟨fun e => absurd (Proc.devRef_injective _ e) (show (cc0_scratch10 : Ref sig .scVector) ≠ cc0_scratch1 by decide), Finset.mem_erase.mpr ⟨fun e => absurd (Proc.devRef_injective _ e) (show (cc0_scratch10 : Ref sig .scVector) ≠ cc0_scratch0 by decide), SparseCore.Cfg.mem_ownRefs_of_owner (p := Proc.scVector (cV L) (jV L)) (b := (Proc.scVector (cV L) (jV L)).devRef cc0_scratch10) rfl⟩⟩⟩⟩⟩⟩⟩⟩⟩⟩)]

omit m d L in
/-- A family over `Fin 10`, member by member. -/
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide,
    BI.bigSep_insert (by decide : (0 : Fin 10) ∉ ({1, 2, 3, 4, 5, 6, 7, 8, 9} : Finset (Fin 10))),
    BI.bigSep_insert (by decide : (1 : Fin 10) ∉ ({2, 3, 4, 5, 6, 7, 8, 9} : Finset (Fin 10))),
    BI.bigSep_insert (by decide : (2 : Fin 10) ∉ ({3, 4, 5, 6, 7, 8, 9} : Finset (Fin 10))),
    BI.bigSep_insert (by decide : (3 : Fin 10) ∉ ({4, 5, 6, 7, 8, 9} : Finset (Fin 10))),
    BI.bigSep_insert (by decide : (4 : Fin 10) ∉ ({5, 6, 7, 8, 9} : Finset (Fin 10))),
    BI.bigSep_insert (by decide : (5 : Fin 10) ∉ ({6, 7, 8, 9} : Finset (Fin 10))),
    BI.bigSep_insert (by decide : (6 : Fin 10) ∉ ({7, 8, 9} : Finset (Fin 10))),
    BI.bigSep_insert (by decide : (7 : Fin 10) ∉ ({8, 9} : Finset (Fin 10))),
    BI.bigSep_insert (by decide : (8 : Fin 10) ∉ ({9} : Finset (Fin 10))),
    bigSep_singleton]
  rfl

omit m d L in
/-- A family over `Fin 8`, member by member. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    BI.bigSep_insert (by decide : (0 : Fin 8) ∉ ({1, 2, 3, 4, 5, 6, 7} : Finset (Fin 8))),
    BI.bigSep_insert (by decide : (1 : Fin 8) ∉ ({2, 3, 4, 5, 6, 7} : Finset (Fin 8))),
    BI.bigSep_insert (by decide : (2 : Fin 8) ∉ ({3, 4, 5, 6, 7} : Finset (Fin 8))),
    BI.bigSep_insert (by decide : (3 : Fin 8) ∉ ({4, 5, 6, 7} : Finset (Fin 8))),
    BI.bigSep_insert (by decide : (4 : Fin 8) ∉ ({5, 6, 7} : Finset (Fin 8))),
    BI.bigSep_insert (by decide : (5 : Fin 8) ∉ ({6, 7} : Finset (Fin 8))),
    BI.bigSep_insert (by decide : (6 : Fin 8) ∉ ({7} : Finset (Fin 8))),
    bigSep_singleton]
  rfl

local notation "b0V" => (Memref.whole Cert.KernelIdeal.cc0_scratch1 : Memref Cert.KernelIdeal.sig Kind.scVector Space.vmem Cert.KernelIdeal.S80x128 EltTy.f32)
local notation "b1V" => (Memref.whole Cert.KernelIdeal.cc0_scratch2 : Memref Cert.KernelIdeal.sig Kind.scVector Space.vmem Cert.KernelIdeal.S80x128 EltTy.f32)
local notation "b2V" => (Memref.whole Cert.KernelIdeal.cc0_scratch3 : Memref Cert.KernelIdeal.sig Kind.scVector Space.vmem Cert.KernelIdeal.S80x128 EltTy.f32)
local notation "b3V" => (Memref.whole Cert.KernelIdeal.cc0_scratch4 : Memref Cert.KernelIdeal.sig Kind.scVector Space.vmem Cert.KernelIdeal.S80x128 EltTy.f32)
local notation "b4V" => (Memref.whole Cert.KernelIdeal.cc0_scratch5 : Memref Cert.KernelIdeal.sig Kind.scVector Space.vmem Cert.KernelIdeal.S80x128 EltTy.f32)
local notation "b5V" => (Memref.whole Cert.KernelIdeal.cc0_scratch6 : Memref Cert.KernelIdeal.sig Kind.scVector Space.vmem Cert.KernelIdeal.S80x128 EltTy.f32)
local notation "b6V" => (Memref.whole Cert.KernelIdeal.cc0_scratch7 : Memref Cert.KernelIdeal.sig Kind.scVector Space.vmem Cert.KernelIdeal.S80x128 EltTy.f32)
local notation "b7V" => (Memref.whole Cert.KernelIdeal.cc0_scratch8 : Memref Cert.KernelIdeal.sig Kind.scVector Space.vmem Cert.KernelIdeal.S80x128 EltTy.f32)
local notation "b8V" => (Memref.whole Cert.KernelIdeal.cc0_scratch9 : Memref Cert.KernelIdeal.sig Kind.scVector Space.vmem Cert.KernelIdeal.S80x128 EltTy.f32)
local notation "b9V" => (Memref.whole Cert.KernelIdeal.cc0_scratch10 : Memref Cert.KernelIdeal.sig Kind.scVector Space.vmem Cert.KernelIdeal.S80x128 EltTy.f32)

omit m in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit m in
theorem pts_xV (q : PosShare TreeShare) (f : Buf (Elt F) (xLoc d)) :
    ((xV).view.loc (V d (cV L) (jV L)) ↦{q} f : sProp 𝕄) = xLoc d ↦{q} f := rfl
omit m in
theorem pts_lV (f : Buf (Elt F) ((V d (cV L) (jV L)).loc cc0_scratch0)) :
    ((lV).view.loc (V d (cV L) (jV L)) ↦{fullShare} f : sProp 𝕄) = (V d (cV L) (jV L)).loc cc0_scratch0 ↦{fullShare} f := rfl

omit m in
theorem pts_whole (b : Ref sig .scVector) (f : Buf (Elt F) ((V d (cV L) (jV L)).loc b)) :
    ((Memref.whole b).view.loc (V d (cV L) (jV L)) ↦{fullShare} f : sProp 𝕄) = (V d (cV L) (jV L)).loc b ↦{fullShare} f := rfl

/-- The worker's words: word `y` of its index scratch, once fetched, is word `6400 w + y` of the flattened list. -/
def lst0 : Buf (Elt F) ((V d (cV L) (jV L)).loc cc0_scratch0) := (iRowK L).view.read (Elt F) (ids0 m d)

/-- What the fetch lands in the index scratch. -/
theorem fetch_lands (fl : Buf (Elt F) ((V d (cV L) (jV L)).loc cc0_scratch0)) (pay : S6400.Idx → Elt F .i32)
    (hpay : pay = (iRowK L).view.read (Elt F) (ids0 m d)) :
    View.write (Elt F) (lV).view fl pay Finset.univ = lst0 m d L := by
  subst hpay; exact View.write_whole_univ _ _ _

/-- Every word of the worker's list names a row of the table. -/
theorem lst0_lt (hpre : PreOK m) (y : S6400.Idx) : (lst0 m d L y).toNat < 1000000 := by
  unfold lst0
  rw [show ∀ j, (iRowK L).view.read (Elt F) (ids0 m d) j = ids0 m d ((iRowK L).view.emb j) from fun j => (View.read_apply _ _).trans (cast_eq _ _)]
  unfold ids0 shapeCast
  exact hpre d _

/-- So every window of the index scratch holds in-range offsets. -/
theorem list_inb (hpre : PreOK m) (R : Rect S6400) (hR : ∀ a, R.stride a = 1) (x : R.shape.Idx) :
    (((lV).slice R hR).view.read (Elt F) (lst0 m d L) x).toNat < S1000000x128.size gathers_S1000000x128_S80x128.axis := by
  rw [show ((lV).slice R hR).view.read (Elt F) (lst0 m d L) x = lst0 m d L (((lV).slice R hR).view.emb x) from (View.read_apply _ _).trans (cast_eq _ _)]
  exact lst0_lt m d L hpre _

/-! ## The windows of the index scratch and of the table, by name -/

theorem lSl_inb (n : ℕ) (h : n + 80 ≤ 6400) : ∀ a, (![n] : Fin 1 → Nat) a + S80.size a ≤ S6400.size a := by
  intro a; obtain rfl : a = 0 := Subsingleton.elim _ _; exact h

/-- The eighty words of the index scratch from word `n` on. -/
def lSl (n : ℕ) (h : n + 80 ≤ 6400) : Memref sig .scVector .vmem S80 .i32 :=
  (lV).slice (Rect.unit (s := S6400) ![n] S80.size (lSl_inb n h)) (fun _ => rfl)

theorem lSl_congr (o o' : Fin 1 → Nat) (ho : ∀ a, o a + S80.size a ≤ S6400.size a) (ho' : ∀ a, o' a + S80.size a ≤ S6400.size a) (e : o = o') :
    (lV).slice (Rect.unit (s := S6400) o S80.size ho) (fun _ => rfl) = (lV).slice (Rect.unit (s := S6400) o' S80.size ho') (fun _ => rfl) := by
  subst e; rfl

/-- The whole table, as every transfer addresses it. -/
abbrev xSl : Memref sig .scVector .hbm S1000000x128 .f32 :=
  (xV).slice (Rect.unit (s := S1000000x128) ![0, 0] S1000000x128.size inb_S1000000x128_S1000000x128_0_0) (fun _ => rfl)

theorem cond1_lt (k : Fin k0_t1_loop.trips) (h : k0_cond1 k = 1#1) : k.val < 7 := by revert k; decide
theorem cond2_lt (k : Fin k0_t1_loop.trips) (h : k0_cond2 k = 1#1) : k.val < 7 := by revert k; decide
theorem cond3_lt (k : Fin k0_t1_loop.trips) (h : k0_cond3 k = 1#1) : k.val < 7 := by revert k; decide
theorem cond4_lt (k : Fin k0_t1_loop.trips) (h : k0_cond4 k = 1#1) : k.val < 7 := by revert k; decide
theorem cond5_lt (k : Fin k0_t1_loop.trips) (h : k0_cond5 k = 1#1) : k.val < 7 := by revert k; decide
theorem cond6_lt (k : Fin k0_t1_loop.trips) (h : k0_cond6 k = 1#1) : k.val < 7 := by revert k; decide
theorem cond7_lt (k : Fin k0_t1_loop.trips) (h : k0_cond7 k = 1#1) : k.val < 7 := by revert k; decide
theorem cond8_lt (k : Fin k0_t1_loop.trips) (h : k0_cond8 k = 1#1) : k.val < 7 := by revert k; decide
theorem cond9_lt (k : Fin k0_t1_loop.trips) (h : k0_cond9 k = 1#1) : k.val < 7 := by revert k; decide
theorem cond10_lt (k : Fin k0_t1_loop.trips) (h : k0_cond10 k = 1#1) : k.val < 7 := by revert k; decide

@[sl_canon] theorem canon_l0 (k : Fin k0_t1_loop.trips) (h : k0_cond1 k = 1#1) :
    (lV).slice (Rect.unit (s := S6400) (k0_off4 k) S80.size (k0_off4_inb k h)) (fun _ => rfl)
      = lSl (800 * k.val + 800) (by have := cond1_lt k h; omega) := by
  unfold lSl
  exact lSl_congr _ _ _ _ (k0_off4_eq k)
@[sl_canon] theorem canon_l1 (k : Fin k0_t1_loop.trips) (h : k0_cond2 k = 1#1) :
    (lV).slice (Rect.unit (s := S6400) (k0_off6 k) S80.size (k0_off6_inb k h)) (fun _ => rfl)
      = lSl (800 * k.val + 880) (by have := cond2_lt k h; omega) := by
  unfold lSl
  exact lSl_congr _ _ _ _ (k0_off6_eq k)
@[sl_canon] theorem canon_l2 (k : Fin k0_t1_loop.trips) (h : k0_cond3 k = 1#1) :
    (lV).slice (Rect.unit (s := S6400) (k0_off8 k) S80.size (k0_off8_inb k h)) (fun _ => rfl)
      = lSl (800 * k.val + 960) (by have := cond3_lt k h; omega) := by
  unfold lSl
  exact lSl_congr _ _ _ _ (k0_off8_eq k)
@[sl_canon] theorem canon_l3 (k : Fin k0_t1_loop.trips) (h : k0_cond4 k = 1#1) :
    (lV).slice (Rect.unit (s := S6400) (k0_off10 k) S80.size (k0_off10_inb k h)) (fun _ => rfl)
      = lSl (800 * k.val + 1040) (by have := cond4_lt k h; omega) := by
  unfold lSl
  exact lSl_congr _ _ _ _ (k0_off10_eq k)
@[sl_canon] theorem canon_l4 (k : Fin k0_t1_loop.trips) (h : k0_cond5 k = 1#1) :
    (lV).slice (Rect.unit (s := S6400) (k0_off12 k) S80.size (k0_off12_inb k h)) (fun _ => rfl)
      = lSl (800 * k.val + 1120) (by have := cond5_lt k h; omega) := by
  unfold lSl
  exact lSl_congr _ _ _ _ (k0_off12_eq k)
@[sl_canon] theorem canon_l5 (k : Fin k0_t1_loop.trips) (h : k0_cond6 k = 1#1) :
    (lV).slice (Rect.unit (s := S6400) (k0_off14 k) S80.size (k0_off14_inb k h)) (fun _ => rfl)
      = lSl (800 * k.val + 1200) (by have := cond6_lt k h; omega) := by
  unfold lSl
  exact lSl_congr _ _ _ _ (k0_off14_eq k)
@[sl_canon] theorem canon_l6 (k : Fin k0_t1_loop.trips) (h : k0_cond7 k = 1#1) :
    (lV).slice (Rect.unit (s := S6400) (k0_off16 k) S80.size (k0_off16_inb k h)) (fun _ => rfl)
      = lSl (800 * k.val + 1280) (by have := cond7_lt k h; omega) := by
  unfold lSl
  exact lSl_congr _ _ _ _ (k0_off16_eq k)
@[sl_canon] theorem canon_l7 (k : Fin k0_t1_loop.trips) (h : k0_cond8 k = 1#1) :
    (lV).slice (Rect.unit (s := S6400) (k0_off18 k) S80.size (k0_off18_inb k h)) (fun _ => rfl)
      = lSl (800 * k.val + 1360) (by have := cond8_lt k h; omega) := by
  unfold lSl
  exact lSl_congr _ _ _ _ (k0_off18_eq k)
@[sl_canon] theorem canon_l8 (k : Fin k0_t1_loop.trips) (h : k0_cond9 k = 1#1) :
    (lV).slice (Rect.unit (s := S6400) (k0_off20 k) S80.size (k0_off20_inb k h)) (fun _ => rfl)
      = lSl (800 * k.val + 1440) (by have := cond9_lt k h; omega) := by
  unfold lSl
  exact lSl_congr _ _ _ _ (k0_off20_eq k)
@[sl_canon] theorem canon_l9 (k : Fin k0_t1_loop.trips) (h : k0_cond10 k = 1#1) :
    (lV).slice (Rect.unit (s := S6400) (k0_off22 k) S80.size (k0_off22_inb k h)) (fun _ => rfl)
      = lSl (800 * k.val + 1520) (by have := cond10_lt k h; omega) := by
  unfold lSl
  exact lSl_congr _ _ _ _ (k0_off22_eq k)

end Cert.Proof.KernelIdealTile

end
-- ==== Proof.KIAux.lean ====
/-
  One worker's task, piece by piece: how its buffers are held, what a gather lands, how the trips of the loop are counted.

  * The index scratch holds 6400 words; the task reads them in eighty windows of eighty, window `(t, j)` from word
    `800 t + 80 j` on. The windows are the eighty equal parts of the scratch along its one axis (part `10 t + j`), so they
    are disjoint and cover it: holding the scratch whole is holding the eighty windows.
  * A buffer held whole is held at the elements its own memref names (all of them); the table addressed through the
    window at offset `[0, 0]` of its full size is the table.
  * A gather from the table through window `n` of the index scratch lands, at entry `(y₀, y₁)` of a row buffer, entry `y₁`
    of the table row whose number is word `n + y₀` of the scratch. The scratch holds the worker's 6400 words of the
    flattened list, so for window `(t, j)` that word is word `6400 w + 800 t + 80 j + y₀` of the list, which is below
    `1000000` under the precondition: the row is the one the specification names. Written out to chunk `(t, j)` of the
    result, the rows are the specification's rows there.
  * A family over the eight trips with one or two trips taken out, or cut at a trip, loses or gains one member at a time.
-/
import proofs.«206832_g86208583565466_cont_sun_m_1057_30_alg».proof.Proof.KITile

noncomputable section

namespace Cert.Proof.KernelIdealAux

open Cert.KernelIdeal Cert.KernelIdeal.Gen Cert.Proof.KernelIdealCommon Cert.Proof.KernelIdealTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg1_scv : Memref Cert.KernelIdeal.sig Kind.scVector Space.hbm Cert.KernelIdeal.S1000000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v1_scv : Memref Cert.KernelIdeal.sig Kind.scVector Space.hbm Cert.KernelIdeal.S204800x128 EltTy.f32)
local notation "lV" => (Memref.whole Cert.KernelIdeal.cc0_scratch0 : Memref Cert.KernelIdeal.sig Kind.scVector Space.vmem Cert.KernelIdeal.S6400 EltTy.i32)

/-! ## The trips of the loop, one at a time -/

section Trips

omit m d L in
/-- All trips but `k`: trip `k + 1`, and all trips but those two. -/
theorem bigSep_ne_succ (Φ : Fin 8 → sProp 𝕄) (k : ℕ) (hk : k < 7) :
    bigSep (Finset.univ.filter fun t : Fin 8 => t.val ≠ k) Φ
      = iprop(Φ ⟨k + 1, by omega⟩ ∗ bigSep (Finset.univ.filter fun t : Fin 8 => t.val ≠ k ∧ t.val ≠ k + 1) Φ) := by
  have hs : (Finset.univ.filter fun t : Fin 8 => t.val ≠ k)
      = insert (⟨k + 1, by omega⟩ : Fin 8) (Finset.univ.filter fun t : Fin 8 => t.val ≠ k ∧ t.val ≠ k + 1) := by
    ext t
    simp only [Finset.mem_filter, Finset.mem_univ, true_and, Finset.mem_insert, Fin.ext_iff]
    omega
  rw [hs, BI.bigSep_insert (by simp)]
  rfl

omit m d L in
/-- All trips but `k + 1`: trip `k`, and all trips but those two. -/
theorem bigSep_ne_pred (Φ : Fin 8 → sProp 𝕄) (k : ℕ) (hk : k < 7) :
    bigSep (Finset.univ.filter fun t : Fin 8 => t.val ≠ k + 1) Φ
      = iprop(Φ ⟨k, by omega⟩ ∗ bigSep (Finset.univ.filter fun t : Fin 8 => t.val ≠ k ∧ t.val ≠ k + 1) Φ) := by
  have hs : (Finset.univ.filter fun t : Fin 8 => t.val ≠ k + 1)
      = insert (⟨k, by omega⟩ : Fin 8) (Finset.univ.filter fun t : Fin 8 => t.val ≠ k ∧ t.val ≠ k + 1) := by
    ext t
    simp only [Finset.mem_filter, Finset.mem_univ, true_and, Finset.mem_insert, Fin.ext_iff]
    omega
  rw [hs, BI.bigSep_insert (by simp)]
  rfl

omit m d L in
/-- The trips from `k` on: trip `k`, and the trips from `k + 1` on. -/
theorem bigSep_ge_succ (Φ : Fin 8 → sProp 𝕄) (k : ℕ) (hk : k < 8) :
    bigSep (Finset.univ.filter fun t : Fin 8 => k ≤ t.val) Φ
      = iprop(Φ ⟨k, hk⟩ ∗ bigSep (Finset.univ.filter fun t : Fin 8 => k + 1 ≤ t.val) Φ) := by
  have hs : (Finset.univ.filter fun t : Fin 8 => k ≤ t.val)
      = insert (⟨k, hk⟩ : Fin 8) (Finset.univ.filter fun t : Fin 8 => k + 1 ≤ t.val) := by
    ext t
    simp only [Finset.mem_filter, Finset.mem_univ, true_and, Finset.mem_insert, Fin.ext_iff]
    omega
  rw [hs, BI.bigSep_insert (by simp)]
  rfl

omit m d L in
/-- The trips up to `k`: trip `k`, and the trips before it. -/
theorem bigSep_lt_succ (Φ : Fin 8 → sProp 𝕄) (k : ℕ) (hk : k < 8) :
    bigSep (Finset.univ.filter fun t : Fin 8 => t.val < k + 1) Φ
      = iprop(Φ ⟨k, hk⟩ ∗ bigSep (Finset.univ.filter fun t : Fin 8 => t.val < k) Φ) := by
  have hs : (Finset.univ.filter fun t : Fin 8 => t.val < k + 1)
      = insert (⟨k, hk⟩ : Fin 8) (Finset.univ.filter fun t : Fin 8 => t.val < k) := by
    ext t
    simp only [Finset.mem_filter, Finset.mem_univ, true_and, Finset.mem_insert, Fin.ext_iff]
    omega
  rw [hs, BI.bigSep_insert (by simp)]
  rfl

end Trips

/-! ## The trips, with one named -/

omit m d L in
/-- The whole family with trip `k` named is the whole family with trip `k'` named. -/
theorem at_swap (Φ : Fin 8 → sProp 𝕄) (k k' : Fin 8) :
    (iprop(Φ k ∗ bigSep (Finset.univ.erase k) Φ) : sProp 𝕄) = iprop(Φ k' ∗ bigSep (Finset.univ.erase k') Φ) :=
  (bigSep_univ_at Φ k).symm.trans (bigSep_univ_at Φ k')

section Chunks
variable [FloatOps F]

/-- The result's chunks by trip, the trips before `k` written and the others not: trip `k`'s chunks, not yet written, and
    the rest. -/
theorem chunks_at (k : ℕ) (hk : k < 8) :
    (bigSep Finset.univ fun t : Fin 8 => bigSep Finset.univ fun j : Fin 10 =>
        oRowPts d (ck (wL L) t j) (if t.val < k then rows0 m d else m (oLoc d)) : sProp 𝕄)
      = iprop((bigSep Finset.univ fun j : Fin 10 => oRowPts d (ck (wL L) ⟨k, hk⟩ j) (m (oLoc d)))
          ∗ bigSep (Finset.univ.erase (⟨k, hk⟩ : Fin 8)) fun t : Fin 8 => bigSep Finset.univ fun j : Fin 10 =>
              oRowPts d (ck (wL L) t j) (if t.val < k then rows0 m d else m (oLoc d))) := by
  rw [bigSep_univ_at (fun t : Fin 8 => bigSep Finset.univ fun j : Fin 10 =>
    oRowPts d (ck (wL L) t j) (if t.val < k then rows0 m d else m (oLoc d))) (⟨k, hk⟩ : Fin 8)]
  dsimp only
  rw [if_neg (Nat.lt_irrefl k)]

/-- The same with the trips before `k + 1` written: trip `k`'s chunks, written, and the same rest. -/
theorem chunks_at_succ (k : ℕ) (hk : k < 8) :
    (bigSep Finset.univ fun t : Fin 8 => bigSep Finset.univ fun j : Fin 10 =>
        oRowPts d (ck (wL L) t j) (if t.val < k + 1 then rows0 m d else m (oLoc d)) : sProp 𝕄)
      = iprop((bigSep Finset.univ fun j : Fin 10 => oRowPts d (ck (wL L) ⟨k, hk⟩ j) (rows0 m d))
          ∗ bigSep (Finset.univ.erase (⟨k, hk⟩ : Fin 8)) fun t : Fin 8 => bigSep Finset.univ fun j : Fin 10 =>
              oRowPts d (ck (wL L) t j) (if t.val < k then rows0 m d else m (oLoc d))) := by
  rw [bigSep_univ_at (fun t : Fin 8 => bigSep Finset.univ fun j : Fin 10 =>
    oRowPts d (ck (wL L) t j) (if t.val < k + 1 then rows0 m d else m (oLoc d))) (⟨k, hk⟩ : Fin 8)]
  dsimp only
  rw [if_pos (Nat.lt_succ_self k)]
  refine congrArg (BI.sep _) (bigSep_congr fun t ht => ?_)
  have hne : t.val ≠ k := fun e => Finset.ne_of_mem_erase ht (Fin.ext e)
  by_cases hlt : t.val < k
  · rw [if_pos hlt, if_pos (by omega : t.val < k + 1)]
  · rw [if_neg hlt, if_neg (by omega : ¬ t.val < k + 1)]

end Chunks

/-! ## A buffer held whole is held at its memref's own elements -/

omit m in
/-- Any buffer of the subcore, held whole through its own memref. -/
theorem whole_own (b : Ref sig .scVector) (q : PosShare TreeShare) (f : Buf (Elt F) ((Memref.whole b).view.loc (V d (cV L) (jV L)))) :
    ((Memref.whole b).view.loc (V d (cV L) (jV L)) ↦{q} f : sProp 𝕄)
      = ((Memref.whole b).view.loc (V d (cV L) (jV L)) ↦[(Memref.whole b).view.set]{q} f) := by
  rw [show (Memref.whole b).view.set = Finset.univ from View.set_whole b]

omit m d L in
/-- The window at offset `[0, 0]` of the table's full size is every element of the table. -/
theorem set_xSl : (xSl).view.set = Finset.univ := by
  show ((View.whole (main_arg1_scv : Ref sig .scVector)).slice _).set = _
  rw [View.set_slice_whole]
  refine Finset.eq_univ_of_forall fun i => Rect.mem_set_unit.mpr fun a =>
    ⟨?_, Nat.lt_of_lt_of_le (i a).isLt (Nat.le_add_left _ _)⟩
  match a with
  | ⟨0, _⟩ => exact Nat.zero_le _
  | ⟨1, _⟩ => exact Nat.zero_le _

omit m in
/-- The table held at a share is held, at that share, at the elements every transfer addresses. -/
theorem xSl_own (q : PosShare TreeShare) (f : Buf (Elt F) ((xV).view.loc (V d (cV L) (jV L)))) :
    ((xV).view.loc (V d (cV L) (jV L)) ↦{q} f : sProp 𝕄) = ((xV).view.loc (V d (cV L) (jV L)) ↦[(xSl).view.set]{q} f) := by
  rw [set_xSl]

/-! ## The index scratch, cut into its eighty windows -/

/-- Eighty divides the scratch's length. -/
theorem ldiv : 80 ∣ S6400.size 0 := ⟨80, rfl⟩
/-- Part `g` of the scratch: its words `80 g … 80 g + 79`. -/
abbrev lpart (g : Fin 80) : Rect S6400 := Rect.part (s := S6400) (a₀ := 0) ldiv g

/-- `(t, j) ↦ 10 t + j`: the windows of trip `t` are parts `10 t … 10 t + 9`. -/
def gE : Fin 8 × Fin 10 ≃ Fin 80 where
  toFun p := ⟨10 * p.1.val + p.2.val, by omega⟩
  invFun g := (⟨g.val / 10, by omega⟩, ⟨g.val % 10, by omega⟩)
  left_inv p := by
    rcases p with ⟨t, j⟩
    refine Prod.ext (Fin.ext ?_) (Fin.ext ?_) <;> simp only <;> omega
  right_inv g := Fin.ext (by simp only; omega)

omit m d L in
/-- The window from word `80 g` on is part `g`. -/
theorem lwin_eq (g : Fin 80) (n : ℕ) (hn : n = 80 * g.val) (h : n + 80 ≤ 6400) :
    Rect.unit (s := S6400) ![n] S80.size (lSl_inb n h) = lpart g := by
  subst hn
  unfold lpart Rect.part Rect.block
  congr 1 <;> funext a
  · match a with
    | 0 =>
      simp [Shape.partIx, Shape.partSize]
      omega
  · match a with
    | 0 => simp [Shape.partSize]

omit m d L in
/-- The elements of window `(t, j)` are those of part `10 t + j`. -/
theorem set_lSl (t : Fin 8) (j : Fin 10) (h : 800 * t.val + 80 * j.val + 80 ≤ 6400) :
    (lSl (800 * t.val + 80 * j.val) h).view.set = (lpart (gE (t, j))).set := by
  unfold lSl
  show ((View.whole (cc0_scratch0 : Ref sig .scVector)).slice _).set = _
  rw [View.set_slice_whole, lwin_eq (gE (t, j)) (800 * t.val + 80 * j.val) (by simp only [gE, Equiv.coe_fn_mk]; omega) h]

omit m d L in
/-- Window `(t, j)` lies inside the scratch. -/
theorem win_inb (t : Fin 8) (j : Fin 10) : 800 * t.val + 80 * j.val + 80 ≤ 6400 := by omega

omit m in
/-- The index scratch held whole is its eighty windows held, at the same contents. -/
theorem lst_windows (f : Buf (Elt F) ((lV).view.loc (V d (cV L) (jV L)))) :
    ((lV).view.loc (V d (cV L) (jV L)) ↦{fullShare} f : sProp 𝕄)
      = bigSep Finset.univ fun t : Fin 8 => bigSep Finset.univ fun j : Fin 10 =>
          (lV).view.loc (V d (cV L) (jV L)) ↦[(lSl (800 * t.val + 80 * j.val) (win_inb t j)).view.set]{fullShare} f := by
  have h1 : ((lV).view.loc (V d (cV L) (jV L)) ↦{fullShare} f : sProp 𝕄)
      = bigSep Finset.univ fun g : Fin 80 => (lV).view.loc (V d (cV L) (jV L)) ↦[(lpart g).set]{fullShare} f := by
    rw [← pointsTo_biUnion Finset.univ (ℓ := (lV).view.loc (V d (cV L) (jV L))) (fun g : Fin 80 => (lpart g).set)
      (fun i _ j _ hij => Rect.part_disjoint ldiv hij), Rect.biUnion_part ldiv]
  rw [h1, bigSep_univ_equiv gE, bigSep_univ_prod]
  refine bigSep_congr fun t _ => bigSep_congr fun j _ => ?_
  rw [set_lSl]

/-! ## What a gather lands -/

section Value

omit m d L in
/-- On a one-axis shape the index at row-major position `k` has coordinate `k`. -/
theorem rowMajor_symm_val (k : Fin S80.numel) : ((S80.rowMajor.symm k) 0).val = k.val := by
  have h := Shape.rowMajor_val_one (S80.rowMajor.symm k)
  rw [Equiv.apply_symm_apply] at h
  exact h.symm

/-- Word `x` of the window from word `n` on is word `n + x` of the scratch. -/
theorem read_lSl (n : ℕ) (h : n + 80 ≤ 6400) (x : S80.Idx) :
    (lSl n h).view.read (Elt F) (lst0 m d L) x
      = lst0 m d L (ix1 (n := 6400) ⟨n + (x 0).val, by have h80 : (x 0).val < 80 := (x 0).isLt; omega⟩) := by
  unfold lSl
  refine ((View.read_apply _ _).trans (cast_eq _ _)).trans (congrArg (lst0 m d L) (funext fun a => Fin.ext ?_))
  match a with
  | ⟨0, _⟩ =>
    show n + 1 * (x 0).val = n + (x 0).val
    omega

/-- Word `i` of the worker's scratch is word `6400 w + i` of the flattened list. -/
theorem lst0_apply (i : Fin 6400) :
    lst0 m d L (ix1 (n := 6400) i) = ids0 m d (ix1 (n := 204800) ⟨6400 * (wL L).val + i.val, by have := (wL L).isLt; omega⟩) := by
  unfold lst0
  refine ((View.read_apply _ _).trans (cast_eq _ _)).trans (congrArg (ids0 m d) (funext fun a => Fin.ext ?_))
  match a with
  | ⟨0, _⟩ =>
    show (k0_off1 L) 0 + 1 * i.val = 6400 * (2 * (L 1).val + (L 0).val) + i.val
    rw [k0_off1_eq]
    show 12800 * (L 1).val + 6400 * (L 0).val + 1 * i.val = _
    omega

/-- THE GATHER AT `(y₀, y₁)`: entry `y₁` of the table row whose number is word `n + y₀` of the scratch. -/
theorem gather_apply (hpre : PreOK m) (n : ℕ) (h : n + 80 ≤ 6400)
    (hn : S80.numel = S80x128.size gathers_S1000000x128_S80x128.axis')
    (hin : ∀ x, ((lSl n h).view.read (Elt F) (lst0 m d L) x).toNat < S1000000x128.size gathers_S1000000x128_S80x128.axis)
    (y : S80x128.Idx) :
    SparseCore.gatherPayload gathers_S1000000x128_S80x128 ((xSl).view.read (Elt F) (m (xLoc d)))
        (SparseCore.rows ((lSl n h).view.read (Elt F) (lst0 m d L)) hn hin) y
      = m (xLoc d) (ix2 (n0 := 1000000) (n1 := 128)
          ⟨(lst0 m d L (ix1 (n := 6400) ⟨n + (y 0).val, by have h80 : (y 0).val < 80 := (y 0).isLt; omega⟩)).toNat,
            lst0_lt m d L hpre _⟩ (y 1)) := by
  unfold SparseCore.gatherPayload
  refine ((View.read_apply _ _).trans (cast_eq _ _)).trans (congrArg (m (xLoc d)) (funext fun a => Fin.ext ?_))
  match a with
  | ⟨0, _⟩ =>
    have e1 := congrArg Fin.val (Shape.Gathers.idx_axis gathers_S1000000x128_S80x128
      (SparseCore.rows ((lSl n h).view.read (Elt F) (lst0 m d L)) hn hin) y)
    have e2 : ((S80.rowMajor.symm ((y gathers_S1000000x128_S80x128.axis').cast hn.symm)) 0).val = (y 0).val :=
      rowMajor_symm_val _
    show 0 + 1 * (gathers_S1000000x128_S80x128.idx (SparseCore.rows ((lSl n h).view.read (Elt F) (lst0 m d L)) hn hin) y
      gathers_S1000000x128_S80x128.axis).val = _
    rw [Nat.zero_add, Nat.one_mul, e1]
    show ((lSl n h).view.read (Elt F) (lst0 m d L) (S80.rowMajor.symm ((y gathers_S1000000x128_S80x128.axis').cast hn.symm))).toNat = _
    rw [read_lSl]
    exact congrArg (fun z : Fin 6400 => (lst0 m d L (ix1 (n := 6400) z)).toNat) (Fin.ext (by show n + _ = n + _; rw [e2]))
  | ⟨1, _⟩ =>
    have e3 := Shape.Gathers.idx_of_ne gathers_S1000000x128_S80x128
      (SparseCore.rows ((lSl n h).view.read (Elt F) (lst0 m d L)) hn hin) y ⟨1, by decide⟩ (by decide)
    show 0 + 1 * (gathers_S1000000x128_S80x128.idx (SparseCore.rows ((lSl n h).view.read (Elt F) (lst0 m d L)) hn hin) y
      ⟨1, by decide⟩).val = (y 1).val
    rw [Nat.zero_add, Nat.one_mul, e3]
    rfl

/-- A word below `1000000` names the row of its own number. -/
theorem rowOfWord_of_lt {w : BitVec 32} (h : w.toNat < 1000000) : Cert.Lookup.rowOfWord w = ⟨w.toNat, h⟩ :=
  Fin.ext (Cert.Lookup.rowOfWord_val_of_lt h)

/-- The specification's rows at row `6400 w + i`, entry `c`: the table row named by word `i` of the worker's scratch. -/
theorem rows0_apply (hpre : PreOK m) (i : Fin 6400) (c : Fin 128) :
    rows0 m d (ix2 (n0 := 204800) (n1 := 128) ⟨6400 * (wL L).val + i.val, by have := (wL L).isLt; omega⟩ c)
      = m (xLoc d) (ix2 (n0 := 1000000) (n1 := 128) ⟨(lst0 m d L (ix1 (n := 6400) i)).toNat, lst0_lt m d L hpre _⟩ c) := by
  unfold rows0
  show m (xLoc d) (ix2 (Cert.Lookup.rowOfWord (ids0 m d (ix1 (n := 204800) ⟨6400 * (wL L).val + i.val, _⟩))) c) = _
  rw [← lst0_apply m d L i, rowOfWord_of_lt (lst0_lt m d L hpre _)]

/-- THE GATHER, AS THE SPECIFICATION'S ROWS: through the window from word `n` on, entry `(y₀, y₁)` landed is entry `y₁`
    of result row `6400 w + n + y₀`. -/
theorem gather_rows0 (hpre : PreOK m) (n : ℕ) (h : n + 80 ≤ 6400)
    (hn : S80.numel = S80x128.size gathers_S1000000x128_S80x128.axis')
    (hin : ∀ x, ((lSl n h).view.read (Elt F) (lst0 m d L) x).toNat < S1000000x128.size gathers_S1000000x128_S80x128.axis)
    (y : S80x128.Idx) :
    SparseCore.gatherPayload gathers_S1000000x128_S80x128 ((xSl).view.read (Elt F) (m (xLoc d)))
        (SparseCore.rows ((lSl n h).view.read (Elt F) (lst0 m d L)) hn hin) y
      = rows0 m d (ix2 (n0 := 204800) (n1 := 128)
          ⟨6400 * (wL L).val + n + (y 0).val, by have := (wL L).isLt; have h80 : (y 0).val < 80 := (y 0).isLt; omega⟩ (y 1)) := by
  have h80 : (y 0).val < 80 := (y 0).isLt
  rw [gather_apply m d L hpre n h hn hin y]
  have e := rows0_apply m d L hpre ⟨n + (y 0).val, by omega⟩ (y 1)
  refine Eq.trans ?_ (Eq.trans e.symm ?_)
  · rfl
  · exact congrArg (fun z : Fin 204800 => rows0 m d (ix2 (n0 := 204800) (n1 := 128) z (y 1))) (Fin.ext (by show _ + (n + _) = _ + n + _; omega))

end Value

/-! ## A chunk of the result -/

section Chunk

omit m d in
/-- Entry `(y₀, y₁)` of chunk `(t, j)` is entry `y₁` of result row `6400 w + 800 t + 80 j + y₀`. -/
theorem emb_oChK (t : Fin k0_t1_loop.trips) (j : Fin 10) (y : S80x128.Idx) :
    (oChK L t j).view.emb y
      = ix2 (n0 := 204800) (n1 := 128)
          ⟨6400 * (wL L).val + 800 * t.val + 80 * j.val + (y 0).val, by
            have ht : t.val < 8 := Nat.lt_of_lt_of_eq t.isLt trips_eq
            have := (wL L).isLt; have h80 : (y 0).val < 80 := (y 0).isLt; omega⟩ (y 1) := by
  funext a
  refine Fin.ext ?_
  match a with
  | ⟨0, _⟩ =>
    show (k0_off2 L t (BitVec.ofNat 32 j.val)) 0 + 1 * (y 0).val = 6400 * (2 * (L 1).val + (L 0).val) + 800 * t.val + 80 * j.val + (y 0).val
    rw [k0_off2_eq]
    show 12800 * (L 1).val + 6400 * (L 0).val + 800 * t.val + 80 * j.val + 1 * (y 0).val = _
    omega
  | ⟨1, _⟩ =>
    show (k0_off2 L t (BitVec.ofNat 32 j.val)) 1 + 1 * (y 1).val = (y 1).val
    rw [k0_off2_eq]
    show 0 + 1 * (y 1).val = _
    omega

omit m in
/-- Contents that agree with the specification's rows at every entry of chunk `(t, j)` agree with them on the chunk's
    elements. -/
theorem chunk_congr (t : Fin 8) (j : Fin 10) (g g' : Buf (Elt F) (oLoc d))
    (hg : ∀ y : S80x128.Idx, g ((oChK L (Fin.cast trips_eq.symm t) j).view.emb y) = g' ((oChK L (Fin.cast trips_eq.symm t) j).view.emb y)) :
    ∀ x ∈ oRowSet (ck (wL L) t j), g x = g' x := by
  intro x hx
  have hs := set_oChK L (Fin.cast trips_eq.symm t) j
  rw [show Fin.cast trips_eq (Fin.cast trips_eq.symm t) = t from Fin.ext rfl] at hs
  rw [← hs] at hx
  obtain ⟨y, -, rfl⟩ := Finset.mem_map.mp hx
  exact hg y

end Chunk

/-! ## Held through a window is held through the buffer -/

omit m in
/-- A window of the index scratch names elements of the scratch: held through the window or through the scratch, at the
    window's elements, is the same. -/
theorem lSl_own (n : ℕ) (h : n + 80 ≤ 6400) (q : PosShare TreeShare) (f : Buf (Elt F) ((lV).view.loc (V d (cV L) (jV L)))) :
    ((lSl n h).view.loc (V d (cV L) (jV L)) ↦[(lSl n h).view.set]{q} f : sProp 𝕄)
      = ((lV).view.loc (V d (cV L) (jV L)) ↦[(lSl n h).view.set]{q} f) := rfl

omit m in
/-- The table held through the window every transfer addresses, at the window's elements, is the table held. -/
theorem xSl_whole (q : PosShare TreeShare) (f : Buf (Elt F) ((xV).view.loc (V d (cV L) (jV L)))) :
    ((xSl).view.loc (V d (cV L) (jV L)) ↦[(xSl).view.set]{q} f : sProp 𝕄) = ((xV).view.loc (V d (cV L) (jV L)) ↦{q} f) := by
  rw [set_xSl]

/-! ## What a whole-buffer write leaves, and what a chunk's write-out leaves -/

omit m d L in
/-- A buffer written whole holds the payload. -/
theorem writes_whole_apply (b : Ref sig .scVector) (g : (View.whole b).ty.Contents (Elt F))
    (p : b.ty.shape.Idx → Elt F b.ty.elt) (y : b.ty.shape.Idx) :
    (Memref.whole b).view.writes (Elt F) g [⟨Rect.whole b.ty.shape, p⟩] y = p y := by
  rw [View.writes_singleton]
  have e : (((Memref.whole b).view).slice (Rect.whole b.ty.shape)).emb y = y := by
    funext a; exact Fin.ext (by simp)
  calc ((Memref.whole b).view.slice (Rect.whole b.ty.shape)).write (Elt F) g p Finset.univ y
      = ((Memref.whole b).view.slice (Rect.whole b.ty.shape)).write (Elt F) g p Finset.univ
          ((((Memref.whole b).view).slice (Rect.whole b.ty.shape)).emb y) := by rw [e]
    _ = _root_.cast _ (p y) := View.write_emb_of_mem _ _ (Finset.mem_univ y)
    _ = p y := cast_eq _ _

/-- CHUNK `(t, j)` WRITTEN OUT: if the payload at `(y₀, y₁)` is entry `y₁` of the specification's row
    `6400 w + (800 t + 80 j) + y₀`, the result written with it through the chunk agrees with the specification's rows on
    the chunk's elements. -/
theorem chunk_written (t : Fin k0_t1_loop.trips) (j : Fin 10) (c0 : Buf (Elt F) (oLoc d)) (pay : S80x128.Idx → Elt F .f32)
    (hp : ∀ y : S80x128.Idx, pay y = rows0 m d (ix2 (n0 := 204800) (n1 := 128)
      ⟨6400 * (wL L).val + (800 * t.val + 80 * j.val) + (y 0).val, by
        have ht : t.val < 8 := Nat.lt_of_lt_of_eq t.isLt trips_eq
        have := (wL L).isLt; have h80 : (y 0).val < 80 := (y 0).isLt; omega⟩ (y 1))) :
    ∀ x ∈ oRowSet (ck (wL L) (Fin.cast trips_eq t) j),
      (oChK L t j).view.writes (Elt F) c0 [⟨Rect.whole S80x128, pay⟩] x = rows0 m d x := by
  intro x hx
  rw [← set_oChK L t j] at hx
  obtain ⟨y, -, rfl⟩ := Finset.mem_map.mp hx
  rw [View.writes_singleton]
  have e : ((oChK L t j).view.slice (Rect.whole S80x128)).emb y = (oChK L t j).view.emb y := by
    show (oChK L t j).view.emb ((Rect.whole S80x128).emb y) = _
    rw [Rect.emb_whole_apply]
  calc ((oChK L t j).view.slice (Rect.whole S80x128)).write (Elt F) c0 pay Finset.univ ((oChK L t j).view.emb y)
      = ((oChK L t j).view.slice (Rect.whole S80x128)).write (Elt F) c0 pay Finset.univ
          (((oChK L t j).view.slice (Rect.whole S80x128)).emb y) := by rw [e]
    _ = _root_.cast _ (pay y) := View.write_emb_of_mem _ _ (Finset.mem_univ y)
    _ = pay y := cast_eq _ _
    _ = _ := hp y
    _ = rows0 m d ((oChK L t j).view.emb y) := by
      rw [emb_oChK L t j y]
      exact congrArg (fun z : Fin 204800 => rows0 m d (ix2 (n0 := 204800) (n1 := 128) z (y 1))) (Fin.ext (by show _ + (_ + _) + _ = _ + _ + _ + _; omega))

/-- The trips' ends: before trip `0` no chunk is written, after trip `7` all are. -/
theorem chunks_zero [FloatOps F] :
    (bigSep Finset.univ fun t : Fin 8 => bigSep Finset.univ fun j : Fin 10 =>
        oRowPts d (ck (wL L) t j) (if t.val < 0 then rows0 m d else m (oLoc d)) : sProp 𝕄)
      = bigSep Finset.univ fun t : Fin 8 => bigSep Finset.univ fun j : Fin 10 => oRowPts d (ck (wL L) t j) (m (oLoc d)) :=
  bigSep_congr fun t _ => by rw [if_neg (Nat.not_lt_zero _)]
theorem chunks_eight [FloatOps F] :
    (bigSep Finset.univ fun t : Fin 8 => bigSep Finset.univ fun j : Fin 10 =>
        oRowPts d (ck (wL L) t j) (if t.val < 8 then rows0 m d else m (oLoc d)) : sProp 𝕄)
      = bigSep Finset.univ fun t : Fin 8 => bigSep Finset.univ fun j : Fin 10 => oRowPts d (ck (wL L) t j) (rows0 m d) :=
  bigSep_congr fun t _ => by rw [if_pos t.isLt]

end Cert.Proof.KernelIdealAux

end
-- ==== Proof.KIInv.lean ====
/-
  The loop's invariant for one worker's task: what is in flight and what is held before each trip, and after the last.
-/
import proofs.«206832_g86208583565466_cont_sun_m_1057_30_alg».proof.Proof.KITile
import proofs.«206832_g86208583565466_cont_sun_m_1057_30_alg».proof.Proof.KIAux

noncomputable section

namespace Cert.Proof.KernelIdealBody

open Cert.KernelIdeal Cert.KernelIdeal.Gen Cert.Proof.KernelIdealCommon Cert.Proof.KernelIdealTile Cert.Proof.KernelIdealAux

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg1_scv : Memref Cert.KernelIdeal.sig Kind.scVector Space.hbm Cert.KernelIdeal.S1000000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v1_scv : Memref Cert.KernelIdeal.sig Kind.scVector Space.hbm Cert.KernelIdeal.S204800x128 EltTy.f32)
local notation "lV" => (Memref.whole Cert.KernelIdeal.cc0_scratch0 : Memref Cert.KernelIdeal.sig Kind.scVector Space.vmem Cert.KernelIdeal.S6400 EltTy.i32)
local notation "b0V" => (Memref.whole Cert.KernelIdeal.cc0_scratch1 : Memref Cert.KernelIdeal.sig Kind.scVector Space.vmem Cert.KernelIdeal.S80x128 EltTy.f32)
local notation "b1V" => (Memref.whole Cert.KernelIdeal.cc0_scratch2 : Memref Cert.KernelIdeal.sig Kind.scVector Space.vmem Cert.KernelIdeal.S80x128 EltTy.f32)
local notation "b2V" => (Memref.whole Cert.KernelIdeal.cc0_scratch3 : Memref Cert.KernelIdeal.sig Kind.scVector Space.vmem Cert.KernelIdeal.S80x128 EltTy.f32)
local notation "b3V" => (Memref.whole Cert.KernelIdeal.cc0_scratch4 : Memref Cert.KernelIdeal.sig Kind.scVector Space.vmem Cert.KernelIdeal.S80x128 EltTy.f32)
local notation "b4V" => (Memref.whole Cert.KernelIdeal.cc0_scratch5 : Memref Cert.KernelIdeal.sig Kind.scVector Space.vmem Cert.KernelIdeal.S80x128 EltTy.f32)
local notation "b5V" => (Memref.whole Cert.KernelIdeal.cc0_scratch6 : Memref Cert.KernelIdeal.sig Kind.scVector Space.vmem Cert.KernelIdeal.S80x128 EltTy.f32)
local notation "b6V" => (Memref.whole Cert.KernelIdeal.cc0_scratch7 : Memref Cert.KernelIdeal.sig Kind.scVector Space.vmem Cert.KernelIdeal.S80x128 EltTy.f32)
local notation "b7V" => (Memref.whole Cert.KernelIdeal.cc0_scratch8 : Memref Cert.KernelIdeal.sig Kind.scVector Space.vmem Cert.KernelIdeal.S80x128 EltTy.f32)
local notation "b8V" => (Memref.whole Cert.KernelIdeal.cc0_scratch9 : Memref Cert.KernelIdeal.sig Kind.scVector Space.vmem Cert.KernelIdeal.S80x128 EltTy.f32)
local notation "b9V" => (Memref.whole Cert.KernelIdeal.cc0_scratch10 : Memref Cert.KernelIdeal.sig Kind.scVector Space.vmem Cert.KernelIdeal.S80x128 EltTy.f32)
local notation "thr" => (V d (cV L) (jV L))

/-! ## The pieces of the loop's invariant -/

/-- The eighty words of the index scratch from word `n` on, held. -/
def lWinPts (n : ℕ) (h : n + 80 ≤ 6400) : sProp 𝕄 := (lSl n h).view.loc thr ↦[(lSl n h).view.set]{fullShare} lst0 m d L
theorem lWinPts_congr (n n' : ℕ) (h : n + 80 ≤ 6400) (h' : n' + 80 ≤ 6400) (e : n = n') : lWinPts m d L n h = lWinPts m d L n' h' := by
  subst e; rfl
/-- Row `t` of the index scratch: its ten windows. -/
def lRow (t : Fin 8) : sProp 𝕄 := bigSep Finset.univ fun j : Fin 10 => lWinPts m d L (800 * t.val + 80 * j.val) (win_inb t j)

/-- What a row buffer holds once the gather named by the list words from `n` on has landed: its row `y` is row
    `6400 w + n + y` of the looked-up rows. -/
def gOK (n : ℕ) (h : n + 80 ≤ 6400) (g : S80x128.Idx → Elt F .f32) : Prop :=
  ∀ y : S80x128.Idx, g y = rows0 m d (ix2 (n0 := 204800) (n1 := 128) ⟨6400 * (wL L).val + n + (y 0).val, by have := (wL L).isLt; have h80 : (y 0).val < 80 := (y 0).isLt; omega⟩ (y 1))
theorem gOK_congr (n n' : ℕ) (h : n + 80 ≤ 6400) (h' : n' + 80 ≤ 6400) (g : S80x128.Idx → Elt F .f32) (e : n = n') (hg : gOK m d L n h g) : gOK m d L n' h' g := by
  subst e; exact hg

/-- A gather in flight on semaphore `s` into row buffer `r` (buffer number `j`): it carries the buffer (at what will
    have landed, `g`), the eighty list words from `n` on that name the rows, and buffer `j`'s share of the table. -/
def gFl (s : DmaSem sig) (r : Ref sig .scVector) (j : Fin 10) (n : ℕ) (h : n + 80 ≤ 6400) (g : Buf (Elt F) ((V d (cV L) (jV L)).loc r)) : sProp 𝕄 :=
  Transfers.Flight countersEmb thr (SemLoc.dma s) (default : HIx 1) 327680
    iprop((((Memref.whole r).view.loc thr ↦[(Memref.whole r).view.set]{fullShare} g)
        ∗ (lSl n h).view.loc thr ↦[(lSl n h).view.set]{fullShare} lst0 m d L)
      ∗ (xSl).view.loc thr ↦[(xSl).view.set]{xq (wL L) j} m (xLoc d))
theorem gFl_congr (s : DmaSem sig) (r : Ref sig .scVector) (j : Fin 10) (n n' : ℕ) (h : n + 80 ≤ 6400) (h' : n' + 80 ≤ 6400)
    (g : Buf (Elt F) ((V d (cV L) (jV L)).loc r)) (e : n = n') : gFl m d L s r j n h g = gFl m d L s r j n' h' g := by
  subst e; rfl

/-- A write-out in flight on semaphore `s`: it carries the result chunk `M` (at what will have landed, `c`) and the row
    buffer `r` it reads. -/
def wFl (s : DmaSem sig) (r : Ref sig .scVector) (M : Memref sig .scVector .hbm S80x128 .f32) (c : Buf (Elt F) (M.view.loc (V d (cV L) (jV L)))) (g : Buf (Elt F) ((V d (cV L) (jV L)).loc r)) : sProp 𝕄 :=
  Transfers.Flight countersEmb thr (SemLoc.dma s) (default : HIx 1) 327680
    iprop((M.view.loc thr ↦[M.view.set]{fullShare} c)
      ∗ (Memref.whole r).view.loc thr ↦[(Memref.whole r).view.set]{fullShare} g)

theorem pts_oCh0 (t : Fin k0_t1_loop.trips) (ht : t.val < 8) (f : Buf (Elt F) (oLoc d)) :
    ((((oV).slice (Rect.unit (s := S204800x128) (k0_off2 L t 0#32) S80x128.size (k0_off2_inb L t 0)) (fun _ => rfl)).view.loc thr
        ↦[((oV).slice (Rect.unit (s := S204800x128) (k0_off2 L t 0#32) S80x128.size (k0_off2_inb L t 0)) (fun _ => rfl)).view.set]{fullShare} f : sProp 𝕄)
      = oRowPts d (ck (wL L) (⟨t.val, ht⟩ : Fin 8) 0) f) := by
  rw [show ((oV).slice (Rect.unit (s := S204800x128) (k0_off2 L t 0#32) S80x128.size (k0_off2_inb L t 0)) (fun _ => rfl)).view.set = oRowSet (ck (wL L) (⟨t.val, ht⟩ : Fin 8) 0) from set_oChK L t 0]
theorem pts_oCh1 (t : Fin k0_t1_loop.trips) (ht : t.val < 8) (f : Buf (Elt F) (oLoc d)) :
    ((((oV).slice (Rect.unit (s := S204800x128) (k0_off2 L t 1#32) S80x128.size (k0_off2_inb L t 1)) (fun _ => rfl)).view.loc thr
        ↦[((oV).slice (Rect.unit (s := S204800x128) (k0_off2 L t 1#32) S80x128.size (k0_off2_inb L t 1)) (fun _ => rfl)).view.set]{fullShare} f : sProp 𝕄)
      = oRowPts d (ck (wL L) (⟨t.val, ht⟩ : Fin 8) 1) f) := by
  rw [show ((oV).slice (Rect.unit (s := S204800x128) (k0_off2 L t 1#32) S80x128.size (k0_off2_inb L t 1)) (fun _ => rfl)).view.set = oRowSet (ck (wL L) (⟨t.val, ht⟩ : Fin 8) 1) from set_oChK L t 1]
theorem pts_oCh2 (t : Fin k0_t1_loop.trips) (ht : t.val < 8) (f : Buf (Elt F) (oLoc d)) :
    ((((oV).slice (Rect.unit (s := S204800x128) (k0_off2 L t 2#32) S80x128.size (k0_off2_inb L t 2)) (fun _ => rfl)).view.loc thr
        ↦[((oV).slice (Rect.unit (s := S204800x128) (k0_off2 L t 2#32) S80x128.size (k0_off2_inb L t 2)) (fun _ => rfl)).view.set]{fullShare} f : sProp 𝕄)
      = oRowPts d (ck (wL L) (⟨t.val, ht⟩ : Fin 8) 2) f) := by
  rw [show ((oV).slice (Rect.unit (s := S204800x128) (k0_off2 L t 2#32) S80x128.size (k0_off2_inb L t 2)) (fun _ => rfl)).view.set = oRowSet (ck (wL L) (⟨t.val, ht⟩ : Fin 8) 2) from set_oChK L t 2]
theorem pts_oCh3 (t : Fin k0_t1_loop.trips) (ht : t.val < 8) (f : Buf (Elt F) (oLoc d)) :
    ((((oV).slice (Rect.unit (s := S204800x128) (k0_off2 L t 3#32) S80x128.size (k0_off2_inb L t 3)) (fun _ => rfl)).view.loc thr
        ↦[((oV).slice (Rect.unit (s := S204800x128) (k0_off2 L t 3#32) S80x128.size (k0_off2_inb L t 3)) (fun _ => rfl)).view.set]{fullShare} f : sProp 𝕄)
      = oRowPts d (ck (wL L) (⟨t.val, ht⟩ : Fin 8) 3) f) := by
  rw [show ((oV).slice (Rect.unit (s := S204800x128) (k0_off2 L t 3#32) S80x128.size (k0_off2_inb L t 3)) (fun _ => rfl)).view.set = oRowSet (ck (wL L) (⟨t.val, ht⟩ : Fin 8) 3) from set_oChK L t 3]
theorem pts_oCh4 (t : Fin k0_t1_loop.trips) (ht : t.val < 8) (f : Buf (Elt F) (oLoc d)) :
    ((((oV).slice (Rect.unit (s := S204800x128) (k0_off2 L t 4#32) S80x128.size (k0_off2_inb L t 4)) (fun _ => rfl)).view.loc thr
        ↦[((oV).slice (Rect.unit (s := S204800x128) (k0_off2 L t 4#32) S80x128.size (k0_off2_inb L t 4)) (fun _ => rfl)).view.set]{fullShare} f : sProp 𝕄)
      = oRowPts d (ck (wL L) (⟨t.val, ht⟩ : Fin 8) 4) f) := by
  rw [show ((oV).slice (Rect.unit (s := S204800x128) (k0_off2 L t 4#32) S80x128.size (k0_off2_inb L t 4)) (fun _ => rfl)).view.set = oRowSet (ck (wL L) (⟨t.val, ht⟩ : Fin 8) 4) from set_oChK L t 4]
theorem pts_oCh5 (t : Fin k0_t1_loop.trips) (ht : t.val < 8) (f : Buf (Elt F) (oLoc d)) :
    ((((oV).slice (Rect.unit (s := S204800x128) (k0_off2 L t 5#32) S80x128.size (k0_off2_inb L t 5)) (fun _ => rfl)).view.loc thr
        ↦[((oV).slice (Rect.unit (s := S204800x128) (k0_off2 L t 5#32) S80x128.size (k0_off2_inb L t 5)) (fun _ => rfl)).view.set]{fullShare} f : sProp 𝕄)
      = oRowPts d (ck (wL L) (⟨t.val, ht⟩ : Fin 8) 5) f) := by
  rw [show ((oV).slice (Rect.unit (s := S204800x128) (k0_off2 L t 5#32) S80x128.size (k0_off2_inb L t 5)) (fun _ => rfl)).view.set = oRowSet (ck (wL L) (⟨t.val, ht⟩ : Fin 8) 5) from set_oChK L t 5]
theorem pts_oCh6 (t : Fin k0_t1_loop.trips) (ht : t.val < 8) (f : Buf (Elt F) (oLoc d)) :
    ((((oV).slice (Rect.unit (s := S204800x128) (k0_off2 L t 6#32) S80x128.size (k0_off2_inb L t 6)) (fun _ => rfl)).view.loc thr
        ↦[((oV).slice (Rect.unit (s := S204800x128) (k0_off2 L t 6#32) S80x128.size (k0_off2_inb L t 6)) (fun _ => rfl)).view.set]{fullShare} f : sProp 𝕄)
      = oRowPts d (ck (wL L) (⟨t.val, ht⟩ : Fin 8) 6) f) := by
  rw [show ((oV).slice (Rect.unit (s := S204800x128) (k0_off2 L t 6#32) S80x128.size (k0_off2_inb L t 6)) (fun _ => rfl)).view.set = oRowSet (ck (wL L) (⟨t.val, ht⟩ : Fin 8) 6) from set_oChK L t 6]
theorem pts_oCh7 (t : Fin k0_t1_loop.trips) (ht : t.val < 8) (f : Buf (Elt F) (oLoc d)) :
    ((((oV).slice (Rect.unit (s := S204800x128) (k0_off2 L t 7#32) S80x128.size (k0_off2_inb L t 7)) (fun _ => rfl)).view.loc thr
        ↦[((oV).slice (Rect.unit (s := S204800x128) (k0_off2 L t 7#32) S80x128.size (k0_off2_inb L t 7)) (fun _ => rfl)).view.set]{fullShare} f : sProp 𝕄)
      = oRowPts d (ck (wL L) (⟨t.val, ht⟩ : Fin 8) 7) f) := by
  rw [show ((oV).slice (Rect.unit (s := S204800x128) (k0_off2 L t 7#32) S80x128.size (k0_off2_inb L t 7)) (fun _ => rfl)).view.set = oRowSet (ck (wL L) (⟨t.val, ht⟩ : Fin 8) 7) from set_oChK L t 7]
theorem pts_oCh8 (t : Fin k0_t1_loop.trips) (ht : t.val < 8) (f : Buf (Elt F) (oLoc d)) :
    ((((oV).slice (Rect.unit (s := S204800x128) (k0_off2 L t 8#32) S80x128.size (k0_off2_inb L t 8)) (fun _ => rfl)).view.loc thr
        ↦[((oV).slice (Rect.unit (s := S204800x128) (k0_off2 L t 8#32) S80x128.size (k0_off2_inb L t 8)) (fun _ => rfl)).view.set]{fullShare} f : sProp 𝕄)
      = oRowPts d (ck (wL L) (⟨t.val, ht⟩ : Fin 8) 8) f) := by
  rw [show ((oV).slice (Rect.unit (s := S204800x128) (k0_off2 L t 8#32) S80x128.size (k0_off2_inb L t 8)) (fun _ => rfl)).view.set = oRowSet (ck (wL L) (⟨t.val, ht⟩ : Fin 8) 8) from set_oChK L t 8]
theorem pts_oCh9 (t : Fin k0_t1_loop.trips) (ht : t.val < 8) (f : Buf (Elt F) (oLoc d)) :
    ((((oV).slice (Rect.unit (s := S204800x128) (k0_off2 L t 9#32) S80x128.size (k0_off2_inb L t 9)) (fun _ => rfl)).view.loc thr
        ↦[((oV).slice (Rect.unit (s := S204800x128) (k0_off2 L t 9#32) S80x128.size (k0_off2_inb L t 9)) (fun _ => rfl)).view.set]{fullShare} f : sProp 𝕄)
      = oRowPts d (ck (wL L) (⟨t.val, ht⟩ : Fin 8) 9) f) := by
  rw [show ((oV).slice (Rect.unit (s := S204800x128) (k0_off2 L t 9#32) S80x128.size (k0_off2_inb L t 9)) (fun _ => rfl)).view.set = oRowSet (ck (wL L) (⟨t.val, ht⟩ : Fin 8) 9) from set_oChK L t 9]

theorem cond1_of_lt (k : Fin k0_t1_loop.trips) (h : k.val < 7) : k0_cond1 k = 1#1 := by revert k; decide
theorem cond2_of_lt (k : Fin k0_t1_loop.trips) (h : k.val < 7) : k0_cond2 k = 1#1 := by revert k; decide
theorem cond3_of_lt (k : Fin k0_t1_loop.trips) (h : k.val < 7) : k0_cond3 k = 1#1 := by revert k; decide
theorem cond4_of_lt (k : Fin k0_t1_loop.trips) (h : k.val < 7) : k0_cond4 k = 1#1 := by revert k; decide
theorem cond5_of_lt (k : Fin k0_t1_loop.trips) (h : k.val < 7) : k0_cond5 k = 1#1 := by revert k; decide
theorem cond6_of_lt (k : Fin k0_t1_loop.trips) (h : k.val < 7) : k0_cond6 k = 1#1 := by revert k; decide
theorem cond7_of_lt (k : Fin k0_t1_loop.trips) (h : k.val < 7) : k0_cond7 k = 1#1 := by revert k; decide
theorem cond8_of_lt (k : Fin k0_t1_loop.trips) (h : k.val < 7) : k0_cond8 k = 1#1 := by revert k; decide
theorem cond9_of_lt (k : Fin k0_t1_loop.trips) (h : k.val < 7) : k0_cond9 k = 1#1 := by revert k; decide
theorem cond10_of_lt (k : Fin k0_t1_loop.trips) (h : k.val < 7) : k0_cond10 k = 1#1 := by revert k; decide
theorem cond1_of_eq (k : Fin k0_t1_loop.trips) (h : k.val = 7) : ¬ k0_cond1 k = 1#1 := by revert k; decide
theorem cond2_of_eq (k : Fin k0_t1_loop.trips) (h : k.val = 7) : ¬ k0_cond2 k = 1#1 := by revert k; decide
theorem cond3_of_eq (k : Fin k0_t1_loop.trips) (h : k.val = 7) : ¬ k0_cond3 k = 1#1 := by revert k; decide
theorem cond4_of_eq (k : Fin k0_t1_loop.trips) (h : k.val = 7) : ¬ k0_cond4 k = 1#1 := by revert k; decide
theorem cond5_of_eq (k : Fin k0_t1_loop.trips) (h : k.val = 7) : ¬ k0_cond5 k = 1#1 := by revert k; decide
theorem cond6_of_eq (k : Fin k0_t1_loop.trips) (h : k.val = 7) : ¬ k0_cond6 k = 1#1 := by revert k; decide
theorem cond7_of_eq (k : Fin k0_t1_loop.trips) (h : k.val = 7) : ¬ k0_cond7 k = 1#1 := by revert k; decide
theorem cond8_of_eq (k : Fin k0_t1_loop.trips) (h : k.val = 7) : ¬ k0_cond8 k = 1#1 := by revert k; decide
theorem cond9_of_eq (k : Fin k0_t1_loop.trips) (h : k.val = 7) : ¬ k0_cond9 k = 1#1 := by revert k; decide
theorem cond10_of_eq (k : Fin k0_t1_loop.trips) (h : k.val = 7) : ¬ k0_cond10 k = 1#1 := by revert k; decide

/-! ## The value lemmas at the program's spelling -/
theorem whole_write_apply (r : Ref sig .scVector) (g : r.ty.Contents (Elt F)) (p : r.ty.shape.Idx → Elt F r.ty.elt) (y : r.ty.shape.Idx) :
    (Memref.whole r).view.writes (Elt F) g [⟨Rect.whole r.ty.shape, p⟩] y = p y :=
  writes_whole_apply r g p y
theorem chunk_ok0 (t : Fin k0_t1_loop.trips) (ht : t.val < 8) (g : Buf (Elt F) ((V d (cV L) (jV L)).loc cc0_scratch1)) (hg : gOK m d L (800 * t.val + 0) (by omega) g) :
    ∀ x ∈ oRowSet (ck (wL L) (⟨t.val, ht⟩ : Fin 8) 0),
      (((oV).slice (Rect.unit (s := S204800x128) (k0_off2 L t 0#32) S80x128.size (k0_off2_inb L t 0)) (fun _ => rfl)).view.writes (Elt F) (m (oLoc d))
        [⟨Rect.whole (Rect.unit (s := S204800x128) (k0_off2 L t 0#32) S80x128.size (k0_off2_inb L t 0)).shape, ReadAs.same.apply (View.read (Elt F) (Memref.whole cc0_scratch1).view g)⟩]) x = rows0 m d x :=
  chunk_written (F := F) m d L t 0 (m (oLoc d)) _ hg
theorem chunk_ok1 (t : Fin k0_t1_loop.trips) (ht : t.val < 8) (g : Buf (Elt F) ((V d (cV L) (jV L)).loc cc0_scratch2)) (hg : gOK m d L (800 * t.val + 80) (by omega) g) :
    ∀ x ∈ oRowSet (ck (wL L) (⟨t.val, ht⟩ : Fin 8) 1),
      (((oV).slice (Rect.unit (s := S204800x128) (k0_off2 L t 1#32) S80x128.size (k0_off2_inb L t 1)) (fun _ => rfl)).view.writes (Elt F) (m (oLoc d))
        [⟨Rect.whole (Rect.unit (s := S204800x128) (k0_off2 L t 1#32) S80x128.size (k0_off2_inb L t 1)).shape, ReadAs.same.apply (View.read (Elt F) (Memref.whole cc0_scratch2).view g)⟩]) x = rows0 m d x :=
  chunk_written (F := F) m d L t 1 (m (oLoc d)) _ hg
theorem chunk_ok2 (t : Fin k0_t1_loop.trips) (ht : t.val < 8) (g : Buf (Elt F) ((V d (cV L) (jV L)).loc cc0_scratch3)) (hg : gOK m d L (800 * t.val + 160) (by omega) g) :
    ∀ x ∈ oRowSet (ck (wL L) (⟨t.val, ht⟩ : Fin 8) 2),
      (((oV).slice (Rect.unit (s := S204800x128) (k0_off2 L t 2#32) S80x128.size (k0_off2_inb L t 2)) (fun _ => rfl)).view.writes (Elt F) (m (oLoc d))
        [⟨Rect.whole (Rect.unit (s := S204800x128) (k0_off2 L t 2#32) S80x128.size (k0_off2_inb L t 2)).shape, ReadAs.same.apply (View.read (Elt F) (Memref.whole cc0_scratch3).view g)⟩]) x = rows0 m d x :=
  chunk_written (F := F) m d L t 2 (m (oLoc d)) _ hg
theorem chunk_ok3 (t : Fin k0_t1_loop.trips) (ht : t.val < 8) (g : Buf (Elt F) ((V d (cV L) (jV L)).loc cc0_scratch4)) (hg : gOK m d L (800 * t.val + 240) (by omega) g) :
    ∀ x ∈ oRowSet (ck (wL L) (⟨t.val, ht⟩ : Fin 8) 3),
      (((oV).slice (Rect.unit (s := S204800x128) (k0_off2 L t 3#32) S80x128.size (k0_off2_inb L t 3)) (fun _ => rfl)).view.writes (Elt F) (m (oLoc d))
        [⟨Rect.whole (Rect.unit (s := S204800x128) (k0_off2 L t 3#32) S80x128.size (k0_off2_inb L t 3)).shape, ReadAs.same.apply (View.read (Elt F) (Memref.whole cc0_scratch4).view g)⟩]) x = rows0 m d x :=
  chunk_written (F := F) m d L t 3 (m (oLoc d)) _ hg
theorem chunk_ok4 (t : Fin k0_t1_loop.trips) (ht : t.val < 8) (g : Buf (Elt F) ((V d (cV L) (jV L)).loc cc0_scratch5)) (hg : gOK m d L (800 * t.val + 320) (by omega) g) :
    ∀ x ∈ oRowSet (ck (wL L) (⟨t.val, ht⟩ : Fin 8) 4),
      (((oV).slice (Rect.unit (s := S204800x128) (k0_off2 L t 4#32) S80x128.size (k0_off2_inb L t 4)) (fun _ => rfl)).view.writes (Elt F) (m (oLoc d))
        [⟨Rect.whole (Rect.unit (s := S204800x128) (k0_off2 L t 4#32) S80x128.size (k0_off2_inb L t 4)).shape, ReadAs.same.apply (View.read (Elt F) (Memref.whole cc0_scratch5).view g)⟩]) x = rows0 m d x :=
  chunk_written (F := F) m d L t 4 (m (oLoc d)) _ hg
theorem chunk_ok5 (t : Fin k0_t1_loop.trips) (ht : t.val < 8) (g : Buf (Elt F) ((V d (cV L) (jV L)).loc cc0_scratch6)) (hg : gOK m d L (800 * t.val + 400) (by omega) g) :
    ∀ x ∈ oRowSet (ck (wL L) (⟨t.val, ht⟩ : Fin 8) 5),
      (((oV).slice (Rect.unit (s := S204800x128) (k0_off2 L t 5#32) S80x128.size (k0_off2_inb L t 5)) (fun _ => rfl)).view.writes (Elt F) (m (oLoc d))
        [⟨Rect.whole (Rect.unit (s := S204800x128) (k0_off2 L t 5#32) S80x128.size (k0_off2_inb L t 5)).shape, ReadAs.same.apply (View.read (Elt F) (Memref.whole cc0_scratch6).view g)⟩]) x = rows0 m d x :=
  chunk_written (F := F) m d L t 5 (m (oLoc d)) _ hg
theorem chunk_ok6 (t : Fin k0_t1_loop.trips) (ht : t.val < 8) (g : Buf (Elt F) ((V d (cV L) (jV L)).loc cc0_scratch7)) (hg : gOK m d L (800 * t.val + 480) (by omega) g) :
    ∀ x ∈ oRowSet (ck (wL L) (⟨t.val, ht⟩ : Fin 8) 6),
      (((oV).slice (Rect.unit (s := S204800x128) (k0_off2 L t 6#32) S80x128.size (k0_off2_inb L t 6)) (fun _ => rfl)).view.writes (Elt F) (m (oLoc d))
        [⟨Rect.whole (Rect.unit (s := S204800x128) (k0_off2 L t 6#32) S80x128.size (k0_off2_inb L t 6)).shape, ReadAs.same.apply (View.read (Elt F) (Memref.whole cc0_scratch7).view g)⟩]) x = rows0 m d x :=
  chunk_written (F := F) m d L t 6 (m (oLoc d)) _ hg
theorem chunk_ok7 (t : Fin k0_t1_loop.trips) (ht : t.val < 8) (g : Buf (Elt F) ((V d (cV L) (jV L)).loc cc0_scratch8)) (hg : gOK m d L (800 * t.val + 560) (by omega) g) :
    ∀ x ∈ oRowSet (ck (wL L) (⟨t.val, ht⟩ : Fin 8) 7),
      (((oV).slice (Rect.unit (s := S204800x128) (k0_off2 L t 7#32) S80x128.size (k0_off2_inb L t 7)) (fun _ => rfl)).view.writes (Elt F) (m (oLoc d))
        [⟨Rect.whole (Rect.unit (s := S204800x128) (k0_off2 L t 7#32) S80x128.size (k0_off2_inb L t 7)).shape, ReadAs.same.apply (View.read (Elt F) (Memref.whole cc0_scratch8).view g)⟩]) x = rows0 m d x :=
  chunk_written (F := F) m d L t 7 (m (oLoc d)) _ hg
theorem chunk_ok8 (t : Fin k0_t1_loop.trips) (ht : t.val < 8) (g : Buf (Elt F) ((V d (cV L) (jV L)).loc cc0_scratch9)) (hg : gOK m d L (800 * t.val + 640) (by omega) g) :
    ∀ x ∈ oRowSet (ck (wL L) (⟨t.val, ht⟩ : Fin 8) 8),
      (((oV).slice (Rect.unit (s := S204800x128) (k0_off2 L t 8#32) S80x128.size (k0_off2_inb L t 8)) (fun _ => rfl)).view.writes (Elt F) (m (oLoc d))
        [⟨Rect.whole (Rect.unit (s := S204800x128) (k0_off2 L t 8#32) S80x128.size (k0_off2_inb L t 8)).shape, ReadAs.same.apply (View.read (Elt F) (Memref.whole cc0_scratch9).view g)⟩]) x = rows0 m d x :=
  chunk_written (F := F) m d L t 8 (m (oLoc d)) _ hg
theorem chunk_ok9 (t : Fin k0_t1_loop.trips) (ht : t.val < 8) (g : Buf (Elt F) ((V d (cV L) (jV L)).loc cc0_scratch10)) (hg : gOK m d L (800 * t.val + 720) (by omega) g) :
    ∀ x ∈ oRowSet (ck (wL L) (⟨t.val, ht⟩ : Fin 8) 9),
      (((oV).slice (Rect.unit (s := S204800x128) (k0_off2 L t 9#32) S80x128.size (k0_off2_inb L t 9)) (fun _ => rfl)).view.writes (Elt F) (m (oLoc d))
        [⟨Rect.whole (Rect.unit (s := S204800x128) (k0_off2 L t 9#32) S80x128.size (k0_off2_inb L t 9)).shape, ReadAs.same.apply (View.read (Elt F) (Memref.whole cc0_scratch10).view g)⟩]) x = rows0 m d x :=
  chunk_written (F := F) m d L t 9 (m (oLoc d)) _ hg

variable (O : CellTallies nD τ sig (HIx 1)) (W : Waits sig (HIx 1))

omit m d L in
theorem ins_ok (a : SemLoc sig × HIx 1) (S : Waits sig (HIx 1)) (hS : ∀ p ∈ S, p ∈ W ∨ p.2 = none) (ha : a.2 = none) :
    ∀ p ∈ insert a S, p ∈ W ∨ p.2 = none := by
  intro p hp
  rcases Finset.mem_insert.mp hp with rfl | hp
  · exact .inr ha
  · exact hS p hp

variable [FloatOps F]

/-- Before trip `k < 8`: the ten gathers of row `k` are in flight, each buffer to hold its chunk's rows; the write-out
    semaphores are free; the list's other rows are held; the result chunks of the rows before `k` are written, the
    others as at the launch. -/
def A (k : ℕ) (hk : k < 8) : sProp 𝕄 :=
  iprop(Transfers.MayWaits thr (default : HIx 1) O
    ∗ (∃ g, ⌜gOK m d L (800 * k + 0) (by omega) g⌝ ∗ gFl m d L cc0_scratch11.sem cc0_scratch1 0 (800 * k + 0) (by omega) g)
    ∗ (∃ g, ⌜gOK m d L (800 * k + 80) (by omega) g⌝ ∗ gFl m d L cc0_scratch12.sem cc0_scratch2 1 (800 * k + 80) (by omega) g)
    ∗ (∃ g, ⌜gOK m d L (800 * k + 160) (by omega) g⌝ ∗ gFl m d L cc0_scratch13.sem cc0_scratch3 2 (800 * k + 160) (by omega) g)
    ∗ (∃ g, ⌜gOK m d L (800 * k + 240) (by omega) g⌝ ∗ gFl m d L cc0_scratch14.sem cc0_scratch4 3 (800 * k + 240) (by omega) g)
    ∗ (∃ g, ⌜gOK m d L (800 * k + 320) (by omega) g⌝ ∗ gFl m d L cc0_scratch15.sem cc0_scratch5 4 (800 * k + 320) (by omega) g)
    ∗ (∃ g, ⌜gOK m d L (800 * k + 400) (by omega) g⌝ ∗ gFl m d L cc0_scratch16.sem cc0_scratch6 5 (800 * k + 400) (by omega) g)
    ∗ (∃ g, ⌜gOK m d L (800 * k + 480) (by omega) g⌝ ∗ gFl m d L cc0_scratch17.sem cc0_scratch7 6 (800 * k + 480) (by omega) g)
    ∗ (∃ g, ⌜gOK m d L (800 * k + 560) (by omega) g⌝ ∗ gFl m d L cc0_scratch18.sem cc0_scratch8 7 (800 * k + 560) (by omega) g)
    ∗ (∃ g, ⌜gOK m d L (800 * k + 640) (by omega) g⌝ ∗ gFl m d L cc0_scratch19.sem cc0_scratch9 8 (800 * k + 640) (by omega) g)
    ∗ (∃ g, ⌜gOK m d L (800 * k + 720) (by omega) g⌝ ∗ gFl m d L cc0_scratch20.sem cc0_scratch10 9 (800 * k + 720) (by omega) g)
    ∗ semVal (thr, SemLoc.dma cc0_scratch21.sem) 0
    ∗ semVal (thr, SemLoc.dma cc0_scratch22.sem) 0
    ∗ semVal (thr, SemLoc.dma cc0_scratch23.sem) 0
    ∗ semVal (thr, SemLoc.dma cc0_scratch24.sem) 0
    ∗ semVal (thr, SemLoc.dma cc0_scratch25.sem) 0
    ∗ semVal (thr, SemLoc.dma cc0_scratch26.sem) 0
    ∗ semVal (thr, SemLoc.dma cc0_scratch27.sem) 0
    ∗ semVal (thr, SemLoc.dma cc0_scratch28.sem) 0
    ∗ semVal (thr, SemLoc.dma cc0_scratch29.sem) 0
    ∗ semVal (thr, SemLoc.dma cc0_scratch30.sem) 0
    ∗ (bigSep (Finset.univ.filter fun t : Fin 8 => t.val ≠ k) fun t => lRow m d L t)
    ∗ (bigSep Finset.univ fun t : Fin 8 => bigSep Finset.univ fun j : Fin 10 => oRowPts d (ck (wL L) t j) (if t.val < k then rows0 m d else m (oLoc d)))
    ∗ ∃ W', ⌜∀ p ∈ W', p ∈ W ∨ p.2 = none⌝ ∗ owes thr O W')

theorem seven_lt : 7 < k0_t1_loop.trips := by rw [trips_eq]; omega

/-- After the last trip: the ten write-outs of row 7 are in flight, each chunk to hold its rows; everything else is free. -/
def B : sProp 𝕄 :=
  iprop(Transfers.MayWaits thr (default : HIx 1) O
    ∗ (∃ c g, ⌜∀ x ∈ oRowSet (ck (wL L) (7 : Fin 8) 0), c x = rows0 m d x⌝ ∗ wFl d L cc0_scratch21.sem cc0_scratch1 ((oV).slice (Rect.unit (s := S204800x128) (k0_off2 L ⟨7, seven_lt⟩ 0#32) S80x128.size (k0_off2_inb L ⟨7, seven_lt⟩ 0)) (fun _ => rfl)) c g)
    ∗ (∃ c g, ⌜∀ x ∈ oRowSet (ck (wL L) (7 : Fin 8) 1), c x = rows0 m d x⌝ ∗ wFl d L cc0_scratch22.sem cc0_scratch2 ((oV).slice (Rect.unit (s := S204800x128) (k0_off2 L ⟨7, seven_lt⟩ 1#32) S80x128.size (k0_off2_inb L ⟨7, seven_lt⟩ 1)) (fun _ => rfl)) c g)
    ∗ (∃ c g, ⌜∀ x ∈ oRowSet (ck (wL L) (7 : Fin 8) 2), c x = rows0 m d x⌝ ∗ wFl d L cc0_scratch23.sem cc0_scratch3 ((oV).slice (Rect.unit (s := S204800x128) (k0_off2 L ⟨7, seven_lt⟩ 2#32) S80x128.size (k0_off2_inb L ⟨7, seven_lt⟩ 2)) (fun _ => rfl)) c g)
    ∗ (∃ c g, ⌜∀ x ∈ oRowSet (ck (wL L) (7 : Fin 8) 3), c x = rows0 m d x⌝ ∗ wFl d L cc0_scratch24.sem cc0_scratch4 ((oV).slice (Rect.unit (s := S204800x128) (k0_off2 L ⟨7, seven_lt⟩ 3#32) S80x128.size (k0_off2_inb L ⟨7, seven_lt⟩ 3)) (fun _ => rfl)) c g)
    ∗ (∃ c g, ⌜∀ x ∈ oRowSet (ck (wL L) (7 : Fin 8) 4), c x = rows0 m d x⌝ ∗ wFl d L cc0_scratch25.sem cc0_scratch5 ((oV).slice (Rect.unit (s := S204800x128) (k0_off2 L ⟨7, seven_lt⟩ 4#32) S80x128.size (k0_off2_inb L ⟨7, seven_lt⟩ 4)) (fun _ => rfl)) c g)
    ∗ (∃ c g, ⌜∀ x ∈ oRowSet (ck (wL L) (7 : Fin 8) 5), c x = rows0 m d x⌝ ∗ wFl d L cc0_scratch26.sem cc0_scratch6 ((oV).slice (Rect.unit (s := S204800x128) (k0_off2 L ⟨7, seven_lt⟩ 5#32) S80x128.size (k0_off2_inb L ⟨7, seven_lt⟩ 5)) (fun _ => rfl)) c g)
    ∗ (∃ c g, ⌜∀ x ∈ oRowSet (ck (wL L) (7 : Fin 8) 6), c x = rows0 m d x⌝ ∗ wFl d L cc0_scratch27.sem cc0_scratch7 ((oV).slice (Rect.unit (s := S204800x128) (k0_off2 L ⟨7, seven_lt⟩ 6#32) S80x128.size (k0_off2_inb L ⟨7, seven_lt⟩ 6)) (fun _ => rfl)) c g)
    ∗ (∃ c g, ⌜∀ x ∈ oRowSet (ck (wL L) (7 : Fin 8) 7), c x = rows0 m d x⌝ ∗ wFl d L cc0_scratch28.sem cc0_scratch8 ((oV).slice (Rect.unit (s := S204800x128) (k0_off2 L ⟨7, seven_lt⟩ 7#32) S80x128.size (k0_off2_inb L ⟨7, seven_lt⟩ 7)) (fun _ => rfl)) c g)
    ∗ (∃ c g, ⌜∀ x ∈ oRowSet (ck (wL L) (7 : Fin 8) 8), c x = rows0 m d x⌝ ∗ wFl d L cc0_scratch29.sem cc0_scratch9 ((oV).slice (Rect.unit (s := S204800x128) (k0_off2 L ⟨7, seven_lt⟩ 8#32) S80x128.size (k0_off2_inb L ⟨7, seven_lt⟩ 8)) (fun _ => rfl)) c g)
    ∗ (∃ c g, ⌜∀ x ∈ oRowSet (ck (wL L) (7 : Fin 8) 9), c x = rows0 m d x⌝ ∗ wFl d L cc0_scratch30.sem cc0_scratch10 ((oV).slice (Rect.unit (s := S204800x128) (k0_off2 L ⟨7, seven_lt⟩ 9#32) S80x128.size (k0_off2_inb L ⟨7, seven_lt⟩ 9)) (fun _ => rfl)) c g)
    ∗ semVal (thr, SemLoc.dma cc0_scratch11.sem) 0
    ∗ semVal (thr, SemLoc.dma cc0_scratch12.sem) 0
    ∗ semVal (thr, SemLoc.dma cc0_scratch13.sem) 0
    ∗ semVal (thr, SemLoc.dma cc0_scratch14.sem) 0
    ∗ semVal (thr, SemLoc.dma cc0_scratch15.sem) 0
    ∗ semVal (thr, SemLoc.dma cc0_scratch16.sem) 0
    ∗ semVal (thr, SemLoc.dma cc0_scratch17.sem) 0
    ∗ semVal (thr, SemLoc.dma cc0_scratch18.sem) 0
    ∗ semVal (thr, SemLoc.dma cc0_scratch19.sem) 0
    ∗ semVal (thr, SemLoc.dma cc0_scratch20.sem) 0
    ∗ ((xSl).view.loc thr ↦[(xSl).view.set]{xq (wL L) 0} m (xLoc d))
    ∗ ((xSl).view.loc thr ↦[(xSl).view.set]{xq (wL L) 1} m (xLoc d))
    ∗ ((xSl).view.loc thr ↦[(xSl).view.set]{xq (wL L) 2} m (xLoc d))
    ∗ ((xSl).view.loc thr ↦[(xSl).view.set]{xq (wL L) 3} m (xLoc d))
    ∗ ((xSl).view.loc thr ↦[(xSl).view.set]{xq (wL L) 4} m (xLoc d))
    ∗ ((xSl).view.loc thr ↦[(xSl).view.set]{xq (wL L) 5} m (xLoc d))
    ∗ ((xSl).view.loc thr ↦[(xSl).view.set]{xq (wL L) 6} m (xLoc d))
    ∗ ((xSl).view.loc thr ↦[(xSl).view.set]{xq (wL L) 7} m (xLoc d))
    ∗ ((xSl).view.loc thr ↦[(xSl).view.set]{xq (wL L) 8} m (xLoc d))
    ∗ ((xSl).view.loc thr ↦[(xSl).view.set]{xq (wL L) 9} m (xLoc d))
    ∗ (bigSep Finset.univ fun t : Fin 8 => lRow m d L t)
    ∗ (bigSep (Finset.univ.erase (⟨7, by omega⟩ : Fin 8)) fun t : Fin 8 => bigSep Finset.univ fun j : Fin 10 => oRowPts d (ck (wL L) t j) (if t.val < 7 then rows0 m d else m (oLoc d)))
    ∗ ∃ W', ⌜∀ p ∈ W', p ∈ W ∨ p.2 = none⌝ ∗ owes thr O W')

def inv (k : ℕ) (_ : BitVec 32) : sProp 𝕄 := if hk : k < 8 then A m d L O W k hk else B m d L O W

omit [FloatOps F] in
/-- A row of the index scratch out of all of them. -/
theorem rows_at (Φ : Fin 8 → sProp 𝕄) (k : Fin 8) :
    bigSep Finset.univ Φ = iprop(Φ k ∗ bigSep (Finset.univ.filter fun t : Fin 8 => t.val ≠ k.val) Φ) := by
  rw [bigSep_univ_at Φ k]
  congr 2
  ext t
  simp only [Finset.mem_erase, Finset.mem_univ, and_true, Finset.mem_filter, true_and, ne_eq, Fin.ext_iff]

omit [FloatOps F] in
/-- The index scratch, whole, is its eight rows of ten windows. -/
theorem lst_rows : ((lV).view.loc thr ↦{fullShare} lst0 m d L : sProp 𝕄) = bigSep Finset.univ fun t : Fin 8 => lRow m d L t := by
  rw [lst_windows (F := F) d L (lst0 m d L)]
  refine bigSep_congr fun t _ => ?_
  unfold lRow
  refine bigSep_congr fun j _ => ?_
  unfold lWinPts
  exact (lSl_own (F := F) d L _ _ fullShare (lst0 m d L)).symm

end Cert.Proof.KernelIdealBody

end
-- ==== Proof.KITripA.lean ====
/-
  A trip of the worker's loop before the last.
-/
import proofs.«206832_g86208583565466_cont_sun_m_1057_30_alg».proof.Proof.KITile
import proofs.«206832_g86208583565466_cont_sun_m_1057_30_alg».proof.Proof.KIAux
import proofs.«206832_g86208583565466_cont_sun_m_1057_30_alg».proof.Proof.KIInv

noncomputable section

namespace Cert.Proof.KernelIdealBody

open Cert.KernelIdeal Cert.KernelIdeal.Gen Cert.Proof.KernelIdealCommon Cert.Proof.KernelIdealTile Cert.Proof.KernelIdealAux

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg1_scv : Memref Cert.KernelIdeal.sig Kind.scVector Space.hbm Cert.KernelIdeal.S1000000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v1_scv : Memref Cert.KernelIdeal.sig Kind.scVector Space.hbm Cert.KernelIdeal.S204800x128 EltTy.f32)
local notation "lV" => (Memref.whole Cert.KernelIdeal.cc0_scratch0 : Memref Cert.KernelIdeal.sig Kind.scVector Space.vmem Cert.KernelIdeal.S6400 EltTy.i32)
local notation "b0V" => (Memref.whole Cert.KernelIdeal.cc0_scratch1 : Memref Cert.KernelIdeal.sig Kind.scVector Space.vmem Cert.KernelIdeal.S80x128 EltTy.f32)
local notation "b1V" => (Memref.whole Cert.KernelIdeal.cc0_scratch2 : Memref Cert.KernelIdeal.sig Kind.scVector Space.vmem Cert.KernelIdeal.S80x128 EltTy.f32)
local notation "b2V" => (Memref.whole Cert.KernelIdeal.cc0_scratch3 : Memref Cert.KernelIdeal.sig Kind.scVector Space.vmem Cert.KernelIdeal.S80x128 EltTy.f32)
local notation "b3V" => (Memref.whole Cert.KernelIdeal.cc0_scratch4 : Memref Cert.KernelIdeal.sig Kind.scVector Space.vmem Cert.KernelIdeal.S80x128 EltTy.f32)
local notation "b4V" => (Memref.whole Cert.KernelIdeal.cc0_scratch5 : Memref Cert.KernelIdeal.sig Kind.scVector Space.vmem Cert.KernelIdeal.S80x128 EltTy.f32)
local notation "b5V" => (Memref.whole Cert.KernelIdeal.cc0_scratch6 : Memref Cert.KernelIdeal.sig Kind.scVector Space.vmem Cert.KernelIdeal.S80x128 EltTy.f32)
local notation "b6V" => (Memref.whole Cert.KernelIdeal.cc0_scratch7 : Memref Cert.KernelIdeal.sig Kind.scVector Space.vmem Cert.KernelIdeal.S80x128 EltTy.f32)
local notation "b7V" => (Memref.whole Cert.KernelIdeal.cc0_scratch8 : Memref Cert.KernelIdeal.sig Kind.scVector Space.vmem Cert.KernelIdeal.S80x128 EltTy.f32)
local notation "b8V" => (Memref.whole Cert.KernelIdeal.cc0_scratch9 : Memref Cert.KernelIdeal.sig Kind.scVector Space.vmem Cert.KernelIdeal.S80x128 EltTy.f32)
local notation "b9V" => (Memref.whole Cert.KernelIdeal.cc0_scratch10 : Memref Cert.KernelIdeal.sig Kind.scVector Space.vmem Cert.KernelIdeal.S80x128 EltTy.f32)
local notation "thr" => (V d (cV L) (jV L))

variable (O : CellTallies nD τ sig (HIx 1)) (W : Waits sig (HIx 1))
variable [FloatOps F]

set_option maxHeartbeats 16000000 in
/-- A trip `k < 7`: for each buffer in turn the gather of row `k` is awaited and the buffer written out to its chunk; one
    buffer behind, the write-out is awaited and the buffer sent to gather row `k + 1`. Every chunk of row `k` ends
    holding the rows its words name. -/
theorem trip_lt (hpre : PreOK m) (v2 : BitVec 32) (k : Fin k0_t1_loop.trips) (acc : BitVec 32) (hk : k.val < 7) :
    inv m d L O W k.val acc ⊢ wp frame (wpE (defs₀ (F := F)) 𝒱₀ thr none) Set.univ
      (k0_t1_body L xV (Memref.isWhole_whole _) iV (Memref.isWhole_whole _) oV (Memref.isWhole_whole _) lV (Memref.isWhole_whole _)
        b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) b8V (Memref.isWhole_whole _) b9V (Memref.isWhole_whole _)
        cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scoped0 v2 k acc)
      (inv m d L O W (k.val + 1)) := by
  have hk8 : k.val < 8 := by omega
  have k0_h1 : k0_cond1 k = 1#1 := cond1_of_lt k hk
  have k0_h2 : k0_cond2 k = 1#1 := cond2_of_lt k hk
  have k0_h3 : k0_cond3 k = 1#1 := cond3_of_lt k hk
  have k0_h4 : k0_cond4 k = 1#1 := cond4_of_lt k hk
  have k0_h5 : k0_cond5 k = 1#1 := cond5_of_lt k hk
  have k0_h6 : k0_cond6 k = 1#1 := cond6_of_lt k hk
  have k0_h7 : k0_cond7 k = 1#1 := cond7_of_lt k hk
  have k0_h8 : k0_cond8 k = 1#1 := cond8_of_lt k hk
  have k0_h9 : k0_cond9 k = 1#1 := cond9_of_lt k hk
  have k0_h10 : k0_cond10 k = 1#1 := cond10_of_lt k hk
  have hin := fun R hR x => list_inb (F := F) m d L hpre R hR x
  have hinS : ∀ (n : ℕ) (h : n + 80 ≤ 6400) (x : S80.Idx), ((lSl n h).view.read (Elt F) (lst0 m d L) x).toNat < S1000000x128.size gathers_S1000000x128_S80x128.axis :=
    fun n h x => list_inb (F := F) m d L hpre (Rect.unit (s := S6400) ![n] S80.size (lSl_inb n h)) (fun _ => rfl) x
  unfold inv
  rw [dif_pos hk8, dif_pos (show k.val + 1 < 8 by omega)]
  unfold A
  rw [bigSep_ne_succ (F := F) (fun t => lRow m d L t) k.val hk, chunks_at (F := F) m d L k.val hk8,
    bigSep_ne_pred (F := F) (fun t => lRow m d L t) k.val hk, chunks_at_succ (F := F) m d L k.val hk8]
  unfold lRow
  rw [bigSep_fin10 (fun j : Fin 10 => lWinPts m d L (800 * (⟨k.val + 1, by omega⟩ : Fin 8).val + 80 * j.val) (win_inb ⟨k.val + 1, by omega⟩ j)),
    bigSep_fin10 (fun j : Fin 10 => oRowPts d (ck (wL L) (⟨k.val, hk8⟩ : Fin 8) j) (m (oLoc d))),
    bigSep_fin10 (fun j : Fin 10 => lWinPts m d L (800 * (⟨k.val, by omega⟩ : Fin 8).val + 80 * j.val) (win_inb ⟨k.val, by omega⟩ j)),
    bigSep_fin10 (fun j : Fin 10 => oRowPts d (ck (wL L) (⟨k.val, hk8⟩ : Fin 8) j) (rows0 m d))]
  iintro ⟨Hmw, ⟨%g0, %hg0, Hg0⟩, ⟨%g1, %hg1, Hg1⟩, ⟨%g2, %hg2, Hg2⟩, ⟨%g3, %hg3, Hg3⟩, ⟨%g4, %hg4, Hg4⟩, ⟨%g5, %hg5, Hg5⟩, ⟨%g6, %hg6, Hg6⟩, ⟨%g7, %hg7, Hg7⟩, ⟨%g8, %hg8, Hg8⟩, ⟨%g9, %hg9, Hg9⟩, Hw0, Hw1, Hw2, Hw3, Hw4, Hw5, Hw6, Hw7, Hw8, Hw9, ⟨⟨Hl0, Hl1, Hl2, Hl3, Hl4, Hl5, Hl6, Hl7, Hl8, Hl9⟩, HLW⟩, ⟨⟨Hc0, Hc1, Hc2, Hc3, Hc4, Hc5, Hc6, Hc7, Hc8, Hc9⟩, HCH⟩, %W', %hW', HO⟩
  ihave Hl0' := (Entails.of_eq (lWinPts_congr (F := F) m d L _ (800 * k.val + 800) _ (by omega) (by simp only []; omega))) $$ Hl0
  ihave Hl1' := (Entails.of_eq (lWinPts_congr (F := F) m d L _ (800 * k.val + 880) _ (by omega) (by simp only []; omega))) $$ Hl1
  ihave Hl2' := (Entails.of_eq (lWinPts_congr (F := F) m d L _ (800 * k.val + 960) _ (by omega) (by simp only []; omega))) $$ Hl2
  ihave Hl3' := (Entails.of_eq (lWinPts_congr (F := F) m d L _ (800 * k.val + 1040) _ (by omega) (by simp only []; omega))) $$ Hl3
  ihave Hl4' := (Entails.of_eq (lWinPts_congr (F := F) m d L _ (800 * k.val + 1120) _ (by omega) (by simp only []; omega))) $$ Hl4
  ihave Hl5' := (Entails.of_eq (lWinPts_congr (F := F) m d L _ (800 * k.val + 1200) _ (by omega) (by simp only []; omega))) $$ Hl5
  ihave Hl6' := (Entails.of_eq (lWinPts_congr (F := F) m d L _ (800 * k.val + 1280) _ (by omega) (by simp only []; omega))) $$ Hl6
  ihave Hl7' := (Entails.of_eq (lWinPts_congr (F := F) m d L _ (800 * k.val + 1360) _ (by omega) (by simp only []; omega))) $$ Hl7
  ihave Hl8' := (Entails.of_eq (lWinPts_congr (F := F) m d L _ (800 * k.val + 1440) _ (by omega) (by simp only []; omega))) $$ Hl8
  ihave Hl9' := (Entails.of_eq (lWinPts_congr (F := F) m d L _ (800 * k.val + 1520) _ (by omega) (by simp only []; omega))) $$ Hl9
  ihave Hc0' := (Entails.of_eq (pts_oCh0 (F := F) d L k hk8 (m (oLoc d))).symm) $$ Hc0
  ihave Hc1' := (Entails.of_eq (pts_oCh1 (F := F) d L k hk8 (m (oLoc d))).symm) $$ Hc1
  ihave Hc2' := (Entails.of_eq (pts_oCh2 (F := F) d L k hk8 (m (oLoc d))).symm) $$ Hc2
  ihave Hc3' := (Entails.of_eq (pts_oCh3 (F := F) d L k hk8 (m (oLoc d))).symm) $$ Hc3
  ihave Hc4' := (Entails.of_eq (pts_oCh4 (F := F) d L k hk8 (m (oLoc d))).symm) $$ Hc4
  ihave Hc5' := (Entails.of_eq (pts_oCh5 (F := F) d L k hk8 (m (oLoc d))).symm) $$ Hc5
  ihave Hc6' := (Entails.of_eq (pts_oCh6 (F := F) d L k hk8 (m (oLoc d))).symm) $$ Hc6
  ihave Hc7' := (Entails.of_eq (pts_oCh7 (F := F) d L k hk8 (m (oLoc d))).symm) $$ Hc7
  ihave Hc8' := (Entails.of_eq (pts_oCh8 (F := F) d L k hk8 (m (oLoc d))).symm) $$ Hc8
  ihave Hc9' := (Entails.of_eq (pts_oCh9 (F := F) d L k hk8 (m (oLoc d))).symm) $$ Hc9
  unfold gFl lWinPts xSl
  unfold k0_t1_body
  sl_exec
  icases Hg0_dst with ⟨Hb0, Hk0⟩
  sl_exec
  icases Hg1_dst with ⟨Hb1, Hk1⟩
  sl_exec
  icases Hg2_dst with ⟨Hb2, Hk2⟩
  sl_exec
  icases Hg3_dst with ⟨Hb3, Hk3⟩
  sl_exec
  icases Hg4_dst with ⟨Hb4, Hk4⟩
  sl_exec
  icases Hg5_dst with ⟨Hb5, Hk5⟩
  sl_exec
  icases Hg6_dst with ⟨Hb6, Hk6⟩
  sl_exec
  icases Hg7_dst with ⟨Hb7, Hk7⟩
  sl_exec
  icases Hg8_dst with ⟨Hb8, Hk8⟩
  sl_exec
  icases Hg9_dst with ⟨Hb9, Hk9⟩
  sl_exec
  sl_step
  -- the state before trip `k + 1`
  isplitl [Hmw]; · iexact Hmw
  isplitl [Hg0]
  · iexists _
    isplitr [Hg0]
    swap
    · iexact Hg0
    · ipureintro
      exact gOK_congr (F := F) m d L (800 * k.val + 800) _ (by omega) _ _ (by omega)
        (fun y => (whole_write_apply (F := F) cc0_scratch1 g0 _ y).trans (gather_rows0 (F := F) m d L hpre (800 * k.val + 800) (by omega) _ _ y))
  isplitl [Hg1]
  · iexists _
    isplitr [Hg1]
    swap
    · iexact Hg1
    · ipureintro
      exact gOK_congr (F := F) m d L (800 * k.val + 880) _ (by omega) _ _ (by omega)
        (fun y => (whole_write_apply (F := F) cc0_scratch2 g1 _ y).trans (gather_rows0 (F := F) m d L hpre (800 * k.val + 880) (by omega) _ _ y))
  isplitl [Hg2]
  · iexists _
    isplitr [Hg2]
    swap
    · iexact Hg2
    · ipureintro
      exact gOK_congr (F := F) m d L (800 * k.val + 960) _ (by omega) _ _ (by omega)
        (fun y => (whole_write_apply (F := F) cc0_scratch3 g2 _ y).trans (gather_rows0 (F := F) m d L hpre (800 * k.val + 960) (by omega) _ _ y))
  isplitl [Hg3]
  · iexists _
    isplitr [Hg3]
    swap
    · iexact Hg3
    · ipureintro
      exact gOK_congr (F := F) m d L (800 * k.val + 1040) _ (by omega) _ _ (by omega)
        (fun y => (whole_write_apply (F := F) cc0_scratch4 g3 _ y).trans (gather_rows0 (F := F) m d L hpre (800 * k.val + 1040) (by omega) _ _ y))
  isplitl [Hg4]
  · iexists _
    isplitr [Hg4]
    swap
    · iexact Hg4
    · ipureintro
      exact gOK_congr (F := F) m d L (800 * k.val + 1120) _ (by omega) _ _ (by omega)
        (fun y => (whole_write_apply (F := F) cc0_scratch5 g4 _ y).trans (gather_rows0 (F := F) m d L hpre (800 * k.val + 1120) (by omega) _ _ y))
  isplitl [Hg5]
  · iexists _
    isplitr [Hg5]
    swap
    · iexact Hg5
    · ipureintro
      exact gOK_congr (F := F) m d L (800 * k.val + 1200) _ (by omega) _ _ (by omega)
        (fun y => (whole_write_apply (F := F) cc0_scratch6 g5 _ y).trans (gather_rows0 (F := F) m d L hpre (800 * k.val + 1200) (by omega) _ _ y))
  isplitl [Hg6]
  · iexists _
    isplitr [Hg6]
    swap
    · iexact Hg6
    · ipureintro
      exact gOK_congr (F := F) m d L (800 * k.val + 1280) _ (by omega) _ _ (by omega)
        (fun y => (whole_write_apply (F := F) cc0_scratch7 g6 _ y).trans (gather_rows0 (F := F) m d L hpre (800 * k.val + 1280) (by omega) _ _ y))
  isplitl [Hg7]
  · iexists _
    isplitr [Hg7]
    swap
    · iexact Hg7
    · ipureintro
      exact gOK_congr (F := F) m d L (800 * k.val + 1360) _ (by omega) _ _ (by omega)
        (fun y => (whole_write_apply (F := F) cc0_scratch8 g7 _ y).trans (gather_rows0 (F := F) m d L hpre (800 * k.val + 1360) (by omega) _ _ y))
  isplitl [Hg8]
  · iexists _
    isplitr [Hg8]
    swap
    · iexact Hg8
    · ipureintro
      exact gOK_congr (F := F) m d L (800 * k.val + 1440) _ (by omega) _ _ (by omega)
        (fun y => (whole_write_apply (F := F) cc0_scratch9 g8 _ y).trans (gather_rows0 (F := F) m d L hpre (800 * k.val + 1440) (by omega) _ _ y))
  isplitl [Hg9]
  · iexists _
    isplitr [Hg9]
    swap
    · iexact Hg9
    · ipureintro
      exact gOK_congr (F := F) m d L (800 * k.val + 1520) _ (by omega) _ _ (by omega)
        (fun y => (whole_write_apply (F := F) cc0_scratch10 g9 _ y).trans (gather_rows0 (F := F) m d L hpre (800 * k.val + 1520) (by omega) _ _ y))
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hk0 Hk1 Hk2 Hk3 Hk4 Hk5 Hk6 Hk7 Hk8 Hk9 HLW]
  · isplitl [Hk0 Hk1 Hk2 Hk3 Hk4 Hk5 Hk6 Hk7 Hk8 Hk9]
    · isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      isplitl [Hk8]; · iexact Hk8
      iexact Hk9
    · iexact HLW
  isplitl [Hc0' Hc1' Hc2' Hc3' Hc4' Hc5' Hc6' Hc7' Hc8' Hc9' HCH]
  · isplitl [Hc0' Hc1' Hc2' Hc3' Hc4' Hc5' Hc6' Hc7' Hc8' Hc9']
    · isplitl [Hc0']
      · ihave H1 := (Entails.of_eq (pts_oCh0 (F := F) d L k hk8 _)) $$ Hc0'
        ihave H2 := (Entails.of_eq (pointsTo_congr (chunk_ok0 (F := F) m d L k hk8 g0 (gOK_congr (F := F) m d L _ _ _ (by omega) g0 (by omega) hg0)))) $$ H1
        iexact H2
      isplitl [Hc1']
      · ihave H1 := (Entails.of_eq (pts_oCh1 (F := F) d L k hk8 _)) $$ Hc1'
        ihave H2 := (Entails.of_eq (pointsTo_congr (chunk_ok1 (F := F) m d L k hk8 g1 (gOK_congr (F := F) m d L _ _ _ (by omega) g1 (by omega) hg1)))) $$ H1
        iexact H2
      isplitl [Hc2']
      · ihave H1 := (Entails.of_eq (pts_oCh2 (F := F) d L k hk8 _)) $$ Hc2'
        ihave H2 := (Entails.of_eq (pointsTo_congr (chunk_ok2 (F := F) m d L k hk8 g2 (gOK_congr (F := F) m d L _ _ _ (by omega) g2 (by omega) hg2)))) $$ H1
        iexact H2
      isplitl [Hc3']
      · ihave H1 := (Entails.of_eq (pts_oCh3 (F := F) d L k hk8 _)) $$ Hc3'
        ihave H2 := (Entails.of_eq (pointsTo_congr (chunk_ok3 (F := F) m d L k hk8 g3 (gOK_congr (F := F) m d L _ _ _ (by omega) g3 (by omega) hg3)))) $$ H1
        iexact H2
      isplitl [Hc4']
      · ihave H1 := (Entails.of_eq (pts_oCh4 (F := F) d L k hk8 _)) $$ Hc4'
        ihave H2 := (Entails.of_eq (pointsTo_congr (chunk_ok4 (F := F) m d L k hk8 g4 (gOK_congr (F := F) m d L _ _ _ (by omega) g4 (by omega) hg4)))) $$ H1
        iexact H2
      isplitl [Hc5']
      · ihave H1 := (Entails.of_eq (pts_oCh5 (F := F) d L k hk8 _)) $$ Hc5'
        ihave H2 := (Entails.of_eq (pointsTo_congr (chunk_ok5 (F := F) m d L k hk8 g5 (gOK_congr (F := F) m d L _ _ _ (by omega) g5 (by omega) hg5)))) $$ H1
        iexact H2
      isplitl [Hc6']
      · ihave H1 := (Entails.of_eq (pts_oCh6 (F := F) d L k hk8 _)) $$ Hc6'
        ihave H2 := (Entails.of_eq (pointsTo_congr (chunk_ok6 (F := F) m d L k hk8 g6 (gOK_congr (F := F) m d L _ _ _ (by omega) g6 (by omega) hg6)))) $$ H1
        iexact H2
      isplitl [Hc7']
      · ihave H1 := (Entails.of_eq (pts_oCh7 (F := F) d L k hk8 _)) $$ Hc7'
        ihave H2 := (Entails.of_eq (pointsTo_congr (chunk_ok7 (F := F) m d L k hk8 g7 (gOK_congr (F := F) m d L _ _ _ (by omega) g7 (by omega) hg7)))) $$ H1
        iexact H2
      isplitl [Hc8']
      · ihave H1 := (Entails.of_eq (pts_oCh8 (F := F) d L k hk8 _)) $$ Hc8'
        ihave H2 := (Entails.of_eq (pointsTo_congr (chunk_ok8 (F := F) m d L k hk8 g8 (gOK_congr (F := F) m d L _ _ _ (by omega) g8 (by omega) hg8)))) $$ H1
        iexact H2
      ihave H1 := (Entails.of_eq (pts_oCh9 (F := F) d L k hk8 _)) $$ Hc9'
      ihave H2 := (Entails.of_eq (pointsTo_congr (chunk_ok9 (F := F) m d L k hk8 g9 (gOK_congr (F := F) m d L _ _ _ (by omega) g9 (by omega) hg9)))) $$ H1
      iexact H2
    · iexact HCH
  iexists _
  isplitr [HO]
  swap
  · iexact HO
  · ipureintro
    exact ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (ins_ok W _ _ (hW') rfl) rfl) rfl) rfl) rfl) rfl) rfl) rfl) rfl) rfl) rfl) rfl) rfl) rfl) rfl) rfl) rfl) rfl) rfl) rfl

end Cert.Proof.KernelIdealBody

end
-- ==== Proof.KITripB.lean ====
/-
  The last trip of the worker's loop.
-/
import proofs.«206832_g86208583565466_cont_sun_m_1057_30_alg».proof.Proof.KITile
import proofs.«206832_g86208583565466_cont_sun_m_1057_30_alg».proof.Proof.KIAux
import proofs.«206832_g86208583565466_cont_sun_m_1057_30_alg».proof.Proof.KIInv

noncomputable section

namespace Cert.Proof.KernelIdealBody

open Cert.KernelIdeal Cert.KernelIdeal.Gen Cert.Proof.KernelIdealCommon Cert.Proof.KernelIdealTile Cert.Proof.KernelIdealAux

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg1_scv : Memref Cert.KernelIdeal.sig Kind.scVector Space.hbm Cert.KernelIdeal.S1000000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v1_scv : Memref Cert.KernelIdeal.sig Kind.scVector Space.hbm Cert.KernelIdeal.S204800x128 EltTy.f32)
local notation "lV" => (Memref.whole Cert.KernelIdeal.cc0_scratch0 : Memref Cert.KernelIdeal.sig Kind.scVector Space.vmem Cert.KernelIdeal.S6400 EltTy.i32)
local notation "b0V" => (Memref.whole Cert.KernelIdeal.cc0_scratch1 : Memref Cert.KernelIdeal.sig Kind.scVector Space.vmem Cert.KernelIdeal.S80x128 EltTy.f32)
local notation "b1V" => (Memref.whole Cert.KernelIdeal.cc0_scratch2 : Memref Cert.KernelIdeal.sig Kind.scVector Space.vmem Cert.KernelIdeal.S80x128 EltTy.f32)
local notation "b2V" => (Memref.whole Cert.KernelIdeal.cc0_scratch3 : Memref Cert.KernelIdeal.sig Kind.scVector Space.vmem Cert.KernelIdeal.S80x128 EltTy.f32)
local notation "b3V" => (Memref.whole Cert.KernelIdeal.cc0_scratch4 : Memref Cert.KernelIdeal.sig Kind.scVector Space.vmem Cert.KernelIdeal.S80x128 EltTy.f32)
local notation "b4V" => (Memref.whole Cert.KernelIdeal.cc0_scratch5 : Memref Cert.KernelIdeal.sig Kind.scVector Space.vmem Cert.KernelIdeal.S80x128 EltTy.f32)
local notation "b5V" => (Memref.whole Cert.KernelIdeal.cc0_scratch6 : Memref Cert.KernelIdeal.sig Kind.scVector Space.vmem Cert.KernelIdeal.S80x128 EltTy.f32)
local notation "b6V" => (Memref.whole Cert.KernelIdeal.cc0_scratch7 : Memref Cert.KernelIdeal.sig Kind.scVector Space.vmem Cert.KernelIdeal.S80x128 EltTy.f32)
local notation "b7V" => (Memref.whole Cert.KernelIdeal.cc0_scratch8 : Memref Cert.KernelIdeal.sig Kind.scVector Space.vmem Cert.KernelIdeal.S80x128 EltTy.f32)
local notation "b8V" => (Memref.whole Cert.KernelIdeal.cc0_scratch9 : Memref Cert.KernelIdeal.sig Kind.scVector Space.vmem Cert.KernelIdeal.S80x128 EltTy.f32)
local notation "b9V" => (Memref.whole Cert.KernelIdeal.cc0_scratch10 : Memref Cert.KernelIdeal.sig Kind.scVector Space.vmem Cert.KernelIdeal.S80x128 EltTy.f32)
local notation "thr" => (V d (cV L) (jV L))

variable (O : CellTallies nD τ sig (HIx 1)) (W : Waits sig (HIx 1))
variable [FloatOps F]

set_option maxHeartbeats 16000000 in
/-- The last trip: each gather of row 7 is awaited and its buffer written out; no buffer is sent gathering again, so the
    ten write-outs are still in flight at the end. -/
theorem trip_last (hpre : PreOK m) (v2 : BitVec 32) (k : Fin k0_t1_loop.trips) (acc : BitVec 32) (hk : k.val = 7) :
    inv m d L O W k.val acc ⊢ wp frame (wpE (defs₀ (F := F)) 𝒱₀ thr none) Set.univ
      (k0_t1_body L xV (Memref.isWhole_whole _) iV (Memref.isWhole_whole _) oV (Memref.isWhole_whole _) lV (Memref.isWhole_whole _)
        b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) b8V (Memref.isWhole_whole _) b9V (Memref.isWhole_whole _)
        cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scoped0 v2 k acc)
      (inv m d L O W (k.val + 1)) := by
  obtain rfl : k = ⟨7, seven_lt⟩ := Fin.ext hk
  have hk8 : (⟨7, seven_lt⟩ : Fin k0_t1_loop.trips).val < 8 := by simp only []; omega
  have k0_h1 : ¬ k0_cond1 (⟨7, seven_lt⟩ : Fin k0_t1_loop.trips) = 1#1 := cond1_of_eq _ rfl
  have k0_h2 : ¬ k0_cond2 (⟨7, seven_lt⟩ : Fin k0_t1_loop.trips) = 1#1 := cond2_of_eq _ rfl
  have k0_h3 : ¬ k0_cond3 (⟨7, seven_lt⟩ : Fin k0_t1_loop.trips) = 1#1 := cond3_of_eq _ rfl
  have k0_h4 : ¬ k0_cond4 (⟨7, seven_lt⟩ : Fin k0_t1_loop.trips) = 1#1 := cond4_of_eq _ rfl
  have k0_h5 : ¬ k0_cond5 (⟨7, seven_lt⟩ : Fin k0_t1_loop.trips) = 1#1 := cond5_of_eq _ rfl
  have k0_h6 : ¬ k0_cond6 (⟨7, seven_lt⟩ : Fin k0_t1_loop.trips) = 1#1 := cond6_of_eq _ rfl
  have k0_h7 : ¬ k0_cond7 (⟨7, seven_lt⟩ : Fin k0_t1_loop.trips) = 1#1 := cond7_of_eq _ rfl
  have k0_h8 : ¬ k0_cond8 (⟨7, seven_lt⟩ : Fin k0_t1_loop.trips) = 1#1 := cond8_of_eq _ rfl
  have k0_h9 : ¬ k0_cond9 (⟨7, seven_lt⟩ : Fin k0_t1_loop.trips) = 1#1 := cond9_of_eq _ rfl
  have k0_h10 : ¬ k0_cond10 (⟨7, seven_lt⟩ : Fin k0_t1_loop.trips) = 1#1 := cond10_of_eq _ rfl
  unfold inv
  rw [dif_pos hk8, dif_neg (show ¬ (⟨7, seven_lt⟩ : Fin k0_t1_loop.trips).val + 1 < 8 by simp only []; omega)]
  unfold A B
  rw [rows_at (F := F) (fun t => lRow m d L t) (⟨7, by omega⟩ : Fin 8)]
  rw [chunks_at (F := F) m d L (⟨7, seven_lt⟩ : Fin k0_t1_loop.trips).val hk8]
  rw [bigSep_fin10 (fun j : Fin 10 => oRowPts d (ck (wL L) (⟨(⟨7, seven_lt⟩ : Fin k0_t1_loop.trips).val, hk8⟩ : Fin 8) j) (m (oLoc d)))]
  unfold lRow
  rw [bigSep_fin10 (fun j : Fin 10 => lWinPts m d L (800 * (⟨7, by omega⟩ : Fin 8).val + 80 * j.val) (win_inb ⟨7, by omega⟩ j))]
  iintro ⟨Hmw, ⟨%g0, %hg0, Hg0⟩, ⟨%g1, %hg1, Hg1⟩, ⟨%g2, %hg2, Hg2⟩, ⟨%g3, %hg3, Hg3⟩, ⟨%g4, %hg4, Hg4⟩, ⟨%g5, %hg5, Hg5⟩, ⟨%g6, %hg6, Hg6⟩, ⟨%g7, %hg7, Hg7⟩, ⟨%g8, %hg8, Hg8⟩, ⟨%g9, %hg9, Hg9⟩, Hw0, Hw1, Hw2, Hw3, Hw4, Hw5, Hw6, Hw7, Hw8, Hw9, HLW, ⟨⟨Hc0, Hc1, Hc2, Hc3, Hc4, Hc5, Hc6, Hc7, Hc8, Hc9⟩, HCH⟩, %W', %hW', HO⟩
  ihave Hc0' := (Entails.of_eq (pts_oCh0 (F := F) d L ⟨7, seven_lt⟩ hk8 (m (oLoc d))).symm) $$ Hc0
  ihave Hc1' := (Entails.of_eq (pts_oCh1 (F := F) d L ⟨7, seven_lt⟩ hk8 (m (oLoc d))).symm) $$ Hc1
  ihave Hc2' := (Entails.of_eq (pts_oCh2 (F := F) d L ⟨7, seven_lt⟩ hk8 (m (oLoc d))).symm) $$ Hc2
  ihave Hc3' := (Entails.of_eq (pts_oCh3 (F := F) d L ⟨7, seven_lt⟩ hk8 (m (oLoc d))).symm) $$ Hc3
  ihave Hc4' := (Entails.of_eq (pts_oCh4 (F := F) d L ⟨7, seven_lt⟩ hk8 (m (oLoc d))).symm) $$ Hc4
  ihave Hc5' := (Entails.of_eq (pts_oCh5 (F := F) d L ⟨7, seven_lt⟩ hk8 (m (oLoc d))).symm) $$ Hc5
  ihave Hc6' := (Entails.of_eq (pts_oCh6 (F := F) d L ⟨7, seven_lt⟩ hk8 (m (oLoc d))).symm) $$ Hc6
  ihave Hc7' := (Entails.of_eq (pts_oCh7 (F := F) d L ⟨7, seven_lt⟩ hk8 (m (oLoc d))).symm) $$ Hc7
  ihave Hc8' := (Entails.of_eq (pts_oCh8 (F := F) d L ⟨7, seven_lt⟩ hk8 (m (oLoc d))).symm) $$ Hc8
  ihave Hc9' := (Entails.of_eq (pts_oCh9 (F := F) d L ⟨7, seven_lt⟩ hk8 (m (oLoc d))).symm) $$ Hc9
  unfold gFl lWinPts xSl
  unfold k0_t1_body
  sl_exec
  icases Hg0_dst with ⟨Hb0, Hk0⟩
  sl_exec
  icases Hg1_dst with ⟨Hb1, Hk1⟩
  sl_exec
  icases Hg2_dst with ⟨Hb2, Hk2⟩
  sl_exec
  icases Hg3_dst with ⟨Hb3, Hk3⟩
  sl_exec
  icases Hg4_dst with ⟨Hb4, Hk4⟩
  sl_exec
  icases Hg5_dst with ⟨Hb5, Hk5⟩
  sl_exec
  icases Hg6_dst with ⟨Hb6, Hk6⟩
  sl_exec
  icases Hg7_dst with ⟨Hb7, Hk7⟩
  sl_exec
  icases Hg8_dst with ⟨Hb8, Hk8⟩
  sl_exec
  icases Hg9_dst with ⟨Hb9, Hk9⟩
  sl_exec
  sl_step
  isplitl [Hmw]; · iexact Hmw
  isplitl [Hw0]
  · iexists _, _
    isplitr [Hw0]
    swap
    · unfold wFl; iexact Hw0
    · ipureintro
      exact chunk_ok0 (F := F) m d L ⟨7, seven_lt⟩ hk8 g0 (gOK_congr (F := F) m d L _ _ _ (by simp only []; omega) g0 (by simp only []) hg0)
  isplitl [Hw1]
  · iexists _, _
    isplitr [Hw1]
    swap
    · unfold wFl; iexact Hw1
    · ipureintro
      exact chunk_ok1 (F := F) m d L ⟨7, seven_lt⟩ hk8 g1 (gOK_congr (F := F) m d L _ _ _ (by simp only []; omega) g1 (by simp only []) hg1)
  isplitl [Hw2]
  · iexists _, _
    isplitr [Hw2]
    swap
    · unfold wFl; iexact Hw2
    · ipureintro
      exact chunk_ok2 (F := F) m d L ⟨7, seven_lt⟩ hk8 g2 (gOK_congr (F := F) m d L _ _ _ (by simp only []; omega) g2 (by simp only []) hg2)
  isplitl [Hw3]
  · iexists _, _
    isplitr [Hw3]
    swap
    · unfold wFl; iexact Hw3
    · ipureintro
      exact chunk_ok3 (F := F) m d L ⟨7, seven_lt⟩ hk8 g3 (gOK_congr (F := F) m d L _ _ _ (by simp only []; omega) g3 (by simp only []) hg3)
  isplitl [Hw4]
  · iexists _, _
    isplitr [Hw4]
    swap
    · unfold wFl; iexact Hw4
    · ipureintro
      exact chunk_ok4 (F := F) m d L ⟨7, seven_lt⟩ hk8 g4 (gOK_congr (F := F) m d L _ _ _ (by simp only []; omega) g4 (by simp only []) hg4)
  isplitl [Hw5]
  · iexists _, _
    isplitr [Hw5]
    swap
    · unfold wFl; iexact Hw5
    · ipureintro
      exact chunk_ok5 (F := F) m d L ⟨7, seven_lt⟩ hk8 g5 (gOK_congr (F := F) m d L _ _ _ (by simp only []; omega) g5 (by simp only []) hg5)
  isplitl [Hw6]
  · iexists _, _
    isplitr [Hw6]
    swap
    · unfold wFl; iexact Hw6
    · ipureintro
      exact chunk_ok6 (F := F) m d L ⟨7, seven_lt⟩ hk8 g6 (gOK_congr (F := F) m d L _ _ _ (by simp only []; omega) g6 (by simp only []) hg6)
  isplitl [Hw7]
  · iexists _, _
    isplitr [Hw7]
    swap
    · unfold wFl; iexact Hw7
    · ipureintro
      exact chunk_ok7 (F := F) m d L ⟨7, seven_lt⟩ hk8 g7 (gOK_congr (F := F) m d L _ _ _ (by simp only []; omega) g7 (by simp only []) hg7)
  isplitl [Hw8]
  · iexists _, _
    isplitr [Hw8]
    swap
    · unfold wFl; iexact Hw8
    · ipureintro
      exact chunk_ok8 (F := F) m d L ⟨7, seven_lt⟩ hk8 g8 (gOK_congr (F := F) m d L _ _ _ (by simp only []; omega) g8 (by simp only []) hg8)
  isplitl [Hw9]
  · iexists _, _
    isplitr [Hw9]
    swap
    · unfold wFl; iexact Hw9
    · ipureintro
      exact chunk_ok9 (F := F) m d L ⟨7, seven_lt⟩ hk8 g9 (gOK_congr (F := F) m d L _ _ _ (by simp only []; omega) g9 (by simp only []) hg9)
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hg6]; · iexact Hg6
  isplitl [Hg7]; · iexact Hg7
  isplitl [Hg8]; · iexact Hg8
  isplitl [Hg9]; · iexact Hg9
  isplitl [Hg0_src]; · iexact Hg0_src
  isplitl [Hg1_src]; · iexact Hg1_src
  isplitl [Hg2_src]; · iexact Hg2_src
  isplitl [Hg3_src]; · iexact Hg3_src
  isplitl [Hg4_src]; · iexact Hg4_src
  isplitl [Hg5_src]; · iexact Hg5_src
  isplitl [Hg6_src]; · iexact Hg6_src
  isplitl [Hg7_src]; · iexact Hg7_src
  isplitl [Hg8_src]; · iexact Hg8_src
  isplitl [Hg9_src]; · iexact Hg9_src
  isplitl [Hk0 Hk1 Hk2 Hk3 Hk4 Hk5 Hk6 Hk7 Hk8 Hk9 HLW]
  · isplitl [Hk0 Hk1 Hk2 Hk3 Hk4 Hk5 Hk6 Hk7 Hk8 Hk9]
    · isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      isplitl [Hk8]; · iexact Hk8
      iexact Hk9
    · iexact HLW
  isplitl [HCH]; · iexact HCH
  iexists _
  isplitr [HO]
  swap
  · iexact HO
  · ipureintro
    exact ins_ok W _ _ (ins_ok W _ _ (ins_ok W _ _ (ins_ok W _ _ (ins_ok W _ _ (ins_ok W _ _ (ins_ok W _ _ (ins_ok W _ _ (ins_ok W _ _ (ins_ok W _ _ (hW') rfl) rfl) rfl) rfl) rfl) rfl) rfl) rfl) rfl) rfl

end Cert.Proof.KernelIdealBody

end
-- ==== Proof.KIExit.lean ====
/-
  Putting one worker's task back together: the shapes its resources are held in while the task runs, rejoined into the
  shapes the task's statement names.

  * The index scratch's eighty windows, each held through the window itself, are the scratch held whole; the first
    trip's ten windows can be set apart from the other seven trips'.
  * The worker's rows of the flattened list, its ten shares of the table (each held through the window every transfer
    addresses) and its eighty chunks of the result are what the worker was handed, at the chunks' contents.
  * The scratch's windows, the ten row buffers (each held at its memref's own elements, at some contents) and the
    subcore's remaining buffers are all its scoped buffers at some contents; its twenty-one DMA semaphores at zero are
    all its scoped semaphores at zero.
-/
import proofs.«206832_g86208583565466_cont_sun_m_1057_30_alg».proof.Proof.KIAux

noncomputable section

namespace Cert.Proof.KernelIdealExit

open Cert.KernelIdeal Cert.KernelIdeal.Gen Cert.Proof.KernelIdealCommon Cert.Proof.KernelIdealTile Cert.Proof.KernelIdealAux

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg1_scv : Memref Cert.KernelIdeal.sig Kind.scVector Space.hbm Cert.KernelIdeal.S1000000x128 EltTy.f32)
local notation "lV" => (Memref.whole Cert.KernelIdeal.cc0_scratch0 : Memref Cert.KernelIdeal.sig Kind.scVector Space.vmem Cert.KernelIdeal.S6400 EltTy.i32)

/-! ## The index scratch's windows, each held through itself -/

/-- The eighty windows, each held through itself at the worker's words, are the scratch held whole at those words. -/
theorem list_back :
    ((bigSep Finset.univ fun t : Fin 8 => bigSep Finset.univ fun j : Fin 10 =>
        ((lSl (800 * t.val + 80 * j.val) (win_inb t j)).view.loc (V d (cV L) (jV L)) ↦[(lSl (800 * t.val + 80 * j.val) (win_inb t j)).view.set]{fullShare} lst0 m d L)) : sProp 𝕄)
      = ((lV).view.loc (V d (cV L) (jV L)) ↦{fullShare} lst0 m d L) :=
  (bigSep_congr fun t _ => bigSep_congr fun j _ => lSl_own (F := F) d L _ (win_inb t j) fullShare (lst0 m d L)).trans
    (lst_windows (F := F) d L (lst0 m d L)).symm

/-- The scratch held whole at the worker's words: the first trip's ten windows, and the other seven trips'. -/
theorem list_entry :
    ((lV).view.loc (V d (cV L) (jV L)) ↦{fullShare} lst0 m d L : sProp 𝕄)
      = iprop((bigSep Finset.univ fun j : Fin 10 =>
            ((lSl (800 * (0 : Fin 8).val + 80 * j.val) (win_inb 0 j)).view.loc (V d (cV L) (jV L)) ↦[(lSl (800 * (0 : Fin 8).val + 80 * j.val) (win_inb 0 j)).view.set]{fullShare} lst0 m d L))
          ∗ bigSep (Finset.univ.filter fun t : Fin 8 => t.val ≠ 0) fun t : Fin 8 => bigSep Finset.univ fun j : Fin 10 =>
              ((lSl (800 * t.val + 80 * j.val) (win_inb t j)).view.loc (V d (cV L) (jV L)) ↦[(lSl (800 * t.val + 80 * j.val) (win_inb t j)).view.set]{fullShare} lst0 m d L)) := by
  rw [← list_back m d L]
  have hs : (Finset.univ : Finset (Fin 8)) = insert (0 : Fin 8) (Finset.univ.filter fun t : Fin 8 => t.val ≠ 0) := by
    ext t
    refine ⟨fun _ => ?_, fun _ => Finset.mem_univ _⟩
    by_cases h : t = 0
    · exact h ▸ Finset.mem_insert_self _ _
    · exact Finset.mem_insert_of_mem (Finset.mem_filter.mpr ⟨Finset.mem_univ _, fun e => h (Fin.ext e)⟩)
  conv_lhs => rw [hs]
  rw [BI.bigSep_insert (by simp)]
  rfl

/-! ## What the worker was handed, back -/

section Tile
variable [FloatOps F]

/-- The worker's rows of the list, its ten table shares and its eighty chunks at contents `f` are its part at `f`. -/
theorem tile_back (f : Buf (Elt F) (oLoc d)) :
    (iprop(((iRowK L).view.loc (V d (cV L) (jV L)) ↦[(iRowK L).view.set]{fullShare} ids0 m d)
        ∗ ((xSl).view.loc (V d (cV L) (jV L)) ↦[(xSl).view.set]{xq (wL L) 0} m (xLoc d))
        ∗ ((xSl).view.loc (V d (cV L) (jV L)) ↦[(xSl).view.set]{xq (wL L) 1} m (xLoc d))
        ∗ ((xSl).view.loc (V d (cV L) (jV L)) ↦[(xSl).view.set]{xq (wL L) 2} m (xLoc d))
        ∗ ((xSl).view.loc (V d (cV L) (jV L)) ↦[(xSl).view.set]{xq (wL L) 3} m (xLoc d))
        ∗ ((xSl).view.loc (V d (cV L) (jV L)) ↦[(xSl).view.set]{xq (wL L) 4} m (xLoc d))
        ∗ ((xSl).view.loc (V d (cV L) (jV L)) ↦[(xSl).view.set]{xq (wL L) 5} m (xLoc d))
        ∗ ((xSl).view.loc (V d (cV L) (jV L)) ↦[(xSl).view.set]{xq (wL L) 6} m (xLoc d))
        ∗ ((xSl).view.loc (V d (cV L) (jV L)) ↦[(xSl).view.set]{xq (wL L) 7} m (xLoc d))
        ∗ ((xSl).view.loc (V d (cV L) (jV L)) ↦[(xSl).view.set]{xq (wL L) 8} m (xLoc d))
        ∗ ((xSl).view.loc (V d (cV L) (jV L)) ↦[(xSl).view.set]{xq (wL L) 9} m (xLoc d))
        ∗ (bigSep Finset.univ fun t : Fin 8 => bigSep Finset.univ fun j : Fin 10 => oRowPts d (ck (wL L) t j) f)) : sProp 𝕄)
      ⊢ tilePts m d (wL L) f := by
  unfold tilePts
  rw [bigSep_fin10 (fun j => xShPts m d (wL L) j)]
  iintro ⟨Hi, Hx0, Hx1, Hx2, Hx3, Hx4, Hx5, Hx6, Hx7, Hx8, Hx9, Ho⟩
  ihave Hi' := (Entails.of_eq (pts_iRowK (F := F) d L (ids0 m d))) $$ Hi
  ihave Hy0 := (Entails.of_eq ((xSl_whole (F := F) d L (xq (wL L) 0) (m (xLoc d))).trans (pts_xV (F := F) d L _ _))) $$ Hx0
  ihave Hy1 := (Entails.of_eq ((xSl_whole (F := F) d L (xq (wL L) 1) (m (xLoc d))).trans (pts_xV (F := F) d L _ _))) $$ Hx1
  ihave Hy2 := (Entails.of_eq ((xSl_whole (F := F) d L (xq (wL L) 2) (m (xLoc d))).trans (pts_xV (F := F) d L _ _))) $$ Hx2
  ihave Hy3 := (Entails.of_eq ((xSl_whole (F := F) d L (xq (wL L) 3) (m (xLoc d))).trans (pts_xV (F := F) d L _ _))) $$ Hx3
  ihave Hy4 := (Entails.of_eq ((xSl_whole (F := F) d L (xq (wL L) 4) (m (xLoc d))).trans (pts_xV (F := F) d L _ _))) $$ Hx4
  ihave Hy5 := (Entails.of_eq ((xSl_whole (F := F) d L (xq (wL L) 5) (m (xLoc d))).trans (pts_xV (F := F) d L _ _))) $$ Hx5
  ihave Hy6 := (Entails.of_eq ((xSl_whole (F := F) d L (xq (wL L) 6) (m (xLoc d))).trans (pts_xV (F := F) d L _ _))) $$ Hx6
  ihave Hy7 := (Entails.of_eq ((xSl_whole (F := F) d L (xq (wL L) 7) (m (xLoc d))).trans (pts_xV (F := F) d L _ _))) $$ Hx7
  ihave Hy8 := (Entails.of_eq ((xSl_whole (F := F) d L (xq (wL L) 8) (m (xLoc d))).trans (pts_xV (F := F) d L _ _))) $$ Hx8
  ihave Hy9 := (Entails.of_eq ((xSl_whole (F := F) d L (xq (wL L) 9) (m (xLoc d))).trans (pts_xV (F := F) d L _ _))) $$ Hx9
  isplitl [Hi']; · iexact Hi'
  isplitr [Ho]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    isplitl [Hy8]; · iexact Hy8
    iexact Hy9
  · iexact Ho

end Tile

/-! ## The subcore's scoped buffers and semaphores, back -/

/-- The scratch's windows, the ten row buffers at some contents and the remaining buffers are the scoped buffers. -/
theorem bufs_back (hF : (K (F := F)).Facts) :
    (iprop((bigSep Finset.univ fun t : Fin 8 => bigSep Finset.univ fun j : Fin 10 =>
        ((lSl (800 * t.val + 80 * j.val) (win_inb t j)).view.loc (V d (cV L) (jV L)) ↦[(lSl (800 * t.val + 80 * j.val) (win_inb t j)).view.set]{fullShare} lst0 m d L))
        ∗ (∃ f, ((Memref.whole cc0_scratch1).view.loc (V d (cV L) (jV L)) ↦[(Memref.whole cc0_scratch1).view.set]{fullShare} f))
        ∗ (∃ f, ((Memref.whole cc0_scratch2).view.loc (V d (cV L) (jV L)) ↦[(Memref.whole cc0_scratch2).view.set]{fullShare} f))
        ∗ (∃ f, ((Memref.whole cc0_scratch3).view.loc (V d (cV L) (jV L)) ↦[(Memref.whole cc0_scratch3).view.set]{fullShare} f))
        ∗ (∃ f, ((Memref.whole cc0_scratch4).view.loc (V d (cV L) (jV L)) ↦[(Memref.whole cc0_scratch4).view.set]{fullShare} f))
        ∗ (∃ f, ((Memref.whole cc0_scratch5).view.loc (V d (cV L) (jV L)) ↦[(Memref.whole cc0_scratch5).view.set]{fullShare} f))
        ∗ (∃ f, ((Memref.whole cc0_scratch6).view.loc (V d (cV L) (jV L)) ↦[(Memref.whole cc0_scratch6).view.set]{fullShare} f))
        ∗ (∃ f, ((Memref.whole cc0_scratch7).view.loc (V d (cV L) (jV L)) ↦[(Memref.whole cc0_scratch7).view.set]{fullShare} f))
        ∗ (∃ f, ((Memref.whole cc0_scratch8).view.loc (V d (cV L) (jV L)) ↦[(Memref.whole cc0_scratch8).view.set]{fullShare} f))
        ∗ (∃ f, ((Memref.whole cc0_scratch9).view.loc (V d (cV L) (jV L)) ↦[(Memref.whole cc0_scratch9).view.set]{fullShare} f))
        ∗ (∃ f, ((Memref.whole cc0_scratch10).view.loc (V d (cV L) (jV L)) ↦[(Memref.whole cc0_scratch10).view.set]{fullShare} f))
        ∗ bigSep ((((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)).erase ((Proc.scVector (cV L) (jV L)).devRef cc0_scratch9)).erase ((Proc.scVector (cV L) (jV L)).devRef cc0_scratch10)) fun b => iprop(∃ f, ((d, b) : Loc nD τ sig) ↦{fullShare} f)) : sProp 𝕄)
      ⊢ scopedBufs (V d (cV L) (jV L)) := by
  rw [(K (F := F)).scopedBufs_V hF d (cV L) (jV L), ownBufs_V]
  iintro ⟨Hl, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, Hrest⟩
  ihave Hl' := (Entails.of_eq ((list_back m d L).trans (pts_lV (F := F) d L _))) $$ Hl
  ihave G1 := (Entails.of_eq ((whole_own (F := F) d L cc0_scratch1 fullShare f1).symm.trans (pts_whole (F := F) d L cc0_scratch1 f1))) $$ H1
  ihave G2 := (Entails.of_eq ((whole_own (F := F) d L cc0_scratch2 fullShare f2).symm.trans (pts_whole (F := F) d L cc0_scratch2 f2))) $$ H2
  ihave G3 := (Entails.of_eq ((whole_own (F := F) d L cc0_scratch3 fullShare f3).symm.trans (pts_whole (F := F) d L cc0_scratch3 f3))) $$ H3
  ihave G4 := (Entails.of_eq ((whole_own (F := F) d L cc0_scratch4 fullShare f4).symm.trans (pts_whole (F := F) d L cc0_scratch4 f4))) $$ H4
  ihave G5 := (Entails.of_eq ((whole_own (F := F) d L cc0_scratch5 fullShare f5).symm.trans (pts_whole (F := F) d L cc0_scratch5 f5))) $$ H5
  ihave G6 := (Entails.of_eq ((whole_own (F := F) d L cc0_scratch6 fullShare f6).symm.trans (pts_whole (F := F) d L cc0_scratch6 f6))) $$ H6
  ihave G7 := (Entails.of_eq ((whole_own (F := F) d L cc0_scratch7 fullShare f7).symm.trans (pts_whole (F := F) d L cc0_scratch7 f7))) $$ H7
  ihave G8 := (Entails.of_eq ((whole_own (F := F) d L cc0_scratch8 fullShare f8).symm.trans (pts_whole (F := F) d L cc0_scratch8 f8))) $$ H8
  ihave G9 := (Entails.of_eq ((whole_own (F := F) d L cc0_scratch9 fullShare f9).symm.trans (pts_whole (F := F) d L cc0_scratch9 f9))) $$ H9
  ihave G10 := (Entails.of_eq ((whole_own (F := F) d L cc0_scratch10 fullShare f10).symm.trans (pts_whole (F := F) d L cc0_scratch10 f10))) $$ H10
  isplitl [Hl']
  · iexists (lst0 m d L); iexact Hl'
  isplitl [G1]
  · iexists f1; iexact G1
  isplitl [G2]
  · iexists f2; iexact G2
  isplitl [G3]
  · iexists f3; iexact G3
  isplitl [G4]
  · iexists f4; iexact G4
  isplitl [G5]
  · iexists f5; iexact G5
  isplitl [G6]
  · iexists f6; iexact G6
  isplitl [G7]
  · iexists f7; iexact G7
  isplitl [G8]
  · iexists f8; iexact G8
  isplitl [G9]
  · iexists f9; iexact G9
  isplitl [G10]
  · iexists f10; iexact G10
  iexact Hrest

/-- The twenty-one DMA semaphores at zero are the scoped semaphores at zero. -/
theorem sems_back :
    (iprop(semVal ((V d (cV L) (jV L)), SemLoc.dma cc0_scratch11.sem) 0
          ∗ semVal ((V d (cV L) (jV L)), SemLoc.dma cc0_scratch12.sem) 0
          ∗ semVal ((V d (cV L) (jV L)), SemLoc.dma cc0_scratch13.sem) 0
          ∗ semVal ((V d (cV L) (jV L)), SemLoc.dma cc0_scratch14.sem) 0
          ∗ semVal ((V d (cV L) (jV L)), SemLoc.dma cc0_scratch15.sem) 0
          ∗ semVal ((V d (cV L) (jV L)), SemLoc.dma cc0_scratch16.sem) 0
          ∗ semVal ((V d (cV L) (jV L)), SemLoc.dma cc0_scratch17.sem) 0
          ∗ semVal ((V d (cV L) (jV L)), SemLoc.dma cc0_scratch18.sem) 0
          ∗ semVal ((V d (cV L) (jV L)), SemLoc.dma cc0_scratch19.sem) 0
          ∗ semVal ((V d (cV L) (jV L)), SemLoc.dma cc0_scratch20.sem) 0
          ∗ semVal ((V d (cV L) (jV L)), SemLoc.dma cc0_scratch21.sem) 0
          ∗ semVal ((V d (cV L) (jV L)), SemLoc.dma cc0_scratch22.sem) 0
          ∗ semVal ((V d (cV L) (jV L)), SemLoc.dma cc0_scratch23.sem) 0
          ∗ semVal ((V d (cV L) (jV L)), SemLoc.dma cc0_scratch24.sem) 0
          ∗ semVal ((V d (cV L) (jV L)), SemLoc.dma cc0_scratch25.sem) 0
          ∗ semVal ((V d (cV L) (jV L)), SemLoc.dma cc0_scratch26.sem) 0
          ∗ semVal ((V d (cV L) (jV L)), SemLoc.dma cc0_scratch27.sem) 0
          ∗ semVal ((V d (cV L) (jV L)), SemLoc.dma cc0_scratch28.sem) 0
          ∗ semVal ((V d (cV L) (jV L)), SemLoc.dma cc0_scratch29.sem) 0
          ∗ semVal ((V d (cV L) (jV L)), SemLoc.dma cc0_scratch30.sem) 0
          ∗ semVal ((V d (cV L) (jV L)), SemLoc.dma cc0_scoped0.sem) 0) : sProp 𝕄)
      ⊢ scopedSems0 (V d (cV L) (jV L)) := by
  rw [SparseCore.Cfg.scopedSems0_V (Val := Elt F) d (cV L) (jV L), ownSems0_V]

end Cert.Proof.KernelIdealExit

end
-- ==== Proof.KIBody.lean ====
/-
  One worker's task: the index fetch, the ten first gathers, the loop by its invariant, the last write-outs' waits; and the obligation the launch theorem asks of every vector subcore.
-/
import proofs.«206832_g86208583565466_cont_sun_m_1057_30_alg».proof.Proof.KITile
import proofs.«206832_g86208583565466_cont_sun_m_1057_30_alg».proof.Proof.KIAux
import proofs.«206832_g86208583565466_cont_sun_m_1057_30_alg».proof.Proof.KIInv
import proofs.«206832_g86208583565466_cont_sun_m_1057_30_alg».proof.Proof.KITripA
import proofs.«206832_g86208583565466_cont_sun_m_1057_30_alg».proof.Proof.KITripB
import proofs.«206832_g86208583565466_cont_sun_m_1057_30_alg».proof.Proof.KIExit

noncomputable section

namespace Cert.Proof.KernelIdealBody

open Cert.KernelIdeal Cert.KernelIdeal.Gen Cert.Proof.KernelIdealCommon Cert.Proof.KernelIdealTile Cert.Proof.KernelIdealAux Cert.Proof.KernelIdealExit

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg1_scv : Memref Cert.KernelIdeal.sig Kind.scVector Space.hbm Cert.KernelIdeal.S1000000x128 EltTy.f32)
local notation "iV" => (Memref.whole Cert.KernelIdeal.main_v0_scv : Memref Cert.KernelIdeal.sig Kind.scVector Space.hbm Cert.KernelIdeal.S204800 EltTy.i32)
local notation "oV" => (Memref.whole Cert.KernelIdeal.main_v1_scv : Memref Cert.KernelIdeal.sig Kind.scVector Space.hbm Cert.KernelIdeal.S204800x128 EltTy.f32)
local notation "lV" => (Memref.whole Cert.KernelIdeal.cc0_scratch0 : Memref Cert.KernelIdeal.sig Kind.scVector Space.vmem Cert.KernelIdeal.S6400 EltTy.i32)
local notation "b0V" => (Memref.whole Cert.KernelIdeal.cc0_scratch1 : Memref Cert.KernelIdeal.sig Kind.scVector Space.vmem Cert.KernelIdeal.S80x128 EltTy.f32)
local notation "b1V" => (Memref.whole Cert.KernelIdeal.cc0_scratch2 : Memref Cert.KernelIdeal.sig Kind.scVector Space.vmem Cert.KernelIdeal.S80x128 EltTy.f32)
local notation "b2V" => (Memref.whole Cert.KernelIdeal.cc0_scratch3 : Memref Cert.KernelIdeal.sig Kind.scVector Space.vmem Cert.KernelIdeal.S80x128 EltTy.f32)
local notation "b3V" => (Memref.whole Cert.KernelIdeal.cc0_scratch4 : Memref Cert.KernelIdeal.sig Kind.scVector Space.vmem Cert.KernelIdeal.S80x128 EltTy.f32)
local notation "b4V" => (Memref.whole Cert.KernelIdeal.cc0_scratch5 : Memref Cert.KernelIdeal.sig Kind.scVector Space.vmem Cert.KernelIdeal.S80x128 EltTy.f32)
local notation "b5V" => (Memref.whole Cert.KernelIdeal.cc0_scratch6 : Memref Cert.KernelIdeal.sig Kind.scVector Space.vmem Cert.KernelIdeal.S80x128 EltTy.f32)
local notation "b6V" => (Memref.whole Cert.KernelIdeal.cc0_scratch7 : Memref Cert.KernelIdeal.sig Kind.scVector Space.vmem Cert.KernelIdeal.S80x128 EltTy.f32)
local notation "b7V" => (Memref.whole Cert.KernelIdeal.cc0_scratch8 : Memref Cert.KernelIdeal.sig Kind.scVector Space.vmem Cert.KernelIdeal.S80x128 EltTy.f32)
local notation "b8V" => (Memref.whole Cert.KernelIdeal.cc0_scratch9 : Memref Cert.KernelIdeal.sig Kind.scVector Space.vmem Cert.KernelIdeal.S80x128 EltTy.f32)
local notation "b9V" => (Memref.whole Cert.KernelIdeal.cc0_scratch10 : Memref Cert.KernelIdeal.sig Kind.scVector Space.vmem Cert.KernelIdeal.S80x128 EltTy.f32)
local notation "thr" => (V d (cV L) (jV L))

variable [FloatOps F]

/-- At the trip count the invariant is the exit state. -/
theorem inv_exit (O : CellTallies nD τ sig (HIx 1)) (W : Waits sig (HIx 1)) (acc : BitVec 32) :
    inv m d L O W (Scf.trips k0_t1_loop.lb k0_t1_loop.ub k0_t1_loop.st) acc = B m d L O W := by
  unfold inv
  rw [dif_neg (show ¬ Scf.trips k0_t1_loop.lb k0_t1_loop.ub k0_t1_loop.st < 8 by
    have e : Scf.trips k0_t1_loop.lb k0_t1_loop.ub k0_t1_loop.st = 8 := trips_eq
    omega)]

set_option maxHeartbeats 16000000 in
/-- The task on vector subcore `(L 0, L 1)`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tilePts m d (wL L) (m (oLoc d))
        ∗ scopedBufs thr ∗ scopedSems0 thr ∗ owes thr O W)
      ⊢ wp frame (wpE (defs₀ (F := F)) 𝒱₀ thr none) Set.univ
          (cc0__gather_kernel L xV (Memref.isWhole_whole _) iV (Memref.isWhole_whole _) oV (Memref.isWhole_whole _) lV (Memref.isWhole_whole _)
        b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) b8V (Memref.isWhole_whole _) b9V (Memref.isWhole_whole _)
        cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scoped0)
          fun _ => iprop(tilePts m d (wL L) (rows0 m d)
            ∗ scopedBufs thr ∗ scopedSems0 thr
            ∗ ∃ W', ⌜∀ p ∈ W', p ∈ W ∨ p.2 = none⌝ ∗ owes thr O W') := by
  have hin := fun R hR x => list_inb (F := F) m d L hpre R hR x
  have hinS : ∀ (n : ℕ) (h : n + 80 ≤ 6400) (x : S80.Idx), ((lSl n h).view.read (Elt F) (lst0 m d L) x).toNat < S1000000x128.size gathers_S1000000x128_S80x128.axis :=
    fun n h x => list_inb (F := F) m d L hpre (Rect.unit (s := S6400) ![n] S80.size (lSl_inb n h)) (fun _ => rfl) x
  simp only [cc0__gather_kernel_eq_skeleton]; unfold cc0__gather_kernel_skel
  iintro ⟨#Hlv, -, Htile, Hsb, Hss, HO⟩
  ihave Hsb' := (Entails.of_eq (((K (F := F)).scopedBufs_V hF d (cV L) (jV L)).trans (ownBufs_V (F := F) d L))) $$ Hsb
  ihave Hss' := (Entails.of_eq ((SparseCore.Cfg.scopedSems0_V (Val := Elt F) d (cV L) (jV L)).trans (ownSems0_V (F := F) d L))) $$ Hss
  icases Hsb' with ⟨⟨%fl, Hl⟩, ⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, ⟨%f9, Hb9⟩, Hbufs⟩
  icases Hss' with ⟨Hg0, Hg1, Hg2, Hg3, Hg4, Hg5, Hg6, Hg7, Hg8, Hg9, Hw0, Hw1, Hw2, Hw3, Hw4, Hw5, Hw6, Hw7, Hw8, Hw9, Hs0⟩
  unfold tilePts
  icases Htile with ⟨Hi, Hxs, Ho⟩
  ihave Hxs' := (Entails.of_eq (bigSep_fin10 (fun j => xShPts m d (wL L) j))) $$ Hxs
  icases Hxs' with ⟨Hx0, Hx1, Hx2, Hx3, Hx4, Hx5, Hx6, Hx7, Hx8, Hx9⟩
  ihave Hmw := (show levAts (K (F := F)).L (K (F := F)).lev ⊢ Transfers.MayWaits thr (default : HIx 1) O from
    (K (F := F)).mayWaits_none hO) $$ Hlv
  ihave Hi' := (Entails.of_eq (pts_iRowK (F := F) d L _).symm) $$ Hi
  ihave Hl' := (Entails.of_eq (pts_whole (F := F) d L cc0_scratch0 _).symm) $$ Hl
  -- the index fetch and its wait
  sl_exec
  -- what the fetch landed: the worker's words; cut into the eighty windows, row 0's handed to the first gathers
  ihave Hl2 := (Entails.of_eq (congrArg (fun f => ((lV).view.loc thr ↦{fullShare} f : sProp 𝕄)) (fetch_lands (F := F) m d L fl (tile_body.sl.dma0 m d L) rfl))) $$ Hl'
  ihave Hl3 := (Entails.of_eq ((lst_rows (F := F) m d L).trans (rows_at (F := F) (fun t => lRow m d L t) (0 : Fin 8)))) $$ Hl2
  icases Hl3 with ⟨Hrow0, HLW⟩
  unfold lRow
  ihave Hrow0' := (Entails.of_eq (bigSep_fin10 (fun j : Fin 10 => lWinPts m d L (800 * (0 : Fin 8).val + 80 * j.val) (win_inb 0 j)))) $$ Hrow0
  icases Hrow0' with ⟨Hl0, Hl1, Hl2, Hl3, Hl4, Hl5, Hl6, Hl7, Hl8, Hl9⟩
  ihave Hl0' := (Entails.of_eq (lWinPts_congr (F := F) m d L _ 0 _ (by omega) rfl)) $$ Hl0
  ihave Hl1' := (Entails.of_eq (lWinPts_congr (F := F) m d L _ 80 _ (by omega) rfl)) $$ Hl1
  ihave Hl2' := (Entails.of_eq (lWinPts_congr (F := F) m d L _ 160 _ (by omega) rfl)) $$ Hl2
  ihave Hl3' := (Entails.of_eq (lWinPts_congr (F := F) m d L _ 240 _ (by omega) rfl)) $$ Hl3
  ihave Hl4' := (Entails.of_eq (lWinPts_congr (F := F) m d L _ 320 _ (by omega) rfl)) $$ Hl4
  ihave Hl5' := (Entails.of_eq (lWinPts_congr (F := F) m d L _ 400 _ (by omega) rfl)) $$ Hl5
  ihave Hl6' := (Entails.of_eq (lWinPts_congr (F := F) m d L _ 480 _ (by omega) rfl)) $$ Hl6
  ihave Hl7' := (Entails.of_eq (lWinPts_congr (F := F) m d L _ 560 _ (by omega) rfl)) $$ Hl7
  ihave Hl8' := (Entails.of_eq (lWinPts_congr (F := F) m d L _ 640 _ (by omega) rfl)) $$ Hl8
  ihave Hl9' := (Entails.of_eq (lWinPts_congr (F := F) m d L _ 720 _ (by omega) rfl)) $$ Hl9
  ihave Hb0' := (Entails.of_eq ((pts_whole (F := F) d L cc0_scratch1 _).symm.trans (whole_own (F := F) d L cc0_scratch1 fullShare _))) $$ Hb0
  ihave Hb1' := (Entails.of_eq ((pts_whole (F := F) d L cc0_scratch2 _).symm.trans (whole_own (F := F) d L cc0_scratch2 fullShare _))) $$ Hb1
  ihave Hb2' := (Entails.of_eq ((pts_whole (F := F) d L cc0_scratch3 _).symm.trans (whole_own (F := F) d L cc0_scratch3 fullShare _))) $$ Hb2
  ihave Hb3' := (Entails.of_eq ((pts_whole (F := F) d L cc0_scratch4 _).symm.trans (whole_own (F := F) d L cc0_scratch4 fullShare _))) $$ Hb3
  ihave Hb4' := (Entails.of_eq ((pts_whole (F := F) d L cc0_scratch5 _).symm.trans (whole_own (F := F) d L cc0_scratch5 fullShare _))) $$ Hb4
  ihave Hb5' := (Entails.of_eq ((pts_whole (F := F) d L cc0_scratch6 _).symm.trans (whole_own (F := F) d L cc0_scratch6 fullShare _))) $$ Hb5
  ihave Hb6' := (Entails.of_eq ((pts_whole (F := F) d L cc0_scratch7 _).symm.trans (whole_own (F := F) d L cc0_scratch7 fullShare _))) $$ Hb6
  ihave Hb7' := (Entails.of_eq ((pts_whole (F := F) d L cc0_scratch8 _).symm.trans (whole_own (F := F) d L cc0_scratch8 fullShare _))) $$ Hb7
  ihave Hb8' := (Entails.of_eq ((pts_whole (F := F) d L cc0_scratch9 _).symm.trans (whole_own (F := F) d L cc0_scratch9 fullShare _))) $$ Hb8
  ihave Hb9' := (Entails.of_eq ((pts_whole (F := F) d L cc0_scratch10 _).symm.trans (whole_own (F := F) d L cc0_scratch10 fullShare _))) $$ Hb9
  ihave Hx0' := (Entails.of_eq ((pts_xV (F := F) d L _ _).symm.trans (xSl_whole (F := F) d L _ _).symm)) $$ Hx0
  ihave Hx1' := (Entails.of_eq ((pts_xV (F := F) d L _ _).symm.trans (xSl_whole (F := F) d L _ _).symm)) $$ Hx1
  ihave Hx2' := (Entails.of_eq ((pts_xV (F := F) d L _ _).symm.trans (xSl_whole (F := F) d L _ _).symm)) $$ Hx2
  ihave Hx3' := (Entails.of_eq ((pts_xV (F := F) d L _ _).symm.trans (xSl_whole (F := F) d L _ _).symm)) $$ Hx3
  ihave Hx4' := (Entails.of_eq ((pts_xV (F := F) d L _ _).symm.trans (xSl_whole (F := F) d L _ _).symm)) $$ Hx4
  ihave Hx5' := (Entails.of_eq ((pts_xV (F := F) d L _ _).symm.trans (xSl_whole (F := F) d L _ _).symm)) $$ Hx5
  ihave Hx6' := (Entails.of_eq ((pts_xV (F := F) d L _ _).symm.trans (xSl_whole (F := F) d L _ _).symm)) $$ Hx6
  ihave Hx7' := (Entails.of_eq ((pts_xV (F := F) d L _ _).symm.trans (xSl_whole (F := F) d L _ _).symm)) $$ Hx7
  ihave Hx8' := (Entails.of_eq ((pts_xV (F := F) d L _ _).symm.trans (xSl_whole (F := F) d L _ _).symm)) $$ Hx8
  ihave Hx9' := (Entails.of_eq ((pts_xV (F := F) d L _ _).symm.trans (xSl_whole (F := F) d L _ _).symm)) $$ Hx9
  unfold lWinPts lSl xSl
  -- the ten first gathers
  sl_exec
  -- the loop, by its invariant
  sl_for (inv m d L O W) $$ [Hmw Hg0 Hg1 Hg2 Hg3 Hg4 Hg5 Hg6 Hg7 Hg8 Hg9 Hw0 Hw1 Hw2 Hw3 Hw4 Hw5 Hw6 Hw7 Hw8 Hw9 HLW Ho HO]
  case region =>
    intro k acc
    by_cases hk : k.val < 7
    · exact trip_lt (F := F) m d L O W hpre _ k acc hk
    · exact trip_last (F := F) m d L O W hpre _ k acc (by have h := k.isLt; have e : Scf.trips k0_t1_loop.lb k0_t1_loop.ub k0_t1_loop.st = 8 := trips_eq; omega)
  · -- the invariant at entry: the ten first gathers are row 0's
    unfold inv
    rw [dif_pos (show 0 < 8 by omega)]
    unfold A
    rw [chunks_zero (F := F) m d L]
    unfold lRow lWinPts gFl lSl xSl
    isplitl [Hmw]; · iexact Hmw
    isplitl [Hg0]
    · iexists _
      isplitr [Hg0]
      swap
      · iexact Hg0
      · ipureintro
        exact gOK_congr (F := F) m d L 0 _ (by omega) _ _ (by omega)
          (fun y => (whole_write_apply (F := F) cc0_scratch1 f0 _ y).trans (gather_rows0 (F := F) m d L hpre 0 (by omega) _ _ y))
    isplitl [Hg1]
    · iexists _
      isplitr [Hg1]
      swap
      · iexact Hg1
      · ipureintro
        exact gOK_congr (F := F) m d L 80 _ (by omega) _ _ (by omega)
          (fun y => (whole_write_apply (F := F) cc0_scratch2 f1 _ y).trans (gather_rows0 (F := F) m d L hpre 80 (by omega) _ _ y))
    isplitl [Hg2]
    · iexists _
      isplitr [Hg2]
      swap
      · iexact Hg2
      · ipureintro
        exact gOK_congr (F := F) m d L 160 _ (by omega) _ _ (by omega)
          (fun y => (whole_write_apply (F := F) cc0_scratch3 f2 _ y).trans (gather_rows0 (F := F) m d L hpre 160 (by omega) _ _ y))
    isplitl [Hg3]
    · iexists _
      isplitr [Hg3]
      swap
      · iexact Hg3
      · ipureintro
        exact gOK_congr (F := F) m d L 240 _ (by omega) _ _ (by omega)
          (fun y => (whole_write_apply (F := F) cc0_scratch4 f3 _ y).trans (gather_rows0 (F := F) m d L hpre 240 (by omega) _ _ y))
    isplitl [Hg4]
    · iexists _
      isplitr [Hg4]
      swap
      · iexact Hg4
      · ipureintro
        exact gOK_congr (F := F) m d L 320 _ (by omega) _ _ (by omega)
          (fun y => (whole_write_apply (F := F) cc0_scratch5 f4 _ y).trans (gather_rows0 (F := F) m d L hpre 320 (by omega) _ _ y))
    isplitl [Hg5]
    · iexists _
      isplitr [Hg5]
      swap
      · iexact Hg5
      · ipureintro
        exact gOK_congr (F := F) m d L 400 _ (by omega) _ _ (by omega)
          (fun y => (whole_write_apply (F := F) cc0_scratch6 f5 _ y).trans (gather_rows0 (F := F) m d L hpre 400 (by omega) _ _ y))
    isplitl [Hg6]
    · iexists _
      isplitr [Hg6]
      swap
      · iexact Hg6
      · ipureintro
        exact gOK_congr (F := F) m d L 480 _ (by omega) _ _ (by omega)
          (fun y => (whole_write_apply (F := F) cc0_scratch7 f6 _ y).trans (gather_rows0 (F := F) m d L hpre 480 (by omega) _ _ y))
    isplitl [Hg7]
    · iexists _
      isplitr [Hg7]
      swap
      · iexact Hg7
      · ipureintro
        exact gOK_congr (F := F) m d L 560 _ (by omega) _ _ (by omega)
          (fun y => (whole_write_apply (F := F) cc0_scratch8 f7 _ y).trans (gather_rows0 (F := F) m d L hpre 560 (by omega) _ _ y))
    isplitl [Hg8]
    · iexists _
      isplitr [Hg8]
      swap
      · iexact Hg8
      · ipureintro
        exact gOK_congr (F := F) m d L 640 _ (by omega) _ _ (by omega)
          (fun y => (whole_write_apply (F := F) cc0_scratch9 f8 _ y).trans (gather_rows0 (F := F) m d L hpre 640 (by omega) _ _ y))
    isplitl [Hg9]
    · iexists _
      isplitr [Hg9]
      swap
      · iexact Hg9
      · ipureintro
        exact gOK_congr (F := F) m d L 720 _ (by omega) _ _ (by omega)
          (fun y => (whole_write_apply (F := F) cc0_scratch10 f9 _ y).trans (gather_rows0 (F := F) m d L hpre 720 (by omega) _ _ y))
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [HLW]; · iexact HLW
    isplitl [Ho]; · iexact Ho
    iexists _
    isplitr [HO]
    swap
    · iexact HO
    · ipureintro
      exact ins_ok W _ _ (fun p hp => .inl hp) rfl
  -- after the loop: the ten write-outs of row 7 are awaited
  iintro %acc HI
  ihave HB := (Entails.of_eq (inv_exit (F := F) m d L O W acc)) $$ HI
  unfold B
  icases HB with ⟨-, ⟨%c0, %g0, %hc0, Hw0⟩, ⟨%c1, %g1, %hc1, Hw1⟩, ⟨%c2, %g2, %hc2, Hw2⟩, ⟨%c3, %g3, %hc3, Hw3⟩, ⟨%c4, %g4, %hc4, Hw4⟩, ⟨%c5, %g5, %hc5, Hw5⟩, ⟨%c6, %g6, %hc6, Hw6⟩, ⟨%c7, %g7, %hc7, Hw7⟩, ⟨%c8, %g8, %hc8, Hw8⟩, ⟨%c9, %g9, %hc9, Hw9⟩, Hg0, Hg1, Hg2, Hg3, Hg4, Hg5, Hg6, Hg7, Hg8, Hg9, Hx0, Hx1, Hx2, Hx3, Hx4, Hx5, Hx6, Hx7, Hx8, Hx9, HL, HCH, %W', %hW', HO⟩
  unfold wFl
  sl_exec
  sl_step
  -- row 7's chunks hold the looked-up rows; with the rows before, all chunks do
  ihave Hc0 := (Entails.of_eq ((pts_oCh0 (F := F) d L ⟨7, seven_lt⟩ (by simp only []; omega) _).trans (pointsTo_congr (ℓ := oLoc d) (q := fullShare) hc0))) $$ Hw0_dst
  ihave Hc1 := (Entails.of_eq ((pts_oCh1 (F := F) d L ⟨7, seven_lt⟩ (by simp only []; omega) _).trans (pointsTo_congr (ℓ := oLoc d) (q := fullShare) hc1))) $$ Hw1_dst
  ihave Hc2 := (Entails.of_eq ((pts_oCh2 (F := F) d L ⟨7, seven_lt⟩ (by simp only []; omega) _).trans (pointsTo_congr (ℓ := oLoc d) (q := fullShare) hc2))) $$ Hw2_dst
  ihave Hc3 := (Entails.of_eq ((pts_oCh3 (F := F) d L ⟨7, seven_lt⟩ (by simp only []; omega) _).trans (pointsTo_congr (ℓ := oLoc d) (q := fullShare) hc3))) $$ Hw3_dst
  ihave Hc4 := (Entails.of_eq ((pts_oCh4 (F := F) d L ⟨7, seven_lt⟩ (by simp only []; omega) _).trans (pointsTo_congr (ℓ := oLoc d) (q := fullShare) hc4))) $$ Hw4_dst
  ihave Hc5 := (Entails.of_eq ((pts_oCh5 (F := F) d L ⟨7, seven_lt⟩ (by simp only []; omega) _).trans (pointsTo_congr (ℓ := oLoc d) (q := fullShare) hc5))) $$ Hw5_dst
  ihave Hc6 := (Entails.of_eq ((pts_oCh6 (F := F) d L ⟨7, seven_lt⟩ (by simp only []; omega) _).trans (pointsTo_congr (ℓ := oLoc d) (q := fullShare) hc6))) $$ Hw6_dst
  ihave Hc7 := (Entails.of_eq ((pts_oCh7 (F := F) d L ⟨7, seven_lt⟩ (by simp only []; omega) _).trans (pointsTo_congr (ℓ := oLoc d) (q := fullShare) hc7))) $$ Hw7_dst
  ihave Hc8 := (Entails.of_eq ((pts_oCh8 (F := F) d L ⟨7, seven_lt⟩ (by simp only []; omega) _).trans (pointsTo_congr (ℓ := oLoc d) (q := fullShare) hc8))) $$ Hw8_dst
  ihave Hc9 := (Entails.of_eq ((pts_oCh9 (F := F) d L ⟨7, seven_lt⟩ (by simp only []; omega) _).trans (pointsTo_congr (ℓ := oLoc d) (q := fullShare) hc9))) $$ Hw9_dst
  ihave Hrow7 := (Entails.of_eq (bigSep_fin10 (fun j : Fin 10 => oRowPts d (ck (wL L) (⟨7, by omega⟩ : Fin 8) j) (rows0 m d))).symm) $$ [Hc0 Hc1 Hc2 Hc3 Hc4 Hc5 Hc6 Hc7 Hc8 Hc9]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hc9
  ihave Hall := (Entails.of_eq ((chunks_at_succ (F := F) m d L 7 (by omega)).symm.trans (chunks_eight (F := F) m d L))) $$ [Hrow7 HCH]
  · isplitl [Hrow7]; · iexact Hrow7
    iexact HCH
  -- the worker's parts, its own buffers, its own semaphores
  isplitl [Hi' Hx0 Hx1 Hx2 Hx3 Hx4 Hx5 Hx6 Hx7 Hx8 Hx9 Hall]
  · iapply (tile_back (F := F) m d L (rows0 m d))
    isplitl [Hi']; · iexact Hi'
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    iexact Hall
  isplitl [HL Hw0_src Hw1_src Hw2_src Hw3_src Hw4_src Hw5_src Hw6_src Hw7_src Hw8_src Hw9_src Hbufs]
  · iapply (bufs_back (F := F) m d L hF)
    isplitl [HL]; · iexact HL
    isplitl [Hw0_src]; · iexists _; iexact Hw0_src
    isplitl [Hw1_src]; · iexists _; iexact Hw1_src
    isplitl [Hw2_src]; · iexists _; iexact Hw2_src
    isplitl [Hw3_src]; · iexists _; iexact Hw3_src
    isplitl [Hw4_src]; · iexists _; iexact Hw4_src
    isplitl [Hw5_src]; · iexists _; iexact Hw5_src
    isplitl [Hw6_src]; · iexists _; iexact Hw6_src
    isplitl [Hw7_src]; · iexists _; iexact Hw7_src
    isplitl [Hw8_src]; · iexists _; iexact Hw8_src
    isplitl [Hw9_src]; · iexists _; iexact Hw9_src
    iexact Hbufs
  isplitl [Hg0 Hg1 Hg2 Hg3 Hg4 Hg5 Hg6 Hg7 Hg8 Hg9 Hw0 Hw1 Hw2 Hw3 Hw4 Hw5 Hw6 Hw7 Hw8 Hw9 Hs0]
  · iapply (sems_back (F := F) d L)
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    iexact Hs0
  iexists _
  isplitr [HO]
  swap
  · iexact HO
  · ipureintro
    exact ins_ok W _ _ (ins_ok W _ _ (ins_ok W _ _ (ins_ok W _ _ (ins_ok W _ _ (ins_ok W _ _ (ins_ok W _ _ (ins_ok W _ _ (ins_ok W _ _ (ins_ok W _ _ (hW') rfl) rfl) rfl) rfl) rfl) rfl) rfl) rfl) rfl) rfl

/-! ## The obligation of every vector subcore -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          xV (Memref.isWhole_whole _) iV (Memref.isWhole_whole _) oV (Memref.isWhole_whole _) lV (Memref.isWhole_whole _)
          b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) b8V (Memref.isWhole_whole _) b9V (Memref.isWhole_whole _)
          cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scoped0) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem P_go' (d : Dev nD) (c : Fin ((K (F := F)).nCore 0)) (i : Fin ((K (F := F)).nSub 0)) :
    (P m).go 0 d c i = tilePts m d (wk (Fin.cast nCore_zero c) (Fin.cast nSub_zero i)) (m (oLoc d)) := by
  unfold P; rfl
theorem P_td' (d : Dev nD) (c : Fin ((K (F := F)).nCore 0)) (i : Fin ((K (F := F)).nSub 0)) :
    (P m).td 0 d c i = tilePts m d (wk (Fin.cast nCore_zero c) (Fin.cast nSub_zero i)) (rows0 m d) := by
  unfold P; rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go' (F := F) m d c i, P_td' (F := F) m d c i]
  exact (tile_body (F := F) m d (coordsV ⟨_, hci.1⟩ ⟨_, hci.2⟩) hF hpre O W hO).trans (wp_mono frame _ _ fun _ => obl_post)

end Cert.Proof.KernelIdealBody

end
-- ==== Proof.lean ====
/-
  An embedding lookup on the SparseCore against `jnp.take`. The kernel flattens the `[1024, 200]` index list, has
  thirty-two vector subcores each gather 6400 consecutive rows of the table `W` by their words of the list, and regroups
  the `[204800, 128]` rows as `[1024, 200, 128]`; the reference computes a layer normalisation it then discards and
  returns `W[ids]`. At the ideal values both results are the specification's `rowsOf W ids`: position `[b, s, :]` holds row
  `ids[b, s]` of `W` (Proof/Spec.lean). Nothing arithmetic happens to a table entry on either side, so the two results
  agree entry by entry; the precondition's range `0 ≤ ids ≤ 999999` is what lets every indexed copy of the kernel
  terminate and what makes the reference's out-of-range mask all ones and its clamp the identity.

  The kernel's run (every interleaving of the TensorCore, the two sequencers, the thirty-two subcores and the DMA engine
  terminates without a fault, the arguments unchanged, the result named) is assembled from the proof of one subcore's task
  (Proof/KIBody.lean), the split of the arrays among the subcores and @main's two reshapes around the call
  (Proof/KISplit.lean, Proof/KILaunch.lean) and the index equation between flat rows and `[b, s]` (Proof/KIIndex.lean); the
  word-level program's run is the same text at the other instance (Proof/KB*.lean). The reference's run and value are
  Proof/RefRun.lean … Proof/RefSide.lean; the range facts read off the precondition are Proof/PreRange.lean.
-/
import proofs.«206832_g86208583565466_cont_sun_m_1057_30_alg».proof.Defs
import proofs.«206832_g86208583565466_cont_sun_m_1057_30_alg».proof.Proof.Gen.Kernel
import proofs.«206832_g86208583565466_cont_sun_m_1057_30_alg».proof.Proof.Gen.KernelIdeal
import proofs.«206832_g86208583565466_cont_sun_m_1057_30_alg».proof.Proof.Gen.ReferenceIdeal
import proofs.«206832_g86208583565466_cont_sun_m_1057_30_alg».proof.Proof.Gen.Pre_input_domain
import proofs.«206832_g86208583565466_cont_sun_m_1057_30_alg».proof.Proof.PreRange
import proofs.«206832_g86208583565466_cont_sun_m_1057_30_alg».proof.Proof.RefSide
import proofs.«206832_g86208583565466_cont_sun_m_1057_30_alg».proof.Proof.KBLaunch
import proofs.«206832_g86208583565466_cont_sun_m_1057_30_alg».proof.Proof.KBBody
import proofs.«206832_g86208583565466_cont_sun_m_1057_30_alg».proof.Proof.KILaunch
import proofs.«206832_g86208583565466_cont_sun_m_1057_30_alg».proof.Proof.KIIndex
import proofs.«206832_g86208583565466_cont_sun_m_1057_30_alg».proof.Proof.KIBody

noncomputable section

namespace Cert.Proof

open Idealize.ShloMosaic Idealize.SL.Sem

/-! ## The three frames -/

/-- The kernel runs and leaves its arguments: its run (the launch over one subcore's task, under the index range read off
    the precondition) with the result dropped. -/
theorem frame_k : Cert.frame_Kernel := fun m ρ hpre =>
  (θ_run Cert.Kernel.defs _ _).mono (fun _ h c => (h c).2) (Cert.Proof.KernelLaunch.run_main (F := Bits) m ρ
      (Cert.Proof.KernelBody.tileObl m Cert.Proof.KernelCommon.facts (Cert.Proof.PreRange.okKernel m hpre)))

theorem frame_ki : Cert.frame_KernelIdeal := fun m ρ hpre =>
  (θ_run Cert.KernelIdeal.defs _ _).mono (fun _ h c => (h c).2) (Cert.Proof.KernelIdealLaunch.run_main (F := Ideal) m ρ
      (Cert.Proof.KernelIdealBody.tileObl m Cert.Proof.KernelIdealCommon.facts (Cert.Proof.PreRange.okKernelIdeal m hpre)))

theorem frame_ri : Cert.frame_ReferenceIdeal := fun m ρ hpre =>
  (θ_run Cert.ReferenceIdeal.defs _ _).mono (fun _ h c => (h c).2) (Cert.ReferenceIdeal.RefSide.run m ρ hpre)

/-! ## The idealization: the ideal pass rewrote nothing -/

theorem preserves : Cert.preserves_Kernel_KernelIdeal := trivial

/-! ## The value claim -/

/-- The two preconditions are one function of the argument arrays: memories that agree on the arguments satisfy both or
    neither. -/
theorem pre_ref_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.Pre_ReferenceIdeal m' := by
  intro c
  obtain ⟨e0, e1, e2, e3, e4⟩ := hagree c
  have h := hpre c
  rw [e0, e1, e2, e3, e4]
  exact h

/-- At the ideal values both programs end with the specification's lookup of the shared table at the shared index list:
    the kernel by its run and the regrouping of the looked-up rows, the reference by its run under the precondition, which
    it inherits through the agreement on the arguments. -/
theorem algebraic : Cert.algebraic_KernelIdeal_ReferenceIdeal := by
  intro m ρ m' ρ' hpre hagree
  have hpre' : Cert.Pre_ReferenceIdeal m' := pre_ref_of_agree m m' hpre hagree
  refine ⟨fun c => Cert.Lookup.rowsOf (m ((c.tc : Thread Cert.KernelIdeal.nD Cert.KernelIdeal.τ).loc Cert.KernelIdeal.main_arg1)) (m ((c.tc : Thread Cert.KernelIdeal.nD Cert.KernelIdeal.τ).loc Cert.KernelIdeal.main_arg0)), ?_, ?_⟩
  · exact (θ_run Cert.KernelIdeal.defs _ _).mono (fun _ h c => ⟨(h c).1.trans (Cert.Proof.KernelIdealLaunch.result_eq m c), (h c).2⟩) (Cert.Proof.KernelIdealLaunch.run_main (F := Ideal) m ρ
      (Cert.Proof.KernelIdealBody.tileObl m Cert.Proof.KernelIdealCommon.facts (Cert.Proof.PreRange.okKernelIdeal m hpre)))
  · refine (θ_run Cert.ReferenceIdeal.defs _ _).mono (fun _ h c => ⟨(h c).1.trans ?_, (h c).2⟩)
      (Cert.ReferenceIdeal.RefSide.run m' ρ' hpre')
    rw [(hagree c).1, (hagree c).2.1]

/-! ## The claim -/

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
